-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v170)) (v1 : (c : Dev Cert.KernelIdeal.nD) → Buf (Elt Ideal) ((c.tc : Thread Cert.KernelIdeal.nD Cert.KernelIdeal.τ).loc Cert.KernelIdeal.main_v172)) (v2 : (c : Dev Cert.KernelIdeal.nD) → Buf (Elt Ideal) ((c.tc : Thread Cert.KernelIdeal.nD Cert.KernelIdeal.τ).loc Cert.KernelIdeal.main_v174)) (v3 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_v172) = v1 c
          ∧ r.2.mem ((c.tc : Thread Cert.KernelIdeal.nD Cert.KernelIdeal.τ).loc Cert.KernelIdeal.main_v174) = v2 c
          ∧ r.2.mem ((c.tc : Thread Cert.KernelIdeal.nD Cert.KernelIdeal.τ).loc Cert.KernelIdeal.main_v176) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v180) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S8000x128 : Shape := ⟨2, ![8000, 128]⟩
abbrev S200000x128 : Shape := ⟨2, ![200000, 128]⟩
abbrev S7x128x64 : Shape := ⟨3, ![7, 128, 64]⟩
abbrev S128x64 : Shape := ⟨2, ![128, 64]⟩
abbrev S64 : Shape := ⟨1, ![64]⟩
abbrev S1000000 : Shape := ⟨1, ![1000000]⟩
abbrev S800000 : Shape := ⟨1, ![800000]⟩
abbrev S200000 : Shape := ⟨1, ![200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S8000x128 : S_.BroadcastsInDim S8000x128 (![] : Fin 0 → Fin S8000x128.rank)
  reducesTo_S8000x128_S_d0_1 : S8000x128.ReducesTo [0, 1] S_
  bcast_S_S200000x128 : S_.BroadcastsInDim S200000x128 (![] : Fin 0 → Fin S200000x128.rank)
  reducesTo_S200000x128_S_d0_1 : S200000x128.ReducesTo [0, 1] S_
  bcast_S_S7x128x64 : S_.BroadcastsInDim S7x128x64 (![] : Fin 0 → Fin S7x128x64.rank)
  reducesTo_S7x128x64_S_d0_1_2 : S7x128x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S7x128x64 .f32) (main_arg5 : FVec F S128x64 .f32) (main_arg6 : FVec F S64 .f32) (main_v13 : IVec S_ 1) (main_v16 : IVec S200000x128 1) : IVec S_ 1 :=
  let main_c_5 : IVec S_ 1 := constantI S_ 1 1#1
  let main_v17 : IVec S_ 1 := (fun x v => Host.reduce IntOp.andi x v reducesTo_S200000x128_S_d0_1 h_S_) main_v16 main_c_5
  let main_v18 : IVec S_ 1 := andi main_v13 main_v17
  let main_v19 : FVec F S7x128x64 .f32 := Host.absf main_arg4
  let main_cst_6 : FVec F S_ .f32 := constant S_ .f32 0x7F800000#32
  let main_v20 : FVec F S7x128x64 .f32 := broadcastInDim S7x128x64 ![] bcast_S_S7x128x64 main_cst_6
  let main_v21 : IVec S7x128x64 1 := cmpf .olt main_v19 main_v20
  let main_c_7 : IVec S_ 1 := constantI S_ 1 1#1
  let main_v22 : IVec S_ 1 := (fun x v => Host.reduce IntOp.andi x v reducesTo_S7x128x64_S_d0_1_2 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S50000x128 .f32) (main_arg2 : FVec F S8000x128 .f32) (main_arg3 : FVec F S200000x128 .f32) (main_arg4 : FVec F S7x128x64 .f32) (main_arg5 : FVec F S128x64 .f32) (main_arg6 : FVec F S64 .f32) (main_arg7 : IVec S1000000 32) (main_arg8 : IVec S1000000 32) (main_arg9 : IVec S1000000 32) (main_arg10 : IVec S1000000 32) (main_arg11 : IVec S1000000 32) (main_arg12 : IVec S1000000 32) (main_arg13 : IVec S800000 32) (main_arg14 : IVec S800000 32) (main_arg15 : IVec S800000 32) (main_arg16 : IVec S800000 32) (main_arg17 : IVec S200000 32) (main_arg18 : IVec S200000 32) (main_arg19 : IVec S200000 32) (main_arg20 : IVec S200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S8000x128 .f32 := Host.absf main_arg2
  let main_cst_2 : FVec F S_ .f32 := constant S_ .f32 0x7F800000#32
  let main_v10 : FVec F S8000x128 .f32 := broadcastInDim S8000x128 ![] bcast_S_S8000x128 main_cst_2
  let main_v11 : IVec S8000x128 1 := cmpf .olt main_v9 main_v10
  let main_c_3 : IVec S_ 1 := constantI S_ 1 1#1
  let main_v12 : IVec S_ 1 := (fun x v => Host.reduce IntOp.andi x v reducesTo_S8000x128_S_d0_1 h_S_) main_v11 main_c_3
  let main_v13 : IVec S_ 1 := andi main_v8 main_v12
  let main_v14 : FVec F S200000x128 .f32 := Host.absf main_arg3
  let main_cst_4 : FVec F S_ .f32 := constant S_ .f32 0x7F800000#32
  let main_v15 : FVec F S200000x128 .f32 := broadcastInDim S200000x128 ![] bcast_S_S200000x128 main_cst_4
  let main_v16 : IVec S200000x128 1 := cmpf .olt main_v14 main_v15
  fn_part1 (F := F) main_arg4 main_arg5 main_arg6 main_v13 main_v16
-- ==== Kernel.lean ====
abbrev S100000x128 : Shape := ⟨2, ![100000, 128]⟩
abbrev S50000x128 : Shape := ⟨2, ![50000, 128]⟩
abbrev S8000x128 : Shape := ⟨2, ![8000, 128]⟩
abbrev S200000x128 : Shape := ⟨2, ![200000, 128]⟩
abbrev S7x128x64 : Shape := ⟨3, ![7, 128, 64]⟩
abbrev S128x64 : Shape := ⟨2, ![128, 64]⟩
abbrev S64 : Shape := ⟨1, ![64]⟩
abbrev S1000000 : Shape := ⟨1, ![1000000]⟩
abbrev S800000 : Shape := ⟨1, ![800000]⟩
abbrev S200000 : Shape := ⟨1, ![200000]⟩
abbrev S1x128x64 : Shape := ⟨3, ![1, 128, 64]⟩
abbrev S128x192 : Shape := ⟨2, ![128, 192]⟩
abbrev S128x256 : Shape := ⟨2, ![128, 256]⟩
abbrev S128x128 : Shape := ⟨2, ![128, 128]⟩
abbrev S100000x192 : Shape := ⟨2, ![100000, 192]⟩
abbrev S5000x128 : Shape := ⟨2, ![5000, 128]⟩
abbrev S5000x192 : Shape := ⟨2, ![5000, 192]⟩
abbrev S200000x256 : Shape := ⟨2, ![200000, 256]⟩
abbrev S5000x256 : Shape := ⟨2, ![5000, 256]⟩
abbrev S4000x128 : Shape := ⟨2, ![4000, 128]⟩
abbrev S100000x64 : Shape := ⟨2, ![100000, 64]⟩
abbrev S200000x64 : Shape := ⟨2, ![200000, 64]⟩
abbrev S50000x64 : Shape := ⟨2, ![50000, 64]⟩
abbrev S8000x64 : Shape := ⟨2, ![8000, 64]⟩
abbrev S_ : Shape := ⟨0, ![]⟩
abbrev S1000000x1 : Shape := ⟨2, ![1000000, 1]⟩
abbrev S1000000x64 : Shape := ⟨2, ![1000000, 64]⟩
abbrev S200000x1 : Shape := ⟨2, ![200000, 1]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩
abbrev S8000 : Shape := ⟨1, ![8000]⟩
abbrev S8000x1 : Shape := ⟨2, ![8000, 1]⟩
abbrev S1x64 : Shape := ⟨2, ![1, 64]⟩
abbrev S5000x64 : Shape := ⟨2, ![5000, 64]⟩
abbrev S4000x64 : Shape := ⟨2, ![4000, 64]⟩

abbrev nBuf : Space → Nat
  | .hbm => 240
  | .vmem => 48
  | .smem => 0
  | _ => 0

abbrev hbmTy0_0 (i : Nat) : BufTy := match i % 128 with
  | 0 => ⟨S100000x128, .f32⟩
  | 1 => ⟨S50000x128, .f32⟩
  | 2 => ⟨S8000x128, .f32⟩
  | 3 => ⟨S200000x128, .f32⟩
  | 4 => ⟨S7x128x64, .f32⟩
  | 5 => ⟨S128x64, .f32⟩
  | 6 => ⟨S64, .f32⟩
  | 7 => ⟨S1000000, .i32⟩
  | 8 => ⟨S1000000, .i32⟩
  | 9 => ⟨S1000000, .i32⟩
  | 10 => ⟨S1000000, .i32⟩
  | 11 => ⟨S1000000, .i32⟩
  | 12 => ⟨S1000000, .i32⟩
  | 13 => ⟨S800000, .i32⟩
  | 14 => ⟨S800000, .i32⟩
  | 15 => ⟨S800000, .i32⟩
  | 16 => ⟨S800000, .i32⟩
  | 17 => ⟨S200000, .i32⟩
  | 18 => ⟨S200000, .i32⟩
  | 19 => ⟨S200000, .i32⟩
  | 20 => ⟨S200000, .i32⟩
  | 21 => ⟨S1x128x64, .f32⟩
  | 22 => ⟨S128x64, .f32⟩
  | 23 => ⟨S1x128x64, .f32⟩
  | 24 => ⟨S128x64, .f32⟩
  | 25 => ⟨S128x192, .f32⟩
  | 26 => ⟨S1x128x64, .f32⟩
  | 27 => ⟨S128x64, .f32⟩
  | 28 => ⟨S1x128x64, .f32⟩
  | 29 => ⟨S128x64, .f32⟩
  | 30 => ⟨S1x128x64, .f32⟩
  | 31 => ⟨S128x64, .f32⟩
  | 32 => ⟨S128x256, .f32⟩
  | 33 => ⟨S1x128x64, .f32⟩
  | 34 => ⟨S128x64, .f32⟩
  | 35 => ⟨S128x128, .f32⟩
  | 36 => ⟨S1x128x64, .f32⟩
  | 37 => ⟨S128x64, .f32⟩
  | 38 => ⟨S128x128, .f32⟩
  | 39 => ⟨S100000x192, .f32⟩
  | 40 => ⟨S200000x256, .f32⟩
  | 41 => ⟨S50000x128, .f32⟩
  | 42 => ⟨S8000x128, .f32⟩
  | 43 => ⟨S100000x64, .f32⟩
  | 44 => ⟨S100000x64, .f32⟩
  | 45 => ⟨S100000x64, .f32⟩
  | 46 => ⟨S200000x64, .f32⟩
  | 47 => ⟨S200000x64, .f32⟩
  | 48 => ⟨S200000x64, .f32⟩
  | 49 => ⟨S200000x64, .f32⟩
  | 50 => ⟨S50000x64, .f32⟩
  | 51 => ⟨S50000x64, .f32⟩
  | 52 => ⟨S8000x64, .f32⟩
  | 53 => ⟨S8000x64, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x64, .f32⟩
  | 63 => ⟨S_, .f32⟩
  | 64 => ⟨S200000x64, .f32⟩
  | 65 => ⟨S1000000x1, .i32⟩
  | 66 => ⟨S200000x64, .f32⟩
  | 67 => ⟨S_, .f32⟩
  | 68 => ⟨S1000000, .f32⟩
  | 69 => ⟨S_, .f32⟩
  | 70 => ⟨S200000, .f32⟩
  | 71 => ⟨S1000000x1, .i32⟩
  | 72 => ⟨S200000, .f32⟩
  | 73 => ⟨S_, .f32⟩
  | 74 => ⟨S200000, .f32⟩
  | 75 => ⟨S200000, .f32⟩
  | 76 => ⟨S200000x1, .f32⟩
  | 77 => ⟨S200000x64, .f32⟩
  | 78 => ⟨S200000x64, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x64, .f32⟩
  | 88 => ⟨S_, .f32⟩
  | 89 => ⟨S200000x64, .f32⟩
  | 90 => ⟨S1000000x1, .i32⟩
  | 91 => ⟨S200000x64, .f32⟩
  | 92 => ⟨S_, .f32⟩
  | 93 => ⟨S1000000, .f32⟩
  | 94 => ⟨S_, .f32⟩
  | 95 => ⟨S200000, .f32⟩
  | 96 => ⟨S1000000x1, .i32⟩
  | 97 => ⟨S200000, .f32⟩
  | 98 => ⟨S_, .f32⟩
  | 99 => ⟨S200000, .f32⟩
  | 100 => ⟨S200000, .f32⟩
  | 101 => ⟨S200000x1, .f32⟩
  | 102 => ⟨S200000x64, .f32⟩
  | 103 => ⟨S200000x64, .f32⟩
  | 104 => ⟨S200000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S_, .f32⟩
  | 115 => ⟨S200000x64, .f32⟩
  | 116 => ⟨S800000x1, .i32⟩
  | 117 => ⟨S200000x64, .f32⟩
  | 118 => ⟨S_, .f32⟩
  | 119 => ⟨S800000, .f32⟩
  | 120 => ⟨S_, .f32⟩
  | 121 => ⟨S200000, .f32⟩
  | 122 => ⟨S800000x1, .i32⟩
  | 123 => ⟨S200000, .f32⟩
  | 124 => ⟨S_, .f32⟩
  | 125 => ⟨S200000, .f32⟩
  | 126 => ⟨S200000, .f32⟩
  | 127 => ⟨S200000x1, .f32⟩
  | _ => ⟨S100000x128, .f32⟩

abbrev hbmTy0_1 (i : Nat) : BufTy := match i % 128 with
  | 0 => ⟨S200000x64, .f32⟩
  | 1 => ⟨S200000x64, .f32⟩
  | 2 => ⟨S200000x64, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x64, .f32⟩
  | 12 => ⟨S_, .f32⟩
  | 13 => ⟨S100000x64, .f32⟩
  | 14 => ⟨S1000000x1, .i32⟩
  | 15 => ⟨S100000x64, .f32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x64, .f32⟩
  | 27 => ⟨S100000x64, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x64, .f32⟩
  | 37 => ⟨S_, .f32⟩
  | 38 => ⟨S100000x64, .f32⟩
  | 39 => ⟨S200000x1, .i32⟩
  | 40 => ⟨S100000x64, .f32⟩
  | 41 => ⟨S_, .f32⟩
  | 42 => ⟨S200000, .f32⟩
  | 43 => ⟨S_, .f32⟩
  | 44 => ⟨S100000, .f32⟩
  | 45 => ⟨S200000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x64, .f32⟩
  | 52 => ⟨S100000x64, .f32⟩
  | 53 => ⟨S100000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x64, .f32⟩
  | 78 => ⟨S50000x64, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x64, .f32⟩
  | 88 => ⟨S_, .f32⟩
  | 89 => ⟨S8000x64, .f32⟩
  | 90 => ⟨S200000x1, .i32⟩
  | 91 => ⟨S8000x64, .f32⟩
  | 92 => ⟨S_, .f32⟩
  | 93 => ⟨S200000, .f32⟩
  | 94 => ⟨S_, .f32⟩
  | 95 => ⟨S8000, .f32⟩
  | 96 => ⟨S200000x1, .i32⟩
  | 97 => ⟨S8000, .f32⟩
  | 98 => ⟨S_, .f32⟩
  | 99 => ⟨S8000, .f32⟩
  | 100 => ⟨S8000, .f32⟩
  | 101 => ⟨S8000x1, .f32⟩
  | 102 => ⟨S8000x64, .f32⟩
  | 103 => ⟨S8000x64, .f32⟩
  | 104 => ⟨S1x64, .f32⟩
  | 105 => ⟨S100000x64, .f32⟩
  | 106 => ⟨S1x64, .f32⟩
  | 107 => ⟨S50000x64, .f32⟩
  | 108 => ⟨S1x64, .f32⟩
  | 109 => ⟨S8000x64, .f32⟩
  | 110 => ⟨S1x64, .f32⟩
  | 111 => ⟨S200000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x192, .f32⟩
  | .local _ .vmem, ⟨3, _⟩ => ⟨S5000x192, .f32⟩
  | .local _ .vmem, ⟨4, _⟩ => ⟨S5000x192, .f32⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .f32⟩
  | .local _ .vmem, ⟨9, _⟩ => ⟨S5000x256, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S4000x128, .f32⟩
  | .local _ .vmem, ⟨19, _⟩ => ⟨S4000x128, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S1x64, .f32⟩
  | .local _ .vmem, ⟨39, _⟩ => ⟨S4000x64, .f32⟩
  | .local _ .vmem, ⟨40, _⟩ => ⟨S4000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c : Ref sig .tc := ⟨.hbm, 54, rfl⟩
abbrev main_v33 : Ref sig .tc := ⟨.hbm, 55, rfl⟩
abbrev main_v34 : Ref sig .tc := ⟨.hbm, 56, rfl⟩
abbrev main_c_0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_1 : Ref sig .tc := ⟨.hbm, 67, rfl⟩
abbrev main_v43 : Ref sig .tc := ⟨.hbm, 68, rfl⟩
abbrev main_cst_2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_4 : Ref sig .tc := ⟨.hbm, 79, rfl⟩
abbrev main_v52 : Ref sig .tc := ⟨.hbm, 80, rfl⟩
abbrev main_v53 : Ref sig .tc := ⟨.hbm, 81, rfl⟩
abbrev main_c_5 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_6 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_7 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_9 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_10 : Ref sig .tc := ⟨.hbm, 105, rfl⟩
abbrev main_v72 : Ref sig .tc := ⟨.hbm, 106, rfl⟩
abbrev main_v73 : Ref sig .tc := ⟨.hbm, 107, rfl⟩
abbrev main_c_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_12 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_13 : Ref sig .tc := ⟨.hbm, 118, rfl⟩
abbrev main_v82 : Ref sig .tc := ⟨.hbm, 119, rfl⟩
abbrev main_cst_14 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_16 : Ref sig .tc := ⟨.hbm, 131, rfl⟩
abbrev main_v92 : Ref sig .tc := ⟨.hbm, 132, rfl⟩
abbrev main_v93 : Ref sig .tc := ⟨.hbm, 133, rfl⟩
abbrev main_c_17 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_18 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_19 : Ref sig .tc := ⟨.hbm, 144, rfl⟩
abbrev main_v102 : Ref sig .tc := ⟨.hbm, 145, rfl⟩
abbrev main_cst_20 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_21 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_22 : Ref sig .tc := ⟨.hbm, 156, rfl⟩
abbrev main_v111 : Ref sig .tc := ⟨.hbm, 157, rfl⟩
abbrev main_v112 : Ref sig .tc := ⟨.hbm, 158, rfl⟩
abbrev main_c_23 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_24 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_25 : Ref sig .tc := ⟨.hbm, 169, rfl⟩
abbrev main_v121 : Ref sig .tc := ⟨.hbm, 170, rfl⟩
abbrev main_cst_26 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_27 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_c_28 : Ref sig .tc := ⟨.hbm, 182, rfl⟩
abbrev main_v131 : Ref sig .tc := ⟨.hbm, 183, rfl⟩
abbrev main_v132 : Ref sig .tc := ⟨.hbm, 184, rfl⟩
abbrev main_c_29 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_30 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_31 : Ref sig .tc := ⟨.hbm, 195, rfl⟩
abbrev main_v141 : Ref sig .tc := ⟨.hbm, 196, rfl⟩
abbrev main_cst_32 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_33 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_c_34 : Ref sig .tc := ⟨.hbm, 207, rfl⟩
abbrev main_v150 : Ref sig .tc := ⟨.hbm, 208, rfl⟩
abbrev main_v151 : Ref sig .tc := ⟨.hbm, 209, rfl⟩
abbrev main_c_35 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_36 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_cst_37 : Ref sig .tc := ⟨.hbm, 220, rfl⟩
abbrev main_v160 : Ref sig .tc := ⟨.hbm, 221, rfl⟩
abbrev main_cst_38 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_39 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg3_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem3_0 : DmaSem sig := 39
abbrev cc6_sem3_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S7x128x64_S1x128x64_0_0_0 : S7x128x64.Slices ![0, 0, 0] S1x128x64
  shapeCasts_S1x128x64_S128x64 : S1x128x64.ShapeCasts S128x64
  slices_S7x128x64_S1x128x64_5_0_0 : S7x128x64.Slices ![5, 0, 0] S1x128x64
  concatenates_S128x64_S128x64_S128x64_S128x192_d1 : Shape.Concatenates [S128x64, S128x64, S128x64] S128x192 1
  slices_S7x128x64_S1x128x64_1_0_0 : S7x128x64.Slices ![1, 0, 0] S1x128x64
  slices_S7x128x64_S1x128x64_2_0_0 : S7x128x64.Slices ![2, 0, 0] S1x128x64
  slices_S7x128x64_S1x128x64_3_0_0 : S7x128x64.Slices ![3, 0, 0] S1x128x64
  concatenates_S128x64_S128x64_S128x64_S128x64_S128x256_d1 : Shape.Concatenates [S128x64, S128x64, S128x64, S128x64] S128x256 1
  slices_S7x128x64_S1x128x64_4_0_0 : S7x128x64.Slices ![4, 0, 0] S1x128x64
  concatenates_S128x64_S128x64_S128x128_d1 : Shape.Concatenates [S128x64, S128x64] S128x128 1
  slices_S7x128x64_S1x128x64_6_0_0 : S7x128x64.Slices ![6, 0, 0] S1x128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S5000x192_S5000x192_0_0 : ∀ a, (![0, 0] : Fin 2 → Nat) a + S5000x192.size a ≤ S5000x192.size a
  h_S5000x192 : 0 < S5000x192.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S200000x256_S200000x64_0_0 : S200000x256.Slices ![0, 0] S200000x64
  slices_S200000x256_S200000x64_0_64 : S200000x256.Slices ![0, 64] S200000x64
  slices_S200000x256_S200000x64_0_128 : S200000x256.Slices ![0, 128] S200000x64
  slices_S200000x256_S200000x64_0_192 : S200000x256.Slices ![0, 192] S200000x64
  slices_S50000x128_S50000x64_0_0 : S50000x128.Slices ![0, 0] S50000x64
  slices_S50000x128_S50000x64_0_64 : S50000x128.Slices ![0, 64] S50000x64
  slices_S8000x128_S8000x64_0_0 : S8000x128.Slices ![0, 0] S8000x64
  slices_S8000x128_S8000x64_0_64 : S8000x128.Slices ![0, 64] S8000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S8000x64 : S_.BroadcastsInDim S8000x64 (![] : Fin 0 → Fin S8000x64.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x64_0_1 : S8000x1.BroadcastsInDim S8000x64 (![0, 1] : Fin 2 → Fin S8000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  dot_S5000x128_S128x192_S5000x192_1_0_0_1_n_n_wf : DotDims.WF S5000x128 S128x192 S5000x192 [1] [0] [0] [1] [] []
  dot_S5000x128_S128x256_S5000x256_1_0_0_1_n_n_wf : DotDims.WF S5000x128 S128x256 S5000x256 [1] [0] [0] [1] [] []
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  gather_S200000x64_S1000000x1_S1000000x64_1_0_n_n_0_1_164_wf : GatherDims.WF S200000x64 S1000000x1 S1000000x64 [1] [0] [] [0] [] 1 ![1, 64]
  gather_S50000x64_S800000x1_S800000x64_1_0_n_n_0_1_164_wf : GatherDims.WF S50000x64 S800000x1 S800000x64 [1] [0] [] [0] [] 1 ![1, 64]
  scatter_S200000x64_S800000x1_S800000x64_1_0_0_1_wf : ScatterDims.WF S200000x64 S800000x1 S800000x64 [1] [0] [0] 1
  scatter_S200000_S800000x1_S800000_n_0_0_1_wf : ScatterDims.WF S200000 S800000x1 S800000 [] [0] [0] 1
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S8000x64_S200000x1_S200000x64_1_0_n_n_0_1_164_wf : GatherDims.WF S8000x64 S200000x1 S200000x64 [1] [0] [] [0] [] 1 ![1, 64]
  scatter_S100000x64_S200000x1_S200000x64_1_0_0_1_wf : ScatterDims.WF S100000x64 S200000x1 S200000x64 [1] [0] [0] 1
  scatter_S100000_S200000x1_S200000_n_0_0_1_wf : ScatterDims.WF S100000 S200000x1 S200000 [] [0] [0] 1
  gather_S200000x64_S800000x1_S800000x64_1_0_n_n_0_1_164_wf : GatherDims.WF S200000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S100000x64_S200000x1_S200000x64_1_0_n_n_0_1_164_wf : GatherDims.WF S100000x64 S200000x1 S200000x64 [1] [0] [] [0] [] 1 ![1, 64]
  scatter_S8000x64_S200000x1_S200000x64_1_0_0_1_wf : ScatterDims.WF S8000x64 S200000x1 S200000x64 [1] [0] [0] 1
  scatter_S8000_S200000x1_S200000_n_0_0_1_wf : ScatterDims.WF S8000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x192.size a ≤ S128x192.size a
  hwx0_1 : ∀ i : grid0.Coords, EltTy.bits .f32 = 32 ∨ (Rect.block (s := S128x192) S128x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x192.size a ≤ S100000x192.size a
  hwx0_2 : ∀ i : grid0.Coords, EltTy.bits .f32 = 32 ∨ (Rect.block (s := S100000x192) S5000x192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S200000x256.size a
  hwx1_2 : ∀ i : grid1.Coords, EltTy.bits .f32 = 32 ∨ (Rect.block (s := S200000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S8000x128.size a
  hwx3_0 : ∀ i : grid3.Coords, EltTy.bits .f32 = 32 ∨ (Rect.block (s := S8000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S8000x128.size a
  hwx3_2 : ∀ i : grid3.Coords, EltTy.bits .f32 = 32 ∨ (Rect.block (s := S8000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S8000x64.size a
  hwx6_0 : ∀ i : grid6.Coords, EltTy.bits .f32 = 32 ∨ (Rect.block (s := S8000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S8000x64.size a
  hwx6_1 : ∀ i : grid6.Coords, EltTy.bits .f32 = 32 ∨ (Rect.block (s := S8000x64) S4000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S8000x64.size a
  hwx6_3 : ∀ i : grid6.Coords, EltTy.bits .f32 = 32 ∨ (Rect.block (s := S8000x64) S4000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S200000x64.size a
  hwx7_0 : ∀ i : grid7.Coords, EltTy.bits .f32 = 32 ∨ (Rect.block (s := S200000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S200000x64.size a
  hwx7_1 : ∀ i : grid7.Coords, EltTy.bits .f32 = 32 ∨ (Rect.block (s := S200000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S200000x64.size a
  hwx7_3 : ∀ i : grid7.Coords, EltTy.bits .f32 = 32 ∨ (Rect.block (s := S200000x64) S5000x64.size (cc7_transform_3 i) (hinb7_3 i)).WholeWords (EltTy.packing .f32)

variable [Facts₀]

def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S200000x64_S800000x1_S800000x64_1_0_0_1 : ScatterDims S200000x64 S800000x1 S800000x64 where
  updateWindowDims := [1]
  insertedWindowDims := [0]
  scatterDimsToOperandDims := [0]
  indexVectorDim := 1
  wf := scatter_S200000x64_S800000x1_S800000x64_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S8000x64_S200000x1_S200000x64_1_0_n_n_0_1_164 : GatherDims S8000x64 S200000x1 S200000x64 where
  offsetDims := [1]
  collapsedSliceDims := [0]
  operandBatchingDims := []
  startIndicesBatchingDims := []
  startIndexMap := [0]
  indexVectorDim := 1
  sliceSizes := ![1, 64]
  wf := gather_S8000x64_S200000x1_S200000x64_1_0_n_n_0_1_164_wf
def scatter_S100000x64_S200000x1_S200000x64_1_0_0_1 : ScatterDims S100000x64 S200000x1 S200000x64 where
  updateWindowDims := [1]
  insertedWindowDims := [0]
  scatterDimsToOperandDims := [0]
  indexVectorDim := 1
  wf := scatter_S100000x64_S200000x1_S200000x64_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S200000x64_S800000x1_S800000x64_1_0_n_n_0_1_164 : GatherDims S200000x64 S800000x1 S800000x64 where
  offsetDims := [1]
  collapsedSliceDims := [0]
  operandBatchingDims := []
  startIndicesBatchingDims := []
  startIndexMap := [0]
  indexVectorDim := 1
  sliceSizes := ![1, 64]
  wf := gather_S200000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def scatter_S8000x64_S200000x1_S200000x64_1_0_0_1 : ScatterDims S8000x64 S200000x1 S200000x64 where
  updateWindowDims := [1]
  insertedWindowDims := [0]
  scatterDimsToOperandDims := [0]
  indexVectorDim := 1
  wf := scatter_S8000x64_S200000x1_S200000x64_1_0_0_1_wf
def scatter_S8000_S200000x1_S200000_n_0_0_1 : ScatterDims S8000 S200000x1 S200000 where
  updateWindowDims := []
  insertedWindowDims := [0]
  scatterDimsToOperandDims := [0]
  indexVectorDim := 1
  wf := scatter_S8000_S200000x1_S200000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v130) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v169) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v170) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v149) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v171) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v172) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v168) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v32) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v173) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v174) S4000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v91) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v28) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v175) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v176) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S8000x128 : Shape := ⟨2, ![8000, 128]⟩
abbrev S200000x128 : Shape := ⟨2, ![200000, 128]⟩
abbrev S7x128x64 : Shape := ⟨3, ![7, 128, 64]⟩
abbrev S128x64 : Shape := ⟨2, ![128, 64]⟩
abbrev S64 : Shape := ⟨1, ![64]⟩
abbrev S1000000 : Shape := ⟨1, ![1000000]⟩
abbrev S800000 : Shape := ⟨1, ![800000]⟩
abbrev S200000 : Shape := ⟨1, ![200000]⟩
abbrev S1x128x64 : Shape := ⟨3, ![1, 128, 64]⟩
abbrev S100000x64 : Shape := ⟨2, ![100000, 64]⟩
abbrev S_ : Shape := ⟨0, ![]⟩
abbrev S1000000x1 : Shape := ⟨2, ![1000000, 1]⟩
abbrev S1000000x64 : Shape := ⟨2, ![1000000, 64]⟩
abbrev S200000x64 : Shape := ⟨2, ![200000, 64]⟩
abbrev S200000x1 : Shape := ⟨2, ![200000, 1]⟩
abbrev S50000x64 : Shape := ⟨2, ![50000, 64]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S8000x64 : Shape := ⟨2, ![8000, 64]⟩
abbrev S50000 : Shape := ⟨1, ![50000]⟩
abbrev S50000x1 : Shape := ⟨2, ![50000, 1]⟩
abbrev S8000 : Shape := ⟨1, ![8000]⟩
abbrev S8000x1 : Shape := ⟨2, ![8000, 1]⟩
abbrev S1x64 : Shape := ⟨2, ![1, 64]⟩

abbrev nBuf : Space → Nat
  | .hbm => 252
  | .vmem => 0
  | .smem => 0
  | _ => 0

abbrev hbmTy0_0 (i : Nat) : BufTy := match i % 128 with
  | 0 => ⟨S100000x128, .f32⟩
  | 1 => ⟨S50000x128, .f32⟩
  | 2 => ⟨S8000x128, .f32⟩
  | 3 => ⟨S200000x128, .f32⟩
  | 4 => ⟨S7x128x64, .f32⟩
  | 5 => ⟨S128x64, .f32⟩
  | 6 => ⟨S64, .f32⟩
  | 7 => ⟨S1000000, .i32⟩
  | 8 => ⟨S1000000, .i32⟩
  | 9 => ⟨S1000000, .i32⟩
  | 10 => ⟨S1000000, .i32⟩
  | 11 => ⟨S1000000, .i32⟩
  | 12 => ⟨S1000000, .i32⟩
  | 13 => ⟨S800000, .i32⟩
  | 14 => ⟨S800000, .i32⟩
  | 15 => ⟨S800000, .i32⟩
  | 16 => ⟨S800000, .i32⟩
  | 17 => ⟨S200000, .i32⟩
  | 18 => ⟨S200000, .i32⟩
  | 19 => ⟨S200000, .i32⟩
  | 20 => ⟨S200000, .i32⟩
  | 21 => ⟨S1x128x64, .f32⟩
  | 22 => ⟨S128x64, .f32⟩
  | 23 => ⟨S100000x64, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x64, .f32⟩
  | 33 => ⟨S_, .f32⟩
  | 34 => ⟨S200000x64, .f32⟩
  | 35 => ⟨S1000000x1, .i32⟩
  | 36 => ⟨S200000x64, .f32⟩
  | 37 => ⟨S_, .f32⟩
  | 38 => ⟨S1000000, .f32⟩
  | 39 => ⟨S_, .f32⟩
  | 40 => ⟨S200000, .f32⟩
  | 41 => ⟨S1000000x1, .i32⟩
  | 42 => ⟨S200000, .f32⟩
  | 43 => ⟨S_, .f32⟩
  | 44 => ⟨S200000, .f32⟩
  | 45 => ⟨S200000, .f32⟩
  | 46 => ⟨S200000x1, .f32⟩
  | 47 => ⟨S200000x64, .f32⟩
  | 48 => ⟨S200000x64, .f32⟩
  | 49 => ⟨S1x128x64, .f32⟩
  | 50 => ⟨S128x64, .f32⟩
  | 51 => ⟨S200000x64, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S_, .f32⟩
  | 62 => ⟨S200000x64, .f32⟩
  | 63 => ⟨S1000000x1, .i32⟩
  | 64 => ⟨S200000x64, .f32⟩
  | 65 => ⟨S_, .f32⟩
  | 66 => ⟨S1000000, .f32⟩
  | 67 => ⟨S_, .f32⟩
  | 68 => ⟨S200000, .f32⟩
  | 69 => ⟨S1000000x1, .i32⟩
  | 70 => ⟨S200000, .f32⟩
  | 71 => ⟨S_, .f32⟩
  | 72 => ⟨S200000, .f32⟩
  | 73 => ⟨S200000, .f32⟩
  | 74 => ⟨S200000x1, .f32⟩
  | 75 => ⟨S200000x64, .f32⟩
  | 76 => ⟨S200000x64, .f32⟩
  | 77 => ⟨S200000x64, .f32⟩
  | 78 => ⟨S1x128x64, .f32⟩
  | 79 => ⟨S128x64, .f32⟩
  | 80 => ⟨S50000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S_, .f32⟩
  | 91 => ⟨S200000x64, .f32⟩
  | 92 => ⟨S800000x1, .i32⟩
  | 93 => ⟨S200000x64, .f32⟩
  | 94 => ⟨S_, .f32⟩
  | 95 => ⟨S800000, .f32⟩
  | 96 => ⟨S_, .f32⟩
  | 97 => ⟨S200000, .f32⟩
  | 98 => ⟨S800000x1, .i32⟩
  | 99 => ⟨S200000, .f32⟩
  | 100 => ⟨S_, .f32⟩
  | 101 => ⟨S200000, .f32⟩
  | 102 => ⟨S200000, .f32⟩
  | 103 => ⟨S200000x1, .f32⟩
  | 104 => ⟨S200000x64, .f32⟩
  | 105 => ⟨S200000x64, .f32⟩
  | 106 => ⟨S200000x64, .f32⟩
  | 107 => ⟨S1x128x64, .f32⟩
  | 108 => ⟨S128x64, .f32⟩
  | 109 => ⟨S200000x64, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x64, .f32⟩
  | 119 => ⟨S_, .f32⟩
  | 120 => ⟨S100000x64, .f32⟩
  | 121 => ⟨S1000000x1, .i32⟩
  | 122 => ⟨S100000x64, .f32⟩
  | 123 => ⟨S_, .f32⟩
  | 124 => ⟨S1000000, .f32⟩
  | 125 => ⟨S_, .f32⟩
  | 126 => ⟨S100000, .f32⟩
  | 127 => ⟨S1000000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x64, .f32⟩
  | 6 => ⟨S100000x64, .f32⟩
  | 7 => ⟨S1x128x64, .f32⟩
  | 8 => ⟨S128x64, .f32⟩
  | 9 => ⟨S8000x64, .f32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x64, .f32⟩
  | 19 => ⟨S_, .f32⟩
  | 20 => ⟨S100000x64, .f32⟩
  | 21 => ⟨S200000x1, .i32⟩
  | 22 => ⟨S100000x64, .f32⟩
  | 23 => ⟨S_, .f32⟩
  | 24 => ⟨S200000, .f32⟩
  | 25 => ⟨S_, .f32⟩
  | 26 => ⟨S100000, .f32⟩
  | 27 => ⟨S200000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x64, .f32⟩
  | 34 => ⟨S100000x64, .f32⟩
  | 35 => ⟨S100000x64, .f32⟩
  | 36 => ⟨S1x128x64, .f32⟩
  | 37 => ⟨S128x64, .f32⟩
  | 38 => ⟨S200000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S_, .f32⟩
  | 53 => ⟨S800000, .f32⟩
  | 54 => ⟨S_, .f32⟩
  | 55 => ⟨S50000, .f32⟩
  | 56 => ⟨S800000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x64, .f32⟩
  | 63 => ⟨S50000x64, .f32⟩
  | 64 => ⟨S1x128x64, .f32⟩
  | 65 => ⟨S128x64, .f32⟩
  | 66 => ⟨S100000x64, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x64, .f32⟩
  | 76 => ⟨S_, .f32⟩
  | 77 => ⟨S8000x64, .f32⟩
  | 78 => ⟨S200000x1, .i32⟩
  | 79 => ⟨S8000x64, .f32⟩
  | 80 => ⟨S_, .f32⟩
  | 81 => ⟨S200000, .f32⟩
  | 82 => ⟨S_, .f32⟩
  | 83 => ⟨S8000, .f32⟩
  | 84 => ⟨S200000x1, .i32⟩
  | 85 => ⟨S8000, .f32⟩
  | 86 => ⟨S_, .f32⟩
  | 87 => ⟨S8000, .f32⟩
  | 88 => ⟨S8000, .f32⟩
  | 89 => ⟨S8000x1, .f32⟩
  | 90 => ⟨S8000x64, .f32⟩
  | 91 => ⟨S8000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S8000x64, .f32⟩
  | 109 => ⟨S8000x64, .f32⟩
  | 110 => ⟨S1x64, .f32⟩
  | 111 => ⟨S8000x64, .f32⟩
  | 112 => ⟨S8000x64, .f32⟩
  | 113 => ⟨S_, .f32⟩
  | 114 => ⟨S8000x64, .f32⟩
  | 115 => ⟨S8000x64, .f32⟩
  | 116 => ⟨S200000x64, .f32⟩
  | 117 => ⟨S200000x64, .f32⟩
  | 118 => ⟨S1x64, .f32⟩
  | 119 => ⟨S200000x64, .f32⟩
  | 120 => ⟨S200000x64, .f32⟩
  | 121 => ⟨S_, .f32⟩
  | 122 => ⟨S200000x64, .f32⟩
  | 123 => ⟨S200000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_9 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_12 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_13 : Ref sig .tc := ⟨.hbm, 94, rfl⟩
abbrev main_v58 : Ref sig .tc := ⟨.hbm, 95, rfl⟩
abbrev main_cst_14 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_15 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_16 : Ref sig .tc := ⟨.hbm, 110, rfl⟩
abbrev main_v71 : Ref sig .tc := ⟨.hbm, 111, rfl⟩
abbrev main_v72 : Ref sig .tc := ⟨.hbm, 112, rfl⟩
abbrev main_c_17 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_18 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_19 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_21 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_22 : Ref sig .tc := ⟨.hbm, 138, rfl⟩
abbrev main_v93 : Ref sig .tc := ⟨.hbm, 139, rfl⟩
abbrev main_v94 : Ref sig .tc := ⟨.hbm, 140, rfl⟩
abbrev main_c_23 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_24 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_25 : Ref sig .tc := ⟨.hbm, 151, rfl⟩
abbrev main_v103 : Ref sig .tc := ⟨.hbm, 152, rfl⟩
abbrev main_cst_26 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_28 : Ref sig .tc := ⟨.hbm, 167, rfl⟩
abbrev main_v116 : Ref sig .tc := ⟨.hbm, 168, rfl⟩
abbrev main_v117 : Ref sig .tc := ⟨.hbm, 169, rfl⟩
abbrev main_c_29 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_31 : Ref sig .tc := ⟨.hbm, 180, rfl⟩
abbrev main_v126 : Ref sig .tc := ⟨.hbm, 181, rfl⟩
abbrev main_cst_32 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_33 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_c_34 : Ref sig .tc := ⟨.hbm, 195, rfl⟩
abbrev main_v138 : Ref sig .tc := ⟨.hbm, 196, rfl⟩
abbrev main_v139 : Ref sig .tc := ⟨.hbm, 197, rfl⟩
abbrev main_c_35 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_36 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_37 : Ref sig .tc := ⟨.hbm, 208, rfl⟩
abbrev main_v148 : Ref sig .tc := ⟨.hbm, 209, rfl⟩
abbrev main_cst_38 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_39 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_call0_cst : Ref sig .tc := ⟨.hbm, 225, rfl⟩
abbrev main_call0_v0 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_call1_cst : Ref sig .tc := ⟨.hbm, 233, rfl⟩
abbrev main_call1_v0 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_call2_cst : Ref sig .tc := ⟨.hbm, 241, rfl⟩
abbrev main_call2_v0 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_call3_cst : Ref sig .tc := ⟨.hbm, 249, rfl⟩
abbrev main_call3_v0 : Ref sig .tc := ⟨.hbm, 250, rfl⟩
abbrev main_v180 : Ref sig .tc := ⟨.hbm, 251, rfl⟩

abbrev nD : Nat := 1
abbrev τ : Topo := Topo.v7x

variable {F : FTy → Type} [FloatOps F]

class Facts₀ : Prop where
  slices_S7x128x64_S1x128x64_0_0_0 : S7x128x64.Slices ![0, 0, 0] S1x128x64
  shapeCasts_S1x128x64_S128x64 : S1x128x64.ShapeCasts S128x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  slices_S7x128x64_S1x128x64_2_0_0 : S7x128x64.Slices ![2, 0, 0] S1x128x64
  slices_S7x128x64_S1x128x64_4_0_0 : S7x128x64.Slices ![4, 0, 0] S1x128x64
  bcast_S_S800000 : S_.BroadcastsInDim S800000 (![] : Fin 0 → Fin S800000.rank)
  bcast_S800000_S800000x1_0 : S800000.BroadcastsInDim S800000x1 (![0] : Fin 1 → Fin S800000x1.rank)
  slices_S7x128x64_S1x128x64_1_0_0 : S7x128x64.Slices ![1, 0, 0] S1x128x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S7x128x64_S1x128x64_6_0_0 : S7x128x64.Slices ![6, 0, 0] S1x128x64
  slices_S7x128x64_S1x128x64_3_0_0 : S7x128x64.Slices ![3, 0, 0] S1x128x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S7x128x64_S1x128x64_5_0_0 : S7x128x64.Slices ![5, 0, 0] S1x128x64
  bcast_S_S8000x64 : S_.BroadcastsInDim S8000x64 (![] : Fin 0 → Fin S8000x64.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x64_0_1 : S8000x1.BroadcastsInDim S8000x64 (![0, 1] : Fin 2 → Fin S8000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S50000x64_0_1 : S1x64.BroadcastsInDim S50000x64 (![0, 1] : Fin 2 → Fin S50000x64.rank)
  bcast_S1x64_S8000x64_0_1 : S1x64.BroadcastsInDim S8000x64 (![0, 1] : Fin 2 → Fin S8000x64.rank)
  bcast_S1x64_S200000x64_0_1 : S1x64.BroadcastsInDim S200000x64 (![0, 1] : Fin 2 → Fin S200000x64.rank)
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  dot_S200000x128_S128x64_S200000x64_1_0_0_1_n_n_wf : DotDims.WF S200000x128 S128x64 S200000x64 [1] [0] [0] [1] [] []
  gather_S200000x64_S1000000x1_S1000000x64_1_0_n_n_0_1_164_wf : GatherDims.WF S200000x64 S1000000x1 S1000000x64 [1] [0] [] [0] [] 1 ![1, 64]
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S200000x64_S800000x1_S800000x64_1_0_0_1_wf : ScatterDims.WF S200000x64 S800000x1 S800000x64 [1] [0] [0] 1
  scatter_S200000_S800000x1_S800000_n_0_0_1_wf : ScatterDims.WF S200000 S800000x1 S800000 [] [0] [0] 1
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S8000x128_S128x64_S8000x64_1_0_0_1_n_n_wf : DotDims.WF S8000x128 S128x64 S8000x64 [1] [0] [0] [1] [] []
  gather_S8000x64_S200000x1_S200000x64_1_0_n_n_0_1_164_wf : GatherDims.WF S8000x64 S200000x1 S200000x64 [1] [0] [] [0] [] 1 ![1, 64]
  scatter_S100000x64_S200000x1_S200000x64_1_0_0_1_wf : ScatterDims.WF S100000x64 S200000x1 S200000x64 [1] [0] [0] 1
  scatter_S100000_S200000x1_S200000_n_0_0_1_wf : ScatterDims.WF S100000 S200000x1 S200000 [] [0] [0] 1
  gather_S200000x64_S800000x1_S800000x64_1_0_n_n_0_1_164_wf : GatherDims.WF S200000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S100000x64_S200000x1_S200000x64_1_0_n_n_0_1_164_wf : GatherDims.WF S100000x64 S200000x1 S200000x64 [1] [0] [] [0] [] 1 ![1, 64]
  scatter_S8000x64_S200000x1_S200000x64_1_0_0_1_wf : ScatterDims.WF S8000x64 S200000x1 S200000x64 [1] [0] [0] 1
  scatter_S8000_S200000x1_S200000_n_0_0_1_wf : ScatterDims.WF S8000 S200000x1 S200000 [] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S200000x64_S800000x1_S800000x64_1_0_0_1 : ScatterDims S200000x64 S800000x1 S800000x64 where
  updateWindowDims := [1]
  insertedWindowDims := [0]
  scatterDimsToOperandDims := [0]
  indexVectorDim := 1
  wf := scatter_S200000x64_S800000x1_S800000x64_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def gather_S8000x64_S200000x1_S200000x64_1_0_n_n_0_1_164 : GatherDims S8000x64 S200000x1 S200000x64 where
  offsetDims := [1]
  collapsedSliceDims := [0]
  operandBatchingDims := []
  startIndicesBatchingDims := []
  startIndexMap := [0]
  indexVectorDim := 1
  sliceSizes := ![1, 64]
  wf := gather_S8000x64_S200000x1_S200000x64_1_0_n_n_0_1_164_wf
def scatter_S100000x64_S200000x1_S200000x64_1_0_0_1 : ScatterDims S100000x64 S200000x1 S200000x64 where
  updateWindowDims := [1]
  insertedWindowDims := [0]
  scatterDimsToOperandDims := [0]
  indexVectorDim := 1
  wf := scatter_S100000x64_S200000x1_S200000x64_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S200000x64_S800000x1_S800000x64_1_0_n_n_0_1_164 : GatherDims S200000x64 S800000x1 S800000x64 where
  offsetDims := [1]
  collapsedSliceDims := [0]
  operandBatchingDims := []
  startIndicesBatchingDims := []
  startIndexMap := [0]
  indexVectorDim := 1
  sliceSizes := ![1, 64]
  wf := gather_S200000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def scatter_S8000x64_S200000x1_S200000x64_1_0_0_1 : ScatterDims S8000x64 S200000x1 S200000x64 where
  updateWindowDims := [1]
  insertedWindowDims := [0]
  scatterDimsToOperandDims := [0]
  indexVectorDim := 1
  wf := scatter_S8000x64_S200000x1_S200000x64_1_0_0_1_wf
def scatter_S8000_S200000x1_S200000_n_0_0_1 : ScatterDims S8000 S200000x1 S200000 where
  updateWindowDims := []
  insertedWindowDims := [0]
  scatterDimsToOperandDims := [0]
  indexVectorDim := 1
  wf := scatter_S8000_S200000x1_S200000_n_0_0_1_wf

class Facts : Prop extends Facts₀ where

variable [Facts]
-- ==== Proof.KB.Body0.lean ====
/-
  Region 0 of the program (`cc0__project_fused_kernel`), at any float instance and at ANY contents `V` of the core's buffers when the
  region is entered: what one grid point's body leaves in its output block — a 5000-row block of the features times the whole weight matrix, as one store over the whole block —,
  the body's triple, and the proof data of the pipeline (each input window's buffer at its block of the entry array, the
  output window's at that store).
-/
import proofs.«134990_j73504070304033_2_alg».proof.Proof.Gen.Kernel.Launch
import proofs.«134990_j73504070304033_2_alg».proof.Proof.Gen.Kernel.Skeleton
import proofs.«134990_j73504070304033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block of the entry array at every point, whether the
    point fetches it or not (a window whose block index does not move is fetched once and stays). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block of the entry array at every point, whether the
    point fetches it or not (a window whose block index does not move is fetched once and stays). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: one store over the whole block, of the body's value of the input blocks. -/
def out0 (x0 : Vec F S5000x128 .f32) (x1 : Vec F S128x192 .f32) : Vec F S5000x192 .f32 :=
  View.canon [⟨(Rect.unit (s := S5000x192) ![0, 0] S5000x192.size inb_S5000x192_S5000x192_0_0), k0_pay1 (View.ld x0 (Rect.unit (s := S5000x128) ![0, 0] S5000x128.size inb_S5000x128_S5000x128_0_0)) (View.ld x1 (Rect.unit (s := S128x192) ![0, 0] S128x192.size inb_S128x192_S128x192_0_0))⟩]

/-- That one store covers the block. -/
theorem cover0 (p0 : Vec F S5000x192 .f32) (y : S5000x192.Idx) :
    ∃ pc ∈ ([⟨(Rect.unit (s := S5000x192) ![0, 0] S5000x192.size inb_S5000x192_S5000x192_0_0), p0⟩] : List (View.Piece (Elt F) S5000x192 .f32)), y ∈ pc.1.set :=
  View.cover_of_tiled [⟨(Rect.unit (s := S5000x192) ![0, 0] S5000x192.size inb_S5000x192_S5000x192_0_0), p0⟩] S5000x192.size (by rfl) y

set_option maxHeartbeats 1000000 in
/-- The body on whole staging buffers — the inputs' at known contents, the output's at anything — runs to its end holding
    the inputs' unchanged and the output's at `out0` of the inputs'. -/
theorem sound_kernel0 (c : Dev nD) (E : Set ℕ) (i : grid0.Coords) (arg1 : Memref sig .tc .vmem S5000x128 .f32) (harg1 : arg1.IsWhole) (arg2 : Memref sig .tc .vmem S128x192 .f32) (harg2 : arg2.IsWhole) (arg3 : Memref sig .tc .vmem S5000x192 .f32) (harg3 : arg3.IsWhole)
    (x0 : Vec F S5000x128 .f32) (x1 : Vec F S128x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__project_fused_kernel i arg1 harg1 arg2 harg2 arg3 harg3) K := by
  simp only [cc0__project_fused_kernel_eq_skeleton]; unfold cc0__project_fused_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The pipeline's proof data on core `c`: the arrays as the region finds them; after the body at point `t` each input's
    buffer at its block and the output's at `out0` of the input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Body1.lean ====
/-
  Region 1 of the program (`cc1__project_fused_kernel`), at any float instance and at ANY contents `V` of the core's buffers when the
  region is entered: what one grid point's body leaves in its output block — a 5000-row block of the features times the whole weight matrix, as one store over the whole block —,
  the body's triple, and the proof data of the pipeline (each input window's buffer at its block of the entry array, the
  output window's at that store).
-/
import proofs.«134990_j73504070304033_2_alg».proof.Proof.Gen.Kernel.Launch
import proofs.«134990_j73504070304033_2_alg».proof.Proof.Gen.Kernel.Skeleton
import proofs.«134990_j73504070304033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the entry array at every point, whether the
    point fetches it or not (a window whose block index does not move is fetched once and stays). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the entry array at every point, whether the
    point fetches it or not (a window whose block index does not move is fetched once and stays). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: one store over the whole block, of the body's value of the input blocks. -/
def out1 (x0 : Vec F S5000x128 .f32) (x1 : Vec F S128x256 .f32) : Vec F S5000x256 .f32 :=
  View.canon [⟨(Rect.unit (s := S5000x256) ![0, 0] S5000x256.size inb_S5000x256_S5000x256_0_0), k1_pay1 (View.ld x0 (Rect.unit (s := S5000x128) ![0, 0] S5000x128.size inb_S5000x128_S5000x128_0_0)) (View.ld x1 (Rect.unit (s := S128x256) ![0, 0] S128x256.size inb_S128x256_S128x256_0_0))⟩]

/-- That one store covers the block. -/
theorem cover1 (p0 : Vec F S5000x256 .f32) (y : S5000x256.Idx) :
    ∃ pc ∈ ([⟨(Rect.unit (s := S5000x256) ![0, 0] S5000x256.size inb_S5000x256_S5000x256_0_0), p0⟩] : List (View.Piece (Elt F) S5000x256 .f32)), y ∈ pc.1.set :=
  View.cover_of_tiled [⟨(Rect.unit (s := S5000x256) ![0, 0] S5000x256.size inb_S5000x256_S5000x256_0_0), p0⟩] S5000x256.size (by rfl) y

set_option maxHeartbeats 1000000 in
/-- The body on whole staging buffers — the inputs' at known contents, the output's at anything — runs to its end holding
    the inputs' unchanged and the output's at `out1` of the inputs'. -/
theorem sound_kernel1 (c : Dev nD) (E : Set ℕ) (i : grid1.Coords) (arg1 : Memref sig .tc .vmem S5000x128 .f32) (harg1 : arg1.IsWhole) (arg2 : Memref sig .tc .vmem S128x256 .f32) (harg2 : arg2.IsWhole) (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__project_fused_kernel i arg1 harg1 arg2 harg2 arg3 harg3) K := by
  simp only [cc1__project_fused_kernel_eq_skeleton]; unfold cc1__project_fused_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The pipeline's proof data on core `c`: the arrays as the region finds them; after the body at point `t` each input's
    buffer at its block and the output's at `out1` of the input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Body2.lean ====
/-
  Region 2 of the program (`cc2__project_fused_kernel`), at any float instance and at ANY contents `V` of the core's buffers when the
  region is entered: what one grid point's body leaves in its output block — a 5000-row block of the features times the whole weight matrix, as one store over the whole block —,
  the body's triple, and the proof data of the pipeline (each input window's buffer at its block of the entry array, the
  output window's at that store).
-/
import proofs.«134990_j73504070304033_2_alg».proof.Proof.Gen.Kernel.Launch
import proofs.«134990_j73504070304033_2_alg».proof.Proof.Gen.Kernel.Skeleton
import proofs.«134990_j73504070304033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block of the entry array at every point, whether the
    point fetches it or not (a window whose block index does not move is fetched once and stays). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block of the entry array at every point, whether the
    point fetches it or not (a window whose block index does not move is fetched once and stays). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: one store over the whole block, of the body's value of the input blocks. -/
def out2 (x0 : Vec F S5000x128 .f32) (x1 : Vec F S128x128 .f32) : Vec F S5000x128 .f32 :=
  View.canon [⟨(Rect.unit (s := S5000x128) ![0, 0] S5000x128.size inb_S5000x128_S5000x128_0_0), k2_pay1 (View.ld x0 (Rect.unit (s := S5000x128) ![0, 0] S5000x128.size inb_S5000x128_S5000x128_0_0)) (View.ld x1 (Rect.unit (s := S128x128) ![0, 0] S128x128.size inb_S128x128_S128x128_0_0))⟩]

/-- That one store covers the block. -/
theorem cover2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers — the inputs' at known contents, the output's at anything — runs to its end holding
    the inputs' unchanged and the output's at `out2` of the inputs'. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__project_fused_kernel i arg1 harg1 arg2 harg2 arg3 harg3) K := by
  simp only [cc2__project_fused_kernel_eq_skeleton]; unfold cc2__project_fused_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core `c`: the arrays as the region finds them; after the body at point `t` each input's
    buffer at its block and the output's at `out2` of the input blocks; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Body3.lean ====
/-
  Region 3 of the program (`cc3__project_fused_kernel`), at any float instance and at ANY contents `V` of the core's buffers when the
  region is entered: what one grid point's body leaves in its output block — a 4000-row block of the features times the whole weight matrix, as one store over the whole block —,
  the body's triple, and the proof data of the pipeline (each input window's buffer at its block of the entry array, the
  output window's at that store).
-/
import proofs.«134990_j73504070304033_2_alg».proof.Proof.Gen.Kernel.Launch
import proofs.«134990_j73504070304033_2_alg».proof.Proof.Gen.Kernel.Skeleton
import proofs.«134990_j73504070304033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block of the entry array at every point, whether the
    point fetches it or not (a window whose block index does not move is fetched once and stays). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block of the entry array at every point, whether the
    point fetches it or not (a window whose block index does not move is fetched once and stays). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: one store over the whole block, of the body's value of the input blocks. -/
def out3 (x0 : Vec F S4000x128 .f32) (x1 : Vec F S128x128 .f32) : Vec F S4000x128 .f32 :=
  View.canon [⟨(Rect.unit (s := S4000x128) ![0, 0] S4000x128.size inb_S4000x128_S4000x128_0_0), k3_pay1 (View.ld x0 (Rect.unit (s := S4000x128) ![0, 0] S4000x128.size inb_S4000x128_S4000x128_0_0)) (View.ld x1 (Rect.unit (s := S128x128) ![0, 0] S128x128.size inb_S128x128_S128x128_0_0))⟩]

/-- That one store covers the block. -/
theorem cover3 (p0 : Vec F S4000x128 .f32) (y : S4000x128.Idx) :
    ∃ pc ∈ ([⟨(Rect.unit (s := S4000x128) ![0, 0] S4000x128.size inb_S4000x128_S4000x128_0_0), p0⟩] : List (View.Piece (Elt F) S4000x128 .f32)), y ∈ pc.1.set :=
  View.cover_of_tiled [⟨(Rect.unit (s := S4000x128) ![0, 0] S4000x128.size inb_S4000x128_S4000x128_0_0), p0⟩] S4000x128.size (by rfl) y

set_option maxHeartbeats 1000000 in
/-- The body on whole staging buffers — the inputs' at known contents, the output's at anything — runs to its end holding
    the inputs' unchanged and the output's at `out3` of the inputs'. -/
theorem sound_kernel3 (c : Dev nD) (E : Set ℕ) (i : grid3.Coords) (arg1 : Memref sig .tc .vmem S4000x128 .f32) (harg1 : arg1.IsWhole) (arg2 : Memref sig .tc .vmem S128x128 .f32) (harg2 : arg2.IsWhole) (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__project_fused_kernel i arg1 harg1 arg2 harg2 arg3 harg3) K := by
  simp only [cc3__project_fused_kernel_eq_skeleton]; unfold cc3__project_fused_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The pipeline's proof data on core `c`: the arrays as the region finds them; after the body at point `t` each input's
    buffer at its block and the output's at `out3` of the input blocks; the invariant is the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Body4.lean ====
/-
  Region 4 of the program (`cc4__finalize_kernel`), at any float instance and at ANY contents `V` of the core's buffers when the
  region is entered: what one grid point's body leaves in its output block — relu of (aggregate block + self-loop block + the bias row), as one store over the whole block —,
  the body's triple, and the proof data of the pipeline (each input window's buffer at its block of the entry array, the
  output window's at that store).
-/
import proofs.«134990_j73504070304033_2_alg».proof.Proof.Gen.Kernel.Launch
import proofs.«134990_j73504070304033_2_alg».proof.Proof.Gen.Kernel.Skeleton
import proofs.«134990_j73504070304033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block of the entry array at every point, whether the
    point fetches it or not (a window whose block index does not move is fetched once and stays). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block of the entry array at every point, whether the
    point fetches it or not (a window whose block index does not move is fetched once and stays). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block of the entry array at every point, whether the
    point fetches it or not (a window whose block index does not move is fetched once and stays). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The output block after the body: one store over the whole block, of the body's value of the input blocks. -/
def out4 (x0 : Vec F S5000x64 .f32) (x1 : Vec F S5000x64 .f32) (x2 : Vec F S1x64 .f32) : Vec F S5000x64 .f32 :=
  View.canon [⟨(Rect.unit (s := S5000x64) ![0, 0] S5000x64.size inb_S5000x64_S5000x64_0_0), k4_pay1 (View.ld x2 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the block. -/
theorem cover4 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at known contents, the output's at anything — runs to its end holding
    the inputs' unchanged and the output's at `out4` of the inputs'. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4 x0 x1 x2)) -∗ K ⟨⟩))
      ⊢ wp frame (wpE (defs₀ (F := F)) Variants.none c none) E (cc4__finalize_kernel i arg1 harg1 arg2 harg2 arg3 harg3 arg4 harg4) K := by
  simp only [cc4__finalize_kernel_eq_skeleton]; unfold cc4__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The pipeline's proof data on core `c`: the arrays as the region finds them; after the body at point `t` each input's
    buffer at its block and the output's at `out4` of the input blocks; the invariant is the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) (iblk4 V c 2 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.Body5.lean ====
/-
  Region 5 of the program (`cc5__finalize_kernel`), at any float instance and at ANY contents `V` of the core's buffers when the
  region is entered: what one grid point's body leaves in its output block — relu of (aggregate block + self-loop block + the bias row), as one store over the whole block —,
  the body's triple, and the proof data of the pipeline (each input window's buffer at its block of the entry array, the
  output window's at that store).
-/
import proofs.«134990_j73504070304033_2_alg».proof.Proof.Gen.Kernel.Launch
import proofs.«134990_j73504070304033_2_alg».proof.Proof.Gen.Kernel.Skeleton
import proofs.«134990_j73504070304033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block of the entry array at every point, whether the
    point fetches it or not (a window whose block index does not move is fetched once and stays). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block of the entry array at every point, whether the
    point fetches it or not (a window whose block index does not move is fetched once and stays). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block of the entry array at every point, whether the
    point fetches it or not (a window whose block index does not move is fetched once and stays). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: one store over the whole block, of the body's value of the input blocks. -/
def out5 (x0 : Vec F S5000x64 .f32) (x1 : Vec F S5000x64 .f32) (x2 : Vec F S1x64 .f32) : Vec F S5000x64 .f32 :=
  View.canon [⟨(Rect.unit (s := S5000x64) ![0, 0] S5000x64.size inb_S5000x64_S5000x64_0_0), k5_pay1 (View.ld x2 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the block. -/
theorem cover5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at known contents, the output's at anything — runs to its end holding
    the inputs' unchanged and the output's at `out5` of the inputs'. -/
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5 x0 x1 x2)) -∗ K ⟨⟩))
      ⊢ wp frame (wpE (defs₀ (F := F)) Variants.none c none) E (cc5__finalize_kernel i arg1 harg1 arg2 harg2 arg3 harg3 arg4 harg4) K := by
  simp only [cc5__finalize_kernel_eq_skeleton]; unfold cc5__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The pipeline's proof data on core `c`: the arrays as the region finds them; after the body at point `t` each input's
    buffer at its block and the output's at `out5` of the input blocks; the invariant is the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) (iblk5 V c 2 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Body6.lean ====
/-
  Region 6 of the program (`cc6__finalize_kernel`), at any float instance and at ANY contents `V` of the core's buffers when the
  region is entered: what one grid point's body leaves in its output block — relu of (aggregate block + self-loop block + the bias row), as one store over the whole block —,
  the body's triple, and the proof data of the pipeline (each input window's buffer at its block of the entry array, the
  output window's at that store).
-/
import proofs.«134990_j73504070304033_2_alg».proof.Proof.Gen.Kernel.Launch
import proofs.«134990_j73504070304033_2_alg».proof.Proof.Gen.Kernel.Skeleton
import proofs.«134990_j73504070304033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds the window's block of the entry array at every point, whether the
    point fetches it or not (a window whose block index does not move is fetched once and stays). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds the window's block of the entry array at every point, whether the
    point fetches it or not (a window whose block index does not move is fetched once and stays). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds the window's block of the entry array at every point, whether the
    point fetches it or not (a window whose block index does not move is fetched once and stays). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The output block after the body: one store over the whole block, of the body's value of the input blocks. -/
def out6 (x0 : Vec F S4000x64 .f32) (x1 : Vec F S4000x64 .f32) (x2 : Vec F S1x64 .f32) : Vec F S4000x64 .f32 :=
  View.canon [⟨(Rect.unit (s := S4000x64) ![0, 0] S4000x64.size inb_S4000x64_S4000x64_0_0), k6_pay1 (View.ld x2 (Rect.unit (s := S1x64) ![0, 0] S1x64.size inb_S1x64_S1x64_0_0)) (View.ld x0 (Rect.unit (s := S4000x64) ![0, 0] S4000x64.size inb_S4000x64_S4000x64_0_0)) (View.ld x1 (Rect.unit (s := S4000x64) ![0, 0] S4000x64.size inb_S4000x64_S4000x64_0_0))⟩]

/-- That one store covers the block. -/
theorem cover6 (p0 : Vec F S4000x64 .f32) (y : S4000x64.Idx) :
    ∃ pc ∈ ([⟨(Rect.unit (s := S4000x64) ![0, 0] S4000x64.size inb_S4000x64_S4000x64_0_0), p0⟩] : List (View.Piece (Elt F) S4000x64 .f32)), y ∈ pc.1.set :=
  View.cover_of_tiled [⟨(Rect.unit (s := S4000x64) ![0, 0] S4000x64.size inb_S4000x64_S4000x64_0_0), p0⟩] S4000x64.size (by rfl) y

set_option maxHeartbeats 1000000 in
/-- The body on whole staging buffers — the inputs' at known contents, the output's at anything — runs to its end holding
    the inputs' unchanged and the output's at `out6` of the inputs'. -/
theorem sound_kernel6 (c : Dev nD) (E : Set ℕ) (i : grid6.Coords) (arg1 : Memref sig .tc .vmem S4000x64 .f32) (harg1 : arg1.IsWhole) (arg2 : Memref sig .tc .vmem S4000x64 .f32) (harg2 : arg2.IsWhole) (arg3 : Memref sig .tc .vmem S1x64 .f32) (harg3 : arg3.IsWhole) (arg4 : Memref sig .tc .vmem S4000x64 .f32) (harg4 : arg4.IsWhole)
    (x0 : Vec F S4000x64 .f32) (x1 : Vec F S4000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6 x0 x1 x2)) -∗ K ⟨⟩))
      ⊢ wp frame (wpE (defs₀ (F := F)) Variants.none c none) E (cc6__finalize_kernel i arg1 harg1 arg2 harg2 arg3 harg3 arg4 harg4) K := by
  simp only [cc6__finalize_kernel_eq_skeleton]; unfold cc6__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-- The pipeline's proof data on core `c`: the arrays as the region finds them; after the body at point `t` each input's
    buffer at its block and the output's at `out6` of the input blocks; the invariant is the scoped rest and the generator
    register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 (iblk6 V c 0 t) (iblk6 V c 1 t) (iblk6 V c 2 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the triple applies; the invariant and what the core
    owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KB.Body7.lean ====
/-
  Region 7 of the program (`cc7__finalize_kernel`), at any float instance and at ANY contents `V` of the core's buffers when the
  region is entered: what one grid point's body leaves in its output block — relu of (aggregate block + self-loop block + the bias row), as one store over the whole block —,
  the body's triple, and the proof data of the pipeline (each input window's buffer at its block of the entry array, the
  output window's at that store).
-/
import proofs.«134990_j73504070304033_2_alg».proof.Proof.Gen.Kernel.Launch
import proofs.«134990_j73504070304033_2_alg».proof.Proof.Gen.Kernel.Skeleton
import proofs.«134990_j73504070304033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds the window's block of the entry array at every point, whether the
    point fetches it or not (a window whose block index does not move is fetched once and stays). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds the window's block of the entry array at every point, whether the
    point fetches it or not (a window whose block index does not move is fetched once and stays). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds the window's block of the entry array at every point, whether the
    point fetches it or not (a window whose block index does not move is fetched once and stays). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The output block after the body: one store over the whole block, of the body's value of the input blocks. -/
def out7 (x0 : Vec F S5000x64 .f32) (x1 : Vec F S5000x64 .f32) (x2 : Vec F S1x64 .f32) : Vec F S5000x64 .f32 :=
  View.canon [⟨(Rect.unit (s := S5000x64) ![0, 0] S5000x64.size inb_S5000x64_S5000x64_0_0), k7_pay1 (View.ld x2 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the block. -/
theorem cover7 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at known contents, the output's at anything — runs to its end holding
    the inputs' unchanged and the output's at `out7` of the inputs'. -/
theorem sound_kernel7 (c : Dev nD) (E : Set ℕ) (i : grid7.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7 x0 x1 x2)) -∗ K ⟨⟩))
      ⊢ wp frame (wpE (defs₀ (F := F)) Variants.none c none) E (cc7__finalize_kernel i arg1 harg1 arg2 harg2 arg3 harg3 arg4 harg4) K := by
  simp only [cc7__finalize_kernel_eq_skeleton]; unfold cc7__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7 _)

/-- The pipeline's proof data on core `c`: the arrays as the region finds them; after the body at point `t` each input's
    buffer at its block and the output's at `out7` of the input blocks; the invariant is the scoped rest and the generator
    register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7 (iblk7 V c 0 t) (iblk7 V c 1 t) (iblk7 V c 2 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the triple applies; the invariant and what the core
    owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KB.Fold.lean ====
/-
  The contents of every buffer of a core at each boundary between two items of the program — a stretch of host operations,
  or one of the eight kernel regions — as a fold from the launch memory: a stretch rewrites the buffers its operations write,
  a region leaves each of its windows' arrays at what the grid's write-backs make of it and every other buffer alone. No item
  writes an argument array, so each argument is read back through the whole fold to its launch contents.
-/
import proofs.«134990_j73504070304033_2_alg».proof.Proof.KB.Body0
import proofs.«134990_j73504070304033_2_alg».proof.Proof.KB.Body1
import proofs.«134990_j73504070304033_2_alg».proof.Proof.KB.Body2
import proofs.«134990_j73504070304033_2_alg».proof.Proof.KB.Body3
import proofs.«134990_j73504070304033_2_alg».proof.Proof.KB.Body4
import proofs.«134990_j73504070304033_2_alg».proof.Proof.KB.Body5
import proofs.«134990_j73504070304033_2_alg».proof.Proof.KB.Body6
import proofs.«134990_j73504070304033_2_alg».proof.Proof.KB.Body7

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `main_part0_ops0`. -/
abbrev W1 : Dev nD → Valuation τ sig (Elt F) := fun c => StableHlo.after main_part0_ops0 (W0 m ρ c)
/-- The buffers as region 0 finds them, read at the core's references. -/
abbrev V1 : (c : Dev nD) → (b : Ref sig .tc) → Buf (Elt F) ((c : Thread nD τ).loc b) := fun c b => W1 m ρ c b
/-- After region 0: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev X2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = V1 m ρ c b :=
  fun b hb => W2_of_ne m ρ c b fun w e => hb (Finset.mem_image.mpr ⟨w, Finset.mem_univ _, e⟩)
/-- The buffers as region 1 finds them, read at the core's references. -/
abbrev V2 : (c : Dev nD) → (b : Ref sig .tc) → Buf (Elt F) ((c : Thread nD τ).loc b) := fun c b => W2 m ρ c b
/-- After region 1: its windows' arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references (region 1's exit contents). -/
abbrev X3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = X3 m ρ c (Pipeline.arrRef spec1 w) :=
  (W3_arr m ρ c w).symm
theorem hrest1 (c : Dev nD) : ∀ b, b ∉ Finset.univ.image (Pipeline.arrRef spec1) → X3 m ρ c b = V2 m ρ c b :=
  fun b hb => W3_of_ne m ρ c b fun w e => hb (Finset.mem_image.mpr ⟨w, Finset.mem_univ _, e⟩)
/-- The buffers as region 2 finds them, read at the core's references. -/
abbrev V3 : (c : Dev nD) → (b : Ref sig .tc) → Buf (Elt F) ((c : Thread nD τ).loc b) := fun c b => W3 m ρ c b
/-- After region 2: its windows' arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references (region 2's exit contents). -/
abbrev X4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = X4 m ρ c (Pipeline.arrRef spec2 w) :=
  (W4_arr m ρ c w).symm
theorem hrest2 (c : Dev nD) : ∀ b, b ∉ Finset.univ.image (Pipeline.arrRef spec2) → X4 m ρ c b = V3 m ρ c b :=
  fun b hb => W4_of_ne m ρ c b fun w e => hb (Finset.mem_image.mpr ⟨w, Finset.mem_univ _, e⟩)
/-- The buffers as region 3 finds them, read at the core's references. -/
abbrev V4 : (c : Dev nD) → (b : Ref sig .tc) → Buf (Elt F) ((c : Thread nD τ).loc b) := fun c b => W4 m ρ c b
/-- After region 3: its windows' arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the core's references (region 3's exit contents). -/
abbrev X5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = X5 m ρ c (Pipeline.arrRef spec3 w) :=
  (W5_arr m ρ c w).symm
theorem hrest3 (c : Dev nD) : ∀ b, b ∉ Finset.univ.image (Pipeline.arrRef spec3) → X5 m ρ c b = V4 m ρ c b :=
  fun b hb => W5_of_ne m ρ c b fun w e => hb (Finset.mem_image.mpr ⟨w, Finset.mem_univ _, e⟩)
/-- After the host stretch `main_part0_ops1`. -/
abbrev W6 : Dev nD → Valuation τ sig (Elt F) := fun c => StableHlo.after main_part0_ops1 (W5 m ρ c)
/-- After the host stretch `main_part1_ops0`. -/
abbrev W7 : Dev nD → Valuation τ sig (Elt F) := fun c => StableHlo.after main_part1_ops0 (W6 m ρ c)
/-- After the host stretch `main_part2_ops0`. -/
abbrev W8 : Dev nD → Valuation τ sig (Elt F) := fun c => StableHlo.after main_part2_ops0 (W7 m ρ c)
/-- After the host stretch `main_part3_ops0`. -/
abbrev W9 : Dev nD → Valuation τ sig (Elt F) := fun c => StableHlo.after main_part3_ops0 (W8 m ρ c)
/-- The buffers as region 4 finds them, read at the core's references. -/
abbrev V9 : (c : Dev nD) → (b : Ref sig .tc) → Buf (Elt F) ((c : Thread nD τ).loc b) := fun c b => W9 m ρ c b
/-- After region 4: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the core's references (region 4's exit contents). -/
abbrev X10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = X10 m ρ c (Pipeline.arrRef spec4 w) :=
  (W10_arr m ρ c w).symm
theorem hrest4 (c : Dev nD) : ∀ b, b ∉ Finset.univ.image (Pipeline.arrRef spec4) → X10 m ρ c b = V9 m ρ c b :=
  fun b hb => W10_of_ne m ρ c b fun w e => hb (Finset.mem_image.mpr ⟨w, Finset.mem_univ _, e⟩)
/-- After the host stretch `main_part3_ops1`. -/
abbrev W11 : Dev nD → Valuation τ sig (Elt F) := fun c => StableHlo.after main_part3_ops1 (W10 m ρ c)
/-- The buffers as region 5 finds them, read at the core's references. -/
abbrev V11 : (c : Dev nD) → (b : Ref sig .tc) → Buf (Elt F) ((c : Thread nD τ).loc b) := fun c b => W11 m ρ c b
/-- After region 5: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the core's references (region 5's exit contents). -/
abbrev X12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = X12 m ρ c (Pipeline.arrRef spec5 w) :=
  (W12_arr m ρ c w).symm
theorem hrest5 (c : Dev nD) : ∀ b, b ∉ Finset.univ.image (Pipeline.arrRef spec5) → X12 m ρ c b = V11 m ρ c b :=
  fun b hb => W12_of_ne m ρ c b fun w e => hb (Finset.mem_image.mpr ⟨w, Finset.mem_univ _, e⟩)
/-- After the host stretch `main_part3_ops2`. -/
abbrev W13 : Dev nD → Valuation τ sig (Elt F) := fun c => StableHlo.after main_part3_ops2 (W12 m ρ c)
/-- The buffers as region 6 finds them, read at the core's references. -/
abbrev V13 : (c : Dev nD) → (b : Ref sig .tc) → Buf (Elt F) ((c : Thread nD τ).loc b) := fun c b => W13 m ρ c b
/-- After region 6: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the core's references (region 6's exit contents). -/
abbrev X14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = X14 m ρ c (Pipeline.arrRef spec6 w) :=
  (W14_arr m ρ c w).symm
theorem hrest6 (c : Dev nD) : ∀ b, b ∉ Finset.univ.image (Pipeline.arrRef spec6) → X14 m ρ c b = V13 m ρ c b :=
  fun b hb => W14_of_ne m ρ c b fun w e => hb (Finset.mem_image.mpr ⟨w, Finset.mem_univ _, e⟩)
/-- After the host stretch `main_part3_ops3`. -/
abbrev W15 : Dev nD → Valuation τ sig (Elt F) := fun c => StableHlo.after main_part3_ops3 (W14 m ρ c)
/-- The buffers as region 7 finds them, read at the core's references. -/
abbrev V15 : (c : Dev nD) → (b : Ref sig .tc) → Buf (Elt F) ((c : Thread nD τ).loc b) := fun c b => W15 m ρ c b
/-- After region 7: its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the core's references (region 7's exit contents). -/
abbrev X16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = X16 m ρ c (Pipeline.arrRef spec7 w) :=
  (W16_arr m ρ c w).symm
theorem hrest7 (c : Dev nD) : ∀ b, b ∉ Finset.univ.image (Pipeline.arrRef spec7) → X16 m ρ c b = V15 m ρ c b :=
  fun b hb => W16_of_ne m ρ c b fun w e => hb (Finset.mem_image.mpr ⟨w, Finset.mem_univ _, e⟩)

/-! ## What the host stretches write -/
/-- No operation of `main_part0_ops0` allocates a buffer. -/
theorem main_part0_ops0_fresh : (main_part0_ops0 : List (HloOp τ sig (Elt F))).Forall fun op => op.fresh = ∅ := by
  simp only [List.Forall]; repeat' constructor
/-- The references `main_part0_ops0`'s operations write. -/
abbrev main_part0_ops0_W : List (Ref sig .tc) := [main_v0, main_v1, main_v2, main_v3, main_v4, main_v5, main_v6, main_v7, main_v8, main_v9, main_v10, main_v11, main_v12, main_v13, main_v14, main_v15, main_v16, main_v17]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part0_ops1` allocates a buffer. -/
theorem main_part0_ops1_fresh : (main_part0_ops1 : List (HloOp τ sig (Elt F))).Forall fun op => op.fresh = ∅ := by
  simp only [List.Forall]; repeat' constructor
/-- The references `main_part0_ops1`'s operations write. -/
abbrev main_part0_ops1_W : List (Ref sig .tc) := [main_v22, main_v23, main_v24, main_v25, main_v26, main_v27, main_v28, main_v29, main_v30, main_v31, main_v32, main_c, main_v33, main_v34, main_c_0, main_v35, main_v36, main_v37, main_v38, main_v39, main_cst, main_v40, main_v41, main_v42, main_cst_1, main_v43, main_cst_2, main_v44, main_v45, main_v46, main_cst_3, main_v47, main_v48, main_v49, main_v50, main_v51, main_c_4, main_v52]
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part1_ops0` allocates a buffer. -/
theorem main_part1_ops0_fresh : (main_part1_ops0 : List (HloOp τ sig (Elt F))).Forall fun op => op.fresh = ∅ := by
  simp only [List.Forall]; repeat' constructor
/-- The references `main_part1_ops0`'s operations write. -/
abbrev main_part1_ops0_W : List (Ref sig .tc) := [main_v53, main_c_5, main_v54, main_v55, main_v56, main_v57, main_v58, main_cst_6, main_v59, main_v60, main_v61, main_cst_7, main_v62, main_cst_8, main_v63, main_v64, main_v65, main_cst_9, main_v66, main_v67, main_v68, main_v69, main_v70, main_v71, main_c_10, main_v72, main_v73, main_c_11, main_v74, main_v75, main_v76, main_v77, main_v78, main_cst_12, main_v79, main_v80, main_v81, main_cst_13, main_v82, main_cst_14, main_v83, main_v84, main_v85, main_cst_15, main_v86, main_v87, main_v88, main_v89, main_v90, main_v91, main_c_16, main_v92, main_v93, main_c_17, main_v94, main_v95, main_v96, main_v97, main_v98, main_cst_18]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part2_ops0` allocates a buffer. -/
theorem main_part2_ops0_fresh : (main_part2_ops0 : List (HloOp τ sig (Elt F))).Forall fun op => op.fresh = ∅ := by
  simp only [List.Forall]; repeat' constructor
/-- The references `main_part2_ops0`'s operations write. -/
abbrev main_part2_ops0_W : List (Ref sig .tc) := [main_v99, main_v100, main_v101, main_cst_19, main_v102, main_cst_20, main_v103, main_v104, main_v105, main_cst_21, main_v106, main_v107, main_v108, main_v109, main_v110, main_c_22, main_v111, main_v112, main_c_23, main_v113, main_v114, main_v115, main_v116, main_v117, main_cst_24, main_v118, main_v119, main_v120, main_cst_25, main_v121, main_cst_26, main_v122, main_v123, main_v124, main_cst_27, main_v125, main_v126, main_v127, main_v128, main_v129, main_v130, main_c_28, main_v131, main_v132, main_c_29, main_v133, main_v134, main_v135, main_v136, main_v137, main_cst_30, main_v138, main_v139, main_v140, main_cst_31, main_v141, main_cst_32, main_v142, main_v143, main_v144]
theorem main_part2_ops0_writes : (main_part2_ops0 : List (HloOp τ sig (Elt F))).Forall fun op => op.writes ⊆ (main_part2_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part3_ops0` allocates a buffer. -/
theorem main_part3_ops0_fresh : (main_part3_ops0 : List (HloOp τ sig (Elt F))).Forall fun op => op.fresh = ∅ := by
  simp only [List.Forall]; repeat' constructor
/-- The references `main_part3_ops0`'s operations write. -/
abbrev main_part3_ops0_W : List (Ref sig .tc) := [main_cst_33, main_v145, main_v146, main_v147, main_v148, main_v149, main_c_34, main_v150, main_v151, main_c_35, main_v152, main_v153, main_v154, main_v155, main_v156, main_cst_36, main_v157, main_v158, main_v159, main_cst_37, main_v160, main_cst_38, main_v161, main_v162, main_v163, main_cst_39, main_v164, main_v165, main_v166, main_v167, main_v168, main_v169]
theorem main_part3_ops0_writes : (main_part3_ops0 : List (HloOp τ sig (Elt F))).Forall fun op => op.writes ⊆ (main_part3_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part3_ops1` allocates a buffer. -/
theorem main_part3_ops1_fresh : (main_part3_ops1 : List (HloOp τ sig (Elt F))).Forall fun op => op.fresh = ∅ := by
  simp only [List.Forall]; repeat' constructor
/-- The references `main_part3_ops1`'s operations write. -/
abbrev main_part3_ops1_W : List (Ref sig .tc) := [main_v171]
theorem main_part3_ops1_writes : (main_part3_ops1 : List (HloOp τ sig (Elt F))).Forall fun op => op.writes ⊆ (main_part3_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part3_ops2` allocates a buffer. -/
theorem main_part3_ops2_fresh : (main_part3_ops2 : List (HloOp τ sig (Elt F))).Forall fun op => op.fresh = ∅ := by
  simp only [List.Forall]; repeat' constructor
/-- The references `main_part3_ops2`'s operations write. -/
abbrev main_part3_ops2_W : List (Ref sig .tc) := [main_v173]
theorem main_part3_ops2_writes : (main_part3_ops2 : List (HloOp τ sig (Elt F))).Forall fun op => op.writes ⊆ (main_part3_ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part3_ops3` allocates a buffer. -/
theorem main_part3_ops3_fresh : (main_part3_ops3 : List (HloOp τ sig (Elt F))).Forall fun op => op.fresh = ∅ := by
  simp only [List.Forall]; repeat' constructor
/-- The references `main_part3_ops3`'s operations write. -/
abbrev main_part3_ops3_W : List (Ref sig .tc) := [main_v175]
theorem main_part3_ops3_writes : (main_part3_ops3 : List (HloOp τ sig (Elt F))).Forall fun op => op.writes ⊆ (main_part3_ops3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The arguments end as launched -/
theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := StableHlo.after_of_writes_sub main_part3_ops3 _ main_part3_ops3_writes (by decide)
    _ = W13 m ρ c (Proc.devRef .tc main_arg0) := W14_of_ne m ρ c main_arg0 (by decide)
    _ = W12 m ρ c (Proc.devRef .tc main_arg0) := StableHlo.after_of_writes_sub main_part3_ops2 _ main_part3_ops2_writes (by decide)
    _ = W11 m ρ c (Proc.devRef .tc main_arg0) := W12_of_ne m ρ c main_arg0 (by decide)
    _ = W10 m ρ c (Proc.devRef .tc main_arg0) := StableHlo.after_of_writes_sub main_part3_ops1 _ main_part3_ops1_writes (by decide)
    _ = W9 m ρ c (Proc.devRef .tc main_arg0) := W10_of_ne m ρ c main_arg0 (by decide)
    _ = W8 m ρ c (Proc.devRef .tc main_arg0) := StableHlo.after_of_writes_sub main_part3_ops0 _ main_part3_ops0_writes (by decide)
    _ = W7 m ρ c (Proc.devRef .tc main_arg0) := StableHlo.after_of_writes_sub main_part2_ops0 _ main_part2_ops0_writes (by decide)
    _ = W6 m ρ c (Proc.devRef .tc main_arg0) := StableHlo.after_of_writes_sub main_part1_ops0 _ main_part1_ops0_writes (by decide)
    _ = W5 m ρ c (Proc.devRef .tc main_arg0) := StableHlo.after_of_writes_sub main_part0_ops1 _ main_part0_ops1_writes (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub main_part0_ops0 _ main_part0_ops0_writes (by decide)
    _ = m ((c : Thread nD τ).loc main_arg0) := rfl
theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := StableHlo.after_of_writes_sub main_part3_ops3 _ main_part3_ops3_writes (by decide)
    _ = W13 m ρ c (Proc.devRef .tc main_arg1) := W14_of_ne m ρ c main_arg1 (by decide)
    _ = W12 m ρ c (Proc.devRef .tc main_arg1) := StableHlo.after_of_writes_sub main_part3_ops2 _ main_part3_ops2_writes (by decide)
    _ = W11 m ρ c (Proc.devRef .tc main_arg1) := W12_of_ne m ρ c main_arg1 (by decide)
    _ = W10 m ρ c (Proc.devRef .tc main_arg1) := StableHlo.after_of_writes_sub main_part3_ops1 _ main_part3_ops1_writes (by decide)
    _ = W9 m ρ c (Proc.devRef .tc main_arg1) := W10_of_ne m ρ c main_arg1 (by decide)
    _ = W8 m ρ c (Proc.devRef .tc main_arg1) := StableHlo.after_of_writes_sub main_part3_ops0 _ main_part3_ops0_writes (by decide)
    _ = W7 m ρ c (Proc.devRef .tc main_arg1) := StableHlo.after_of_writes_sub main_part2_ops0 _ main_part2_ops0_writes (by decide)
    _ = W6 m ρ c (Proc.devRef .tc main_arg1) := StableHlo.after_of_writes_sub main_part1_ops0 _ main_part1_ops0_writes (by decide)
    _ = W5 m ρ c (Proc.devRef .tc main_arg1) := StableHlo.after_of_writes_sub main_part0_ops1 _ main_part0_ops1_writes (by decide)
    _ = W4 m ρ c (Proc.devRef .tc main_arg1) := W5_of_ne m ρ c main_arg1 (by decide)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub main_part0_ops0 _ main_part0_ops0_writes (by decide)
    _ = m ((c : Thread nD τ).loc main_arg1) := rfl
theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := StableHlo.after_of_writes_sub main_part3_ops3 _ main_part3_ops3_writes (by decide)
    _ = W13 m ρ c (Proc.devRef .tc main_arg2) := W14_of_ne m ρ c main_arg2 (by decide)
    _ = W12 m ρ c (Proc.devRef .tc main_arg2) := StableHlo.after_of_writes_sub main_part3_ops2 _ main_part3_ops2_writes (by decide)
    _ = W11 m ρ c (Proc.devRef .tc main_arg2) := W12_of_ne m ρ c main_arg2 (by decide)
    _ = W10 m ρ c (Proc.devRef .tc main_arg2) := StableHlo.after_of_writes_sub main_part3_ops1 _ main_part3_ops1_writes (by decide)
    _ = W9 m ρ c (Proc.devRef .tc main_arg2) := W10_of_ne m ρ c main_arg2 (by decide)
    _ = W8 m ρ c (Proc.devRef .tc main_arg2) := StableHlo.after_of_writes_sub main_part3_ops0 _ main_part3_ops0_writes (by decide)
    _ = W7 m ρ c (Proc.devRef .tc main_arg2) := StableHlo.after_of_writes_sub main_part2_ops0 _ main_part2_ops0_writes (by decide)
    _ = W6 m ρ c (Proc.devRef .tc main_arg2) := StableHlo.after_of_writes_sub main_part1_ops0 _ main_part1_ops0_writes (by decide)
    _ = W5 m ρ c (Proc.devRef .tc main_arg2) := StableHlo.after_of_writes_sub main_part0_ops1 _ main_part0_ops1_writes (by decide)
    _ = W4 m ρ c (Proc.devRef .tc main_arg2) := (W5_arr m ρ c 0).trans (((dat3 (V4 m ρ) c).arrAt_in 0 rfl _).trans (A_eq3 (V4 m ρ) c 0))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub main_part0_ops0 _ main_part0_ops0_writes (by decide)
    _ = m ((c : Thread nD τ).loc main_arg2) := rfl
theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := StableHlo.after_of_writes_sub main_part3_ops3 _ main_part3_ops3_writes (by decide)
    _ = W13 m ρ c (Proc.devRef .tc main_arg3) := W14_of_ne m ρ c main_arg3 (by decide)
    _ = W12 m ρ c (Proc.devRef .tc main_arg3) := StableHlo.after_of_writes_sub main_part3_ops2 _ main_part3_ops2_writes (by decide)
    _ = W11 m ρ c (Proc.devRef .tc main_arg3) := W12_of_ne m ρ c main_arg3 (by decide)
    _ = W10 m ρ c (Proc.devRef .tc main_arg3) := StableHlo.after_of_writes_sub main_part3_ops1 _ main_part3_ops1_writes (by decide)
    _ = W9 m ρ c (Proc.devRef .tc main_arg3) := W10_of_ne m ρ c main_arg3 (by decide)
    _ = W8 m ρ c (Proc.devRef .tc main_arg3) := StableHlo.after_of_writes_sub main_part3_ops0 _ main_part3_ops0_writes (by decide)
    _ = W7 m ρ c (Proc.devRef .tc main_arg3) := StableHlo.after_of_writes_sub main_part2_ops0 _ main_part2_ops0_writes (by decide)
    _ = W6 m ρ c (Proc.devRef .tc main_arg3) := StableHlo.after_of_writes_sub main_part1_ops0 _ main_part1_ops0_writes (by decide)
    _ = W5 m ρ c (Proc.devRef .tc main_arg3) := StableHlo.after_of_writes_sub main_part0_ops1 _ main_part0_ops1_writes (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := (W3_arr m ρ c 0).trans (((dat1 (V2 m ρ) c).arrAt_in 0 rfl _).trans (A_eq1 (V2 m ρ) c 0))
    _ = W1 m ρ c (Proc.devRef .tc main_arg3) := W2_of_ne m ρ c main_arg3 (by decide)
    _ = W0 m ρ c (Proc.devRef .tc main_arg3) := StableHlo.after_of_writes_sub main_part0_ops0 _ main_part0_ops0_writes (by decide)
    _ = m ((c : Thread nD τ).loc main_arg3) := rfl
theorem W16_main_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of_ne m ρ c main_arg4 (by decide)
    _ = W14 m ρ c (Proc.devRef .tc main_arg4) := StableHlo.after_of_writes_sub main_part3_ops3 _ main_part3_ops3_writes (by decide)
    _ = W13 m ρ c (Proc.devRef .tc main_arg4) := W14_of_ne m ρ c main_arg4 (by decide)
    _ = W12 m ρ c (Proc.devRef .tc main_arg4) := StableHlo.after_of_writes_sub main_part3_ops2 _ main_part3_ops2_writes (by decide)
    _ = W11 m ρ c (Proc.devRef .tc main_arg4) := W12_of_ne m ρ c main_arg4 (by decide)
    _ = W10 m ρ c (Proc.devRef .tc main_arg4) := StableHlo.after_of_writes_sub main_part3_ops1 _ main_part3_ops1_writes (by decide)
    _ = W9 m ρ c (Proc.devRef .tc main_arg4) := W10_of_ne m ρ c main_arg4 (by decide)
    _ = W8 m ρ c (Proc.devRef .tc main_arg4) := StableHlo.after_of_writes_sub main_part3_ops0 _ main_part3_ops0_writes (by decide)
    _ = W7 m ρ c (Proc.devRef .tc main_arg4) := StableHlo.after_of_writes_sub main_part2_ops0 _ main_part2_ops0_writes (by decide)
    _ = W6 m ρ c (Proc.devRef .tc main_arg4) := StableHlo.after_of_writes_sub main_part1_ops0 _ main_part1_ops0_writes (by decide)
    _ = W5 m ρ c (Proc.devRef .tc main_arg4) := StableHlo.after_of_writes_sub main_part0_ops1 _ main_part0_ops1_writes (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub main_part0_ops0 _ main_part0_ops0_writes (by decide)
    _ = m ((c : Thread nD τ).loc main_arg4) := rfl
theorem W16_main_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of_ne m ρ c main_arg5 (by decide)
    _ = W14 m ρ c (Proc.devRef .tc main_arg5) := StableHlo.after_of_writes_sub main_part3_ops3 _ main_part3_ops3_writes (by decide)
    _ = W13 m ρ c (Proc.devRef .tc main_arg5) := W14_of_ne m ρ c main_arg5 (by decide)
    _ = W12 m ρ c (Proc.devRef .tc main_arg5) := StableHlo.after_of_writes_sub main_part3_ops2 _ main_part3_ops2_writes (by decide)
    _ = W11 m ρ c (Proc.devRef .tc main_arg5) := W12_of_ne m ρ c main_arg5 (by decide)
    _ = W10 m ρ c (Proc.devRef .tc main_arg5) := StableHlo.after_of_writes_sub main_part3_ops1 _ main_part3_ops1_writes (by decide)
    _ = W9 m ρ c (Proc.devRef .tc main_arg5) := W10_of_ne m ρ c main_arg5 (by decide)
    _ = W8 m ρ c (Proc.devRef .tc main_arg5) := StableHlo.after_of_writes_sub main_part3_ops0 _ main_part3_ops0_writes (by decide)
    _ = W7 m ρ c (Proc.devRef .tc main_arg5) := StableHlo.after_of_writes_sub main_part2_ops0 _ main_part2_ops0_writes (by decide)
    _ = W6 m ρ c (Proc.devRef .tc main_arg5) := StableHlo.after_of_writes_sub main_part1_ops0 _ main_part1_ops0_writes (by decide)
    _ = W5 m ρ c (Proc.devRef .tc main_arg5) := StableHlo.after_of_writes_sub main_part0_ops1 _ main_part0_ops1_writes (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub main_part0_ops0 _ main_part0_ops0_writes (by decide)
    _ = m ((c : Thread nD τ).loc main_arg5) := rfl
theorem W16_main_arg6 (c : Dev nD) : W16 m ρ c (Proc.devRef .tc main_arg6) = m ((c : Thread nD τ).loc main_arg6) :=
  calc W16 m ρ c (Proc.devRef .tc main_arg6)
    _ = W15 m ρ c (Proc.devRef .tc main_arg6) := W16_of_ne m ρ c main_arg6 (by decide)
    _ = W14 m ρ c (Proc.devRef .tc main_arg6) := StableHlo.after_of_writes_sub main_part3_ops3 _ main_part3_ops3_writes (by decide)
    _ = W13 m ρ c (Proc.devRef .tc main_arg6) := W14_of_ne m ρ c main_arg6 (by decide)
    _ = W12 m ρ c (Proc.devRef .tc main_arg6) := StableHlo.after_of_writes_sub main_part3_ops2 _ main_part3_ops2_writes (by decide)
    _ = W11 m ρ c (Proc.devRef .tc main_arg6) := W12_of_ne m ρ c main_arg6 (by decide)
    _ = W10 m ρ c (Proc.devRef .tc main_arg6) := StableHlo.after_of_writes_sub main_part3_ops1 _ main_part3_ops1_writes (by decide)
    _ = W9 m ρ c (Proc.devRef .tc main_arg6) := W10_of_ne m ρ c main_arg6 (by decide)
    _ = W8 m ρ c (Proc.devRef .tc main_arg6) := StableHlo.after_of_writes_sub main_part3_ops0 _ main_part3_ops0_writes (by decide)
    _ = W7 m ρ c (Proc.devRef .tc main_arg6) := StableHlo.after_of_writes_sub main_part2_ops0 _ main_part2_ops0_writes (by decide)
    _ = W6 m ρ c (Proc.devRef .tc main_arg6) := StableHlo.after_of_writes_sub main_part1_ops0 _ main_part1_ops0_writes (by decide)
    _ = W5 m ρ c (Proc.devRef .tc main_arg6) := StableHlo.after_of_writes_sub main_part0_ops1 _ main_part0_ops1_writes (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub main_part0_ops0 _ main_part0_ops0_writes (by decide)
    _ = m ((c : Thread nD τ).loc main_arg6) := rfl
theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := StableHlo.after_of_writes_sub main_part3_ops3 _ main_part3_ops3_writes (by decide)
    _ = W13 m ρ c (Proc.devRef .tc main_arg7) := W14_of_ne m ρ c main_arg7 (by decide)
    _ = W12 m ρ c (Proc.devRef .tc main_arg7) := StableHlo.after_of_writes_sub main_part3_ops2 _ main_part3_ops2_writes (by decide)
    _ = W11 m ρ c (Proc.devRef .tc main_arg7) := W12_of_ne m ρ c main_arg7 (by decide)
    _ = W10 m ρ c (Proc.devRef .tc main_arg7) := StableHlo.after_of_writes_sub main_part3_ops1 _ main_part3_ops1_writes (by decide)
    _ = W9 m ρ c (Proc.devRef .tc main_arg7) := W10_of_ne m ρ c main_arg7 (by decide)
    _ = W8 m ρ c (Proc.devRef .tc main_arg7) := StableHlo.after_of_writes_sub main_part3_ops0 _ main_part3_ops0_writes (by decide)
    _ = W7 m ρ c (Proc.devRef .tc main_arg7) := StableHlo.after_of_writes_sub main_part2_ops0 _ main_part2_ops0_writes (by decide)
    _ = W6 m ρ c (Proc.devRef .tc main_arg7) := StableHlo.after_of_writes_sub main_part1_ops0 _ main_part1_ops0_writes (by decide)
    _ = W5 m ρ c (Proc.devRef .tc main_arg7) := StableHlo.after_of_writes_sub main_part0_ops1 _ main_part0_ops1_writes (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub main_part0_ops0 _ main_part0_ops0_writes (by decide)
    _ = m ((c : Thread nD τ).loc main_arg7) := rfl
theorem W16_main_arg8 (c : Dev nD) : W16 m ρ c (Proc.devRef .tc main_arg8) = m ((c : Thread nD τ).loc main_arg8) :=
  calc W16 m ρ c (Proc.devRef .tc main_arg8)
    _ = W15 m ρ c (Proc.devRef .tc main_arg8) := W16_of_ne m ρ c main_arg8 (by decide)
    _ = W14 m ρ c (Proc.devRef .tc main_arg8) := StableHlo.after_of_writes_sub main_part3_ops3 _ main_part3_ops3_writes (by decide)
    _ = W13 m ρ c (Proc.devRef .tc main_arg8) := W14_of_ne m ρ c main_arg8 (by decide)
    _ = W12 m ρ c (Proc.devRef .tc main_arg8) := StableHlo.after_of_writes_sub main_part3_ops2 _ main_part3_ops2_writes (by decide)
    _ = W11 m ρ c (Proc.devRef .tc main_arg8) := W12_of_ne m ρ c main_arg8 (by decide)
    _ = W10 m ρ c (Proc.devRef .tc main_arg8) := StableHlo.after_of_writes_sub main_part3_ops1 _ main_part3_ops1_writes (by decide)
    _ = W9 m ρ c (Proc.devRef .tc main_arg8) := W10_of_ne m ρ c main_arg8 (by decide)
    _ = W8 m ρ c (Proc.devRef .tc main_arg8) := StableHlo.after_of_writes_sub main_part3_ops0 _ main_part3_ops0_writes (by decide)
    _ = W7 m ρ c (Proc.devRef .tc main_arg8) := StableHlo.after_of_writes_sub main_part2_ops0 _ main_part2_ops0_writes (by decide)
    _ = W6 m ρ c (Proc.devRef .tc main_arg8) := StableHlo.after_of_writes_sub main_part1_ops0 _ main_part1_ops0_writes (by decide)
    _ = W5 m ρ c (Proc.devRef .tc main_arg8) := StableHlo.after_of_writes_sub main_part0_ops1 _ main_part0_ops1_writes (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub main_part0_ops0 _ main_part0_ops0_writes (by decide)
    _ = m ((c : Thread nD τ).loc main_arg8) := rfl
theorem W16_main_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := StableHlo.after_of_writes_sub main_part3_ops3 _ main_part3_ops3_writes (by decide)
    _ = W13 m ρ c (Proc.devRef .tc main_arg9) := W14_of_ne m ρ c main_arg9 (by decide)
    _ = W12 m ρ c (Proc.devRef .tc main_arg9) := StableHlo.after_of_writes_sub main_part3_ops2 _ main_part3_ops2_writes (by decide)
    _ = W11 m ρ c (Proc.devRef .tc main_arg9) := W12_of_ne m ρ c main_arg9 (by decide)
    _ = W10 m ρ c (Proc.devRef .tc main_arg9) := StableHlo.after_of_writes_sub main_part3_ops1 _ main_part3_ops1_writes (by decide)
    _ = W9 m ρ c (Proc.devRef .tc main_arg9) := W10_of_ne m ρ c main_arg9 (by decide)
    _ = W8 m ρ c (Proc.devRef .tc main_arg9) := StableHlo.after_of_writes_sub main_part3_ops0 _ main_part3_ops0_writes (by decide)
    _ = W7 m ρ c (Proc.devRef .tc main_arg9) := StableHlo.after_of_writes_sub main_part2_ops0 _ main_part2_ops0_writes (by decide)
    _ = W6 m ρ c (Proc.devRef .tc main_arg9) := StableHlo.after_of_writes_sub main_part1_ops0 _ main_part1_ops0_writes (by decide)
    _ = W5 m ρ c (Proc.devRef .tc main_arg9) := StableHlo.after_of_writes_sub main_part0_ops1 _ main_part0_ops1_writes (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub main_part0_ops0 _ main_part0_ops0_writes (by decide)
    _ = m ((c : Thread nD τ).loc main_arg9) := rfl
theorem W16_main_arg10 (c : Dev nD) : W16 m ρ c (Proc.devRef .tc main_arg10) = m ((c : Thread nD τ).loc main_arg10) :=
  calc W16 m ρ c (Proc.devRef .tc main_arg10)
    _ = W15 m ρ c (Proc.devRef .tc main_arg10) := W16_of_ne m ρ c main_arg10 (by decide)
    _ = W14 m ρ c (Proc.devRef .tc main_arg10) := StableHlo.after_of_writes_sub main_part3_ops3 _ main_part3_ops3_writes (by decide)
    _ = W13 m ρ c (Proc.devRef .tc main_arg10) := W14_of_ne m ρ c main_arg10 (by decide)
    _ = W12 m ρ c (Proc.devRef .tc main_arg10) := StableHlo.after_of_writes_sub main_part3_ops2 _ main_part3_ops2_writes (by decide)
    _ = W11 m ρ c (Proc.devRef .tc main_arg10) := W12_of_ne m ρ c main_arg10 (by decide)
    _ = W10 m ρ c (Proc.devRef .tc main_arg10) := StableHlo.after_of_writes_sub main_part3_ops1 _ main_part3_ops1_writes (by decide)
    _ = W9 m ρ c (Proc.devRef .tc main_arg10) := W10_of_ne m ρ c main_arg10 (by decide)
    _ = W8 m ρ c (Proc.devRef .tc main_arg10) := StableHlo.after_of_writes_sub main_part3_ops0 _ main_part3_ops0_writes (by decide)
    _ = W7 m ρ c (Proc.devRef .tc main_arg10) := StableHlo.after_of_writes_sub main_part2_ops0 _ main_part2_ops0_writes (by decide)
    _ = W6 m ρ c (Proc.devRef .tc main_arg10) := StableHlo.after_of_writes_sub main_part1_ops0 _ main_part1_ops0_writes (by decide)
    _ = W5 m ρ c (Proc.devRef .tc main_arg10) := StableHlo.after_of_writes_sub main_part0_ops1 _ main_part0_ops1_writes (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub main_part0_ops0 _ main_part0_ops0_writes (by decide)
    _ = m ((c : Thread nD τ).loc main_arg10) := rfl
theorem W16_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := StableHlo.after_of_writes_sub main_part3_ops3 _ main_part3_ops3_writes (by decide)
    _ = W13 m ρ c (Proc.devRef .tc main_arg11) := W14_of_ne m ρ c main_arg11 (by decide)
    _ = W12 m ρ c (Proc.devRef .tc main_arg11) := StableHlo.after_of_writes_sub main_part3_ops2 _ main_part3_ops2_writes (by decide)
    _ = W11 m ρ c (Proc.devRef .tc main_arg11) := W12_of_ne m ρ c main_arg11 (by decide)
    _ = W10 m ρ c (Proc.devRef .tc main_arg11) := StableHlo.after_of_writes_sub main_part3_ops1 _ main_part3_ops1_writes (by decide)
    _ = W9 m ρ c (Proc.devRef .tc main_arg11) := W10_of_ne m ρ c main_arg11 (by decide)
    _ = W8 m ρ c (Proc.devRef .tc main_arg11) := StableHlo.after_of_writes_sub main_part3_ops0 _ main_part3_ops0_writes (by decide)
    _ = W7 m ρ c (Proc.devRef .tc main_arg11) := StableHlo.after_of_writes_sub main_part2_ops0 _ main_part2_ops0_writes (by decide)
    _ = W6 m ρ c (Proc.devRef .tc main_arg11) := StableHlo.after_of_writes_sub main_part1_ops0 _ main_part1_ops0_writes (by decide)
    _ = W5 m ρ c (Proc.devRef .tc main_arg11) := StableHlo.after_of_writes_sub main_part0_ops1 _ main_part0_ops1_writes (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub main_part0_ops0 _ main_part0_ops0_writes (by decide)
    _ = m ((c : Thread nD τ).loc main_arg11) := rfl
theorem W16_main_arg12 (c : Dev nD) : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := StableHlo.after_of_writes_sub main_part3_ops3 _ main_part3_ops3_writes (by decide)
    _ = W13 m ρ c (Proc.devRef .tc main_arg12) := W14_of_ne m ρ c main_arg12 (by decide)
    _ = W12 m ρ c (Proc.devRef .tc main_arg12) := StableHlo.after_of_writes_sub main_part3_ops2 _ main_part3_ops2_writes (by decide)
    _ = W11 m ρ c (Proc.devRef .tc main_arg12) := W12_of_ne m ρ c main_arg12 (by decide)
    _ = W10 m ρ c (Proc.devRef .tc main_arg12) := StableHlo.after_of_writes_sub main_part3_ops1 _ main_part3_ops1_writes (by decide)
    _ = W9 m ρ c (Proc.devRef .tc main_arg12) := W10_of_ne m ρ c main_arg12 (by decide)
    _ = W8 m ρ c (Proc.devRef .tc main_arg12) := StableHlo.after_of_writes_sub main_part3_ops0 _ main_part3_ops0_writes (by decide)
    _ = W7 m ρ c (Proc.devRef .tc main_arg12) := StableHlo.after_of_writes_sub main_part2_ops0 _ main_part2_ops0_writes (by decide)
    _ = W6 m ρ c (Proc.devRef .tc main_arg12) := StableHlo.after_of_writes_sub main_part1_ops0 _ main_part1_ops0_writes (by decide)
    _ = W5 m ρ c (Proc.devRef .tc main_arg12) := StableHlo.after_of_writes_sub main_part0_ops1 _ main_part0_ops1_writes (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub main_part0_ops0 _ main_part0_ops0_writes (by decide)
    _ = m ((c : Thread nD τ).loc main_arg12) := rfl
theorem W16_main_arg13 (c : Dev nD) : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = W14 m ρ c (Proc.devRef .tc main_arg13) := StableHlo.after_of_writes_sub main_part3_ops3 _ main_part3_ops3_writes (by decide)
    _ = W13 m ρ c (Proc.devRef .tc main_arg13) := W14_of_ne m ρ c main_arg13 (by decide)
    _ = W12 m ρ c (Proc.devRef .tc main_arg13) := StableHlo.after_of_writes_sub main_part3_ops2 _ main_part3_ops2_writes (by decide)
    _ = W11 m ρ c (Proc.devRef .tc main_arg13) := W12_of_ne m ρ c main_arg13 (by decide)
    _ = W10 m ρ c (Proc.devRef .tc main_arg13) := StableHlo.after_of_writes_sub main_part3_ops1 _ main_part3_ops1_writes (by decide)
    _ = W9 m ρ c (Proc.devRef .tc main_arg13) := W10_of_ne m ρ c main_arg13 (by decide)
    _ = W8 m ρ c (Proc.devRef .tc main_arg13) := StableHlo.after_of_writes_sub main_part3_ops0 _ main_part3_ops0_writes (by decide)
    _ = W7 m ρ c (Proc.devRef .tc main_arg13) := StableHlo.after_of_writes_sub main_part2_ops0 _ main_part2_ops0_writes (by decide)
    _ = W6 m ρ c (Proc.devRef .tc main_arg13) := StableHlo.after_of_writes_sub main_part1_ops0 _ main_part1_ops0_writes (by decide)
    _ = W5 m ρ c (Proc.devRef .tc main_arg13) := StableHlo.after_of_writes_sub main_part0_ops1 _ main_part0_ops1_writes (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub main_part0_ops0 _ main_part0_ops0_writes (by decide)
    _ = m ((c : Thread nD τ).loc main_arg13) := rfl
theorem W16_main_arg14 (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := StableHlo.after_of_writes_sub main_part3_ops3 _ main_part3_ops3_writes (by decide)
    _ = W13 m ρ c (Proc.devRef .tc main_arg14) := W14_of_ne m ρ c main_arg14 (by decide)
    _ = W12 m ρ c (Proc.devRef .tc main_arg14) := StableHlo.after_of_writes_sub main_part3_ops2 _ main_part3_ops2_writes (by decide)
    _ = W11 m ρ c (Proc.devRef .tc main_arg14) := W12_of_ne m ρ c main_arg14 (by decide)
    _ = W10 m ρ c (Proc.devRef .tc main_arg14) := StableHlo.after_of_writes_sub main_part3_ops1 _ main_part3_ops1_writes (by decide)
    _ = W9 m ρ c (Proc.devRef .tc main_arg14) := W10_of_ne m ρ c main_arg14 (by decide)
    _ = W8 m ρ c (Proc.devRef .tc main_arg14) := StableHlo.after_of_writes_sub main_part3_ops0 _ main_part3_ops0_writes (by decide)
    _ = W7 m ρ c (Proc.devRef .tc main_arg14) := StableHlo.after_of_writes_sub main_part2_ops0 _ main_part2_ops0_writes (by decide)
    _ = W6 m ρ c (Proc.devRef .tc main_arg14) := StableHlo.after_of_writes_sub main_part1_ops0 _ main_part1_ops0_writes (by decide)
    _ = W5 m ρ c (Proc.devRef .tc main_arg14) := StableHlo.after_of_writes_sub main_part0_ops1 _ main_part0_ops1_writes (by decide)
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_writes_sub main_part0_ops0 _ main_part0_ops0_writes (by decide)
    _ = m ((c : Thread nD τ).loc main_arg14) := rfl
theorem W16_main_arg15 (c : Dev nD) : W16 m ρ c (Proc.devRef .tc main_arg15) = m ((c : Thread nD τ).loc main_arg15) :=
  calc W16 m ρ c (Proc.devRef .tc main_arg15)
    _ = W15 m ρ c (Proc.devRef .tc main_arg15) := W16_of_ne m ρ c main_arg15 (by decide)
    _ = W14 m ρ c (Proc.devRef .tc main_arg15) := StableHlo.after_of_writes_sub main_part3_ops3 _ main_part3_ops3_writes (by decide)
    _ = W13 m ρ c (Proc.devRef .tc main_arg15) := W14_of_ne m ρ c main_arg15 (by decide)
    _ = W12 m ρ c (Proc.devRef .tc main_arg15) := StableHlo.after_of_writes_sub main_part3_ops2 _ main_part3_ops2_writes (by decide)
    _ = W11 m ρ c (Proc.devRef .tc main_arg15) := W12_of_ne m ρ c main_arg15 (by decide)
    _ = W10 m ρ c (Proc.devRef .tc main_arg15) := StableHlo.after_of_writes_sub main_part3_ops1 _ main_part3_ops1_writes (by decide)
    _ = W9 m ρ c (Proc.devRef .tc main_arg15) := W10_of_ne m ρ c main_arg15 (by decide)
    _ = W8 m ρ c (Proc.devRef .tc main_arg15) := StableHlo.after_of_writes_sub main_part3_ops0 _ main_part3_ops0_writes (by decide)
    _ = W7 m ρ c (Proc.devRef .tc main_arg15) := StableHlo.after_of_writes_sub main_part2_ops0 _ main_part2_ops0_writes (by decide)
    _ = W6 m ρ c (Proc.devRef .tc main_arg15) := StableHlo.after_of_writes_sub main_part1_ops0 _ main_part1_ops0_writes (by decide)
    _ = W5 m ρ c (Proc.devRef .tc main_arg15) := StableHlo.after_of_writes_sub main_part0_ops1 _ main_part0_ops1_writes (by decide)
    _ = W4 m ρ c (Proc.devRef .tc main_arg15) := W5_of_ne m ρ c main_arg15 (by decide)
    _ = W3 m ρ c (Proc.devRef .tc main_arg15) := W4_of_ne m ρ c main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_writes_sub main_part0_ops0 _ main_part0_ops0_writes (by decide)
    _ = m ((c : Thread nD τ).loc main_arg15) := rfl
theorem W16_main_arg16 (c : Dev nD) : W16 m ρ c (Proc.devRef .tc main_arg16) = m ((c : Thread nD τ).loc main_arg16) :=
  calc W16 m ρ c (Proc.devRef .tc main_arg16)
    _ = W15 m ρ c (Proc.devRef .tc main_arg16) := W16_of_ne m ρ c main_arg16 (by decide)
    _ = W14 m ρ c (Proc.devRef .tc main_arg16) := StableHlo.after_of_writes_sub main_part3_ops3 _ main_part3_ops3_writes (by decide)
    _ = W13 m ρ c (Proc.devRef .tc main_arg16) := W14_of_ne m ρ c main_arg16 (by decide)
    _ = W12 m ρ c (Proc.devRef .tc main_arg16) := StableHlo.after_of_writes_sub main_part3_ops2 _ main_part3_ops2_writes (by decide)
    _ = W11 m ρ c (Proc.devRef .tc main_arg16) := W12_of_ne m ρ c main_arg16 (by decide)
    _ = W10 m ρ c (Proc.devRef .tc main_arg16) := StableHlo.after_of_writes_sub main_part3_ops1 _ main_part3_ops1_writes (by decide)
    _ = W9 m ρ c (Proc.devRef .tc main_arg16) := W10_of_ne m ρ c main_arg16 (by decide)
    _ = W8 m ρ c (Proc.devRef .tc main_arg16) := StableHlo.after_of_writes_sub main_part3_ops0 _ main_part3_ops0_writes (by decide)
    _ = W7 m ρ c (Proc.devRef .tc main_arg16) := StableHlo.after_of_writes_sub main_part2_ops0 _ main_part2_ops0_writes (by decide)
    _ = W6 m ρ c (Proc.devRef .tc main_arg16) := StableHlo.after_of_writes_sub main_part1_ops0 _ main_part1_ops0_writes (by decide)
    _ = W5 m ρ c (Proc.devRef .tc main_arg16) := StableHlo.after_of_writes_sub main_part0_ops1 _ main_part0_ops1_writes (by decide)
    _ = W4 m ρ c (Proc.devRef .tc main_arg16) := W5_of_ne m ρ c main_arg16 (by decide)
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := StableHlo.after_of_writes_sub main_part0_ops0 _ main_part0_ops0_writes (by decide)
    _ = m ((c : Thread nD τ).loc main_arg16) := rfl
theorem W16_main_arg17 (c : Dev nD) : W16 m ρ c (Proc.devRef .tc main_arg17) = m ((c : Thread nD τ).loc main_arg17) :=
  calc W16 m ρ c (Proc.devRef .tc main_arg17)
    _ = W15 m ρ c (Proc.devRef .tc main_arg17) := W16_of_ne m ρ c main_arg17 (by decide)
    _ = W14 m ρ c (Proc.devRef .tc main_arg17) := StableHlo.after_of_writes_sub main_part3_ops3 _ main_part3_ops3_writes (by decide)
    _ = W13 m ρ c (Proc.devRef .tc main_arg17) := W14_of_ne m ρ c main_arg17 (by decide)
    _ = W12 m ρ c (Proc.devRef .tc main_arg17) := StableHlo.after_of_writes_sub main_part3_ops2 _ main_part3_ops2_writes (by decide)
    _ = W11 m ρ c (Proc.devRef .tc main_arg17) := W12_of_ne m ρ c main_arg17 (by decide)
    _ = W10 m ρ c (Proc.devRef .tc main_arg17) := StableHlo.after_of_writes_sub main_part3_ops1 _ main_part3_ops1_writes (by decide)
    _ = W9 m ρ c (Proc.devRef .tc main_arg17) := W10_of_ne m ρ c main_arg17 (by decide)
    _ = W8 m ρ c (Proc.devRef .tc main_arg17) := StableHlo.after_of_writes_sub main_part3_ops0 _ main_part3_ops0_writes (by decide)
    _ = W7 m ρ c (Proc.devRef .tc main_arg17) := StableHlo.after_of_writes_sub main_part2_ops0 _ main_part2_ops0_writes (by decide)
    _ = W6 m ρ c (Proc.devRef .tc main_arg17) := StableHlo.after_of_writes_sub main_part1_ops0 _ main_part1_ops0_writes (by decide)
    _ = W5 m ρ c (Proc.devRef .tc main_arg17) := StableHlo.after_of_writes_sub main_part0_ops1 _ main_part0_ops1_writes (by decide)
    _ = W4 m ρ c (Proc.devRef .tc main_arg17) := W5_of_ne m ρ c main_arg17 (by decide)
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub main_part0_ops0 _ main_part0_ops0_writes (by decide)
    _ = m ((c : Thread nD τ).loc main_arg17) := rfl
theorem W16_main_arg18 (c : Dev nD) : W16 m ρ c (Proc.devRef .tc main_arg18) = m ((c : Thread nD τ).loc main_arg18) :=
  calc W16 m ρ c (Proc.devRef .tc main_arg18)
    _ = W15 m ρ c (Proc.devRef .tc main_arg18) := W16_of_ne m ρ c main_arg18 (by decide)
    _ = W14 m ρ c (Proc.devRef .tc main_arg18) := StableHlo.after_of_writes_sub main_part3_ops3 _ main_part3_ops3_writes (by decide)
    _ = W13 m ρ c (Proc.devRef .tc main_arg18) := W14_of_ne m ρ c main_arg18 (by decide)
    _ = W12 m ρ c (Proc.devRef .tc main_arg18) := StableHlo.after_of_writes_sub main_part3_ops2 _ main_part3_ops2_writes (by decide)
    _ = W11 m ρ c (Proc.devRef .tc main_arg18) := W12_of_ne m ρ c main_arg18 (by decide)
    _ = W10 m ρ c (Proc.devRef .tc main_arg18) := StableHlo.after_of_writes_sub main_part3_ops1 _ main_part3_ops1_writes (by decide)
    _ = W9 m ρ c (Proc.devRef .tc main_arg18) := W10_of_ne m ρ c main_arg18 (by decide)
    _ = W8 m ρ c (Proc.devRef .tc main_arg18) := StableHlo.after_of_writes_sub main_part3_ops0 _ main_part3_ops0_writes (by decide)
    _ = W7 m ρ c (Proc.devRef .tc main_arg18) := StableHlo.after_of_writes_sub main_part2_ops0 _ main_part2_ops0_writes (by decide)
    _ = W6 m ρ c (Proc.devRef .tc main_arg18) := StableHlo.after_of_writes_sub main_part1_ops0 _ main_part1_ops0_writes (by decide)
    _ = W5 m ρ c (Proc.devRef .tc main_arg18) := StableHlo.after_of_writes_sub main_part0_ops1 _ main_part0_ops1_writes (by decide)
    _ = W4 m ρ c (Proc.devRef .tc main_arg18) := W5_of_ne m ρ c main_arg18 (by decide)
    _ = W3 m ρ c (Proc.devRef .tc main_arg18) := W4_of_ne m ρ c main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_writes_sub main_part0_ops0 _ main_part0_ops0_writes (by decide)
    _ = m ((c : Thread nD τ).loc main_arg18) := rfl
theorem W16_main_arg19 (c : Dev nD) : W16 m ρ c (Proc.devRef .tc main_arg19) = m ((c : Thread nD τ).loc main_arg19) :=
  calc W16 m ρ c (Proc.devRef .tc main_arg19)
    _ = W15 m ρ c (Proc.devRef .tc main_arg19) := W16_of_ne m ρ c main_arg19 (by decide)
    _ = W14 m ρ c (Proc.devRef .tc main_arg19) := StableHlo.after_of_writes_sub main_part3_ops3 _ main_part3_ops3_writes (by decide)
    _ = W13 m ρ c (Proc.devRef .tc main_arg19) := W14_of_ne m ρ c main_arg19 (by decide)
    _ = W12 m ρ c (Proc.devRef .tc main_arg19) := StableHlo.after_of_writes_sub main_part3_ops2 _ main_part3_ops2_writes (by decide)
    _ = W11 m ρ c (Proc.devRef .tc main_arg19) := W12_of_ne m ρ c main_arg19 (by decide)
    _ = W10 m ρ c (Proc.devRef .tc main_arg19) := StableHlo.after_of_writes_sub main_part3_ops1 _ main_part3_ops1_writes (by decide)
    _ = W9 m ρ c (Proc.devRef .tc main_arg19) := W10_of_ne m ρ c main_arg19 (by decide)
    _ = W8 m ρ c (Proc.devRef .tc main_arg19) := StableHlo.after_of_writes_sub main_part3_ops0 _ main_part3_ops0_writes (by decide)
    _ = W7 m ρ c (Proc.devRef .tc main_arg19) := StableHlo.after_of_writes_sub main_part2_ops0 _ main_part2_ops0_writes (by decide)
    _ = W6 m ρ c (Proc.devRef .tc main_arg19) := StableHlo.after_of_writes_sub main_part1_ops0 _ main_part1_ops0_writes (by decide)
    _ = W5 m ρ c (Proc.devRef .tc main_arg19) := StableHlo.after_of_writes_sub main_part0_ops1 _ main_part0_ops1_writes (by decide)
    _ = W4 m ρ c (Proc.devRef .tc main_arg19) := W5_of_ne m ρ c main_arg19 (by decide)
    _ = W3 m ρ c (Proc.devRef .tc main_arg19) := W4_of_ne m ρ c main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_writes_sub main_part0_ops0 _ main_part0_ops0_writes (by decide)
    _ = m ((c : Thread nD τ).loc main_arg19) := rfl
theorem W16_main_arg20 (c : Dev nD) : W16 m ρ c (Proc.devRef .tc main_arg20) = m ((c : Thread nD τ).loc main_arg20) :=
  calc W16 m ρ c (Proc.devRef .tc main_arg20)
    _ = W15 m ρ c (Proc.devRef .tc main_arg20) := W16_of_ne m ρ c main_arg20 (by decide)
    _ = W14 m ρ c (Proc.devRef .tc main_arg20) := StableHlo.after_of_writes_sub main_part3_ops3 _ main_part3_ops3_writes (by decide)
    _ = W13 m ρ c (Proc.devRef .tc main_arg20) := W14_of_ne m ρ c main_arg20 (by decide)
    _ = W12 m ρ c (Proc.devRef .tc main_arg20) := StableHlo.after_of_writes_sub main_part3_ops2 _ main_part3_ops2_writes (by decide)
    _ = W11 m ρ c (Proc.devRef .tc main_arg20) := W12_of_ne m ρ c main_arg20 (by decide)
    _ = W10 m ρ c (Proc.devRef .tc main_arg20) := StableHlo.after_of_writes_sub main_part3_ops1 _ main_part3_ops1_writes (by decide)
    _ = W9 m ρ c (Proc.devRef .tc main_arg20) := W10_of_ne m ρ c main_arg20 (by decide)
    _ = W8 m ρ c (Proc.devRef .tc main_arg20) := StableHlo.after_of_writes_sub main_part3_ops0 _ main_part3_ops0_writes (by decide)
    _ = W7 m ρ c (Proc.devRef .tc main_arg20) := StableHlo.after_of_writes_sub main_part2_ops0 _ main_part2_ops0_writes (by decide)
    _ = W6 m ρ c (Proc.devRef .tc main_arg20) := StableHlo.after_of_writes_sub main_part1_ops0 _ main_part1_ops0_writes (by decide)
    _ = W5 m ρ c (Proc.devRef .tc main_arg20) := StableHlo.after_of_writes_sub main_part0_ops1 _ main_part0_ops1_writes (by decide)
    _ = W4 m ρ c (Proc.devRef .tc main_arg20) := W5_of_ne m ρ c main_arg20 (by decide)
    _ = W3 m ρ c (Proc.devRef .tc main_arg20) := W4_of_ne m ρ c main_arg20 (by decide)
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := StableHlo.after_of_writes_sub main_part0_ops0 _ main_part0_ops0_writes (by decide)
    _ = m ((c : Thread nD τ).loc main_arg20) := rfl

end Cert.Kernel.Fr

end
-- ==== Proof.KB.Run.lean ====
/-
  The whole run of the program: its items in order — stretches of host operations and the eight kernel regions — as
  segments over one thread state (every unscoped buffer of the core at the boundary's contents, the generator register at
  some state, nothing owed), each region entered by splitting its windows' arrays out of the buffers and left by putting
  them back at what the grid's write-backs made of them. Every weakly fair execution of the program ends, nothing faults,
  and every final memory holds each unscoped buffer at the last boundary's contents; the arguments among them are as
  launched.
-/
import proofs.«134990_j73504070304033_2_alg».proof.Proof.KB.Fold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W16 m ρ c) ∗ ∃ r, prngReg c r)

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (X3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (X4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (X5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (X10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (X12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (X14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (X16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's 16 segments in order. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .region (reg1 m ρ),
    .region (reg2 m ρ),
    .region (reg3 m ρ),
    .host (hseg main_part0_ops1 main_part0_ops1_sub main_part0_ops1_fresh (W5 m ρ)),
    .host (hseg main_part1_ops0 main_part1_ops0_sub main_part1_ops0_fresh (W6 m ρ)),
    .host (hseg main_part2_ops0 main_part2_ops0_sub main_part2_ops0_fresh (W7 m ρ)),
    .host (hseg main_part3_ops0 main_part3_ops0_sub main_part3_ops0_fresh (W8 m ρ)),
    .region (reg4 m ρ),
    .host (hseg main_part3_ops1 main_part3_ops1_sub main_part3_ops1_fresh (W10 m ρ)),
    .region (reg5 m ρ),
    .host (hseg main_part3_ops2 main_part3_ops2_sub main_part3_ops2_fresh (W12 m ρ)),
    .region (reg6 m ρ),
    .host (hseg main_part3_ops3 main_part3_ops3_sub main_part3_ops3_fresh (W14 m ρ)),
    .region (reg7 m ρ) ]
/-- The program IS the run of its segments. -/
theorem main_run (c : Dev nD) : main (F := F) c = Pipeline.Seg.run (segs m ρ) := (main_chain_windows c).trans (by chain_rfl)

set_option backward.isDefEq.respectTransparency.types false in
/-- THE RUN: from any memory with zero counters every weakly fair execution of the program on the cores terminates,
    nothing faulting, and every final memory holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- THE FRAME: every execution ends, nothing faults, and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c),
     (h c _ (mem_uc main_arg11 (by decide))).trans (W16_main_arg11 m ρ c),
     (h c _ (mem_uc main_arg12 (by decide))).trans (W16_main_arg12 m ρ c),
     (h c _ (mem_uc main_arg13 (by decide))).trans (W16_main_arg13 m ρ c),
     (h c _ (mem_uc main_arg14 (by decide))).trans (W16_main_arg14 m ρ c),
     (h c _ (mem_uc main_arg15 (by decide))).trans (W16_main_arg15 m ρ c),
     (h c _ (mem_uc main_arg16 (by decide))).trans (W16_main_arg16 m ρ c),
     (h c _ (mem_uc main_arg17 (by decide))).trans (W16_main_arg17 m ρ c),
     (h c _ (mem_uc main_arg18 (by decide))).trans (W16_main_arg18 m ρ c),
     (h c _ (mem_uc main_arg19 (by decide))).trans (W16_main_arg19 m ρ c),
     (h c _ (mem_uc main_arg20 (by decide))).trans (W16_main_arg20 m ρ c)⟩) (run m ρ)

end Cert.Kernel.Fr

end
-- ==== Proof.KI.Body0.lean ====
/-
  Region 0 of the program (`cc0__project_fused_kernel`), at any float instance and at ANY contents `V` of the core's buffers when the
  region is entered: what one grid point's body leaves in its output block — a 5000-row block of the features times the whole weight matrix, as one store over the whole block —,
  the body's triple, and the proof data of the pipeline (each input window's buffer at its block of the entry array, the
  output window's at that store).
-/
import proofs.«134990_j73504070304033_2_alg».proof.Proof.Gen.KernelIdeal.Launch
import proofs.«134990_j73504070304033_2_alg».proof.Proof.Gen.KernelIdeal.Skeleton
import proofs.«134990_j73504070304033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block of the entry array at every point, whether the
    point fetches it or not (a window whose block index does not move is fetched once and stays). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block of the entry array at every point, whether the
    point fetches it or not (a window whose block index does not move is fetched once and stays). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: one store over the whole block, of the body's value of the input blocks. -/
def out0 (x0 : Vec F S5000x128 .f32) (x1 : Vec F S128x192 .f32) : Vec F S5000x192 .f32 :=
  View.canon [⟨(Rect.unit (s := S5000x192) ![0, 0] S5000x192.size inb_S5000x192_S5000x192_0_0), k0_pay1 (View.ld x0 (Rect.unit (s := S5000x128) ![0, 0] S5000x128.size inb_S5000x128_S5000x128_0_0)) (View.ld x1 (Rect.unit (s := S128x192) ![0, 0] S128x192.size inb_S128x192_S128x192_0_0))⟩]

/-- That one store covers the block. -/
theorem cover0 (p0 : Vec F S5000x192 .f32) (y : S5000x192.Idx) :
    ∃ pc ∈ ([⟨(Rect.unit (s := S5000x192) ![0, 0] S5000x192.size inb_S5000x192_S5000x192_0_0), p0⟩] : List (View.Piece (Elt F) S5000x192 .f32)), y ∈ pc.1.set :=
  View.cover_of_tiled [⟨(Rect.unit (s := S5000x192) ![0, 0] S5000x192.size inb_S5000x192_S5000x192_0_0), p0⟩] S5000x192.size (by rfl) y

set_option maxHeartbeats 1000000 in
/-- The body on whole staging buffers — the inputs' at known contents, the output's at anything — runs to its end holding
    the inputs' unchanged and the output's at `out0` of the inputs'. -/
theorem sound_kernel0 (c : Dev nD) (E : Set ℕ) (i : grid0.Coords) (arg1 : Memref sig .tc .vmem S5000x128 .f32) (harg1 : arg1.IsWhole) (arg2 : Memref sig .tc .vmem S128x192 .f32) (harg2 : arg2.IsWhole) (arg3 : Memref sig .tc .vmem S5000x192 .f32) (harg3 : arg3.IsWhole)
    (x0 : Vec F S5000x128 .f32) (x1 : Vec F S128x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__project_fused_kernel i arg1 harg1 arg2 harg2 arg3 harg3) K := by
  simp only [cc0__project_fused_kernel_eq_skeleton]; unfold cc0__project_fused_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The pipeline's proof data on core `c`: the arrays as the region finds them; after the body at point `t` each input's
    buffer at its block and the output's at `out0` of the input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1 of the program (`cc1__project_fused_kernel`), at any float instance and at ANY contents `V` of the core's buffers when the
  region is entered: what one grid point's body leaves in its output block — a 5000-row block of the features times the whole weight matrix, as one store over the whole block —,
  the body's triple, and the proof data of the pipeline (each input window's buffer at its block of the entry array, the
  output window's at that store).
-/
import proofs.«134990_j73504070304033_2_alg».proof.Proof.Gen.KernelIdeal.Launch
import proofs.«134990_j73504070304033_2_alg».proof.Proof.Gen.KernelIdeal.Skeleton
import proofs.«134990_j73504070304033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the entry array at every point, whether the
    point fetches it or not (a window whose block index does not move is fetched once and stays). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the entry array at every point, whether the
    point fetches it or not (a window whose block index does not move is fetched once and stays). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: one store over the whole block, of the body's value of the input blocks. -/
def out1 (x0 : Vec F S5000x128 .f32) (x1 : Vec F S128x256 .f32) : Vec F S5000x256 .f32 :=
  View.canon [⟨(Rect.unit (s := S5000x256) ![0, 0] S5000x256.size inb_S5000x256_S5000x256_0_0), k1_pay1 (View.ld x0 (Rect.unit (s := S5000x128) ![0, 0] S5000x128.size inb_S5000x128_S5000x128_0_0)) (View.ld x1 (Rect.unit (s := S128x256) ![0, 0] S128x256.size inb_S128x256_S128x256_0_0))⟩]

/-- That one store covers the block. -/
theorem cover1 (p0 : Vec F S5000x256 .f32) (y : S5000x256.Idx) :
    ∃ pc ∈ ([⟨(Rect.unit (s := S5000x256) ![0, 0] S5000x256.size inb_S5000x256_S5000x256_0_0), p0⟩] : List (View.Piece (Elt F) S5000x256 .f32)), y ∈ pc.1.set :=
  View.cover_of_tiled [⟨(Rect.unit (s := S5000x256) ![0, 0] S5000x256.size inb_S5000x256_S5000x256_0_0), p0⟩] S5000x256.size (by rfl) y

set_option maxHeartbeats 1000000 in
/-- The body on whole staging buffers — the inputs' at known contents, the output's at anything — runs to its end holding
    the inputs' unchanged and the output's at `out1` of the inputs'. -/
theorem sound_kernel1 (c : Dev nD) (E : Set ℕ) (i : grid1.Coords) (arg1 : Memref sig .tc .vmem S5000x128 .f32) (harg1 : arg1.IsWhole) (arg2 : Memref sig .tc .vmem S128x256 .f32) (harg2 : arg2.IsWhole) (arg3 : Memref sig .tc .vmem S5000x256 .f32) (harg3 : arg3.IsWhole)
    (x0 : Vec F S5000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__project_fused_kernel i arg1 harg1 arg2 harg2 arg3 harg3) K := by
  simp only [cc1__project_fused_kernel_eq_skeleton]; unfold cc1__project_fused_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The pipeline's proof data on core `c`: the arrays as the region finds them; after the body at point `t` each input's
    buffer at its block and the output's at `out1` of the input blocks; the invariant is the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2 of the program (`cc2__project_fused_kernel`), at any float instance and at ANY contents `V` of the core's buffers when the
  region is entered: what one grid point's body leaves in its output block — a 5000-row block of the features times the whole weight matrix, as one store over the whole block —,
  the body's triple, and the proof data of the pipeline (each input window's buffer at its block of the entry array, the
  output window's at that store).
-/
import proofs.«134990_j73504070304033_2_alg».proof.Proof.Gen.KernelIdeal.Launch
import proofs.«134990_j73504070304033_2_alg».proof.Proof.Gen.KernelIdeal.Skeleton
import proofs.«134990_j73504070304033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block of the entry array at every point, whether the
    point fetches it or not (a window whose block index does not move is fetched once and stays). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block of the entry array at every point, whether the
    point fetches it or not (a window whose block index does not move is fetched once and stays). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: one store over the whole block, of the body's value of the input blocks. -/
def out2 (x0 : Vec F S5000x128 .f32) (x1 : Vec F S128x128 .f32) : Vec F S5000x128 .f32 :=
  View.canon [⟨(Rect.unit (s := S5000x128) ![0, 0] S5000x128.size inb_S5000x128_S5000x128_0_0), k2_pay1 (View.ld x0 (Rect.unit (s := S5000x128) ![0, 0] S5000x128.size inb_S5000x128_S5000x128_0_0)) (View.ld x1 (Rect.unit (s := S128x128) ![0, 0] S128x128.size inb_S128x128_S128x128_0_0))⟩]

/-- That one store covers the block. -/
theorem cover2 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole staging buffers — the inputs' at known contents, the output's at anything — runs to its end holding
    the inputs' unchanged and the output's at `out2` of the inputs'. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__project_fused_kernel i arg1 harg1 arg2 harg2 arg3 harg3) K := by
  simp only [cc2__project_fused_kernel_eq_skeleton]; unfold cc2__project_fused_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core `c`: the arrays as the region finds them; after the body at point `t` each input's
    buffer at its block and the output's at `out2` of the input blocks; the invariant is the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
/-
  Region 3 of the program (`cc3__project_fused_kernel`), at any float instance and at ANY contents `V` of the core's buffers when the
  region is entered: what one grid point's body leaves in its output block — a 4000-row block of the features times the whole weight matrix, as one store over the whole block —,
  the body's triple, and the proof data of the pipeline (each input window's buffer at its block of the entry array, the
  output window's at that store).
-/
import proofs.«134990_j73504070304033_2_alg».proof.Proof.Gen.KernelIdeal.Launch
import proofs.«134990_j73504070304033_2_alg».proof.Proof.Gen.KernelIdeal.Skeleton
import proofs.«134990_j73504070304033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block of the entry array at every point, whether the
    point fetches it or not (a window whose block index does not move is fetched once and stays). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block of the entry array at every point, whether the
    point fetches it or not (a window whose block index does not move is fetched once and stays). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: one store over the whole block, of the body's value of the input blocks. -/
def out3 (x0 : Vec F S4000x128 .f32) (x1 : Vec F S128x128 .f32) : Vec F S4000x128 .f32 :=
  View.canon [⟨(Rect.unit (s := S4000x128) ![0, 0] S4000x128.size inb_S4000x128_S4000x128_0_0), k3_pay1 (View.ld x0 (Rect.unit (s := S4000x128) ![0, 0] S4000x128.size inb_S4000x128_S4000x128_0_0)) (View.ld x1 (Rect.unit (s := S128x128) ![0, 0] S128x128.size inb_S128x128_S128x128_0_0))⟩]

/-- That one store covers the block. -/
theorem cover3 (p0 : Vec F S4000x128 .f32) (y : S4000x128.Idx) :
    ∃ pc ∈ ([⟨(Rect.unit (s := S4000x128) ![0, 0] S4000x128.size inb_S4000x128_S4000x128_0_0), p0⟩] : List (View.Piece (Elt F) S4000x128 .f32)), y ∈ pc.1.set :=
  View.cover_of_tiled [⟨(Rect.unit (s := S4000x128) ![0, 0] S4000x128.size inb_S4000x128_S4000x128_0_0), p0⟩] S4000x128.size (by rfl) y

set_option maxHeartbeats 1000000 in
/-- The body on whole staging buffers — the inputs' at known contents, the output's at anything — runs to its end holding
    the inputs' unchanged and the output's at `out3` of the inputs'. -/
theorem sound_kernel3 (c : Dev nD) (E : Set ℕ) (i : grid3.Coords) (arg1 : Memref sig .tc .vmem S4000x128 .f32) (harg1 : arg1.IsWhole) (arg2 : Memref sig .tc .vmem S128x128 .f32) (harg2 : arg2.IsWhole) (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__project_fused_kernel i arg1 harg1 arg2 harg2 arg3 harg3) K := by
  simp only [cc3__project_fused_kernel_eq_skeleton]; unfold cc3__project_fused_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The pipeline's proof data on core `c`: the arrays as the region finds them; after the body at point `t` each input's
    buffer at its block and the output's at `out3` of the input blocks; the invariant is the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Body4.lean ====
/-
  Region 4 of the program (`cc4__finalize_kernel`), at any float instance and at ANY contents `V` of the core's buffers when the
  region is entered: what one grid point's body leaves in its output block — relu of (aggregate block + self-loop block + the bias row), as one store over the whole block —,
  the body's triple, and the proof data of the pipeline (each input window's buffer at its block of the entry array, the
  output window's at that store).
-/
import proofs.«134990_j73504070304033_2_alg».proof.Proof.Gen.KernelIdeal.Launch
import proofs.«134990_j73504070304033_2_alg».proof.Proof.Gen.KernelIdeal.Skeleton
import proofs.«134990_j73504070304033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block of the entry array at every point, whether the
    point fetches it or not (a window whose block index does not move is fetched once and stays). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block of the entry array at every point, whether the
    point fetches it or not (a window whose block index does not move is fetched once and stays). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block of the entry array at every point, whether the
    point fetches it or not (a window whose block index does not move is fetched once and stays). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The output block after the body: one store over the whole block, of the body's value of the input blocks. -/
def out4 (x0 : Vec F S5000x64 .f32) (x1 : Vec F S5000x64 .f32) (x2 : Vec F S1x64 .f32) : Vec F S5000x64 .f32 :=
  View.canon [⟨(Rect.unit (s := S5000x64) ![0, 0] S5000x64.size inb_S5000x64_S5000x64_0_0), k4_pay1 (View.ld x2 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the block. -/
theorem cover4 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at known contents, the output's at anything — runs to its end holding
    the inputs' unchanged and the output's at `out4` of the inputs'. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4 x0 x1 x2)) -∗ K ⟨⟩))
      ⊢ wp frame (wpE (defs₀ (F := F)) Variants.none c none) E (cc4__finalize_kernel i arg1 harg1 arg2 harg2 arg3 harg3 arg4 harg4) K := by
  simp only [cc4__finalize_kernel_eq_skeleton]; unfold cc4__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The pipeline's proof data on core `c`: the arrays as the region finds them; after the body at point `t` each input's
    buffer at its block and the output's at `out4` of the input blocks; the invariant is the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) (iblk4 V c 2 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Body5.lean ====
/-
  Region 5 of the program (`cc5__finalize_kernel`), at any float instance and at ANY contents `V` of the core's buffers when the
  region is entered: what one grid point's body leaves in its output block — relu of (aggregate block + self-loop block + the bias row), as one store over the whole block —,
  the body's triple, and the proof data of the pipeline (each input window's buffer at its block of the entry array, the
  output window's at that store).
-/
import proofs.«134990_j73504070304033_2_alg».proof.Proof.Gen.KernelIdeal.Launch
import proofs.«134990_j73504070304033_2_alg».proof.Proof.Gen.KernelIdeal.Skeleton
import proofs.«134990_j73504070304033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block of the entry array at every point, whether the
    point fetches it or not (a window whose block index does not move is fetched once and stays). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block of the entry array at every point, whether the
    point fetches it or not (a window whose block index does not move is fetched once and stays). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block of the entry array at every point, whether the
    point fetches it or not (a window whose block index does not move is fetched once and stays). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: one store over the whole block, of the body's value of the input blocks. -/
def out5 (x0 : Vec F S5000x64 .f32) (x1 : Vec F S5000x64 .f32) (x2 : Vec F S1x64 .f32) : Vec F S5000x64 .f32 :=
  View.canon [⟨(Rect.unit (s := S5000x64) ![0, 0] S5000x64.size inb_S5000x64_S5000x64_0_0), k5_pay1 (View.ld x2 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the block. -/
theorem cover5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at known contents, the output's at anything — runs to its end holding
    the inputs' unchanged and the output's at `out5` of the inputs'. -/
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5 x0 x1 x2)) -∗ K ⟨⟩))
      ⊢ wp frame (wpE (defs₀ (F := F)) Variants.none c none) E (cc5__finalize_kernel i arg1 harg1 arg2 harg2 arg3 harg3 arg4 harg4) K := by
  simp only [cc5__finalize_kernel_eq_skeleton]; unfold cc5__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The pipeline's proof data on core `c`: the arrays as the region finds them; after the body at point `t` each input's
    buffer at its block and the output's at `out5` of the input blocks; the invariant is the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5 (iblk5 V c 0 t) (iblk5 V c 1 t) (iblk5 V c 2 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Body6.lean ====
/-
  Region 6 of the program (`cc6__finalize_kernel`), at any float instance and at ANY contents `V` of the core's buffers when the
  region is entered: what one grid point's body leaves in its output block — relu of (aggregate block + self-loop block + the bias row), as one store over the whole block —,
  the body's triple, and the proof data of the pipeline (each input window's buffer at its block of the entry array, the
  output window's at that store).
-/
import proofs.«134990_j73504070304033_2_alg».proof.Proof.Gen.KernelIdeal.Launch
import proofs.«134990_j73504070304033_2_alg».proof.Proof.Gen.KernelIdeal.Skeleton
import proofs.«134990_j73504070304033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds the window's block of the entry array at every point, whether the
    point fetches it or not (a window whose block index does not move is fetched once and stays). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds the window's block of the entry array at every point, whether the
    point fetches it or not (a window whose block index does not move is fetched once and stays). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds the window's block of the entry array at every point, whether the
    point fetches it or not (a window whose block index does not move is fetched once and stays). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The output block after the body: one store over the whole block, of the body's value of the input blocks. -/
def out6 (x0 : Vec F S4000x64 .f32) (x1 : Vec F S4000x64 .f32) (x2 : Vec F S1x64 .f32) : Vec F S4000x64 .f32 :=
  View.canon [⟨(Rect.unit (s := S4000x64) ![0, 0] S4000x64.size inb_S4000x64_S4000x64_0_0), k6_pay1 (View.ld x2 (Rect.unit (s := S1x64) ![0, 0] S1x64.size inb_S1x64_S1x64_0_0)) (View.ld x0 (Rect.unit (s := S4000x64) ![0, 0] S4000x64.size inb_S4000x64_S4000x64_0_0)) (View.ld x1 (Rect.unit (s := S4000x64) ![0, 0] S4000x64.size inb_S4000x64_S4000x64_0_0))⟩]

/-- That one store covers the block. -/
theorem cover6 (p0 : Vec F S4000x64 .f32) (y : S4000x64.Idx) :
    ∃ pc ∈ ([⟨(Rect.unit (s := S4000x64) ![0, 0] S4000x64.size inb_S4000x64_S4000x64_0_0), p0⟩] : List (View.Piece (Elt F) S4000x64 .f32)), y ∈ pc.1.set :=
  View.cover_of_tiled [⟨(Rect.unit (s := S4000x64) ![0, 0] S4000x64.size inb_S4000x64_S4000x64_0_0), p0⟩] S4000x64.size (by rfl) y

set_option maxHeartbeats 1000000 in
/-- The body on whole staging buffers — the inputs' at known contents, the output's at anything — runs to its end holding
    the inputs' unchanged and the output's at `out6` of the inputs'. -/
theorem sound_kernel6 (c : Dev nD) (E : Set ℕ) (i : grid6.Coords) (arg1 : Memref sig .tc .vmem S4000x64 .f32) (harg1 : arg1.IsWhole) (arg2 : Memref sig .tc .vmem S4000x64 .f32) (harg2 : arg2.IsWhole) (arg3 : Memref sig .tc .vmem S1x64 .f32) (harg3 : arg3.IsWhole) (arg4 : Memref sig .tc .vmem S4000x64 .f32) (harg4 : arg4.IsWhole)
    (x0 : Vec F S4000x64 .f32) (x1 : Vec F S4000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6 x0 x1 x2)) -∗ K ⟨⟩))
      ⊢ wp frame (wpE (defs₀ (F := F)) Variants.none c none) E (cc6__finalize_kernel i arg1 harg1 arg2 harg2 arg3 harg3 arg4 harg4) K := by
  simp only [cc6__finalize_kernel_eq_skeleton]; unfold cc6__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-- The pipeline's proof data on core `c`: the arrays as the region finds them; after the body at point `t` each input's
    buffer at its block and the output's at `out6` of the input blocks; the invariant is the scoped rest and the generator
    register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 (iblk6 V c 0 t) (iblk6 V c 1 t) (iblk6 V c 2 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the triple applies; the invariant and what the core
    owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Body7.lean ====
/-
  Region 7 of the program (`cc7__finalize_kernel`), at any float instance and at ANY contents `V` of the core's buffers when the
  region is entered: what one grid point's body leaves in its output block — relu of (aggregate block + self-loop block + the bias row), as one store over the whole block —,
  the body's triple, and the proof data of the pipeline (each input window's buffer at its block of the entry array, the
  output window's at that store).
-/
import proofs.«134990_j73504070304033_2_alg».proof.Proof.Gen.KernelIdeal.Launch
import proofs.«134990_j73504070304033_2_alg».proof.Proof.Gen.KernelIdeal.Skeleton
import proofs.«134990_j73504070304033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds the window's block of the entry array at every point, whether the
    point fetches it or not (a window whose block index does not move is fetched once and stays). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds the window's block of the entry array at every point, whether the
    point fetches it or not (a window whose block index does not move is fetched once and stays). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds the window's block of the entry array at every point, whether the
    point fetches it or not (a window whose block index does not move is fetched once and stays). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The output block after the body: one store over the whole block, of the body's value of the input blocks. -/
def out7 (x0 : Vec F S5000x64 .f32) (x1 : Vec F S5000x64 .f32) (x2 : Vec F S1x64 .f32) : Vec F S5000x64 .f32 :=
  View.canon [⟨(Rect.unit (s := S5000x64) ![0, 0] S5000x64.size inb_S5000x64_S5000x64_0_0), k7_pay1 (View.ld x2 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the block. -/
theorem cover7 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at known contents, the output's at anything — runs to its end holding
    the inputs' unchanged and the output's at `out7` of the inputs'. -/
theorem sound_kernel7 (c : Dev nD) (E : Set ℕ) (i : grid7.Coords) (arg1 : Memref sig .tc .vmem S5000x64 .f32) (harg1 : arg1.IsWhole) (arg2 : Memref sig .tc .vmem S5000x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S5000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7 x0 x1 x2)) -∗ K ⟨⟩))
      ⊢ wp frame (wpE (defs₀ (F := F)) Variants.none c none) E (cc7__finalize_kernel i arg1 harg1 arg2 harg2 arg3 harg3 arg4 harg4) K := by
  simp only [cc7__finalize_kernel_eq_skeleton]; unfold cc7__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7 _)

/-- The pipeline's proof data on core `c`: the arrays as the region finds them; after the body at point `t` each input's
    buffer at its block and the output's at `out7` of the input blocks; the invariant is the scoped rest and the generator
    register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7 (iblk7 V c 0 t) (iblk7 V c 1 t) (iblk7 V c 2 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the triple applies; the invariant and what the core
    owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.Fold.lean ====
/-
  The contents of every buffer of a core at each boundary between two items of the program — a stretch of host operations,
  or one of the eight kernel regions — as a fold from the launch memory: a stretch rewrites the buffers its operations write,
  a region leaves each of its windows' arrays at what the grid's write-backs make of it and every other buffer alone. No item
  writes an argument array, so each argument is read back through the whole fold to its launch contents.
-/
import proofs.«134990_j73504070304033_2_alg».proof.Proof.KI.Body0
import proofs.«134990_j73504070304033_2_alg».proof.Proof.KI.Body1
import proofs.«134990_j73504070304033_2_alg».proof.Proof.KI.Body2
import proofs.«134990_j73504070304033_2_alg».proof.Proof.KI.Body3
import proofs.«134990_j73504070304033_2_alg».proof.Proof.KI.Body4
import proofs.«134990_j73504070304033_2_alg».proof.Proof.KI.Body5
import proofs.«134990_j73504070304033_2_alg».proof.Proof.KI.Body6
import proofs.«134990_j73504070304033_2_alg».proof.Proof.KI.Body7

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `main_part0_ops0`. -/
abbrev W1 : Dev nD → Valuation τ sig (Elt F) := fun c => StableHlo.after main_part0_ops0 (W0 m ρ c)
/-- The buffers as region 0 finds them, read at the core's references. -/
abbrev V1 : (c : Dev nD) → (b : Ref sig .tc) → Buf (Elt F) ((c : Thread nD τ).loc b) := fun c b => W1 m ρ c b
/-- After region 0: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev X2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = V1 m ρ c b :=
  fun b hb => W2_of_ne m ρ c b fun w e => hb (Finset.mem_image.mpr ⟨w, Finset.mem_univ _, e⟩)
/-- The buffers as region 1 finds them, read at the core's references. -/
abbrev V2 : (c : Dev nD) → (b : Ref sig .tc) → Buf (Elt F) ((c : Thread nD τ).loc b) := fun c b => W2 m ρ c b
/-- After region 1: its windows' arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references (region 1's exit contents). -/
abbrev X3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = X3 m ρ c (Pipeline.arrRef spec1 w) :=
  (W3_arr m ρ c w).symm
theorem hrest1 (c : Dev nD) : ∀ b, b ∉ Finset.univ.image (Pipeline.arrRef spec1) → X3 m ρ c b = V2 m ρ c b :=
  fun b hb => W3_of_ne m ρ c b fun w e => hb (Finset.mem_image.mpr ⟨w, Finset.mem_univ _, e⟩)
/-- The buffers as region 2 finds them, read at the core's references. -/
abbrev V3 : (c : Dev nD) → (b : Ref sig .tc) → Buf (Elt F) ((c : Thread nD τ).loc b) := fun c b => W3 m ρ c b
/-- After region 2: its windows' arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references (region 2's exit contents). -/
abbrev X4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = X4 m ρ c (Pipeline.arrRef spec2 w) :=
  (W4_arr m ρ c w).symm
theorem hrest2 (c : Dev nD) : ∀ b, b ∉ Finset.univ.image (Pipeline.arrRef spec2) → X4 m ρ c b = V3 m ρ c b :=
  fun b hb => W4_of_ne m ρ c b fun w e => hb (Finset.mem_image.mpr ⟨w, Finset.mem_univ _, e⟩)
/-- The buffers as region 3 finds them, read at the core's references. -/
abbrev V4 : (c : Dev nD) → (b : Ref sig .tc) → Buf (Elt F) ((c : Thread nD τ).loc b) := fun c b => W4 m ρ c b
/-- After region 3: its windows' arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the core's references (region 3's exit contents). -/
abbrev X5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = X5 m ρ c (Pipeline.arrRef spec3 w) :=
  (W5_arr m ρ c w).symm
theorem hrest3 (c : Dev nD) : ∀ b, b ∉ Finset.univ.image (Pipeline.arrRef spec3) → X5 m ρ c b = V4 m ρ c b :=
  fun b hb => W5_of_ne m ρ c b fun w e => hb (Finset.mem_image.mpr ⟨w, Finset.mem_univ _, e⟩)
/-- After the host stretch `main_part0_ops1`. -/
abbrev W6 : Dev nD → Valuation τ sig (Elt F) := fun c => StableHlo.after main_part0_ops1 (W5 m ρ c)
/-- After the host stretch `main_part1_ops0`. -/
abbrev W7 : Dev nD → Valuation τ sig (Elt F) := fun c => StableHlo.after main_part1_ops0 (W6 m ρ c)
/-- After the host stretch `main_part2_ops0`. -/
abbrev W8 : Dev nD → Valuation τ sig (Elt F) := fun c => StableHlo.after main_part2_ops0 (W7 m ρ c)
/-- After the host stretch `main_part3_ops0`. -/
abbrev W9 : Dev nD → Valuation τ sig (Elt F) := fun c => StableHlo.after main_part3_ops0 (W8 m ρ c)
/-- The buffers as region 4 finds them, read at the core's references. -/
abbrev V9 : (c : Dev nD) → (b : Ref sig .tc) → Buf (Elt F) ((c : Thread nD τ).loc b) := fun c b => W9 m ρ c b
/-- After region 4: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the core's references (region 4's exit contents). -/
abbrev X10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = X10 m ρ c (Pipeline.arrRef spec4 w) :=
  (W10_arr m ρ c w).symm
theorem hrest4 (c : Dev nD) : ∀ b, b ∉ Finset.univ.image (Pipeline.arrRef spec4) → X10 m ρ c b = V9 m ρ c b :=
  fun b hb => W10_of_ne m ρ c b fun w e => hb (Finset.mem_image.mpr ⟨w, Finset.mem_univ _, e⟩)
/-- After the host stretch `main_part3_ops1`. -/
abbrev W11 : Dev nD → Valuation τ sig (Elt F) := fun c => StableHlo.after main_part3_ops1 (W10 m ρ c)
/-- The buffers as region 5 finds them, read at the core's references. -/
abbrev V11 : (c : Dev nD) → (b : Ref sig .tc) → Buf (Elt F) ((c : Thread nD τ).loc b) := fun c b => W11 m ρ c b
/-- After region 5: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the core's references (region 5's exit contents). -/
abbrev X12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = X12 m ρ c (Pipeline.arrRef spec5 w) :=
  (W12_arr m ρ c w).symm
theorem hrest5 (c : Dev nD) : ∀ b, b ∉ Finset.univ.image (Pipeline.arrRef spec5) → X12 m ρ c b = V11 m ρ c b :=
  fun b hb => W12_of_ne m ρ c b fun w e => hb (Finset.mem_image.mpr ⟨w, Finset.mem_univ _, e⟩)
/-- After the host stretch `main_part3_ops2`. -/
abbrev W13 : Dev nD → Valuation τ sig (Elt F) := fun c => StableHlo.after main_part3_ops2 (W12 m ρ c)
/-- The buffers as region 6 finds them, read at the core's references. -/
abbrev V13 : (c : Dev nD) → (b : Ref sig .tc) → Buf (Elt F) ((c : Thread nD τ).loc b) := fun c b => W13 m ρ c b
/-- After region 6: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the core's references (region 6's exit contents). -/
abbrev X14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = X14 m ρ c (Pipeline.arrRef spec6 w) :=
  (W14_arr m ρ c w).symm
theorem hrest6 (c : Dev nD) : ∀ b, b ∉ Finset.univ.image (Pipeline.arrRef spec6) → X14 m ρ c b = V13 m ρ c b :=
  fun b hb => W14_of_ne m ρ c b fun w e => hb (Finset.mem_image.mpr ⟨w, Finset.mem_univ _, e⟩)
/-- After the host stretch `main_part3_ops3`. -/
abbrev W15 : Dev nD → Valuation τ sig (Elt F) := fun c => StableHlo.after main_part3_ops3 (W14 m ρ c)
/-- The buffers as region 7 finds them, read at the core's references. -/
abbrev V15 : (c : Dev nD) → (b : Ref sig .tc) → Buf (Elt F) ((c : Thread nD τ).loc b) := fun c b => W15 m ρ c b
/-- After region 7: its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the core's references (region 7's exit contents). -/
abbrev X16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = X16 m ρ c (Pipeline.arrRef spec7 w) :=
  (W16_arr m ρ c w).symm
theorem hrest7 (c : Dev nD) : ∀ b, b ∉ Finset.univ.image (Pipeline.arrRef spec7) → X16 m ρ c b = V15 m ρ c b :=
  fun b hb => W16_of_ne m ρ c b fun w e => hb (Finset.mem_image.mpr ⟨w, Finset.mem_univ _, e⟩)

/-! ## What the host stretches write -/
/-- No operation of `main_part0_ops0` allocates a buffer. -/
theorem main_part0_ops0_fresh : (main_part0_ops0 : List (HloOp τ sig (Elt F))).Forall fun op => op.fresh = ∅ := by
  simp only [List.Forall]; repeat' constructor
/-- The references `main_part0_ops0`'s operations write. -/
abbrev main_part0_ops0_W : List (Ref sig .tc) := [main_v0, main_v1, main_v2, main_v3, main_v4, main_v5, main_v6, main_v7, main_v8, main_v9, main_v10, main_v11, main_v12, main_v13, main_v14, main_v15, main_v16, main_v17]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part0_ops1` allocates a buffer. -/
theorem main_part0_ops1_fresh : (main_part0_ops1 : List (HloOp τ sig (Elt F))).Forall fun op => op.fresh = ∅ := by
  simp only [List.Forall]; repeat' constructor
/-- The references `main_part0_ops1`'s operations write. -/
abbrev main_part0_ops1_W : List (Ref sig .tc) := [main_v22, main_v23, main_v24, main_v25, main_v26, main_v27, main_v28, main_v29, main_v30, main_v31, main_v32, main_c, main_v33, main_v34, main_c_0, main_v35, main_v36, main_v37, main_v38, main_v39, main_cst, main_v40, main_v41, main_v42, main_cst_1, main_v43, main_cst_2, main_v44, main_v45, main_v46, main_cst_3, main_v47, main_v48, main_v49, main_v50, main_v51, main_c_4, main_v52]
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part1_ops0` allocates a buffer. -/
theorem main_part1_ops0_fresh : (main_part1_ops0 : List (HloOp τ sig (Elt F))).Forall fun op => op.fresh = ∅ := by
  simp only [List.Forall]; repeat' constructor
/-- The references `main_part1_ops0`'s operations write. -/
abbrev main_part1_ops0_W : List (Ref sig .tc) := [main_v53, main_c_5, main_v54, main_v55, main_v56, main_v57, main_v58, main_cst_6, main_v59, main_v60, main_v61, main_cst_7, main_v62, main_cst_8, main_v63, main_v64, main_v65, main_cst_9, main_v66, main_v67, main_v68, main_v69, main_v70, main_v71, main_c_10, main_v72, main_v73, main_c_11, main_v74, main_v75, main_v76, main_v77, main_v78, main_cst_12, main_v79, main_v80, main_v81, main_cst_13, main_v82, main_cst_14, main_v83, main_v84, main_v85, main_cst_15, main_v86, main_v87, main_v88, main_v89, main_v90, main_v91, main_c_16, main_v92, main_v93, main_c_17, main_v94, main_v95, main_v96, main_v97, main_v98, main_cst_18]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part2_ops0` allocates a buffer. -/
theorem main_part2_ops0_fresh : (main_part2_ops0 : List (HloOp τ sig (Elt F))).Forall fun op => op.fresh = ∅ := by
  simp only [List.Forall]; repeat' constructor
/-- The references `main_part2_ops0`'s operations write. -/
abbrev main_part2_ops0_W : List (Ref sig .tc) := [main_v99, main_v100, main_v101, main_cst_19, main_v102, main_cst_20, main_v103, main_v104, main_v105, main_cst_21, main_v106, main_v107, main_v108, main_v109, main_v110, main_c_22, main_v111, main_v112, main_c_23, main_v113, main_v114, main_v115, main_v116, main_v117, main_cst_24, main_v118, main_v119, main_v120, main_cst_25, main_v121, main_cst_26, main_v122, main_v123, main_v124, main_cst_27, main_v125, main_v126, main_v127, main_v128, main_v129, main_v130, main_c_28, main_v131, main_v132, main_c_29, main_v133, main_v134, main_v135, main_v136, main_v137, main_cst_30, main_v138, main_v139, main_v140, main_cst_31, main_v141, main_cst_32, main_v142, main_v143, main_v144]
theorem main_part2_ops0_writes : (main_part2_ops0 : List (HloOp τ sig (Elt F))).Forall fun op => op.writes ⊆ (main_part2_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part3_ops0` allocates a buffer. -/
theorem main_part3_ops0_fresh : (main_part3_ops0 : List (HloOp τ sig (Elt F))).Forall fun op => op.fresh = ∅ := by
  simp only [List.Forall]; repeat' constructor
/-- The references `main_part3_ops0`'s operations write. -/
abbrev main_part3_ops0_W : List (Ref sig .tc) := [main_cst_33, main_v145, main_v146, main_v147, main_v148, main_v149, main_c_34, main_v150, main_v151, main_c_35, main_v152, main_v153, main_v154, main_v155, main_v156, main_cst_36, main_v157, main_v158, main_v159, main_cst_37, main_v160, main_cst_38, main_v161, main_v162, main_v163, main_cst_39, main_v164, main_v165, main_v166, main_v167, main_v168, main_v169]
theorem main_part3_ops0_writes : (main_part3_ops0 : List (HloOp τ sig (Elt F))).Forall fun op => op.writes ⊆ (main_part3_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part3_ops1` allocates a buffer. -/
theorem main_part3_ops1_fresh : (main_part3_ops1 : List (HloOp τ sig (Elt F))).Forall fun op => op.fresh = ∅ := by
  simp only [List.Forall]; repeat' constructor
/-- The references `main_part3_ops1`'s operations write. -/
abbrev main_part3_ops1_W : List (Ref sig .tc) := [main_v171]
theorem main_part3_ops1_writes : (main_part3_ops1 : List (HloOp τ sig (Elt F))).Forall fun op => op.writes ⊆ (main_part3_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part3_ops2` allocates a buffer. -/
theorem main_part3_ops2_fresh : (main_part3_ops2 : List (HloOp τ sig (Elt F))).Forall fun op => op.fresh = ∅ := by
  simp only [List.Forall]; repeat' constructor
/-- The references `main_part3_ops2`'s operations write. -/
abbrev main_part3_ops2_W : List (Ref sig .tc) := [main_v173]
theorem main_part3_ops2_writes : (main_part3_ops2 : List (HloOp τ sig (Elt F))).Forall fun op => op.writes ⊆ (main_part3_ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `main_part3_ops3` allocates a buffer. -/
theorem main_part3_ops3_fresh : (main_part3_ops3 : List (HloOp τ sig (Elt F))).Forall fun op => op.fresh = ∅ := by
  simp only [List.Forall]; repeat' constructor
/-- The references `main_part3_ops3`'s operations write. -/
abbrev main_part3_ops3_W : List (Ref sig .tc) := [main_v175]
theorem main_part3_ops3_writes : (main_part3_ops3 : List (HloOp τ sig (Elt F))).Forall fun op => op.writes ⊆ (main_part3_ops3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The arguments end as launched -/
theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := StableHlo.after_of_writes_sub main_part3_ops3 _ main_part3_ops3_writes (by decide)
    _ = W13 m ρ c (Proc.devRef .tc main_arg0) := W14_of_ne m ρ c main_arg0 (by decide)
    _ = W12 m ρ c (Proc.devRef .tc main_arg0) := StableHlo.after_of_writes_sub main_part3_ops2 _ main_part3_ops2_writes (by decide)
    _ = W11 m ρ c (Proc.devRef .tc main_arg0) := W12_of_ne m ρ c main_arg0 (by decide)
    _ = W10 m ρ c (Proc.devRef .tc main_arg0) := StableHlo.after_of_writes_sub main_part3_ops1 _ main_part3_ops1_writes (by decide)
    _ = W9 m ρ c (Proc.devRef .tc main_arg0) := W10_of_ne m ρ c main_arg0 (by decide)
    _ = W8 m ρ c (Proc.devRef .tc main_arg0) := StableHlo.after_of_writes_sub main_part3_ops0 _ main_part3_ops0_writes (by decide)
    _ = W7 m ρ c (Proc.devRef .tc main_arg0) := StableHlo.after_of_writes_sub main_part2_ops0 _ main_part2_ops0_writes (by decide)
    _ = W6 m ρ c (Proc.devRef .tc main_arg0) := StableHlo.after_of_writes_sub main_part1_ops0 _ main_part1_ops0_writes (by decide)
    _ = W5 m ρ c (Proc.devRef .tc main_arg0) := StableHlo.after_of_writes_sub main_part0_ops1 _ main_part0_ops1_writes (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub main_part0_ops0 _ main_part0_ops0_writes (by decide)
    _ = m ((c : Thread nD τ).loc main_arg0) := rfl
theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := StableHlo.after_of_writes_sub main_part3_ops3 _ main_part3_ops3_writes (by decide)
    _ = W13 m ρ c (Proc.devRef .tc main_arg1) := W14_of_ne m ρ c main_arg1 (by decide)
    _ = W12 m ρ c (Proc.devRef .tc main_arg1) := StableHlo.after_of_writes_sub main_part3_ops2 _ main_part3_ops2_writes (by decide)
    _ = W11 m ρ c (Proc.devRef .tc main_arg1) := W12_of_ne m ρ c main_arg1 (by decide)
    _ = W10 m ρ c (Proc.devRef .tc main_arg1) := StableHlo.after_of_writes_sub main_part3_ops1 _ main_part3_ops1_writes (by decide)
    _ = W9 m ρ c (Proc.devRef .tc main_arg1) := W10_of_ne m ρ c main_arg1 (by decide)
    _ = W8 m ρ c (Proc.devRef .tc main_arg1) := StableHlo.after_of_writes_sub main_part3_ops0 _ main_part3_ops0_writes (by decide)
    _ = W7 m ρ c (Proc.devRef .tc main_arg1) := StableHlo.after_of_writes_sub main_part2_ops0 _ main_part2_ops0_writes (by decide)
    _ = W6 m ρ c (Proc.devRef .tc main_arg1) := StableHlo.after_of_writes_sub main_part1_ops0 _ main_part1_ops0_writes (by decide)
    _ = W5 m ρ c (Proc.devRef .tc main_arg1) := StableHlo.after_of_writes_sub main_part0_ops1 _ main_part0_ops1_writes (by decide)
    _ = W4 m ρ c (Proc.devRef .tc main_arg1) := W5_of_ne m ρ c main_arg1 (by decide)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub main_part0_ops0 _ main_part0_ops0_writes (by decide)
    _ = m ((c : Thread nD τ).loc main_arg1) := rfl
theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := StableHlo.after_of_writes_sub main_part3_ops3 _ main_part3_ops3_writes (by decide)
    _ = W13 m ρ c (Proc.devRef .tc main_arg2) := W14_of_ne m ρ c main_arg2 (by decide)
    _ = W12 m ρ c (Proc.devRef .tc main_arg2) := StableHlo.after_of_writes_sub main_part3_ops2 _ main_part3_ops2_writes (by decide)
    _ = W11 m ρ c (Proc.devRef .tc main_arg2) := W12_of_ne m ρ c main_arg2 (by decide)
    _ = W10 m ρ c (Proc.devRef .tc main_arg2) := StableHlo.after_of_writes_sub main_part3_ops1 _ main_part3_ops1_writes (by decide)
    _ = W9 m ρ c (Proc.devRef .tc main_arg2) := W10_of_ne m ρ c main_arg2 (by decide)
    _ = W8 m ρ c (Proc.devRef .tc main_arg2) := StableHlo.after_of_writes_sub main_part3_ops0 _ main_part3_ops0_writes (by decide)
    _ = W7 m ρ c (Proc.devRef .tc main_arg2) := StableHlo.after_of_writes_sub main_part2_ops0 _ main_part2_ops0_writes (by decide)
    _ = W6 m ρ c (Proc.devRef .tc main_arg2) := StableHlo.after_of_writes_sub main_part1_ops0 _ main_part1_ops0_writes (by decide)
    _ = W5 m ρ c (Proc.devRef .tc main_arg2) := StableHlo.after_of_writes_sub main_part0_ops1 _ main_part0_ops1_writes (by decide)
    _ = W4 m ρ c (Proc.devRef .tc main_arg2) := (W5_arr m ρ c 0).trans (((dat3 (V4 m ρ) c).arrAt_in 0 rfl _).trans (A_eq3 (V4 m ρ) c 0))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub main_part0_ops0 _ main_part0_ops0_writes (by decide)
    _ = m ((c : Thread nD τ).loc main_arg2) := rfl
theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := StableHlo.after_of_writes_sub main_part3_ops3 _ main_part3_ops3_writes (by decide)
    _ = W13 m ρ c (Proc.devRef .tc main_arg3) := W14_of_ne m ρ c main_arg3 (by decide)
    _ = W12 m ρ c (Proc.devRef .tc main_arg3) := StableHlo.after_of_writes_sub main_part3_ops2 _ main_part3_ops2_writes (by decide)
    _ = W11 m ρ c (Proc.devRef .tc main_arg3) := W12_of_ne m ρ c main_arg3 (by decide)
    _ = W10 m ρ c (Proc.devRef .tc main_arg3) := StableHlo.after_of_writes_sub main_part3_ops1 _ main_part3_ops1_writes (by decide)
    _ = W9 m ρ c (Proc.devRef .tc main_arg3) := W10_of_ne m ρ c main_arg3 (by decide)
    _ = W8 m ρ c (Proc.devRef .tc main_arg3) := StableHlo.after_of_writes_sub main_part3_ops0 _ main_part3_ops0_writes (by decide)
    _ = W7 m ρ c (Proc.devRef .tc main_arg3) := StableHlo.after_of_writes_sub main_part2_ops0 _ main_part2_ops0_writes (by decide)
    _ = W6 m ρ c (Proc.devRef .tc main_arg3) := StableHlo.after_of_writes_sub main_part1_ops0 _ main_part1_ops0_writes (by decide)
    _ = W5 m ρ c (Proc.devRef .tc main_arg3) := StableHlo.after_of_writes_sub main_part0_ops1 _ main_part0_ops1_writes (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := (W3_arr m ρ c 0).trans (((dat1 (V2 m ρ) c).arrAt_in 0 rfl _).trans (A_eq1 (V2 m ρ) c 0))
    _ = W1 m ρ c (Proc.devRef .tc main_arg3) := W2_of_ne m ρ c main_arg3 (by decide)
    _ = W0 m ρ c (Proc.devRef .tc main_arg3) := StableHlo.after_of_writes_sub main_part0_ops0 _ main_part0_ops0_writes (by decide)
    _ = m ((c : Thread nD τ).loc main_arg3) := rfl
theorem W16_main_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of_ne m ρ c main_arg4 (by decide)
    _ = W14 m ρ c (Proc.devRef .tc main_arg4) := StableHlo.after_of_writes_sub main_part3_ops3 _ main_part3_ops3_writes (by decide)
    _ = W13 m ρ c (Proc.devRef .tc main_arg4) := W14_of_ne m ρ c main_arg4 (by decide)
    _ = W12 m ρ c (Proc.devRef .tc main_arg4) := StableHlo.after_of_writes_sub main_part3_ops2 _ main_part3_ops2_writes (by decide)
    _ = W11 m ρ c (Proc.devRef .tc main_arg4) := W12_of_ne m ρ c main_arg4 (by decide)
    _ = W10 m ρ c (Proc.devRef .tc main_arg4) := StableHlo.after_of_writes_sub main_part3_ops1 _ main_part3_ops1_writes (by decide)
    _ = W9 m ρ c (Proc.devRef .tc main_arg4) := W10_of_ne m ρ c main_arg4 (by decide)
    _ = W8 m ρ c (Proc.devRef .tc main_arg4) := StableHlo.after_of_writes_sub main_part3_ops0 _ main_part3_ops0_writes (by decide)
    _ = W7 m ρ c (Proc.devRef .tc main_arg4) := StableHlo.after_of_writes_sub main_part2_ops0 _ main_part2_ops0_writes (by decide)
    _ = W6 m ρ c (Proc.devRef .tc main_arg4) := StableHlo.after_of_writes_sub main_part1_ops0 _ main_part1_ops0_writes (by decide)
    _ = W5 m ρ c (Proc.devRef .tc main_arg4) := StableHlo.after_of_writes_sub main_part0_ops1 _ main_part0_ops1_writes (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub main_part0_ops0 _ main_part0_ops0_writes (by decide)
    _ = m ((c : Thread nD τ).loc main_arg4) := rfl
theorem W16_main_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of_ne m ρ c main_arg5 (by decide)
    _ = W14 m ρ c (Proc.devRef .tc main_arg5) := StableHlo.after_of_writes_sub main_part3_ops3 _ main_part3_ops3_writes (by decide)
    _ = W13 m ρ c (Proc.devRef .tc main_arg5) := W14_of_ne m ρ c main_arg5 (by decide)
    _ = W12 m ρ c (Proc.devRef .tc main_arg5) := StableHlo.after_of_writes_sub main_part3_ops2 _ main_part3_ops2_writes (by decide)
    _ = W11 m ρ c (Proc.devRef .tc main_arg5) := W12_of_ne m ρ c main_arg5 (by decide)
    _ = W10 m ρ c (Proc.devRef .tc main_arg5) := StableHlo.after_of_writes_sub main_part3_ops1 _ main_part3_ops1_writes (by decide)
    _ = W9 m ρ c (Proc.devRef .tc main_arg5) := W10_of_ne m ρ c main_arg5 (by decide)
    _ = W8 m ρ c (Proc.devRef .tc main_arg5) := StableHlo.after_of_writes_sub main_part3_ops0 _ main_part3_ops0_writes (by decide)
    _ = W7 m ρ c (Proc.devRef .tc main_arg5) := StableHlo.after_of_writes_sub main_part2_ops0 _ main_part2_ops0_writes (by decide)
    _ = W6 m ρ c (Proc.devRef .tc main_arg5) := StableHlo.after_of_writes_sub main_part1_ops0 _ main_part1_ops0_writes (by decide)
    _ = W5 m ρ c (Proc.devRef .tc main_arg5) := StableHlo.after_of_writes_sub main_part0_ops1 _ main_part0_ops1_writes (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub main_part0_ops0 _ main_part0_ops0_writes (by decide)
    _ = m ((c : Thread nD τ).loc main_arg5) := rfl
theorem W16_main_arg6 (c : Dev nD) : W16 m ρ c (Proc.devRef .tc main_arg6) = m ((c : Thread nD τ).loc main_arg6) :=
  calc W16 m ρ c (Proc.devRef .tc main_arg6)
    _ = W15 m ρ c (Proc.devRef .tc main_arg6) := W16_of_ne m ρ c main_arg6 (by decide)
    _ = W14 m ρ c (Proc.devRef .tc main_arg6) := StableHlo.after_of_writes_sub main_part3_ops3 _ main_part3_ops3_writes (by decide)
    _ = W13 m ρ c (Proc.devRef .tc main_arg6) := W14_of_ne m ρ c main_arg6 (by decide)
    _ = W12 m ρ c (Proc.devRef .tc main_arg6) := StableHlo.after_of_writes_sub main_part3_ops2 _ main_part3_ops2_writes (by decide)
    _ = W11 m ρ c (Proc.devRef .tc main_arg6) := W12_of_ne m ρ c main_arg6 (by decide)
    _ = W10 m ρ c (Proc.devRef .tc main_arg6) := StableHlo.after_of_writes_sub main_part3_ops1 _ main_part3_ops1_writes (by decide)
    _ = W9 m ρ c (Proc.devRef .tc main_arg6) := W10_of_ne m ρ c main_arg6 (by decide)
    _ = W8 m ρ c (Proc.devRef .tc main_arg6) := StableHlo.after_of_writes_sub main_part3_ops0 _ main_part3_ops0_writes (by decide)
    _ = W7 m ρ c (Proc.devRef .tc main_arg6) := StableHlo.after_of_writes_sub main_part2_ops0 _ main_part2_ops0_writes (by decide)
    _ = W6 m ρ c (Proc.devRef .tc main_arg6) := StableHlo.after_of_writes_sub main_part1_ops0 _ main_part1_ops0_writes (by decide)
    _ = W5 m ρ c (Proc.devRef .tc main_arg6) := StableHlo.after_of_writes_sub main_part0_ops1 _ main_part0_ops1_writes (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub main_part0_ops0 _ main_part0_ops0_writes (by decide)
    _ = m ((c : Thread nD τ).loc main_arg6) := rfl
theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := StableHlo.after_of_writes_sub main_part3_ops3 _ main_part3_ops3_writes (by decide)
    _ = W13 m ρ c (Proc.devRef .tc main_arg7) := W14_of_ne m ρ c main_arg7 (by decide)
    _ = W12 m ρ c (Proc.devRef .tc main_arg7) := StableHlo.after_of_writes_sub main_part3_ops2 _ main_part3_ops2_writes (by decide)
    _ = W11 m ρ c (Proc.devRef .tc main_arg7) := W12_of_ne m ρ c main_arg7 (by decide)
    _ = W10 m ρ c (Proc.devRef .tc main_arg7) := StableHlo.after_of_writes_sub main_part3_ops1 _ main_part3_ops1_writes (by decide)
    _ = W9 m ρ c (Proc.devRef .tc main_arg7) := W10_of_ne m ρ c main_arg7 (by decide)
    _ = W8 m ρ c (Proc.devRef .tc main_arg7) := StableHlo.after_of_writes_sub main_part3_ops0 _ main_part3_ops0_writes (by decide)
    _ = W7 m ρ c (Proc.devRef .tc main_arg7) := StableHlo.after_of_writes_sub main_part2_ops0 _ main_part2_ops0_writes (by decide)
    _ = W6 m ρ c (Proc.devRef .tc main_arg7) := StableHlo.after_of_writes_sub main_part1_ops0 _ main_part1_ops0_writes (by decide)
    _ = W5 m ρ c (Proc.devRef .tc main_arg7) := StableHlo.after_of_writes_sub main_part0_ops1 _ main_part0_ops1_writes (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub main_part0_ops0 _ main_part0_ops0_writes (by decide)
    _ = m ((c : Thread nD τ).loc main_arg7) := rfl
theorem W16_main_arg8 (c : Dev nD) : W16 m ρ c (Proc.devRef .tc main_arg8) = m ((c : Thread nD τ).loc main_arg8) :=
  calc W16 m ρ c (Proc.devRef .tc main_arg8)
    _ = W15 m ρ c (Proc.devRef .tc main_arg8) := W16_of_ne m ρ c main_arg8 (by decide)
    _ = W14 m ρ c (Proc.devRef .tc main_arg8) := StableHlo.after_of_writes_sub main_part3_ops3 _ main_part3_ops3_writes (by decide)
    _ = W13 m ρ c (Proc.devRef .tc main_arg8) := W14_of_ne m ρ c main_arg8 (by decide)
    _ = W12 m ρ c (Proc.devRef .tc main_arg8) := StableHlo.after_of_writes_sub main_part3_ops2 _ main_part3_ops2_writes (by decide)
    _ = W11 m ρ c (Proc.devRef .tc main_arg8) := W12_of_ne m ρ c main_arg8 (by decide)
    _ = W10 m ρ c (Proc.devRef .tc main_arg8) := StableHlo.after_of_writes_sub main_part3_ops1 _ main_part3_ops1_writes (by decide)
    _ = W9 m ρ c (Proc.devRef .tc main_arg8) := W10_of_ne m ρ c main_arg8 (by decide)
    _ = W8 m ρ c (Proc.devRef .tc main_arg8) := StableHlo.after_of_writes_sub main_part3_ops0 _ main_part3_ops0_writes (by decide)
    _ = W7 m ρ c (Proc.devRef .tc main_arg8) := StableHlo.after_of_writes_sub main_part2_ops0 _ main_part2_ops0_writes (by decide)
    _ = W6 m ρ c (Proc.devRef .tc main_arg8) := StableHlo.after_of_writes_sub main_part1_ops0 _ main_part1_ops0_writes (by decide)
    _ = W5 m ρ c (Proc.devRef .tc main_arg8) := StableHlo.after_of_writes_sub main_part0_ops1 _ main_part0_ops1_writes (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub main_part0_ops0 _ main_part0_ops0_writes (by decide)
    _ = m ((c : Thread nD τ).loc main_arg8) := rfl
theorem W16_main_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := StableHlo.after_of_writes_sub main_part3_ops3 _ main_part3_ops3_writes (by decide)
    _ = W13 m ρ c (Proc.devRef .tc main_arg9) := W14_of_ne m ρ c main_arg9 (by decide)
    _ = W12 m ρ c (Proc.devRef .tc main_arg9) := StableHlo.after_of_writes_sub main_part3_ops2 _ main_part3_ops2_writes (by decide)
    _ = W11 m ρ c (Proc.devRef .tc main_arg9) := W12_of_ne m ρ c main_arg9 (by decide)
    _ = W10 m ρ c (Proc.devRef .tc main_arg9) := StableHlo.after_of_writes_sub main_part3_ops1 _ main_part3_ops1_writes (by decide)
    _ = W9 m ρ c (Proc.devRef .tc main_arg9) := W10_of_ne m ρ c main_arg9 (by decide)
    _ = W8 m ρ c (Proc.devRef .tc main_arg9) := StableHlo.after_of_writes_sub main_part3_ops0 _ main_part3_ops0_writes (by decide)
    _ = W7 m ρ c (Proc.devRef .tc main_arg9) := StableHlo.after_of_writes_sub main_part2_ops0 _ main_part2_ops0_writes (by decide)
    _ = W6 m ρ c (Proc.devRef .tc main_arg9) := StableHlo.after_of_writes_sub main_part1_ops0 _ main_part1_ops0_writes (by decide)
    _ = W5 m ρ c (Proc.devRef .tc main_arg9) := StableHlo.after_of_writes_sub main_part0_ops1 _ main_part0_ops1_writes (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub main_part0_ops0 _ main_part0_ops0_writes (by decide)
    _ = m ((c : Thread nD τ).loc main_arg9) := rfl
theorem W16_main_arg10 (c : Dev nD) : W16 m ρ c (Proc.devRef .tc main_arg10) = m ((c : Thread nD τ).loc main_arg10) :=
  calc W16 m ρ c (Proc.devRef .tc main_arg10)
    _ = W15 m ρ c (Proc.devRef .tc main_arg10) := W16_of_ne m ρ c main_arg10 (by decide)
    _ = W14 m ρ c (Proc.devRef .tc main_arg10) := StableHlo.after_of_writes_sub main_part3_ops3 _ main_part3_ops3_writes (by decide)
    _ = W13 m ρ c (Proc.devRef .tc main_arg10) := W14_of_ne m ρ c main_arg10 (by decide)
    _ = W12 m ρ c (Proc.devRef .tc main_arg10) := StableHlo.after_of_writes_sub main_part3_ops2 _ main_part3_ops2_writes (by decide)
    _ = W11 m ρ c (Proc.devRef .tc main_arg10) := W12_of_ne m ρ c main_arg10 (by decide)
    _ = W10 m ρ c (Proc.devRef .tc main_arg10) := StableHlo.after_of_writes_sub main_part3_ops1 _ main_part3_ops1_writes (by decide)
    _ = W9 m ρ c (Proc.devRef .tc main_arg10) := W10_of_ne m ρ c main_arg10 (by decide)
    _ = W8 m ρ c (Proc.devRef .tc main_arg10) := StableHlo.after_of_writes_sub main_part3_ops0 _ main_part3_ops0_writes (by decide)
    _ = W7 m ρ c (Proc.devRef .tc main_arg10) := StableHlo.after_of_writes_sub main_part2_ops0 _ main_part2_ops0_writes (by decide)
    _ = W6 m ρ c (Proc.devRef .tc main_arg10) := StableHlo.after_of_writes_sub main_part1_ops0 _ main_part1_ops0_writes (by decide)
    _ = W5 m ρ c (Proc.devRef .tc main_arg10) := StableHlo.after_of_writes_sub main_part0_ops1 _ main_part0_ops1_writes (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub main_part0_ops0 _ main_part0_ops0_writes (by decide)
    _ = m ((c : Thread nD τ).loc main_arg10) := rfl
theorem W16_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := StableHlo.after_of_writes_sub main_part3_ops3 _ main_part3_ops3_writes (by decide)
    _ = W13 m ρ c (Proc.devRef .tc main_arg11) := W14_of_ne m ρ c main_arg11 (by decide)
    _ = W12 m ρ c (Proc.devRef .tc main_arg11) := StableHlo.after_of_writes_sub main_part3_ops2 _ main_part3_ops2_writes (by decide)
    _ = W11 m ρ c (Proc.devRef .tc main_arg11) := W12_of_ne m ρ c main_arg11 (by decide)
    _ = W10 m ρ c (Proc.devRef .tc main_arg11) := StableHlo.after_of_writes_sub main_part3_ops1 _ main_part3_ops1_writes (by decide)
    _ = W9 m ρ c (Proc.devRef .tc main_arg11) := W10_of_ne m ρ c main_arg11 (by decide)
    _ = W8 m ρ c (Proc.devRef .tc main_arg11) := StableHlo.after_of_writes_sub main_part3_ops0 _ main_part3_ops0_writes (by decide)
    _ = W7 m ρ c (Proc.devRef .tc main_arg11) := StableHlo.after_of_writes_sub main_part2_ops0 _ main_part2_ops0_writes (by decide)
    _ = W6 m ρ c (Proc.devRef .tc main_arg11) := StableHlo.after_of_writes_sub main_part1_ops0 _ main_part1_ops0_writes (by decide)
    _ = W5 m ρ c (Proc.devRef .tc main_arg11) := StableHlo.after_of_writes_sub main_part0_ops1 _ main_part0_ops1_writes (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub main_part0_ops0 _ main_part0_ops0_writes (by decide)
    _ = m ((c : Thread nD τ).loc main_arg11) := rfl
theorem W16_main_arg12 (c : Dev nD) : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := StableHlo.after_of_writes_sub main_part3_ops3 _ main_part3_ops3_writes (by decide)
    _ = W13 m ρ c (Proc.devRef .tc main_arg12) := W14_of_ne m ρ c main_arg12 (by decide)
    _ = W12 m ρ c (Proc.devRef .tc main_arg12) := StableHlo.after_of_writes_sub main_part3_ops2 _ main_part3_ops2_writes (by decide)
    _ = W11 m ρ c (Proc.devRef .tc main_arg12) := W12_of_ne m ρ c main_arg12 (by decide)
    _ = W10 m ρ c (Proc.devRef .tc main_arg12) := StableHlo.after_of_writes_sub main_part3_ops1 _ main_part3_ops1_writes (by decide)
    _ = W9 m ρ c (Proc.devRef .tc main_arg12) := W10_of_ne m ρ c main_arg12 (by decide)
    _ = W8 m ρ c (Proc.devRef .tc main_arg12) := StableHlo.after_of_writes_sub main_part3_ops0 _ main_part3_ops0_writes (by decide)
    _ = W7 m ρ c (Proc.devRef .tc main_arg12) := StableHlo.after_of_writes_sub main_part2_ops0 _ main_part2_ops0_writes (by decide)
    _ = W6 m ρ c (Proc.devRef .tc main_arg12) := StableHlo.after_of_writes_sub main_part1_ops0 _ main_part1_ops0_writes (by decide)
    _ = W5 m ρ c (Proc.devRef .tc main_arg12) := StableHlo.after_of_writes_sub main_part0_ops1 _ main_part0_ops1_writes (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub main_part0_ops0 _ main_part0_ops0_writes (by decide)
    _ = m ((c : Thread nD τ).loc main_arg12) := rfl
theorem W16_main_arg13 (c : Dev nD) : W16 m ρ c (Proc.devRef .tc main_arg13) = m ((c : Thread nD τ).loc main_arg13) :=
  calc W16 m ρ c (Proc.devRef .tc main_arg13)
    _ = W15 m ρ c (Proc.devRef .tc main_arg13) := W16_of_ne m ρ c main_arg13 (by decide)
    _ = W14 m ρ c (Proc.devRef .tc main_arg13) := StableHlo.after_of_writes_sub main_part3_ops3 _ main_part3_ops3_writes (by decide)
    _ = W13 m ρ c (Proc.devRef .tc main_arg13) := W14_of_ne m ρ c main_arg13 (by decide)
    _ = W12 m ρ c (Proc.devRef .tc main_arg13) := StableHlo.after_of_writes_sub main_part3_ops2 _ main_part3_ops2_writes (by decide)
    _ = W11 m ρ c (Proc.devRef .tc main_arg13) := W12_of_ne m ρ c main_arg13 (by decide)
    _ = W10 m ρ c (Proc.devRef .tc main_arg13) := StableHlo.after_of_writes_sub main_part3_ops1 _ main_part3_ops1_writes (by decide)
    _ = W9 m ρ c (Proc.devRef .tc main_arg13) := W10_of_ne m ρ c main_arg13 (by decide)
    _ = W8 m ρ c (Proc.devRef .tc main_arg13) := StableHlo.after_of_writes_sub main_part3_ops0 _ main_part3_ops0_writes (by decide)
    _ = W7 m ρ c (Proc.devRef .tc main_arg13) := StableHlo.after_of_writes_sub main_part2_ops0 _ main_part2_ops0_writes (by decide)
    _ = W6 m ρ c (Proc.devRef .tc main_arg13) := StableHlo.after_of_writes_sub main_part1_ops0 _ main_part1_ops0_writes (by decide)
    _ = W5 m ρ c (Proc.devRef .tc main_arg13) := StableHlo.after_of_writes_sub main_part0_ops1 _ main_part0_ops1_writes (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub main_part0_ops0 _ main_part0_ops0_writes (by decide)
    _ = m ((c : Thread nD τ).loc main_arg13) := rfl
theorem W16_main_arg14 (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := StableHlo.after_of_writes_sub main_part3_ops3 _ main_part3_ops3_writes (by decide)
    _ = W13 m ρ c (Proc.devRef .tc main_arg14) := W14_of_ne m ρ c main_arg14 (by decide)
    _ = W12 m ρ c (Proc.devRef .tc main_arg14) := StableHlo.after_of_writes_sub main_part3_ops2 _ main_part3_ops2_writes (by decide)
    _ = W11 m ρ c (Proc.devRef .tc main_arg14) := W12_of_ne m ρ c main_arg14 (by decide)
    _ = W10 m ρ c (Proc.devRef .tc main_arg14) := StableHlo.after_of_writes_sub main_part3_ops1 _ main_part3_ops1_writes (by decide)
    _ = W9 m ρ c (Proc.devRef .tc main_arg14) := W10_of_ne m ρ c main_arg14 (by decide)
    _ = W8 m ρ c (Proc.devRef .tc main_arg14) := StableHlo.after_of_writes_sub main_part3_ops0 _ main_part3_ops0_writes (by decide)
    _ = W7 m ρ c (Proc.devRef .tc main_arg14) := StableHlo.after_of_writes_sub main_part2_ops0 _ main_part2_ops0_writes (by decide)
    _ = W6 m ρ c (Proc.devRef .tc main_arg14) := StableHlo.after_of_writes_sub main_part1_ops0 _ main_part1_ops0_writes (by decide)
    _ = W5 m ρ c (Proc.devRef .tc main_arg14) := StableHlo.after_of_writes_sub main_part0_ops1 _ main_part0_ops1_writes (by decide)
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_writes_sub main_part0_ops0 _ main_part0_ops0_writes (by decide)
    _ = m ((c : Thread nD τ).loc main_arg14) := rfl
theorem W16_main_arg15 (c : Dev nD) : W16 m ρ c (Proc.devRef .tc main_arg15) = m ((c : Thread nD τ).loc main_arg15) :=
  calc W16 m ρ c (Proc.devRef .tc main_arg15)
    _ = W15 m ρ c (Proc.devRef .tc main_arg15) := W16_of_ne m ρ c main_arg15 (by decide)
    _ = W14 m ρ c (Proc.devRef .tc main_arg15) := StableHlo.after_of_writes_sub main_part3_ops3 _ main_part3_ops3_writes (by decide)
    _ = W13 m ρ c (Proc.devRef .tc main_arg15) := W14_of_ne m ρ c main_arg15 (by decide)
    _ = W12 m ρ c (Proc.devRef .tc main_arg15) := StableHlo.after_of_writes_sub main_part3_ops2 _ main_part3_ops2_writes (by decide)
    _ = W11 m ρ c (Proc.devRef .tc main_arg15) := W12_of_ne m ρ c main_arg15 (by decide)
    _ = W10 m ρ c (Proc.devRef .tc main_arg15) := StableHlo.after_of_writes_sub main_part3_ops1 _ main_part3_ops1_writes (by decide)
    _ = W9 m ρ c (Proc.devRef .tc main_arg15) := W10_of_ne m ρ c main_arg15 (by decide)
    _ = W8 m ρ c (Proc.devRef .tc main_arg15) := StableHlo.after_of_writes_sub main_part3_ops0 _ main_part3_ops0_writes (by decide)
    _ = W7 m ρ c (Proc.devRef .tc main_arg15) := StableHlo.after_of_writes_sub main_part2_ops0 _ main_part2_ops0_writes (by decide)
    _ = W6 m ρ c (Proc.devRef .tc main_arg15) := StableHlo.after_of_writes_sub main_part1_ops0 _ main_part1_ops0_writes (by decide)
    _ = W5 m ρ c (Proc.devRef .tc main_arg15) := StableHlo.after_of_writes_sub main_part0_ops1 _ main_part0_ops1_writes (by decide)
    _ = W4 m ρ c (Proc.devRef .tc main_arg15) := W5_of_ne m ρ c main_arg15 (by decide)
    _ = W3 m ρ c (Proc.devRef .tc main_arg15) := W4_of_ne m ρ c main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_writes_sub main_part0_ops0 _ main_part0_ops0_writes (by decide)
    _ = m ((c : Thread nD τ).loc main_arg15) := rfl
theorem W16_main_arg16 (c : Dev nD) : W16 m ρ c (Proc.devRef .tc main_arg16) = m ((c : Thread nD τ).loc main_arg16) :=
  calc W16 m ρ c (Proc.devRef .tc main_arg16)
    _ = W15 m ρ c (Proc.devRef .tc main_arg16) := W16_of_ne m ρ c main_arg16 (by decide)
    _ = W14 m ρ c (Proc.devRef .tc main_arg16) := StableHlo.after_of_writes_sub main_part3_ops3 _ main_part3_ops3_writes (by decide)
    _ = W13 m ρ c (Proc.devRef .tc main_arg16) := W14_of_ne m ρ c main_arg16 (by decide)
    _ = W12 m ρ c (Proc.devRef .tc main_arg16) := StableHlo.after_of_writes_sub main_part3_ops2 _ main_part3_ops2_writes (by decide)
    _ = W11 m ρ c (Proc.devRef .tc main_arg16) := W12_of_ne m ρ c main_arg16 (by decide)
    _ = W10 m ρ c (Proc.devRef .tc main_arg16) := StableHlo.after_of_writes_sub main_part3_ops1 _ main_part3_ops1_writes (by decide)
    _ = W9 m ρ c (Proc.devRef .tc main_arg16) := W10_of_ne m ρ c main_arg16 (by decide)
    _ = W8 m ρ c (Proc.devRef .tc main_arg16) := StableHlo.after_of_writes_sub main_part3_ops0 _ main_part3_ops0_writes (by decide)
    _ = W7 m ρ c (Proc.devRef .tc main_arg16) := StableHlo.after_of_writes_sub main_part2_ops0 _ main_part2_ops0_writes (by decide)
    _ = W6 m ρ c (Proc.devRef .tc main_arg16) := StableHlo.after_of_writes_sub main_part1_ops0 _ main_part1_ops0_writes (by decide)
    _ = W5 m ρ c (Proc.devRef .tc main_arg16) := StableHlo.after_of_writes_sub main_part0_ops1 _ main_part0_ops1_writes (by decide)
    _ = W4 m ρ c (Proc.devRef .tc main_arg16) := W5_of_ne m ρ c main_arg16 (by decide)
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := StableHlo.after_of_writes_sub main_part0_ops0 _ main_part0_ops0_writes (by decide)
    _ = m ((c : Thread nD τ).loc main_arg16) := rfl
theorem W16_main_arg17 (c : Dev nD) : W16 m ρ c (Proc.devRef .tc main_arg17) = m ((c : Thread nD τ).loc main_arg17) :=
  calc W16 m ρ c (Proc.devRef .tc main_arg17)
    _ = W15 m ρ c (Proc.devRef .tc main_arg17) := W16_of_ne m ρ c main_arg17 (by decide)
    _ = W14 m ρ c (Proc.devRef .tc main_arg17) := StableHlo.after_of_writes_sub main_part3_ops3 _ main_part3_ops3_writes (by decide)
    _ = W13 m ρ c (Proc.devRef .tc main_arg17) := W14_of_ne m ρ c main_arg17 (by decide)
    _ = W12 m ρ c (Proc.devRef .tc main_arg17) := StableHlo.after_of_writes_sub main_part3_ops2 _ main_part3_ops2_writes (by decide)
    _ = W11 m ρ c (Proc.devRef .tc main_arg17) := W12_of_ne m ρ c main_arg17 (by decide)
    _ = W10 m ρ c (Proc.devRef .tc main_arg17) := StableHlo.after_of_writes_sub main_part3_ops1 _ main_part3_ops1_writes (by decide)
    _ = W9 m ρ c (Proc.devRef .tc main_arg17) := W10_of_ne m ρ c main_arg17 (by decide)
    _ = W8 m ρ c (Proc.devRef .tc main_arg17) := StableHlo.after_of_writes_sub main_part3_ops0 _ main_part3_ops0_writes (by decide)
    _ = W7 m ρ c (Proc.devRef .tc main_arg17) := StableHlo.after_of_writes_sub main_part2_ops0 _ main_part2_ops0_writes (by decide)
    _ = W6 m ρ c (Proc.devRef .tc main_arg17) := StableHlo.after_of_writes_sub main_part1_ops0 _ main_part1_ops0_writes (by decide)
    _ = W5 m ρ c (Proc.devRef .tc main_arg17) := StableHlo.after_of_writes_sub main_part0_ops1 _ main_part0_ops1_writes (by decide)
    _ = W4 m ρ c (Proc.devRef .tc main_arg17) := W5_of_ne m ρ c main_arg17 (by decide)
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub main_part0_ops0 _ main_part0_ops0_writes (by decide)
    _ = m ((c : Thread nD τ).loc main_arg17) := rfl
theorem W16_main_arg18 (c : Dev nD) : W16 m ρ c (Proc.devRef .tc main_arg18) = m ((c : Thread nD τ).loc main_arg18) :=
  calc W16 m ρ c (Proc.devRef .tc main_arg18)
    _ = W15 m ρ c (Proc.devRef .tc main_arg18) := W16_of_ne m ρ c main_arg18 (by decide)
    _ = W14 m ρ c (Proc.devRef .tc main_arg18) := StableHlo.after_of_writes_sub main_part3_ops3 _ main_part3_ops3_writes (by decide)
    _ = W13 m ρ c (Proc.devRef .tc main_arg18) := W14_of_ne m ρ c main_arg18 (by decide)
    _ = W12 m ρ c (Proc.devRef .tc main_arg18) := StableHlo.after_of_writes_sub main_part3_ops2 _ main_part3_ops2_writes (by decide)
    _ = W11 m ρ c (Proc.devRef .tc main_arg18) := W12_of_ne m ρ c main_arg18 (by decide)
    _ = W10 m ρ c (Proc.devRef .tc main_arg18) := StableHlo.after_of_writes_sub main_part3_ops1 _ main_part3_ops1_writes (by decide)
    _ = W9 m ρ c (Proc.devRef .tc main_arg18) := W10_of_ne m ρ c main_arg18 (by decide)
    _ = W8 m ρ c (Proc.devRef .tc main_arg18) := StableHlo.after_of_writes_sub main_part3_ops0 _ main_part3_ops0_writes (by decide)
    _ = W7 m ρ c (Proc.devRef .tc main_arg18) := StableHlo.after_of_writes_sub main_part2_ops0 _ main_part2_ops0_writes (by decide)
    _ = W6 m ρ c (Proc.devRef .tc main_arg18) := StableHlo.after_of_writes_sub main_part1_ops0 _ main_part1_ops0_writes (by decide)
    _ = W5 m ρ c (Proc.devRef .tc main_arg18) := StableHlo.after_of_writes_sub main_part0_ops1 _ main_part0_ops1_writes (by decide)
    _ = W4 m ρ c (Proc.devRef .tc main_arg18) := W5_of_ne m ρ c main_arg18 (by decide)
    _ = W3 m ρ c (Proc.devRef .tc main_arg18) := W4_of_ne m ρ c main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_writes_sub main_part0_ops0 _ main_part0_ops0_writes (by decide)
    _ = m ((c : Thread nD τ).loc main_arg18) := rfl
theorem W16_main_arg19 (c : Dev nD) : W16 m ρ c (Proc.devRef .tc main_arg19) = m ((c : Thread nD τ).loc main_arg19) :=
  calc W16 m ρ c (Proc.devRef .tc main_arg19)
    _ = W15 m ρ c (Proc.devRef .tc main_arg19) := W16_of_ne m ρ c main_arg19 (by decide)
    _ = W14 m ρ c (Proc.devRef .tc main_arg19) := StableHlo.after_of_writes_sub main_part3_ops3 _ main_part3_ops3_writes (by decide)
    _ = W13 m ρ c (Proc.devRef .tc main_arg19) := W14_of_ne m ρ c main_arg19 (by decide)
    _ = W12 m ρ c (Proc.devRef .tc main_arg19) := StableHlo.after_of_writes_sub main_part3_ops2 _ main_part3_ops2_writes (by decide)
    _ = W11 m ρ c (Proc.devRef .tc main_arg19) := W12_of_ne m ρ c main_arg19 (by decide)
    _ = W10 m ρ c (Proc.devRef .tc main_arg19) := StableHlo.after_of_writes_sub main_part3_ops1 _ main_part3_ops1_writes (by decide)
    _ = W9 m ρ c (Proc.devRef .tc main_arg19) := W10_of_ne m ρ c main_arg19 (by decide)
    _ = W8 m ρ c (Proc.devRef .tc main_arg19) := StableHlo.after_of_writes_sub main_part3_ops0 _ main_part3_ops0_writes (by decide)
    _ = W7 m ρ c (Proc.devRef .tc main_arg19) := StableHlo.after_of_writes_sub main_part2_ops0 _ main_part2_ops0_writes (by decide)
    _ = W6 m ρ c (Proc.devRef .tc main_arg19) := StableHlo.after_of_writes_sub main_part1_ops0 _ main_part1_ops0_writes (by decide)
    _ = W5 m ρ c (Proc.devRef .tc main_arg19) := StableHlo.after_of_writes_sub main_part0_ops1 _ main_part0_ops1_writes (by decide)
    _ = W4 m ρ c (Proc.devRef .tc main_arg19) := W5_of_ne m ρ c main_arg19 (by decide)
    _ = W3 m ρ c (Proc.devRef .tc main_arg19) := W4_of_ne m ρ c main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_writes_sub main_part0_ops0 _ main_part0_ops0_writes (by decide)
    _ = m ((c : Thread nD τ).loc main_arg19) := rfl
theorem W16_main_arg20 (c : Dev nD) : W16 m ρ c (Proc.devRef .tc main_arg20) = m ((c : Thread nD τ).loc main_arg20) :=
  calc W16 m ρ c (Proc.devRef .tc main_arg20)
    _ = W15 m ρ c (Proc.devRef .tc main_arg20) := W16_of_ne m ρ c main_arg20 (by decide)
    _ = W14 m ρ c (Proc.devRef .tc main_arg20) := StableHlo.after_of_writes_sub main_part3_ops3 _ main_part3_ops3_writes (by decide)
    _ = W13 m ρ c (Proc.devRef .tc main_arg20) := W14_of_ne m ρ c main_arg20 (by decide)
    _ = W12 m ρ c (Proc.devRef .tc main_arg20) := StableHlo.after_of_writes_sub main_part3_ops2 _ main_part3_ops2_writes (by decide)
    _ = W11 m ρ c (Proc.devRef .tc main_arg20) := W12_of_ne m ρ c main_arg20 (by decide)
    _ = W10 m ρ c (Proc.devRef .tc main_arg20) := StableHlo.after_of_writes_sub main_part3_ops1 _ main_part3_ops1_writes (by decide)
    _ = W9 m ρ c (Proc.devRef .tc main_arg20) := W10_of_ne m ρ c main_arg20 (by decide)
    _ = W8 m ρ c (Proc.devRef .tc main_arg20) := StableHlo.after_of_writes_sub main_part3_ops0 _ main_part3_ops0_writes (by decide)
    _ = W7 m ρ c (Proc.devRef .tc main_arg20) := StableHlo.after_of_writes_sub main_part2_ops0 _ main_part2_ops0_writes (by decide)
    _ = W6 m ρ c (Proc.devRef .tc main_arg20) := StableHlo.after_of_writes_sub main_part1_ops0 _ main_part1_ops0_writes (by decide)
    _ = W5 m ρ c (Proc.devRef .tc main_arg20) := StableHlo.after_of_writes_sub main_part0_ops1 _ main_part0_ops1_writes (by decide)
    _ = W4 m ρ c (Proc.devRef .tc main_arg20) := W5_of_ne m ρ c main_arg20 (by decide)
    _ = W3 m ρ c (Proc.devRef .tc main_arg20) := W4_of_ne m ρ c main_arg20 (by decide)
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := StableHlo.after_of_writes_sub main_part0_ops0 _ main_part0_ops0_writes (by decide)
    _ = m ((c : Thread nD τ).loc main_arg20) := rfl

end Cert.KernelIdeal.Fr

end
-- ==== Proof.KI.Run.lean ====
/-
  The whole run of the program: its items in order — stretches of host operations and the eight kernel regions — as
  segments over one thread state (every unscoped buffer of the core at the boundary's contents, the generator register at
  some state, nothing owed), each region entered by splitting its windows' arrays out of the buffers and left by putting
  them back at what the grid's write-backs made of them. Every weakly fair execution of the program ends, nothing faults,
  and every final memory holds each unscoped buffer at the last boundary's contents; the arguments among them are as
  launched.
-/
import proofs.«134990_j73504070304033_2_alg».proof.Proof.KI.Fold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W16 m ρ c) ∗ ∃ r, prngReg c r)

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (X3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (X4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (X5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (X10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (X12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (X14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (X16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's 16 segments in order. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .region (reg1 m ρ),
    .region (reg2 m ρ),
    .region (reg3 m ρ),
    .host (hseg main_part0_ops1 main_part0_ops1_sub main_part0_ops1_fresh (W5 m ρ)),
    .host (hseg main_part1_ops0 main_part1_ops0_sub main_part1_ops0_fresh (W6 m ρ)),
    .host (hseg main_part2_ops0 main_part2_ops0_sub main_part2_ops0_fresh (W7 m ρ)),
    .host (hseg main_part3_ops0 main_part3_ops0_sub main_part3_ops0_fresh (W8 m ρ)),
    .region (reg4 m ρ),
    .host (hseg main_part3_ops1 main_part3_ops1_sub main_part3_ops1_fresh (W10 m ρ)),
    .region (reg5 m ρ),
    .host (hseg main_part3_ops2 main_part3_ops2_sub main_part3_ops2_fresh (W12 m ρ)),
    .region (reg6 m ρ),
    .host (hseg main_part3_ops3 main_part3_ops3_sub main_part3_ops3_fresh (W14 m ρ)),
    .region (reg7 m ρ) ]
/-- The program IS the run of its segments. -/
theorem main_run (c : Dev nD) : main (F := F) c = Pipeline.Seg.run (segs m ρ) := (main_chain_windows c).trans (by chain_rfl)

set_option backward.isDefEq.respectTransparency.types false in
/-- THE RUN: from any memory with zero counters every weakly fair execution of the program on the cores terminates,
    nothing faulting, and every final memory holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- THE FRAME: every execution ends, nothing faults, and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c),
     (h c _ (mem_uc main_arg11 (by decide))).trans (W16_main_arg11 m ρ c),
     (h c _ (mem_uc main_arg12 (by decide))).trans (W16_main_arg12 m ρ c),
     (h c _ (mem_uc main_arg13 (by decide))).trans (W16_main_arg13 m ρ c),
     (h c _ (mem_uc main_arg14 (by decide))).trans (W16_main_arg14 m ρ c),
     (h c _ (mem_uc main_arg15 (by decide))).trans (W16_main_arg15 m ρ c),
     (h c _ (mem_uc main_arg16 (by decide))).trans (W16_main_arg16 m ρ c),
     (h c _ (mem_uc main_arg17 (by decide))).trans (W16_main_arg17 m ρ c),
     (h c _ (mem_uc main_arg18 (by decide))).trans (W16_main_arg18 m ρ c),
     (h c _ (mem_uc main_arg19 (by decide))).trans (W16_main_arg19 m ρ c),
     (h c _ (mem_uc main_arg20 (by decide))).trans (W16_main_arg20 m ρ c)⟩) (run m ρ)

end Cert.KernelIdeal.Fr

end
-- ==== Proof.Chain.lean ====
/-
  The reference program's four results, restated over one named function per relation: a relation's aggregation gathers the
  projected source rows along the edges, sums them into the destination rows, and divides each destination row by its
  in-degree clamped below at one. Each function's body is the run's own term for that stretch of operations, with the
  projection, the edges' destinations and their sources as its arguments.
-/
import proofs.«134990_j73504070304033_2_alg».proof.Proof.Gen.ReferenceIdeal.Run

set_option maxRecDepth 8192

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Relation 0: projected rows [S200000x64] gathered along the edges (sources `src`), summed into [S100000x64] (destinations `dst`),
    each row divided by its in-degree clamped below at one. -/
def rc0 (P : (⟨S200000x64, .f32⟩ : BufTy).Contents (Elt F)) (dst src : (⟨S1000000, .i32⟩ : BufTy).Contents (Elt F)) :
    (⟨S100000x64, .f32⟩ : BufTy).Contents (Elt F) :=
  (Host.divf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 dst) (Host.gather gather_S200000x64_S1000000x1_S1000000x64_1_0_n_n_0_1_164 P (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 200000#32))) src)))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 dst) (broadcastInDim S1000000 ![] bcast_S_S1000000 (constant S_ .f32 0x3F800000#32))) (broadcastInDim S100000 ![] bcast_S_S100000 (constant S_ .f32 0x3F800000#32))))))

/-- Relation 1: projected rows [S8000x64] gathered along the edges (sources `src`), summed into [S100000x64] (destinations `dst`),
    each row divided by its in-degree clamped below at one. -/
def rc1 (P : (⟨S8000x64, .f32⟩ : BufTy).Contents (Elt F)) (dst src : (⟨S200000, .i32⟩ : BufTy).Contents (Elt F)) :
    (⟨S100000x64, .f32⟩ : BufTy).Contents (Elt F) :=
  (Host.divf (Host.scatterAdd scatter_S100000x64_S200000x1_S200000x64_1_0_0_1 (broadcastInDim S100000x64 ![] bcast_S_S100000x64 (constant S_ .f32 0x00000000#32)) (broadcastInDim S200000x1 ![0] bcast_S200000_S200000x1_0 dst) (Host.gather gather_S8000x64_S200000x1_S200000x64_1_0_n_n_0_1_164 P (broadcastInDim S200000x1 ![0] bcast_S200000_S200000x1_0 (select (cmpi .slt src (broadcastInDim S200000 ![] bcast_S_S200000 (constantI S_ 32 0#32))) (addi src (broadcastInDim S200000 ![] bcast_S_S200000 (constantI S_ 32 8000#32))) src)))) (broadcastInDim S100000x64 ![0, 1] bcast_S100000x1_S100000x64_0_1 (broadcastInDim S100000x1 ![0] bcast_S100000_S100000x1_0 (maximumf (Host.scatterAdd scatter_S100000_S200000x1_S200000_n_0_0_1 (broadcastInDim S100000 ![] bcast_S_S100000 (constant S_ .f32 0x00000000#32)) (broadcastInDim S200000x1 ![0] bcast_S200000_S200000x1_0 dst) (broadcastInDim S200000 ![] bcast_S_S200000 (constant S_ .f32 0x3F800000#32))) (broadcastInDim S100000 ![] bcast_S_S100000 (constant S_ .f32 0x3F800000#32))))))

/-- Relation 2: projected rows [S200000x64] gathered along the edges (sources `src`), summed into [S50000x64] (destinations `dst`),
    each row divided by its in-degree clamped below at one. -/
def rc2 (P : (⟨S200000x64, .f32⟩ : BufTy).Contents (Elt F)) (dst src : (⟨S800000, .i32⟩ : BufTy).Contents (Elt F)) :
    (⟨S50000x64, .f32⟩ : BufTy).Contents (Elt F) :=
  (Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S200000x64_S800000x1_S800000x64_1_0_n_n_0_1_164 P (broadcastInDim S800000x1 ![0] bcast_S800000_S800000x1_0 (select (cmpi .slt src (broadcastInDim S800000 ![] bcast_S_S800000 (constantI S_ 32 0#32))) (addi src (broadcastInDim S800000 ![] bcast_S_S800000 (constantI S_ 32 200000#32))) src)))) (broadcastInDim S50000x64 ![0, 1] bcast_S50000x1_S50000x64_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))))))

/-- Relation 3: projected rows [S100000x64] gathered along the edges (sources `src`), summed into [S8000x64] (destinations `dst`),
    each row divided by its in-degree clamped below at one. -/
def rc3 (P : (⟨S100000x64, .f32⟩ : BufTy).Contents (Elt F)) (dst src : (⟨S200000, .i32⟩ : BufTy).Contents (Elt F)) :
    (⟨S8000x64, .f32⟩ : BufTy).Contents (Elt F) :=
  (Host.divf (Host.scatterAdd scatter_S8000x64_S200000x1_S200000x64_1_0_0_1 (broadcastInDim S8000x64 ![] bcast_S_S8000x64 (constant S_ .f32 0x00000000#32)) (broadcastInDim S200000x1 ![0] bcast_S200000_S200000x1_0 dst) (Host.gather gather_S100000x64_S200000x1_S200000x64_1_0_n_n_0_1_164 P (broadcastInDim S200000x1 ![0] bcast_S200000_S200000x1_0 (select (cmpi .slt src (broadcastInDim S200000 ![] bcast_S_S200000 (constantI S_ 32 0#32))) (addi src (broadcastInDim S200000 ![] bcast_S_S200000 (constantI S_ 32 100000#32))) src)))) (broadcastInDim S8000x64 ![0, 1] bcast_S8000x1_S8000x64_0_1 (broadcastInDim S8000x1 ![0] bcast_S8000_S8000x1_0 (maximumf (Host.scatterAdd scatter_S8000_S200000x1_S200000_n_0_0_1 (broadcastInDim S8000 ![] bcast_S_S8000 (constant S_ .f32 0x00000000#32)) (broadcastInDim S200000x1 ![0] bcast_S200000_S200000x1_0 dst) (broadcastInDim S200000 ![] bcast_S_S200000 (constant S_ .f32 0x3F800000#32))) (broadcastInDim S8000 ![] bcast_S_S8000 (constant S_ .f32 0x3F800000#32))))))

/-- Relation 4: projected rows [S100000x64] gathered along the edges (sources `src`), summed into [S200000x64] (destinations `dst`),
    each row divided by its in-degree clamped below at one. -/
def rc4 (P : (⟨S100000x64, .f32⟩ : BufTy).Contents (Elt F)) (dst src : (⟨S1000000, .i32⟩ : BufTy).Contents (Elt F)) :
    (⟨S200000x64, .f32⟩ : BufTy).Contents (Elt F) :=
  (Host.divf (Host.scatterAdd scatter_S200000x64_S1000000x1_S1000000x64_1_0_0_1 (broadcastInDim S200000x64 ![] bcast_S_S200000x64 (constant S_ .f32 0x00000000#32)) (broadcastInDim S1000000x1 ![0] bcast_S1000000_S1000000x1_0 dst) (Host.gather gather_S100000x64_S1000000x1_S1000000x64_1_0_n_n_0_1_164 P (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))) (broadcastInDim S200000x64 ![0, 1] bcast_S200000x1_S200000x64_0_1 (broadcastInDim S200000x1 ![0] bcast_S200000_S200000x1_0 (maximumf (Host.scatterAdd scatter_S200000_S1000000x1_S1000000_n_0_0_1 (broadcastInDim S200000 ![] bcast_S_S200000 (constant S_ .f32 0x00000000#32)) (broadcastInDim S1000000x1 ![0] bcast_S1000000_S1000000x1_0 dst) (broadcastInDim S1000000 ![] bcast_S_S1000000 (constant S_ .f32 0x3F800000#32))) (broadcastInDim S200000 ![] bcast_S_S200000 (constant S_ .f32 0x3F800000#32))))))

/-- Relation 5: projected rows [S200000x64] gathered along the edges (sources `src`), summed into [S200000x64] (destinations `dst`),
    each row divided by its in-degree clamped below at one. -/
def rc5 (P : (⟨S200000x64, .f32⟩ : BufTy).Contents (Elt F)) (dst src : (⟨S1000000, .i32⟩ : BufTy).Contents (Elt F)) :
    (⟨S200000x64, .f32⟩ : BufTy).Contents (Elt F) :=
  (Host.divf (Host.scatterAdd scatter_S200000x64_S1000000x1_S1000000x64_1_0_0_1 (broadcastInDim S200000x64 ![] bcast_S_S200000x64 (constant S_ .f32 0x00000000#32)) (broadcastInDim S1000000x1 ![0] bcast_S1000000_S1000000x1_0 dst) (Host.gather gather_S200000x64_S1000000x1_S1000000x64_1_0_n_n_0_1_164 P (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 200000#32))) src)))) (broadcastInDim S200000x64 ![0, 1] bcast_S200000x1_S200000x64_0_1 (broadcastInDim S200000x1 ![0] bcast_S200000_S200000x1_0 (maximumf (Host.scatterAdd scatter_S200000_S1000000x1_S1000000_n_0_0_1 (broadcastInDim S200000 ![] bcast_S_S200000 (constant S_ .f32 0x00000000#32)) (broadcastInDim S1000000x1 ![0] bcast_S1000000_S1000000x1_0 dst) (broadcastInDim S1000000 ![] bcast_S_S1000000 (constant S_ .f32 0x3F800000#32))) (broadcastInDim S200000 ![] bcast_S_S200000 (constant S_ .f32 0x3F800000#32))))))

/-- Relation 6: projected rows [S50000x64] gathered along the edges (sources `src`), summed into [S200000x64] (destinations `dst`),
    each row divided by its in-degree clamped below at one. -/
def rc6 (P : (⟨S50000x64, .f32⟩ : BufTy).Contents (Elt F)) (dst src : (⟨S800000, .i32⟩ : BufTy).Contents (Elt F)) :
    (⟨S200000x64, .f32⟩ : BufTy).Contents (Elt F) :=
  (Host.divf (Host.scatterAdd scatter_S200000x64_S800000x1_S800000x64_1_0_0_1 (broadcastInDim S200000x64 ![] bcast_S_S200000x64 (constant S_ .f32 0x00000000#32)) (broadcastInDim S800000x1 ![0] bcast_S800000_S800000x1_0 dst) (Host.gather gather_S50000x64_S800000x1_S800000x64_1_0_n_n_0_1_164 P (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S200000x64 ![0, 1] bcast_S200000x1_S200000x64_0_1 (broadcastInDim S200000x1 ![0] bcast_S200000_S200000x1_0 (maximumf (Host.scatterAdd scatter_S200000_S800000x1_S800000_n_0_0_1 (broadcastInDim S200000 ![] bcast_S_S200000 (constant S_ .f32 0x00000000#32)) (broadcastInDim S800000x1 ![0] bcast_S800000_S800000x1_0 dst) (broadcastInDim S800000 ![] bcast_S_S800000 (constant S_ .f32 0x3F800000#32))) (broadcastInDim S200000 ![] bcast_S_S200000 (constant S_ .f32 0x3F800000#32))))))

/-- Result 0 of the reference: relu of (the relations' aggregations added in order + the self-loop projection + the bias). -/
def refOut0 (m : (ℓ : Loc nD τ sig) → Buf (Elt F) ℓ) (c : Dev nD) : Buf (Elt F) ((c.tc : Thread nD τ).loc main_v162) :=
  maximumf (addf (addf (addf (rc0 (Host.dotGeneral dot_S200000x128_S128x64_S200000x64_1_0_0_1_n_n none (m ((c.tc : Thread nD τ).loc main_arg3)) (shapeCast _ (extractStridedSlice S1x128x64 ![1, 0, 0] (m ((c.tc : Thread nD τ).loc main_arg4)) slices_S7x128x64_S1x128x64_1_0_0) shapeCasts_S1x128x64_S128x64)) (m ((c.tc : Thread nD τ).loc main_arg10)) (m ((c.tc : Thread nD τ).loc main_arg9))) (rc1 (Host.dotGeneral dot_S8000x128_S128x64_S8000x64_1_0_0_1_n_n none (m ((c.tc : Thread nD τ).loc main_arg2)) (shapeCast _ (extractStridedSlice S1x128x64 ![6, 0, 0] (m ((c.tc : Thread nD τ).loc main_arg4)) slices_S7x128x64_S1x128x64_6_0_0) shapeCasts_S1x128x64_S128x64)) (m ((c.tc : Thread nD τ).loc main_arg20)) (m ((c.tc : Thread nD τ).loc main_arg19)))) (Host.dotGeneral dot_S100000x128_S128x64_S100000x64_1_0_0_1_n_n none (m ((c.tc : Thread nD τ).loc main_arg0)) (m ((c.tc : Thread nD τ).loc main_arg5)))) (broadcastInDim S100000x64 ![0, 1] bcast_S1x64_S100000x64_0_1 (broadcastInDim S1x64 ![1] bcast_S64_S1x64_1 (m ((c.tc : Thread nD τ).loc main_arg6))))) (broadcastInDim S100000x64 ![] bcast_S_S100000x64 (constant S_ .f32 0x00000000#32))

/-- Result 1 of the reference: relu of (the relations' aggregations added in order + the self-loop projection + the bias). -/
def refOut1 (m : (ℓ : Loc nD τ sig) → Buf (Elt F) ℓ) (c : Dev nD) : Buf (Elt F) ((c.tc : Thread nD τ).loc main_v168) :=
  maximumf (addf (addf (rc2 (Host.dotGeneral dot_S200000x128_S128x64_S200000x64_1_0_0_1_n_n none (m ((c.tc : Thread nD τ).loc main_arg3)) (shapeCast _ (extractStridedSlice S1x128x64 ![3, 0, 0] (m ((c.tc : Thread nD τ).loc main_arg4)) slices_S7x128x64_S1x128x64_3_0_0) shapeCasts_S1x128x64_S128x64)) (m ((c.tc : Thread nD τ).loc main_arg14)) (m ((c.tc : Thread nD τ).loc main_arg13))) (Host.dotGeneral dot_S50000x128_S128x64_S50000x64_1_0_0_1_n_n none (m ((c.tc : Thread nD τ).loc main_arg1)) (m ((c.tc : Thread nD τ).loc main_arg5)))) (broadcastInDim S50000x64 ![0, 1] bcast_S1x64_S50000x64_0_1 (broadcastInDim S1x64 ![1] bcast_S64_S1x64_1 (m ((c.tc : Thread nD τ).loc main_arg6))))) (broadcastInDim S50000x64 ![] bcast_S_S50000x64 (constant S_ .f32 0x00000000#32))

/-- Result 2 of the reference: relu of (the relations' aggregations added in order + the self-loop projection + the bias). -/
def refOut2 (m : (ℓ : Loc nD τ sig) → Buf (Elt F) ℓ) (c : Dev nD) : Buf (Elt F) ((c.tc : Thread nD τ).loc main_v174) :=
  maximumf (addf (addf (rc3 (Host.dotGeneral dot_S100000x128_S128x64_S100000x64_1_0_0_1_n_n none (m ((c.tc : Thread nD τ).loc main_arg0)) (shapeCast _ (extractStridedSlice S1x128x64 ![5, 0, 0] (m ((c.tc : Thread nD τ).loc main_arg4)) slices_S7x128x64_S1x128x64_5_0_0) shapeCasts_S1x128x64_S128x64)) (m ((c.tc : Thread nD τ).loc main_arg18)) (m ((c.tc : Thread nD τ).loc main_arg17))) (Host.dotGeneral dot_S8000x128_S128x64_S8000x64_1_0_0_1_n_n none (m ((c.tc : Thread nD τ).loc main_arg2)) (m ((c.tc : Thread nD τ).loc main_arg5)))) (broadcastInDim S8000x64 ![0, 1] bcast_S1x64_S8000x64_0_1 (broadcastInDim S1x64 ![1] bcast_S64_S1x64_1 (m ((c.tc : Thread nD τ).loc main_arg6))))) (broadcastInDim S8000x64 ![] bcast_S_S8000x64 (constant S_ .f32 0x00000000#32))

/-- Result 3 of the reference: relu of (the relations' aggregations added in order + the self-loop projection + the bias). -/
def refOut3 (m : (ℓ : Loc nD τ sig) → Buf (Elt F) ℓ) (c : Dev nD) : Buf (Elt F) ((c.tc : Thread nD τ).loc main_v180) :=
  maximumf (addf (addf (addf (addf (rc4 (Host.dotGeneral dot_S100000x128_S128x64_S100000x64_1_0_0_1_n_n none (m ((c.tc : Thread nD τ).loc main_arg0)) (shapeCast _ (extractStridedSlice S1x128x64 ![0, 0, 0] (m ((c.tc : Thread nD τ).loc main_arg4)) slices_S7x128x64_S1x128x64_0_0_0) shapeCasts_S1x128x64_S128x64)) (m ((c.tc : Thread nD τ).loc main_arg8)) (m ((c.tc : Thread nD τ).loc main_arg7))) (rc5 (Host.dotGeneral dot_S200000x128_S128x64_S200000x64_1_0_0_1_n_n none (m ((c.tc : Thread nD τ).loc main_arg3)) (shapeCast _ (extractStridedSlice S1x128x64 ![2, 0, 0] (m ((c.tc : Thread nD τ).loc main_arg4)) slices_S7x128x64_S1x128x64_2_0_0) shapeCasts_S1x128x64_S128x64)) (m ((c.tc : Thread nD τ).loc main_arg12)) (m ((c.tc : Thread nD τ).loc main_arg11)))) (rc6 (Host.dotGeneral dot_S50000x128_S128x64_S50000x64_1_0_0_1_n_n none (m ((c.tc : Thread nD τ).loc main_arg1)) (shapeCast _ (extractStridedSlice S1x128x64 ![4, 0, 0] (m ((c.tc : Thread nD τ).loc main_arg4)) slices_S7x128x64_S1x128x64_4_0_0) shapeCasts_S1x128x64_S128x64)) (m ((c.tc : Thread nD τ).loc main_arg16)) (m ((c.tc : Thread nD τ).loc main_arg15)))) (Host.dotGeneral dot_S200000x128_S128x64_S200000x64_1_0_0_1_n_n none (m ((c.tc : Thread nD τ).loc main_arg3)) (m ((c.tc : Thread nD τ).loc main_arg5)))) (broadcastInDim S200000x64 ![0, 1] bcast_S1x64_S200000x64_0_1 (broadcastInDim S1x64 ![1] bcast_S64_S1x64_1 (m ((c.tc : Thread nD τ).loc main_arg6))))) (broadcastInDim S200000x64 ![] bcast_S_S200000x64 (constant S_ .f32 0x00000000#32))

/-- The fourth result as the run names it is the restated one. -/
theorem res_out3_eq (m : (ℓ : Loc nD τ sig) → Buf (Elt F) ℓ) (c : Dev nD) : Cert.ReferenceIdeal.Value.res_main_v180 m c = refOut3 m c := by
  unfold Cert.ReferenceIdeal.Value.res_main_v180 refOut3 rc4 rc5 rc6
  rfl

end Cert.ReferenceIdeal.Chain

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.KI.ValProj0.lean ====
import proofs.«134990_j73504070304033_2_alg».proof.Proof.KI.Body0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-
  Region 0 as one function of the arrays it finds: the feature matrix times the (column-concatenated) weight matrix,
  entry (r, q) the sum over k of feature (r, k) times weight (k, q). Grid point t writes rows 5000·t … 5000·t + 4999;
  the 20 points' blocks cover the array.
-/

theorem hzp0 : (![0, 0] : Fin 2 → Nat) = fun _ => 0 := funext fun a => by fin_cases a <;> rfl

/-- The windows' block indices over the grid: the feature rows and the output rows move with the point, the weights stay. -/
theorem idxp0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `i 0` of the features, column `k`. -/
abbrev lixA0 (i : S100000x192.Idx) (k : Fin 128) : S100000x128.Idx := fun a => match a with
  | ⟨0, _⟩ => ⟨(i 0).val, (i 0).isLt⟩
  | ⟨1, _⟩ => ⟨k.val, k.isLt⟩
/-- Row `k` of the weights, column `i 1`. -/
abbrev rixA0 (i : S100000x192.Idx) (k : Fin 128) : S128x192.Idx := fun a => match a with
  | ⟨0, _⟩ => ⟨k.val, k.isLt⟩
  | ⟨1, _⟩ => ⟨(i 1).val, (i 1).isLt⟩

/-- The matrix product, entry by entry. -/
def projG0 (x : S100000x128.Idx → EReal) (w : S128x192.Idx → EReal) : S100000x192.Idx → EReal :=
  fun i => ∑ k : Fin 128, x (lixA0 i k) * w (rixA0 i k)

abbrev lix0 (j : S5000x192.Idx) (k : Fin 128) : S5000x128.Idx := fun a => match a with
  | ⟨0, _⟩ => ⟨(j 0).val, (j 0).isLt⟩
  | ⟨1, _⟩ => ⟨k.val, k.isLt⟩
abbrev rix0 (j : S5000x192.Idx) (k : Fin 128) : S128x192.Idx := fun a => match a with
  | ⟨0, _⟩ => ⟨k.val, k.isLt⟩
  | ⟨1, _⟩ => ⟨(j 1).val, (j 1).isLt⟩

theorem lhs0_0 (j : S5000x192.Idx) (q : dot_S5000x128_S128x192_S5000x192_1_0_0_1_n_n.contr.Idx) : (dot_S5000x128_S128x192_S5000x192_1_0_0_1_n_n.lhsIdx j q 0).val = (j 0).val := by
  unfold DotDims.lhsIdx
  rw [dif_neg (show ¬(0 : Fin S5000x128.rank) ∈ dot_S5000x128_S128x192_S5000x192_1_0_0_1_n_n.lhsBatch by decide), dif_pos (show (0 : Fin S5000x128.rank) ∈ dot_S5000x128_S128x192_S5000x192_1_0_0_1_n_n.lhsNonContracting by decide)]
  rfl
theorem lhs0_1 (j : S5000x192.Idx) (q : dot_S5000x128_S128x192_S5000x192_1_0_0_1_n_n.contr.Idx) : (dot_S5000x128_S128x192_S5000x192_1_0_0_1_n_n.lhsIdx j q 1).val = (q ⟨0, by decide⟩).val :=
  dot_S5000x128_S128x192_S5000x192_1_0_0_1_n_n.lhsIdx_val_of_single rfl j q
theorem rhs0_0 (j : S5000x192.Idx) (q : dot_S5000x128_S128x192_S5000x192_1_0_0_1_n_n.contr.Idx) : (dot_S5000x128_S128x192_S5000x192_1_0_0_1_n_n.rhsIdx j q 0).val = (q ⟨0, by decide⟩).val :=
  dot_S5000x128_S128x192_S5000x192_1_0_0_1_n_n.rhsIdx_val_of_single rfl j q
theorem rhs0_1 (j : S5000x192.Idx) (q : dot_S5000x128_S128x192_S5000x192_1_0_0_1_n_n.contr.Idx) : (dot_S5000x128_S128x192_S5000x192_1_0_0_1_n_n.rhsIdx j q 1).val = (j 1).val := by
  unfold DotDims.rhsIdx
  rw [dif_neg (show ¬(1 : Fin S128x192.rank) ∈ dot_S5000x128_S128x192_S5000x192_1_0_0_1_n_n.rhsBatch by decide), dif_pos (show (1 : Fin S128x192.rank) ∈ dot_S5000x128_S128x192_S5000x192_1_0_0_1_n_n.rhsNonContracting by decide)]
  rfl

/-- The body's value at an entry of the block: the row of the feature block against the column of the weights
    (the change of float format on the way into the product is the identity on extended reals). -/
theorem payp0_apply (x0 : Vec Ideal S5000x128 .f32) (x1 : Vec Ideal S128x192 .f32) (j : S5000x192.Idx) :
    k0_pay1 x0 x1 j = ∑ k : Fin 128, x0 (lix0 j k) * x1 (rix0 j k) := by
  unfold k0_pay1
  simp only [shapeCast_self]
  refine (Ideal.matmul_constant_zero_apply dot_S5000x128_S128x192_S5000x192_1_0_0_1_n_n none _ _ j).trans ?_
  rw [← Equiv.sum_comp (ValueIdx.contrEquiv1 dot_S5000x128_S128x192_S5000x192_1_0_0_1_n_n 128 rfl rfl).symm]
  refine Finset.sum_congr rfl fun k _ => ?_
  have hk := ValueIdx.contrEquiv1_symm_val dot_S5000x128_S128x192_S5000x192_1_0_0_1_n_n 128 rfl rfl k
  have el : dot_S5000x128_S128x192_S5000x192_1_0_0_1_n_n.lhsIdx j ((ValueIdx.contrEquiv1 dot_S5000x128_S128x192_S5000x192_1_0_0_1_n_n 128 rfl rfl).symm k) = lix0 j k := funext fun a => Fin.ext (by
    match a with
    | ⟨0, _⟩ => exact lhs0_0 _ _
    | ⟨1, _⟩ => exact (lhs0_1 _ _).trans hk)
  have er : dot_S5000x128_S128x192_S5000x192_1_0_0_1_n_n.rhsIdx j ((ValueIdx.contrEquiv1 dot_S5000x128_S128x192_S5000x192_1_0_0_1_n_n 128 rfl rfl).symm k) = rix0 j k := funext fun a => Fin.ext (by
    match a with
    | ⟨0, _⟩ => exact (rhs0_0 _ _).trans hk
    | ⟨1, _⟩ => exact rhs0_1 _ _)
  rw [el, er]
  rfl

/-- An entry of the block against the entry of the whole-array product it sits at. -/
theorem block_entryp0 (X : S100000x128.Idx → EReal) (W : S128x192.Idx → EReal) (x0 : Vec Ideal S5000x128 .f32) (x1 : Vec Ideal S128x192 .f32)
    (j : S5000x192.Idx) (i : S100000x192.Idx)
    (h0 : ∀ k : Fin 128, x0 (lix0 j k) = X (lixA0 i k)) (h1 : ∀ k : Fin 128, x1 (rix0 j k) = W (rixA0 i k)) :
    k0_pay1 x0 x1 j = projG0 X W i := by
  rw [payp0_apply]
  unfold projG0
  exact Finset.sum_congr rfl fun k _ => by rw [h0 k, h1 k]

/-- What point `t` writes back is block `t` of the product of the entry arrays. -/
theorem flushedp0 (c : Dev nD) (t : Fin cfg0.N) :
    (dat0 V c).flushed 2 t = ((cfg0.win 2).blk t).view.read (Elt Ideal) (projG0 (V c main_arg0) (V c main_v4)) := by
  show (cfg0.win 2).cut (grid0.coords t) ((dat0 V c).after 2 t) = _
  rw [after0_2]
  unfold out0
  rw [View.canon_unit_zero hzp0]
  simp only [View.ld_unit_zero (S := S5000x128) hzp0, View.ld_unit_zero (S := S128x192) hzp0]
  obtain ⟨e00, e01, e10, e11, e20, e21⟩ := idxp0 t
  funext j
  have hj0 : (j 0).val < 5000 := (j 0).isLt
  have hj1 : (j 1).val < 192 := (j 1).isLt
  show k0_pay1 (iblk0 V c 0 t) (iblk0 V c 1 t) j
      = projG0 (V c main_arg0) (V c main_v4) (((cfg0.win 2).blk t).view.emb j)
  refine block_entryp0 _ _ _ _ j _ (fun k => ?_) (fun k => ?_)
  · show V c main_arg0 (((cfg0.win 0).blk t).view.emb (lix0 j k)) = V c main_arg0 (lixA0 (((cfg0.win 2).blk t).view.emb j) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_v4 (((cfg0.win 1).blk t).view.emb (rix0 j k)) = V c main_v4 (rixA0 (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 192 + 1 * (j 1).val = win0_2.index t (1 : Fin 2) * 192 + 1 * (j 1).val; omega

theorem mem_blkp0 (t : Fin cfg0.N) (i : S100000x192.Idx) :
    i ∈ ((cfg0.win 2).blk t).view.set ↔ ∀ a : Fin 2, win0_2.index t a * S5000x192.size a ≤ (i a).val ∧ (i a).val < win0_2.index t a * S5000x192.size a + S5000x192.size a := by
  show i ∈ ((View.whole main_v18).slice (win0_2.rect t)).set ↔ _
  rw [View.set_slice_whole, Rect.mem_set_unit]
  exact Iff.rfl

/-- Row `r` is in the block of point `r / 5000`. -/
theorem coverp0 (i : S100000x192.Idx) : ∃ t : Fin cfg0.N, (cfg0.win 2).flush t = true ∧ i ∈ ((cfg0.win 2).blk t).view.set := by
  have hi0 : (i 0).val < 100000 := (i 0).isLt
  have hi1 : (i 1).val < 192 := (i 1).isLt
  have hN : cfg0.N = 20 := N_0
  let t : Fin cfg0.N := ⟨(i 0).val / 5000, by rw [hN]; omega⟩
  have ht : t.val = (i 0).val / 5000 := rfl
  obtain ⟨-, -, -, -, e20, e21⟩ := idxp0 t
  refine ⟨t, flush0_2 t, ?_⟩
  rw [mem_blkp0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 192 ≤ (i 1).val ∧ (i 1).val < win0_2.index t (1 : Fin 2) * 192 + 192; omega

/-- After the region the output array holds the product of the entry arrays. -/
theorem arrp0 (c : Dev nD) : (dat0 V c).arrAt 2 cfg0.N = projG0 (V c main_arg0) (V c main_v4) :=
  (dat0 V c).arrAt_eq_of_cover 2 _ (fun t _ => flushedp0 V c t) coverp0

end Cert.KernelIdeal.Val

end
-- ==== Proof.KI.ValProj1.lean ====
import proofs.«134990_j73504070304033_2_alg».proof.Proof.KI.Body1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-
  Region 1 as one function of the arrays it finds: the feature matrix times the (column-concatenated) weight matrix,
  entry (r, q) the sum over k of feature (r, k) times weight (k, q). Grid point t writes rows 5000·t … 5000·t + 4999;
  the 40 points' blocks cover the array.
-/

theorem hzp1 : (![0, 0] : Fin 2 → Nat) = fun _ => 0 := funext fun a => by fin_cases a <;> rfl

/-- The windows' block indices over the grid: the feature rows and the output rows move with the point, the weights stay. -/
theorem idxp1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `i 0` of the features, column `k`. -/
abbrev lixA1 (i : S200000x256.Idx) (k : Fin 128) : S200000x128.Idx := fun a => match a with
  | ⟨0, _⟩ => ⟨(i 0).val, (i 0).isLt⟩
  | ⟨1, _⟩ => ⟨k.val, k.isLt⟩
/-- Row `k` of the weights, column `i 1`. -/
abbrev rixA1 (i : S200000x256.Idx) (k : Fin 128) : S128x256.Idx := fun a => match a with
  | ⟨0, _⟩ => ⟨k.val, k.isLt⟩
  | ⟨1, _⟩ => ⟨(i 1).val, (i 1).isLt⟩

/-- The matrix product, entry by entry. -/
def projG1 (x : S200000x128.Idx → EReal) (w : S128x256.Idx → EReal) : S200000x256.Idx → EReal :=
  fun i => ∑ k : Fin 128, x (lixA1 i k) * w (rixA1 i k)

abbrev lix1 (j : S5000x256.Idx) (k : Fin 128) : S5000x128.Idx := fun a => match a with
  | ⟨0, _⟩ => ⟨(j 0).val, (j 0).isLt⟩
  | ⟨1, _⟩ => ⟨k.val, k.isLt⟩
abbrev rix1 (j : S5000x256.Idx) (k : Fin 128) : S128x256.Idx := fun a => match a with
  | ⟨0, _⟩ => ⟨k.val, k.isLt⟩
  | ⟨1, _⟩ => ⟨(j 1).val, (j 1).isLt⟩

theorem lhs1_0 (j : S5000x256.Idx) (q : dot_S5000x128_S128x256_S5000x256_1_0_0_1_n_n.contr.Idx) : (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs1_1 (j : S5000x256.Idx) (q : dot_S5000x128_S128x256_S5000x256_1_0_0_1_n_n.contr.Idx) : (dot_S5000x128_S128x256_S5000x256_1_0_0_1_n_n.lhsIdx j q 1).val = (q ⟨0, by decide⟩).val :=
  dot_S5000x128_S128x256_S5000x256_1_0_0_1_n_n.lhsIdx_val_of_single rfl j q
theorem rhs1_0 (j : S5000x256.Idx) (q : dot_S5000x128_S128x256_S5000x256_1_0_0_1_n_n.contr.Idx) : (dot_S5000x128_S128x256_S5000x256_1_0_0_1_n_n.rhsIdx j q 0).val = (q ⟨0, by decide⟩).val :=
  dot_S5000x128_S128x256_S5000x256_1_0_0_1_n_n.rhsIdx_val_of_single rfl j q
theorem rhs1_1 (j : S5000x256.Idx) (q : dot_S5000x128_S128x256_S5000x256_1_0_0_1_n_n.contr.Idx) : (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's value at an entry of the block: the row of the feature block against the column of the weights
    (the change of float format on the way into the product is the identity on extended reals). -/
theorem payp1_apply (x0 : Vec Ideal S5000x128 .f32) (x1 : Vec Ideal S128x256 .f32) (j : S5000x256.Idx) :
    k1_pay1 x0 x1 j = ∑ k : Fin 128, x0 (lix1 j k) * x1 (rix1 j k) := by
  unfold k1_pay1
  simp only [shapeCast_self]
  refine (Ideal.matmul_constant_zero_apply dot_S5000x128_S128x256_S5000x256_1_0_0_1_n_n none _ _ j).trans ?_
  rw [← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx j ((ValueIdx.contrEquiv1 dot_S5000x128_S128x256_S5000x256_1_0_0_1_n_n 128 rfl rfl).symm k) = lix1 j k := funext fun a => Fin.ext (by
    match a with
    | ⟨0, _⟩ => exact lhs1_0 _ _
    | ⟨1, _⟩ => exact (lhs1_1 _ _).trans hk)
  have er : dot_S5000x128_S128x256_S5000x256_1_0_0_1_n_n.rhsIdx j ((ValueIdx.contrEquiv1 dot_S5000x128_S128x256_S5000x256_1_0_0_1_n_n 128 rfl rfl).symm k) = rix1 j k := funext fun a => Fin.ext (by
    match a with
    | ⟨0, _⟩ => exact (rhs1_0 _ _).trans hk
    | ⟨1, _⟩ => exact rhs1_1 _ _)
  rw [el, er]
  rfl

/-- An entry of the block against the entry of the whole-array product it sits at. -/
theorem block_entryp1 (X : S200000x128.Idx → EReal) (W : S128x256.Idx → EReal) (x0 : Vec Ideal S5000x128 .f32) (x1 : Vec Ideal S128x256 .f32)
    (j : S5000x256.Idx) (i : S200000x256.Idx)
    (h0 : ∀ k : Fin 128, x0 (lix1 j k) = X (lixA1 i k)) (h1 : ∀ k : Fin 128, x1 (rix1 j k) = W (rixA1 i k)) :
    k1_pay1 x0 x1 j = projG1 X W i := by
  rw [payp1_apply]
  unfold projG1
  exact Finset.sum_congr rfl fun k _ => by rw [h0 k, h1 k]

/-- What point `t` writes back is block `t` of the product of the entry arrays. -/
theorem flushedp1 (c : Dev nD) (t : Fin cfg1.N) :
    (dat1 V c).flushed 2 t = ((cfg1.win 2).blk t).view.read (Elt Ideal) (projG1 (V c main_arg3) (V c main_v11)) := by
  show (cfg1.win 2).cut (grid1.coords t) ((dat1 V c).after 2 t) = _
  rw [after1_2]
  unfold out1
  rw [View.canon_unit_zero hzp1]
  simp only [View.ld_unit_zero (S := S5000x128) hzp1, View.ld_unit_zero (S := S128x256) hzp1]
  obtain ⟨e00, e01, e10, e11, e20, e21⟩ := idxp1 t
  funext j
  have hj0 : (j 0).val < 5000 := (j 0).isLt
  have hj1 : (j 1).val < 256 := (j 1).isLt
  show k1_pay1 (iblk1 V c 0 t) (iblk1 V c 1 t) j
      = projG1 (V c main_arg3) (V c main_v11) (((cfg1.win 2).blk t).view.emb j)
  refine block_entryp1 _ _ _ _ j _ (fun k => ?_) (fun k => ?_)
  · show V c main_arg3 (((cfg1.win 0).blk t).view.emb (lix1 j k)) = V c main_arg3 (lixA1 (((cfg1.win 2).blk t).view.emb j) k)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_v11 (((cfg1.win 1).blk t).view.emb (rix1 j k)) = V c main_v11 (rixA1 (((cfg1.win 2).blk t).view.emb j) k)
    refine congrArg _ (funext fun a => Fin.ext ?_)
    match a with
    | ⟨0, _⟩ => show win1_1.index t (0 : Fin 2) * 128 + 1 * k.val = k.val; omega
    | ⟨1, _⟩ => show win1_1.index t (1 : Fin 2) * 256 + 1 * (j 1).val = win1_2.index t (1 : Fin 2) * 256 + 1 * (j 1).val; omega

theorem mem_blkp1 (t : Fin cfg1.N) (i : S200000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v19).slice (win1_2.rect t)).set ↔ _
  rw [View.set_slice_whole, Rect.mem_set_unit]
  exact Iff.rfl

/-- Row `r` is in the block of point `r / 5000`. -/
theorem coverp1 (i : S200000x256.Idx) : ∃ t : Fin cfg1.N, (cfg1.win 2).flush t = true ∧ i ∈ ((cfg1.win 2).blk t).view.set := by
  have hi0 : (i 0).val < 200000 := (i 0).isLt
  have hi1 : (i 1).val < 256 := (i 1).isLt
  have hN : cfg1.N = 40 := N_1
  let t : Fin cfg1.N := ⟨(i 0).val / 5000, by rw [hN]; omega⟩
  have ht : t.val = (i 0).val / 5000 := rfl
  obtain ⟨-, -, -, -, e20, e21⟩ := idxp1 t
  refine ⟨t, flush1_2 t, ?_⟩
  rw [mem_blkp1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the region the output array holds the product of the entry arrays. -/
theorem arrp1 (c : Dev nD) : (dat1 V c).arrAt 2 cfg1.N = projG1 (V c main_arg3) (V c main_v11) :=
  (dat1 V c).arrAt_eq_of_cover 2 _ (fun t _ => flushedp1 V c t) coverp1

end Cert.KernelIdeal.Val

end
-- ==== Proof.KI.ValProj2.lean ====
import proofs.«134990_j73504070304033_2_alg».proof.Proof.KI.Body2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-
  Region 2 as one function of the arrays it finds: the feature matrix times the (column-concatenated) weight matrix,
  entry (r, q) the sum over k of feature (r, k) times weight (k, q). Grid point t writes rows 5000·t … 5000·t + 4999;
  the 10 points' blocks cover the array.
-/

theorem hzp2 : (![0, 0] : Fin 2 → Nat) = fun _ => 0 := funext fun a => by fin_cases a <;> rfl

/-- The windows' block indices over the grid: the feature rows and the output rows move with the point, the weights stay. -/
theorem idxp2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `i 0` of the features, column `k`. -/
abbrev lixA2 (i : S50000x128.Idx) (k : Fin 128) : S50000x128.Idx := fun a => match a with
  | ⟨0, _⟩ => ⟨(i 0).val, (i 0).isLt⟩
  | ⟨1, _⟩ => ⟨k.val, k.isLt⟩
/-- Row `k` of the weights, column `i 1`. -/
abbrev rixA2 (i : S50000x128.Idx) (k : Fin 128) : S128x128.Idx := fun a => match a with
  | ⟨0, _⟩ => ⟨k.val, k.isLt⟩
  | ⟨1, _⟩ => ⟨(i 1).val, (i 1).isLt⟩

/-- The matrix product, entry by entry. -/
def projG2 (x : S50000x128.Idx → EReal) (w : S128x128.Idx → EReal) : S50000x128.Idx → EReal :=
  fun i => ∑ k : Fin 128, x (lixA2 i k) * w (rixA2 i k)

abbrev lix2 (j : S5000x128.Idx) (k : Fin 128) : S5000x128.Idx := fun a => match a with
  | ⟨0, _⟩ => ⟨(j 0).val, (j 0).isLt⟩
  | ⟨1, _⟩ => ⟨k.val, k.isLt⟩
abbrev rix2 (j : S5000x128.Idx) (k : Fin 128) : S128x128.Idx := fun a => match a with
  | ⟨0, _⟩ => ⟨k.val, k.isLt⟩
  | ⟨1, _⟩ => ⟨(j 1).val, (j 1).isLt⟩

theorem lhs2_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs2_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs2_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at an entry of the block: the row of the feature block against the column of the weights
    (the change of float format on the way into the product is the identity on extended reals). -/
theorem payp2_apply (x0 : Vec Ideal S5000x128 .f32) (x1 : Vec Ideal S128x128 .f32) (j : S5000x128.Idx) :
    k2_pay1 x0 x1 j = ∑ k : Fin 128, x0 (lix2 j k) * x1 (rix2 j k) := by
  unfold k2_pay1
  simp only [shapeCast_self]
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lix2 j k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx j ((ValueIdx.contrEquiv1 dot_S5000x128_S128x128_S5000x128_1_0_0_1_n_n 128 rfl rfl).symm k) = rix2 j k := funext fun a => Fin.ext (by
    match a with
    | ⟨0, _⟩ => exact (rhs2_0 _ _).trans hk
    | ⟨1, _⟩ => exact rhs2_1 _ _)
  rw [el, er]
  rfl

/-- An entry of the block against the entry of the whole-array product it sits at. -/
theorem block_entryp2 (X : S50000x128.Idx → EReal) (W : S128x128.Idx → EReal) (x0 : Vec Ideal S5000x128 .f32) (x1 : Vec Ideal S128x128 .f32)
    (j : S5000x128.Idx) (i : S50000x128.Idx)
    (h0 : ∀ k : Fin 128, x0 (lix2 j k) = X (lixA2 i k)) (h1 : ∀ k : Fin 128, x1 (rix2 j k) = W (rixA2 i k)) :
    k2_pay1 x0 x1 j = projG2 X W i := by
  rw [payp2_apply]
  unfold projG2
  exact Finset.sum_congr rfl fun k _ => by rw [h0 k, h1 k]

/-- What point `t` writes back is block `t` of the product of the entry arrays. -/
theorem flushedp2 (c : Dev nD) (t : Fin cfg2.N) :
    (dat2 V c).flushed 2 t = ((cfg2.win 2).blk t).view.read (Elt Ideal) (projG2 (V c main_arg1) (V c main_v14)) := by
  show (cfg2.win 2).cut (grid2.coords t) ((dat2 V c).after 2 t) = _
  rw [after2_2]
  unfold out2
  rw [View.canon_unit_zero hzp2]
  simp only [View.ld_unit_zero (S := S5000x128) hzp2, View.ld_unit_zero (S := S128x128) hzp2]
  obtain ⟨e00, e01, e10, e11, e20, e21⟩ := idxp2 t
  funext j
  have hj0 : (j 0).val < 5000 := (j 0).isLt
  have hj1 : (j 1).val < 128 := (j 1).isLt
  show k2_pay1 (iblk2 V c 0 t) (iblk2 V c 1 t) j
      = projG2 (V c main_arg1) (V c main_v14) (((cfg2.win 2).blk t).view.emb j)
  refine block_entryp2 _ _ _ _ j _ (fun k => ?_) (fun k => ?_)
  · show V c main_arg1 (((cfg2.win 0).blk t).view.emb (lix2 j k)) = V c main_arg1 (lixA2 (((cfg2.win 2).blk t).view.emb j) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_v14 (((cfg2.win 1).blk t).view.emb (rix2 j k)) = V c main_v14 (rixA2 (((cfg2.win 2).blk t).view.emb j) k)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

theorem mem_blkp2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v20).slice (win2_2.rect t)).set ↔ _
  rw [View.set_slice_whole, Rect.mem_set_unit]
  exact Iff.rfl

/-- Row `r` is in the block of point `r / 5000`. -/
theorem coverp2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have ht : t.val = (i 0).val / 5000 := rfl
  obtain ⟨-, -, -, -, e20, e21⟩ := idxp2 t
  refine ⟨t, flush2_2 t, ?_⟩
  rw [mem_blkp2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the output array holds the product of the entry arrays. -/
theorem arrp2 (c : Dev nD) : (dat2 V c).arrAt 2 cfg2.N = projG2 (V c main_arg1) (V c main_v14) :=
  (dat2 V c).arrAt_eq_of_cover 2 _ (fun t _ => flushedp2 V c t) coverp2

end Cert.KernelIdeal.Val

end
-- ==== Proof.KI.ValProj3.lean ====
import proofs.«134990_j73504070304033_2_alg».proof.Proof.KI.Body3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-
  Region 3 as one function of the arrays it finds: the feature matrix times the (column-concatenated) weight matrix,
  entry (r, q) the sum over k of feature (r, k) times weight (k, q). Grid point t writes rows 4000·t … 4000·t + 3999;
  the 2 points' blocks cover the array.
-/

theorem hzp3 : (![0, 0] : Fin 2 → Nat) = fun _ => 0 := funext fun a => by fin_cases a <;> rfl

/-- The windows' block indices over the grid: the feature rows and the output rows move with the point, the weights stay. -/
theorem idxp3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `i 0` of the features, column `k`. -/
abbrev lixA3 (i : S8000x128.Idx) (k : Fin 128) : S8000x128.Idx := fun a => match a with
  | ⟨0, _⟩ => ⟨(i 0).val, (i 0).isLt⟩
  | ⟨1, _⟩ => ⟨k.val, k.isLt⟩
/-- Row `k` of the weights, column `i 1`. -/
abbrev rixA3 (i : S8000x128.Idx) (k : Fin 128) : S128x128.Idx := fun a => match a with
  | ⟨0, _⟩ => ⟨k.val, k.isLt⟩
  | ⟨1, _⟩ => ⟨(i 1).val, (i 1).isLt⟩

/-- The matrix product, entry by entry. -/
def projG3 (x : S8000x128.Idx → EReal) (w : S128x128.Idx → EReal) : S8000x128.Idx → EReal :=
  fun i => ∑ k : Fin 128, x (lixA3 i k) * w (rixA3 i k)

abbrev lix3 (j : S4000x128.Idx) (k : Fin 128) : S4000x128.Idx := fun a => match a with
  | ⟨0, _⟩ => ⟨(j 0).val, (j 0).isLt⟩
  | ⟨1, _⟩ => ⟨k.val, k.isLt⟩
abbrev rix3 (j : S4000x128.Idx) (k : Fin 128) : S128x128.Idx := fun a => match a with
  | ⟨0, _⟩ => ⟨k.val, k.isLt⟩
  | ⟨1, _⟩ => ⟨(j 1).val, (j 1).isLt⟩

theorem lhs3_0 (j : S4000x128.Idx) (q : dot_S4000x128_S128x128_S4000x128_1_0_0_1_n_n.contr.Idx) : (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs3_1 (j : S4000x128.Idx) (q : dot_S4000x128_S128x128_S4000x128_1_0_0_1_n_n.contr.Idx) : (dot_S4000x128_S128x128_S4000x128_1_0_0_1_n_n.lhsIdx j q 1).val = (q ⟨0, by decide⟩).val :=
  dot_S4000x128_S128x128_S4000x128_1_0_0_1_n_n.lhsIdx_val_of_single rfl j q
theorem rhs3_0 (j : S4000x128.Idx) (q : dot_S4000x128_S128x128_S4000x128_1_0_0_1_n_n.contr.Idx) : (dot_S4000x128_S128x128_S4000x128_1_0_0_1_n_n.rhsIdx j q 0).val = (q ⟨0, by decide⟩).val :=
  dot_S4000x128_S128x128_S4000x128_1_0_0_1_n_n.rhsIdx_val_of_single rfl j q
theorem rhs3_1 (j : S4000x128.Idx) (q : dot_S4000x128_S128x128_S4000x128_1_0_0_1_n_n.contr.Idx) : (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's value at an entry of the block: the row of the feature block against the column of the weights
    (the change of float format on the way into the product is the identity on extended reals). -/
theorem payp3_apply (x0 : Vec Ideal S4000x128 .f32) (x1 : Vec Ideal S128x128 .f32) (j : S4000x128.Idx) :
    k3_pay1 x0 x1 j = ∑ k : Fin 128, x0 (lix3 j k) * x1 (rix3 j k) := by
  unfold k3_pay1
  simp only [shapeCast_self]
  refine (Ideal.matmul_constant_zero_apply dot_S4000x128_S128x128_S4000x128_1_0_0_1_n_n none _ _ j).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx j ((ValueIdx.contrEquiv1 dot_S4000x128_S128x128_S4000x128_1_0_0_1_n_n 128 rfl rfl).symm k) = lix3 j k := funext fun a => Fin.ext (by
    match a with
    | ⟨0, _⟩ => exact lhs3_0 _ _
    | ⟨1, _⟩ => exact (lhs3_1 _ _).trans hk)
  have er : dot_S4000x128_S128x128_S4000x128_1_0_0_1_n_n.rhsIdx j ((ValueIdx.contrEquiv1 dot_S4000x128_S128x128_S4000x128_1_0_0_1_n_n 128 rfl rfl).symm k) = rix3 j k := funext fun a => Fin.ext (by
    match a with
    | ⟨0, _⟩ => exact (rhs3_0 _ _).trans hk
    | ⟨1, _⟩ => exact rhs3_1 _ _)
  rw [el, er]
  rfl

/-- An entry of the block against the entry of the whole-array product it sits at. -/
theorem block_entryp3 (X : S8000x128.Idx → EReal) (W : S128x128.Idx → EReal) (x0 : Vec Ideal S4000x128 .f32) (x1 : Vec Ideal S128x128 .f32)
    (j : S4000x128.Idx) (i : S8000x128.Idx)
    (h0 : ∀ k : Fin 128, x0 (lix3 j k) = X (lixA3 i k)) (h1 : ∀ k : Fin 128, x1 (rix3 j k) = W (rixA3 i k)) :
    k3_pay1 x0 x1 j = projG3 X W i := by
  rw [payp3_apply]
  unfold projG3
  exact Finset.sum_congr rfl fun k _ => by rw [h0 k, h1 k]

/-- What point `t` writes back is block `t` of the product of the entry arrays. -/
theorem flushedp3 (c : Dev nD) (t : Fin cfg3.N) :
    (dat3 V c).flushed 2 t = ((cfg3.win 2).blk t).view.read (Elt Ideal) (projG3 (V c main_arg2) (V c main_v17)) := by
  show (cfg3.win 2).cut (grid3.coords t) ((dat3 V c).after 2 t) = _
  rw [after3_2]
  unfold out3
  rw [View.canon_unit_zero hzp3]
  simp only [View.ld_unit_zero (S := S4000x128) hzp3, View.ld_unit_zero (S := S128x128) hzp3]
  obtain ⟨e00, e01, e10, e11, e20, e21⟩ := idxp3 t
  funext j
  have hj0 : (j 0).val < 4000 := (j 0).isLt
  have hj1 : (j 1).val < 128 := (j 1).isLt
  show k3_pay1 (iblk3 V c 0 t) (iblk3 V c 1 t) j
      = projG3 (V c main_arg2) (V c main_v17) (((cfg3.win 2).blk t).view.emb j)
  refine block_entryp3 _ _ _ _ j _ (fun k => ?_) (fun k => ?_)
  · show V c main_arg2 (((cfg3.win 0).blk t).view.emb (lix3 j k)) = V c main_arg2 (lixA3 (((cfg3.win 2).blk t).view.emb j) k)
    refine congrArg _ (funext fun a => Fin.ext ?_)
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 128 + 1 * k.val = k.val; omega
  · show V c main_v17 (((cfg3.win 1).blk t).view.emb (rix3 j k)) = V c main_v17 (rixA3 (((cfg3.win 2).blk t).view.emb j) k)
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

theorem mem_blkp3 (t : Fin cfg3.N) (i : S8000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v21).slice (win3_2.rect t)).set ↔ _
  rw [View.set_slice_whole, Rect.mem_set_unit]
  exact Iff.rfl

/-- Row `r` is in the block of point `r / 4000`. -/
theorem coverp3 (i : S8000x128.Idx) : ∃ t : Fin cfg3.N, (cfg3.win 2).flush t = true ∧ i ∈ ((cfg3.win 2).blk t).view.set := by
  have hi0 : (i 0).val < 8000 := (i 0).isLt
  have hi1 : (i 1).val < 128 := (i 1).isLt
  have hN : cfg3.N = 2 := N_3
  let t : Fin cfg3.N := ⟨(i 0).val / 4000, by rw [hN]; omega⟩
  have ht : t.val = (i 0).val / 4000 := rfl
  obtain ⟨-, -, -, -, e20, e21⟩ := idxp3 t
  refine ⟨t, flush3_2 t, ?_⟩
  rw [mem_blkp3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

/-- After the region the output array holds the product of the entry arrays. -/
theorem arrp3 (c : Dev nD) : (dat3 V c).arrAt 2 cfg3.N = projG3 (V c main_arg2) (V c main_v17) :=
  (dat3 V c).arrAt_eq_of_cover 2 _ (fun t _ => flushedp3 V c t) coverp3

end Cert.KernelIdeal.Val

end
-- ==== Proof.KI.ValFin4.lean ====
import proofs.«134990_j73504070304033_2_alg».proof.Proof.KI.Body4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-
  Region 4 as one function of the arrays it finds: entry by entry, relu of (aggregate + self-loop projection + bias).
  Grid point t writes rows 5000·t … 5000·t + 4999; the 20 points' blocks cover the array.
-/

theorem hz4 : (![0, 0] : Fin 2 → Nat) = fun _ => 0 := funext fun a => by fin_cases a <;> rfl

/-- The windows' block indices over the grid: the two row-blocked inputs and the output move with the point, the bias row stays. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem brd4 : S1x64.Broadcasts S100000x64 := by decide

/-- relu of (aggregate + self-loop + the bias row broadcast down the rows), entry by entry. -/
def finG4 (h sl : S100000x64.Idx → EReal) (b : S1x64.Idx → EReal) : S100000x64.Idx → EReal :=
  fun i => max ((h i + sl i) + broadcastTo S100000x64 b brd4 i) (Ideal.ofBits .f32 0x00000000#32)

/-- A one-row array broadcast down the rows of `S5000x64`, read at an entry: the row's entry in that column. -/
theorem bcast_blk4 (B : S1x64.Idx → EReal) (hb : S1x64.Broadcasts S5000x64) (i : S5000x64.Idx) (k : S1x64.Idx)
    (hk0 : (k 0).val = 0) (hk1 : (k 1).val = (i 1).val) : broadcastTo S5000x64 B hb i = B k := by
  refine broadcastTo_apply B hb i k fun a => ?_
  match a with
  | ⟨0, h⟩ =>
    show (k ⟨0, h⟩).val = if (1 : ℕ) = 1 then (0 : ℕ) else _
    rw [if_pos rfl]; exact hk0
  | ⟨1, h⟩ =>
    show (k ⟨1, h⟩).val = if (64 : ℕ) = 1 then (0 : ℕ) else _
    rw [if_neg (by decide)]; exact hk1

/-- A one-row array broadcast down the rows of `S100000x64`, read at an entry: the row's entry in that column. -/
theorem bcast_arr4 (B : S1x64.Idx → EReal) (hb : S1x64.Broadcasts S100000x64) (i : S100000x64.Idx) (k : S1x64.Idx)
    (hk0 : (k 0).val = 0) (hk1 : (k 1).val = (i 1).val) : broadcastTo S100000x64 B hb i = B k := by
  refine broadcastTo_apply B hb i k fun a => ?_
  match a with
  | ⟨0, h⟩ =>
    show (k ⟨0, h⟩).val = if (1 : ℕ) = 1 then (0 : ℕ) else _
    rw [if_pos rfl]; exact hk0
  | ⟨1, h⟩ =>
    show (k ⟨1, h⟩).val = if (64 : ℕ) = 1 then (0 : ℕ) else _
    rw [if_neg (by decide)]; exact hk1

/-- The body's value at an entry of the block: relu of (aggregate + self-loop + the bias row's entry in that column). -/
theorem pay4_apply (x2 : Vec Ideal S1x64 .f32) (x0 x1 : Vec Ideal S5000x64 .f32) (j : S5000x64.Idx) (k : S1x64.Idx)
    (hk0 : (k 0).val = 0) (hk1 : (k 1).val = (j 1).val) :
    k4_pay1 x2 x0 x1 j = max ((x0 j + x1 j) + x2 k) (Ideal.ofBits .f32 0x00000000#32) := by
  unfold k4_pay1
  simp only [shapeCast_self]
  show max ((x0 j + x1 j) + broadcastTo S5000x64 x2 _ j) _ = _
  rw [bcast_blk4 x2 _ j k hk0 hk1]
  rfl

/-- An entry of the block against the entry of the whole-array function it sits at. -/
theorem block_entry4 (H SL : S100000x64.Idx → EReal) (B : S1x64.Idx → EReal) (x2 : Vec Ideal S1x64 .f32) (x0 x1 : Vec Ideal S5000x64 .f32)
    (j : S5000x64.Idx) (i : S100000x64.Idx) (k : S1x64.Idx) (hk0 : (k 0).val = 0) (hk1 : (k 1).val = (j 1).val) (hi1 : (i 1).val = (j 1).val)
    (h0 : x0 j = H i) (h1 : x1 j = SL i) (h2 : x2 k = B k) :
    k4_pay1 x2 x0 x1 j = finG4 H SL B i := by
  rw [pay4_apply x2 x0 x1 j k hk0 hk1, h0, h1, h2]
  unfold finG4
  rw [bcast_arr4 B brd4 i k hk0 (hk1.trans hi1.symm)]

/-- What point `t` writes back is block `t` of that function of the entry arrays. -/
theorem flushed4 (c : Dev nD) (t : Fin cfg4.N) :
    (dat4 V c).flushed 3 t = ((cfg4.win 3).blk t).view.read (Elt Ideal) (finG4 (V c main_v130) (V c main_v24) (V c main_v169)) := by
  show (cfg4.win 3).cut (grid4.coords t) ((dat4 V c).after 3 t) = _
  rw [after4_3]
  unfold out4
  rw [View.canon_unit_zero hz4]
  simp only [View.ld_unit_zero (S := S5000x64) hz4, View.ld_unit_zero (S := S1x64) hz4]
  obtain ⟨e00, e01, e10, e11, e20, e21, e30, e31⟩ := idx4 t
  funext j
  have hj0 : (j 0).val < 5000 := (j 0).isLt
  have hj1 : (j 1).val < 64 := (j 1).isLt
  show k4_pay1 (iblk4 V c 2 t) (iblk4 V c 0 t) (iblk4 V c 1 t) j
      = finG4 (V c main_v130) (V c main_v24) (V c main_v169) (((cfg4.win 3).blk t).view.emb j)
  have h0 : ((cfg4.win 0).blk t).view.emb j = ((cfg4.win 3).blk t).view.emb j := by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * (j 1).val = win4_3.index t (1 : Fin 2) * 64 + 1 * (j 1).val; omega
  have h1 : ((cfg4.win 1).blk t).view.emb j = ((cfg4.win 3).blk t).view.emb j := by
    funext a; apply Fin.ext
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 64 + 1 * (j 1).val = win4_3.index t (1 : Fin 2) * 64 + 1 * (j 1).val; omega
  let k : S1x64.Idx := ValueIdx.ix2 (0 : Fin 1) (⟨(j 1).val, hj1⟩ : Fin 64)
  have h2 : ((cfg4.win 2).blk t).view.emb k = k := by
    funext a; apply Fin.ext
    match a with
    | ⟨0, _⟩ => show win4_2.index t (0 : Fin 2) * 1 + 1 * (k 0).val = (k 0).val; omega
    | ⟨1, _⟩ => show win4_2.index t (1 : Fin 2) * 64 + 1 * (k 1).val = (k 1).val; omega
  refine block_entry4 _ _ _ _ _ _ j _ k rfl rfl ?_ ?_ ?_ ?_
  · show win4_3.index t (1 : Fin 2) * 64 + 1 * (j 1).val = (j 1).val; omega
  · show V c main_v130 (((cfg4.win 0).blk t).view.emb j) = _; rw [h0]
  · show V c main_v24 (((cfg4.win 1).blk t).view.emb j) = _; rw [h1]
  · show V c main_v169 (((cfg4.win 2).blk t).view.emb k) = _; rw [h2]

theorem mem_blk4 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v170).slice (win4_3.rect t)).set ↔ _
  rw [View.set_slice_whole, Rect.mem_set_unit]
  exact Iff.rfl

/-- Row `r` is in the block of point `r / 5000`. -/
theorem cover4v (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  have ht : t.val = (i 0).val / 5000 := rfl
  obtain ⟨-, -, -, -, -, -, e30, e31⟩ := idx4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After the region the output array holds that function of the entry arrays. -/
theorem arr4 (c : Dev nD) : (dat4 V c).arrAt 3 cfg4.N = finG4 (V c main_v130) (V c main_v24) (V c main_v169) :=
  (dat4 V c).arrAt_eq_of_cover 3 _ (fun t _ => flushed4 V c t) cover4v

end Cert.KernelIdeal.Val

end
-- ==== Proof.KI.ValFin5.lean ====
import proofs.«134990_j73504070304033_2_alg».proof.Proof.KI.Body5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-
  Region 5 as one function of the arrays it finds: entry by entry, relu of (aggregate + self-loop projection + bias).
  Grid point t writes rows 5000·t … 5000·t + 4999; the 10 points' blocks cover the array.
-/

theorem hz5 : (![0, 0] : Fin 2 → Nat) = fun _ => 0 := funext fun a => by fin_cases a <;> rfl

/-- The windows' block indices over the grid: the two row-blocked inputs and the output move with the point, the bias row stays. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem brd5 : S1x64.Broadcasts S50000x64 := by decide

/-- relu of (aggregate + self-loop + the bias row broadcast down the rows), entry by entry. -/
def finG5 (h sl : S50000x64.Idx → EReal) (b : S1x64.Idx → EReal) : S50000x64.Idx → EReal :=
  fun i => max ((h i + sl i) + broadcastTo S50000x64 b brd5 i) (Ideal.ofBits .f32 0x00000000#32)

/-- A one-row array broadcast down the rows of `S5000x64`, read at an entry: the row's entry in that column. -/
theorem bcast_blk5 (B : S1x64.Idx → EReal) (hb : S1x64.Broadcasts S5000x64) (i : S5000x64.Idx) (k : S1x64.Idx)
    (hk0 : (k 0).val = 0) (hk1 : (k 1).val = (i 1).val) : broadcastTo S5000x64 B hb i = B k := by
  refine broadcastTo_apply B hb i k fun a => ?_
  match a with
  | ⟨0, h⟩ =>
    show (k ⟨0, h⟩).val = if (1 : ℕ) = 1 then (0 : ℕ) else _
    rw [if_pos rfl]; exact hk0
  | ⟨1, h⟩ =>
    show (k ⟨1, h⟩).val = if (64 : ℕ) = 1 then (0 : ℕ) else _
    rw [if_neg (by decide)]; exact hk1

/-- A one-row array broadcast down the rows of `S50000x64`, read at an entry: the row's entry in that column. -/
theorem bcast_arr5 (B : S1x64.Idx → EReal) (hb : S1x64.Broadcasts S50000x64) (i : S50000x64.Idx) (k : S1x64.Idx)
    (hk0 : (k 0).val = 0) (hk1 : (k 1).val = (i 1).val) : broadcastTo S50000x64 B hb i = B k := by
  refine broadcastTo_apply B hb i k fun a => ?_
  match a with
  | ⟨0, h⟩ =>
    show (k ⟨0, h⟩).val = if (1 : ℕ) = 1 then (0 : ℕ) else _
    rw [if_pos rfl]; exact hk0
  | ⟨1, h⟩ =>
    show (k ⟨1, h⟩).val = if (64 : ℕ) = 1 then (0 : ℕ) else _
    rw [if_neg (by decide)]; exact hk1

/-- The body's value at an entry of the block: relu of (aggregate + self-loop + the bias row's entry in that column). -/
theorem pay5_apply (x2 : Vec Ideal S1x64 .f32) (x0 x1 : Vec Ideal S5000x64 .f32) (j : S5000x64.Idx) (k : S1x64.Idx)
    (hk0 : (k 0).val = 0) (hk1 : (k 1).val = (j 1).val) :
    k5_pay1 x2 x0 x1 j = max ((x0 j + x1 j) + x2 k) (Ideal.ofBits .f32 0x00000000#32) := by
  unfold k5_pay1
  simp only [shapeCast_self]
  show max ((x0 j + x1 j) + broadcastTo S5000x64 x2 _ j) _ = _
  rw [bcast_blk5 x2 _ j k hk0 hk1]
  rfl

/-- An entry of the block against the entry of the whole-array function it sits at. -/
theorem block_entry5 (H SL : S50000x64.Idx → EReal) (B : S1x64.Idx → EReal) (x2 : Vec Ideal S1x64 .f32) (x0 x1 : Vec Ideal S5000x64 .f32)
    (j : S5000x64.Idx) (i : S50000x64.Idx) (k : S1x64.Idx) (hk0 : (k 0).val = 0) (hk1 : (k 1).val = (j 1).val) (hi1 : (i 1).val = (j 1).val)
    (h0 : x0 j = H i) (h1 : x1 j = SL i) (h2 : x2 k = B k) :
    k5_pay1 x2 x0 x1 j = finG5 H SL B i := by
  rw [pay5_apply x2 x0 x1 j k hk0 hk1, h0, h1, h2]
  unfold finG5
  rw [bcast_arr5 B brd5 i k hk0 (hk1.trans hi1.symm)]

/-- What point `t` writes back is block `t` of that function of the entry arrays. -/
theorem flushed5 (c : Dev nD) (t : Fin cfg5.N) :
    (dat5 V c).flushed 3 t = ((cfg5.win 3).blk t).view.read (Elt Ideal) (finG5 (V c main_v149) (V c main_v30) (V c main_v171)) := by
  show (cfg5.win 3).cut (grid5.coords t) ((dat5 V c).after 3 t) = _
  rw [after5_3]
  unfold out5
  rw [View.canon_unit_zero hz5]
  simp only [View.ld_unit_zero (S := S5000x64) hz5, View.ld_unit_zero (S := S1x64) hz5]
  obtain ⟨e00, e01, e10, e11, e20, e21, e30, e31⟩ := idx5 t
  funext j
  have hj0 : (j 0).val < 5000 := (j 0).isLt
  have hj1 : (j 1).val < 64 := (j 1).isLt
  show k5_pay1 (iblk5 V c 2 t) (iblk5 V c 0 t) (iblk5 V c 1 t) j
      = finG5 (V c main_v149) (V c main_v30) (V c main_v171) (((cfg5.win 3).blk t).view.emb j)
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 64 + 1 * (j 1).val = win5_3.index t (1 : Fin 2) * 64 + 1 * (j 1).val; omega
  let k : S1x64.Idx := ValueIdx.ix2 (0 : Fin 1) (⟨(j 1).val, hj1⟩ : Fin 64)
  have h2 : ((cfg5.win 2).blk t).view.emb k = k := by
    funext a; apply Fin.ext
    match a with
    | ⟨0, _⟩ => show win5_2.index t (0 : Fin 2) * 1 + 1 * (k 0).val = (k 0).val; omega
    | ⟨1, _⟩ => show win5_2.index t (1 : Fin 2) * 64 + 1 * (k 1).val = (k 1).val; omega
  refine block_entry5 _ _ _ _ _ _ j _ k rfl rfl ?_ ?_ ?_ ?_
  · show win5_3.index t (1 : Fin 2) * 64 + 1 * (j 1).val = (j 1).val; omega
  · show V c main_v149 (((cfg5.win 0).blk t).view.emb j) = _; rw [h0]
  · show V c main_v30 (((cfg5.win 1).blk t).view.emb j) = _; rw [h1]
  · show V c main_v171 (((cfg5.win 2).blk t).view.emb k) = _; rw [h2]

theorem mem_blk5 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v172).slice (win5_3.rect t)).set ↔ _
  rw [View.set_slice_whole, Rect.mem_set_unit]
  exact Iff.rfl

/-- Row `r` is in the block of point `r / 5000`. -/
theorem cover5v (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  let t : Fin cfg5.N := ⟨(i 0).val / 5000, by rw [hN]; omega⟩
  have ht : t.val = (i 0).val / 5000 := rfl
  obtain ⟨-, -, -, -, -, -, e30, e31⟩ := idx5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- After the region the output array holds that function of the entry arrays. -/
theorem arr5 (c : Dev nD) : (dat5 V c).arrAt 3 cfg5.N = finG5 (V c main_v149) (V c main_v30) (V c main_v171) :=
  (dat5 V c).arrAt_eq_of_cover 3 _ (fun t _ => flushed5 V c t) cover5v

end Cert.KernelIdeal.Val

end
-- ==== Proof.KI.ValFin6.lean ====
import proofs.«134990_j73504070304033_2_alg».proof.Proof.KI.Body6
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-
  Region 6 as one function of the arrays it finds: entry by entry, relu of (aggregate + self-loop projection + bias).
  Grid point t writes rows 4000·t … 4000·t + 3999; the 2 points' blocks cover the array.
-/

theorem hz6 : (![0, 0] : Fin 2 → Nat) = fun _ => 0 := funext fun a => by fin_cases a <;> rfl

/-- The windows' block indices over the grid: the two row-blocked inputs and the output move with the point, the bias row stays. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem brd6 : S1x64.Broadcasts S8000x64 := by decide

/-- relu of (aggregate + self-loop + the bias row broadcast down the rows), entry by entry. -/
def finG6 (h sl : S8000x64.Idx → EReal) (b : S1x64.Idx → EReal) : S8000x64.Idx → EReal :=
  fun i => max ((h i + sl i) + broadcastTo S8000x64 b brd6 i) (Ideal.ofBits .f32 0x00000000#32)

/-- A one-row array broadcast down the rows of `S4000x64`, read at an entry: the row's entry in that column. -/
theorem bcast_blk6 (B : S1x64.Idx → EReal) (hb : S1x64.Broadcasts S4000x64) (i : S4000x64.Idx) (k : S1x64.Idx)
    (hk0 : (k 0).val = 0) (hk1 : (k 1).val = (i 1).val) : broadcastTo S4000x64 B hb i = B k := by
  refine broadcastTo_apply B hb i k fun a => ?_
  match a with
  | ⟨0, h⟩ =>
    show (k ⟨0, h⟩).val = if (1 : ℕ) = 1 then (0 : ℕ) else _
    rw [if_pos rfl]; exact hk0
  | ⟨1, h⟩ =>
    show (k ⟨1, h⟩).val = if (64 : ℕ) = 1 then (0 : ℕ) else _
    rw [if_neg (by decide)]; exact hk1

/-- A one-row array broadcast down the rows of `S8000x64`, read at an entry: the row's entry in that column. -/
theorem bcast_arr6 (B : S1x64.Idx → EReal) (hb : S1x64.Broadcasts S8000x64) (i : S8000x64.Idx) (k : S1x64.Idx)
    (hk0 : (k 0).val = 0) (hk1 : (k 1).val = (i 1).val) : broadcastTo S8000x64 B hb i = B k := by
  refine broadcastTo_apply B hb i k fun a => ?_
  match a with
  | ⟨0, h⟩ =>
    show (k ⟨0, h⟩).val = if (1 : ℕ) = 1 then (0 : ℕ) else _
    rw [if_pos rfl]; exact hk0
  | ⟨1, h⟩ =>
    show (k ⟨1, h⟩).val = if (64 : ℕ) = 1 then (0 : ℕ) else _
    rw [if_neg (by decide)]; exact hk1

/-- The body's value at an entry of the block: relu of (aggregate + self-loop + the bias row's entry in that column). -/
theorem pay6_apply (x2 : Vec Ideal S1x64 .f32) (x0 x1 : Vec Ideal S4000x64 .f32) (j : S4000x64.Idx) (k : S1x64.Idx)
    (hk0 : (k 0).val = 0) (hk1 : (k 1).val = (j 1).val) :
    k6_pay1 x2 x0 x1 j = max ((x0 j + x1 j) + x2 k) (Ideal.ofBits .f32 0x00000000#32) := by
  unfold k6_pay1
  simp only [shapeCast_self]
  show max ((x0 j + x1 j) + broadcastTo S4000x64 x2 _ j) _ = _
  rw [bcast_blk6 x2 _ j k hk0 hk1]
  rfl

/-- An entry of the block against the entry of the whole-array function it sits at. -/
theorem block_entry6 (H SL : S8000x64.Idx → EReal) (B : S1x64.Idx → EReal) (x2 : Vec Ideal S1x64 .f32) (x0 x1 : Vec Ideal S4000x64 .f32)
    (j : S4000x64.Idx) (i : S8000x64.Idx) (k : S1x64.Idx) (hk0 : (k 0).val = 0) (hk1 : (k 1).val = (j 1).val) (hi1 : (i 1).val = (j 1).val)
    (h0 : x0 j = H i) (h1 : x1 j = SL i) (h2 : x2 k = B k) :
    k6_pay1 x2 x0 x1 j = finG6 H SL B i := by
  rw [pay6_apply x2 x0 x1 j k hk0 hk1, h0, h1, h2]
  unfold finG6
  rw [bcast_arr6 B brd6 i k hk0 (hk1.trans hi1.symm)]

/-- What point `t` writes back is block `t` of that function of the entry arrays. -/
theorem flushed6 (c : Dev nD) (t : Fin cfg6.N) :
    (dat6 V c).flushed 3 t = ((cfg6.win 3).blk t).view.read (Elt Ideal) (finG6 (V c main_v168) (V c main_v32) (V c main_v173)) := by
  show (cfg6.win 3).cut (grid6.coords t) ((dat6 V c).after 3 t) = _
  rw [after6_3]
  unfold out6
  rw [View.canon_unit_zero hz6]
  simp only [View.ld_unit_zero (S := S4000x64) hz6, View.ld_unit_zero (S := S1x64) hz6]
  obtain ⟨e00, e01, e10, e11, e20, e21, e30, e31⟩ := idx6 t
  funext j
  have hj0 : (j 0).val < 4000 := (j 0).isLt
  have hj1 : (j 1).val < 64 := (j 1).isLt
  show k6_pay1 (iblk6 V c 2 t) (iblk6 V c 0 t) (iblk6 V c 1 t) j
      = finG6 (V c main_v168) (V c main_v32) (V c main_v173) (((cfg6.win 3).blk t).view.emb j)
  have h0 : ((cfg6.win 0).blk t).view.emb j = ((cfg6.win 3).blk t).view.emb j := by
    funext a; apply Fin.ext
    match a with
    | ⟨0, _⟩ => show win6_0.index t (0 : Fin 2) * 4000 + 1 * (j 0).val = win6_3.index t (0 : Fin 2) * 4000 + 1 * (j 0).val; omega
    | ⟨1, _⟩ => show win6_0.index t (1 : Fin 2) * 64 + 1 * (j 1).val = win6_3.index t (1 : Fin 2) * 64 + 1 * (j 1).val; omega
  have h1 : ((cfg6.win 1).blk t).view.emb j = ((cfg6.win 3).blk t).view.emb j := by
    funext a; apply Fin.ext
    match a with
    | ⟨0, _⟩ => show win6_1.index t (0 : Fin 2) * 4000 + 1 * (j 0).val = win6_3.index t (0 : Fin 2) * 4000 + 1 * (j 0).val; omega
    | ⟨1, _⟩ => show win6_1.index t (1 : Fin 2) * 64 + 1 * (j 1).val = win6_3.index t (1 : Fin 2) * 64 + 1 * (j 1).val; omega
  let k : S1x64.Idx := ValueIdx.ix2 (0 : Fin 1) (⟨(j 1).val, hj1⟩ : Fin 64)
  have h2 : ((cfg6.win 2).blk t).view.emb k = k := by
    funext a; apply Fin.ext
    match a with
    | ⟨0, _⟩ => show win6_2.index t (0 : Fin 2) * 1 + 1 * (k 0).val = (k 0).val; omega
    | ⟨1, _⟩ => show win6_2.index t (1 : Fin 2) * 64 + 1 * (k 1).val = (k 1).val; omega
  refine block_entry6 _ _ _ _ _ _ j _ k rfl rfl ?_ ?_ ?_ ?_
  · show win6_3.index t (1 : Fin 2) * 64 + 1 * (j 1).val = (j 1).val; omega
  · show V c main_v168 (((cfg6.win 0).blk t).view.emb j) = _; rw [h0]
  · show V c main_v32 (((cfg6.win 1).blk t).view.emb j) = _; rw [h1]
  · show V c main_v173 (((cfg6.win 2).blk t).view.emb k) = _; rw [h2]

theorem mem_blk6 (t : Fin cfg6.N) (i : S8000x64.Idx) :
    i ∈ ((cfg6.win 3).blk t).view.set ↔ ∀ a : Fin 2, win6_3.index t a * S4000x64.size a ≤ (i a).val ∧ (i a).val < win6_3.index t a * S4000x64.size a + S4000x64.size a := by
  show i ∈ ((View.whole main_v174).slice (win6_3.rect t)).set ↔ _
  rw [View.set_slice_whole, Rect.mem_set_unit]
  exact Iff.rfl

/-- Row `r` is in the block of point `r / 4000`. -/
theorem cover6v (i : S8000x64.Idx) : ∃ t : Fin cfg6.N, (cfg6.win 3).flush t = true ∧ i ∈ ((cfg6.win 3).blk t).view.set := by
  have hi0 : (i 0).val < 8000 := (i 0).isLt
  have hi1 : (i 1).val < 64 := (i 1).isLt
  have hN : cfg6.N = 2 := N_6
  let t : Fin cfg6.N := ⟨(i 0).val / 4000, by rw [hN]; omega⟩
  have ht : t.val = (i 0).val / 4000 := rfl
  obtain ⟨-, -, -, -, -, -, e30, e31⟩ := idx6 t
  refine ⟨t, flush6_3 t, ?_⟩
  rw [mem_blk6]
  intro a
  match a with
  | ⟨0, _⟩ => show win6_3.index t (0 : Fin 2) * 4000 ≤ (i 0).val ∧ (i 0).val < win6_3.index t (0 : Fin 2) * 4000 + 4000; omega
  | ⟨1, _⟩ => show win6_3.index t (1 : Fin 2) * 64 ≤ (i 1).val ∧ (i 1).val < win6_3.index t (1 : Fin 2) * 64 + 64; omega

/-- After the region the output array holds that function of the entry arrays. -/
theorem arr6 (c : Dev nD) : (dat6 V c).arrAt 3 cfg6.N = finG6 (V c main_v168) (V c main_v32) (V c main_v173) :=
  (dat6 V c).arrAt_eq_of_cover 3 _ (fun t _ => flushed6 V c t) cover6v

end Cert.KernelIdeal.Val

end
-- ==== Proof.KI.ValFin7.lean ====
import proofs.«134990_j73504070304033_2_alg».proof.Proof.KI.Body7
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-
  Region 7 as one function of the arrays it finds: entry by entry, relu of (aggregate + self-loop projection + bias).
  Grid point t writes rows 5000·t … 5000·t + 4999; the 40 points' blocks cover the array.
-/

theorem hz7 : (![0, 0] : Fin 2 → Nat) = fun _ => 0 := funext fun a => by fin_cases a <;> rfl

/-- The windows' block indices over the grid: the two row-blocked inputs and the output move with the point, the bias row stays. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

theorem brd7 : S1x64.Broadcasts S200000x64 := by decide

/-- relu of (aggregate + self-loop + the bias row broadcast down the rows), entry by entry. -/
def finG7 (h sl : S200000x64.Idx → EReal) (b : S1x64.Idx → EReal) : S200000x64.Idx → EReal :=
  fun i => max ((h i + sl i) + broadcastTo S200000x64 b brd7 i) (Ideal.ofBits .f32 0x00000000#32)

/-- A one-row array broadcast down the rows of `S5000x64`, read at an entry: the row's entry in that column. -/
theorem bcast_blk7 (B : S1x64.Idx → EReal) (hb : S1x64.Broadcasts S5000x64) (i : S5000x64.Idx) (k : S1x64.Idx)
    (hk0 : (k 0).val = 0) (hk1 : (k 1).val = (i 1).val) : broadcastTo S5000x64 B hb i = B k := by
  refine broadcastTo_apply B hb i k fun a => ?_
  match a with
  | ⟨0, h⟩ =>
    show (k ⟨0, h⟩).val = if (1 : ℕ) = 1 then (0 : ℕ) else _
    rw [if_pos rfl]; exact hk0
  | ⟨1, h⟩ =>
    show (k ⟨1, h⟩).val = if (64 : ℕ) = 1 then (0 : ℕ) else _
    rw [if_neg (by decide)]; exact hk1

/-- A one-row array broadcast down the rows of `S200000x64`, read at an entry: the row's entry in that column. -/
theorem bcast_arr7 (B : S1x64.Idx → EReal) (hb : S1x64.Broadcasts S200000x64) (i : S200000x64.Idx) (k : S1x64.Idx)
    (hk0 : (k 0).val = 0) (hk1 : (k 1).val = (i 1).val) : broadcastTo S200000x64 B hb i = B k := by
  refine broadcastTo_apply B hb i k fun a => ?_
  match a with
  | ⟨0, h⟩ =>
    show (k ⟨0, h⟩).val = if (1 : ℕ) = 1 then (0 : ℕ) else _
    rw [if_pos rfl]; exact hk0
  | ⟨1, h⟩ =>
    show (k ⟨1, h⟩).val = if (64 : ℕ) = 1 then (0 : ℕ) else _
    rw [if_neg (by decide)]; exact hk1

/-- The body's value at an entry of the block: relu of (aggregate + self-loop + the bias row's entry in that column). -/
theorem pay7_apply (x2 : Vec Ideal S1x64 .f32) (x0 x1 : Vec Ideal S5000x64 .f32) (j : S5000x64.Idx) (k : S1x64.Idx)
    (hk0 : (k 0).val = 0) (hk1 : (k 1).val = (j 1).val) :
    k7_pay1 x2 x0 x1 j = max ((x0 j + x1 j) + x2 k) (Ideal.ofBits .f32 0x00000000#32) := by
  unfold k7_pay1
  simp only [shapeCast_self]
  show max ((x0 j + x1 j) + broadcastTo S5000x64 x2 _ j) _ = _
  rw [bcast_blk7 x2 _ j k hk0 hk1]
  rfl

/-- An entry of the block against the entry of the whole-array function it sits at. -/
theorem block_entry7 (H SL : S200000x64.Idx → EReal) (B : S1x64.Idx → EReal) (x2 : Vec Ideal S1x64 .f32) (x0 x1 : Vec Ideal S5000x64 .f32)
    (j : S5000x64.Idx) (i : S200000x64.Idx) (k : S1x64.Idx) (hk0 : (k 0).val = 0) (hk1 : (k 1).val = (j 1).val) (hi1 : (i 1).val = (j 1).val)
    (h0 : x0 j = H i) (h1 : x1 j = SL i) (h2 : x2 k = B k) :
    k7_pay1 x2 x0 x1 j = finG7 H SL B i := by
  rw [pay7_apply x2 x0 x1 j k hk0 hk1, h0, h1, h2]
  unfold finG7
  rw [bcast_arr7 B brd7 i k hk0 (hk1.trans hi1.symm)]

/-- What point `t` writes back is block `t` of that function of the entry arrays. -/
theorem flushed7 (c : Dev nD) (t : Fin cfg7.N) :
    (dat7 V c).flushed 3 t = ((cfg7.win 3).blk t).view.read (Elt Ideal) (finG7 (V c main_v91) (V c main_v28) (V c main_v175)) := by
  show (cfg7.win 3).cut (grid7.coords t) ((dat7 V c).after 3 t) = _
  rw [after7_3]
  unfold out7
  rw [View.canon_unit_zero hz7]
  simp only [View.ld_unit_zero (S := S5000x64) hz7, View.ld_unit_zero (S := S1x64) hz7]
  obtain ⟨e00, e01, e10, e11, e20, e21, e30, e31⟩ := idx7 t
  funext j
  have hj0 : (j 0).val < 5000 := (j 0).isLt
  have hj1 : (j 1).val < 64 := (j 1).isLt
  show k7_pay1 (iblk7 V c 2 t) (iblk7 V c 0 t) (iblk7 V c 1 t) j
      = finG7 (V c main_v91) (V c main_v28) (V c main_v175) (((cfg7.win 3).blk t).view.emb j)
  have h0 : ((cfg7.win 0).blk t).view.emb j = ((cfg7.win 3).blk t).view.emb j := by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * (j 1).val = win7_3.index t (1 : Fin 2) * 64 + 1 * (j 1).val; omega
  have h1 : ((cfg7.win 1).blk t).view.emb j = ((cfg7.win 3).blk t).view.emb j := by
    funext a; apply Fin.ext
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 64 + 1 * (j 1).val = win7_3.index t (1 : Fin 2) * 64 + 1 * (j 1).val; omega
  let k : S1x64.Idx := ValueIdx.ix2 (0 : Fin 1) (⟨(j 1).val, hj1⟩ : Fin 64)
  have h2 : ((cfg7.win 2).blk t).view.emb k = k := by
    funext a; apply Fin.ext
    match a with
    | ⟨0, _⟩ => show win7_2.index t (0 : Fin 2) * 1 + 1 * (k 0).val = (k 0).val; omega
    | ⟨1, _⟩ => show win7_2.index t (1 : Fin 2) * 64 + 1 * (k 1).val = (k 1).val; omega
  refine block_entry7 _ _ _ _ _ _ j _ k rfl rfl ?_ ?_ ?_ ?_
  · show win7_3.index t (1 : Fin 2) * 64 + 1 * (j 1).val = (j 1).val; omega
  · show V c main_v91 (((cfg7.win 0).blk t).view.emb j) = _; rw [h0]
  · show V c main_v28 (((cfg7.win 1).blk t).view.emb j) = _; rw [h1]
  · show V c main_v175 (((cfg7.win 2).blk t).view.emb k) = _; rw [h2]

theorem mem_blk7 (t : Fin cfg7.N) (i : S200000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v176).slice (win7_3.rect t)).set ↔ _
  rw [View.set_slice_whole, Rect.mem_set_unit]
  exact Iff.rfl

/-- Row `r` is in the block of point `r / 5000`. -/
theorem cover7v (i : S200000x64.Idx) : ∃ t : Fin cfg7.N, (cfg7.win 3).flush t = true ∧ i ∈ ((cfg7.win 3).blk t).view.set := by
  have hi0 : (i 0).val < 200000 := (i 0).isLt
  have hi1 : (i 1).val < 64 := (i 1).isLt
  have hN : cfg7.N = 40 := N_7
  let t : Fin cfg7.N := ⟨(i 0).val / 5000, by rw [hN]; omega⟩
  have ht : t.val = (i 0).val / 5000 := rfl
  obtain ⟨-, -, -, -, -, -, e30, e31⟩ := idx7 t
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- After the region the output array holds that function of the entry arrays. -/
theorem arr7 (c : Dev nD) : (dat7 V c).arrAt 3 cfg7.N = finG7 (V c main_v91) (V c main_v28) (V c main_v175) :=
  (dat7 V c).arrAt_eq_of_cover 3 _ (fun t _ => flushed7 V c t) cover7v

end Cert.KernelIdeal.Val

end
-- ==== Proof.KI.HR.Read_main_v130.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v130`,
    from any contents `V` of the buffers before it. -/
theorem read_main_v130 (V : Valuation τ sig (Elt Ideal)) :
    StableHlo.after (hostOps4 (F := Ideal)) V (Proc.devRef .tc main_v130) = addf (rc0 (extractStridedSlice S200000x64 ![0, 0] (V (Proc.devRef .tc main_v19) : S200000x256.Idx → EReal) slices_S200000x256_S200000x64_0_0) (V (Proc.devRef .tc main_arg10)) (V (Proc.devRef .tc main_arg9))) (rc1 (extractStridedSlice S8000x64 ![0, 0] (V (Proc.devRef .tc main_v21) : S8000x128.Idx → EReal) slices_S8000x128_S8000x64_0_0) (V (Proc.devRef .tc main_arg20)) (V (Proc.devRef .tc main_arg19))) := by
  after_results_simp <;> rfl

end Cert.KernelIdeal.Fr

end
-- ==== Proof.KI.HR.Read_main_v149.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v149`,
    from any contents `V` of the buffers before it. -/
theorem read_main_v149 (V : Valuation τ sig (Elt Ideal)) :
    StableHlo.after (hostOps4 (F := Ideal)) V (Proc.devRef .tc main_v149) = rc2 (extractStridedSlice S200000x64 ![0, 128] (V (Proc.devRef .tc main_v19) : S200000x256.Idx → EReal) slices_S200000x256_S200000x64_0_128) (V (Proc.devRef .tc main_arg14)) (V (Proc.devRef .tc main_arg13)) := by
  after_results_simp <;> rfl

end Cert.KernelIdeal.Fr

end
-- ==== Proof.KI.HR.Read_main_v168.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v168`,
    from any contents `V` of the buffers before it. -/
theorem read_main_v168 (V : Valuation τ sig (Elt Ideal)) :
    StableHlo.after (hostOps4 (F := Ideal)) V (Proc.devRef .tc main_v168) = rc3 (extractStridedSlice S100000x64 ![0, 64] (V (Proc.devRef .tc main_v18) : S100000x192.Idx → EReal) slices_S100000x192_S100000x64_0_64) (V (Proc.devRef .tc main_arg18)) (V (Proc.devRef .tc main_arg17)) := by
  after_results_simp <;> rfl

end Cert.KernelIdeal.Fr

end
-- ==== Proof.KI.HR.Read_main_v91.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v91`,
    from any contents `V` of the buffers before it. -/
theorem read_main_v91 (V : Valuation τ sig (Elt Ideal)) :
    StableHlo.after (hostOps4 (F := Ideal)) V (Proc.devRef .tc main_v91) = addf (addf (rc4 (extractStridedSlice S100000x64 ![0, 0] (V (Proc.devRef .tc main_v18) : S100000x192.Idx → EReal) slices_S100000x192_S100000x64_0_0) (V (Proc.devRef .tc main_arg8)) (V (Proc.devRef .tc main_arg7))) (rc5 (extractStridedSlice S200000x64 ![0, 64] (V (Proc.devRef .tc main_v19) : S200000x256.Idx → EReal) slices_S200000x256_S200000x64_0_64) (V (Proc.devRef .tc main_arg12)) (V (Proc.devRef .tc main_arg11)))) (rc6 (extractStridedSlice S50000x64 ![0, 0] (V (Proc.devRef .tc main_v20) : S50000x128.Idx → EReal) slices_S50000x128_S50000x64_0_0) (V (Proc.devRef .tc main_arg16)) (V (Proc.devRef .tc main_arg15))) := by
  after_results_simp <;> rfl

end Cert.KernelIdeal.Fr

end
-- ==== Proof.KI.HR.Read_main_v24.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v24`,
    from any contents `V` of the buffers before it. -/
theorem read_main_v24 (V : Valuation τ sig (Elt Ideal)) :
    StableHlo.after (hostOps4 (F := Ideal)) V (Proc.devRef .tc main_v24) = (extractStridedSlice S100000x64 ![0, 128] (V (Proc.devRef .tc main_v18) : S100000x192.Idx → EReal) slices_S100000x192_S100000x64_0_128) := by
  after_results_simp <;> rfl

end Cert.KernelIdeal.Fr

end
-- ==== Proof.KI.HR.Read_main_v28.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v28`,
    from any contents `V` of the buffers before it. -/
theorem read_main_v28 (V : Valuation τ sig (Elt Ideal)) :
    StableHlo.after (hostOps4 (F := Ideal)) V (Proc.devRef .tc main_v28) = (extractStridedSlice S200000x64 ![0, 192] (V (Proc.devRef .tc main_v19) : S200000x256.Idx → EReal) slices_S200000x256_S200000x64_0_192) := by
  after_results_simp <;> rfl

end Cert.KernelIdeal.Fr

end
-- ==== Proof.KI.HR.Read_main_v30.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v30`,
    from any contents `V` of the buffers before it. -/
theorem read_main_v30 (V : Valuation τ sig (Elt Ideal)) :
    StableHlo.after (hostOps4 (F := Ideal)) V (Proc.devRef .tc main_v30) = (extractStridedSlice S50000x64 ![0, 64] (V (Proc.devRef .tc main_v20) : S50000x128.Idx → EReal) slices_S50000x128_S50000x64_0_64) := by
  after_results_simp <;> rfl

end Cert.KernelIdeal.Fr

end
-- ==== Proof.KI.HR.Read_main_v32.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v32`,
    from any contents `V` of the buffers before it. -/
theorem read_main_v32 (V : Valuation τ sig (Elt Ideal)) :
    StableHlo.after (hostOps4 (F := Ideal)) V (Proc.devRef .tc main_v32) = (extractStridedSlice S8000x64 ![0, 64] (V (Proc.devRef .tc main_v21) : S8000x128.Idx → EReal) slices_S8000x128_S8000x64_0_64) := by
  after_results_simp <;> rfl

end Cert.KernelIdeal.Fr

end
-- ==== Proof.KI.HR.Read_main_v169.lean ====
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

set_option maxHeartbeats 40000000 in
/-- What the long stretch of host operations between the projection regions and the finalize regions leaves in `main_v169`,
    from any contents `V` of the buffers before it. -/
theorem read_main_v169 (V : Valuation τ sig (Elt Ideal)) :
    StableHlo.after (hostOps4 (F := Ideal)) V (Proc.devRef .tc main_v169) = shapeCast S1x64 (V (Proc.devRef .tc main_arg6) : S64.Idx → EReal) shapeCasts_S64_S1x64 := by
  after_results_simp <;> rfl

end Cert.KernelIdeal.Fr

end
-- ==== Proof.KI.KerOut.lean ====
/-
  The kernel program's four results as functions of the argument arrays: each finalize region's output is relu of
  (aggregate + self-loop piece + bias row) of what the long stretch of host operations left, the aggregates being the
  relations' aggregations of 64-column pieces of the four fused products, each fused product the features times the
  weight matrices set side by side.
-/
import proofs.«134990_j73504070304033_2_alg».proof.Proof.KI.Fold
import proofs.«134990_j73504070304033_2_alg».proof.Proof.Chain
import proofs.«134990_j73504070304033_2_alg».proof.Proof.LibAfterAppend
import Idealize.ShloMosaic.PureOps.Ideal
import Idealize.ShloMosaic.PureOps.Ideal.Laws
import Idealize.ShloMosaic.Lib.ValueIdx
import proofs.«134990_j73504070304033_2_alg».proof.Proof.KI.ValProj0
import proofs.«134990_j73504070304033_2_alg».proof.Proof.KI.ValProj1
import proofs.«134990_j73504070304033_2_alg».proof.Proof.KI.ValProj2
import proofs.«134990_j73504070304033_2_alg».proof.Proof.KI.ValProj3
import proofs.«134990_j73504070304033_2_alg».proof.Proof.KI.ValFin4
import proofs.«134990_j73504070304033_2_alg».proof.Proof.KI.ValFin5
import proofs.«134990_j73504070304033_2_alg».proof.Proof.KI.ValFin6
import proofs.«134990_j73504070304033_2_alg».proof.Proof.KI.ValFin7
import proofs.«134990_j73504070304033_2_alg».proof.Proof.KI.HR.Read_main_v130
import proofs.«134990_j73504070304033_2_alg».proof.Proof.KI.HR.Read_main_v149
import proofs.«134990_j73504070304033_2_alg».proof.Proof.KI.HR.Read_main_v168
import proofs.«134990_j73504070304033_2_alg».proof.Proof.KI.HR.Read_main_v91
import proofs.«134990_j73504070304033_2_alg».proof.Proof.KI.HR.Read_main_v24
import proofs.«134990_j73504070304033_2_alg».proof.Proof.KI.HR.Read_main_v28
import proofs.«134990_j73504070304033_2_alg».proof.Proof.KI.HR.Read_main_v30
import proofs.«134990_j73504070304033_2_alg».proof.Proof.KI.HR.Read_main_v32
import proofs.«134990_j73504070304033_2_alg».proof.Proof.KI.HR.Read_main_v169
import proofs.«134990_j73504070304033_2_alg».proof.Proof.KI.HR.Read_main_v169

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Cert.ReferenceIdeal.Chain (rc0 rc1 rc2 rc3 rc4 rc5 rc6)

variable (m : (ℓ : Loc nD τ sig) → Buf (Elt Ideal) ℓ) (ρ : Dev nD → PrngReg)

/-! ## The arguments at the boundaries where they are read -/
theorem W1_arg0 (c : Dev nD) : W1 m ρ c (Proc.devRef .tc main_arg0) = m ((c : Thread nD τ).loc main_arg0) :=
  ((StableHlo.after_of_writes_sub main_part0_ops0 _ main_part0_ops0_writes (by decide)).trans (rfl : W0 m ρ c (Proc.devRef .tc main_arg0) = m ((c : Thread nD τ).loc main_arg0)))
theorem W2_arg3 (c : Dev nD) : W2 m ρ c (Proc.devRef .tc main_arg3) = m ((c : Thread nD τ).loc main_arg3) :=
  ((W2_of_ne m ρ c main_arg3 (by decide)).trans ((StableHlo.after_of_writes_sub main_part0_ops0 _ main_part0_ops0_writes (by decide)).trans (rfl : W0 m ρ c (Proc.devRef .tc main_arg3) = m ((c : Thread nD τ).loc main_arg3))))
theorem W3_arg1 (c : Dev nD) : W3 m ρ c (Proc.devRef .tc main_arg1) = m ((c : Thread nD τ).loc main_arg1) :=
  ((W3_of_ne m ρ c main_arg1 (by decide)).trans ((W2_of_ne m ρ c main_arg1 (by decide)).trans ((StableHlo.after_of_writes_sub main_part0_ops0 _ main_part0_ops0_writes (by decide)).trans (rfl : W0 m ρ c (Proc.devRef .tc main_arg1) = m ((c : Thread nD τ).loc main_arg1)))))
theorem W4_arg2 (c : Dev nD) : W4 m ρ c (Proc.devRef .tc main_arg2) = m ((c : Thread nD τ).loc main_arg2) :=
  ((W4_of_ne m ρ c main_arg2 (by decide)).trans ((W3_of_ne m ρ c main_arg2 (by decide)).trans ((W2_of_ne m ρ c main_arg2 (by decide)).trans ((StableHlo.after_of_writes_sub main_part0_ops0 _ main_part0_ops0_writes (by decide)).trans (rfl : W0 m ρ c (Proc.devRef .tc main_arg2) = m ((c : Thread nD τ).loc main_arg2))))))
theorem W1_arg4 (c : Dev nD) : W1 m ρ c (Proc.devRef .tc main_arg4) = m ((c : Thread nD τ).loc main_arg4) :=
  ((StableHlo.after_of_writes_sub main_part0_ops0 _ main_part0_ops0_writes (by decide)).trans (rfl : W0 m ρ c (Proc.devRef .tc main_arg4) = m ((c : Thread nD τ).loc main_arg4)))
theorem W1_arg5 (c : Dev nD) : W1 m ρ c (Proc.devRef .tc main_arg5) = m ((c : Thread nD τ).loc main_arg5) :=
  ((StableHlo.after_of_writes_sub main_part0_ops0 _ main_part0_ops0_writes (by decide)).trans (rfl : W0 m ρ c (Proc.devRef .tc main_arg5) = m ((c : Thread nD τ).loc main_arg5)))
theorem W5_arg6 (c : Dev nD) : W5 m ρ c (Proc.devRef .tc main_arg6) = m ((c : Thread nD τ).loc main_arg6) :=
  ((W5_of_ne m ρ c main_arg6 (by decide)).trans ((W4_of_ne m ρ c main_arg6 (by decide)).trans ((W3_of_ne m ρ c main_arg6 (by decide)).trans ((W2_of_ne m ρ c main_arg6 (by decide)).trans ((StableHlo.after_of_writes_sub main_part0_ops0 _ main_part0_ops0_writes (by decide)).trans (rfl : W0 m ρ c (Proc.devRef .tc main_arg6) = m ((c : Thread nD τ).loc main_arg6)))))))
theorem W8_arg6 (c : Dev nD) : W8 m ρ c (Proc.devRef .tc main_arg6) = m ((c : Thread nD τ).loc main_arg6) :=
  ((StableHlo.after_of_writes_sub main_part2_ops0 _ main_part2_ops0_writes (by decide)).trans ((StableHlo.after_of_writes_sub main_part1_ops0 _ main_part1_ops0_writes (by decide)).trans ((StableHlo.after_of_writes_sub main_part0_ops1 _ main_part0_ops1_writes (by decide)).trans ((W5_of_ne m ρ c main_arg6 (by decide)).trans ((W4_of_ne m ρ c main_arg6 (by decide)).trans ((W3_of_ne m ρ c main_arg6 (by decide)).trans ((W2_of_ne m ρ c main_arg6 (by decide)).trans ((StableHlo.after_of_writes_sub main_part0_ops0 _ main_part0_ops0_writes (by decide)).trans (rfl : W0 m ρ c (Proc.devRef .tc main_arg6) = m ((c : Thread nD τ).loc main_arg6))))))))))
theorem W10_arg6 (c : Dev nD) : W10 m ρ c (Proc.devRef .tc main_arg6) = m ((c : Thread nD τ).loc main_arg6) :=
  ((W10_of_ne m ρ c main_arg6 (by decide)).trans ((StableHlo.after_of_writes_sub main_part3_ops0 _ main_part3_ops0_writes (by decide)).trans ((StableHlo.after_of_writes_sub main_part2_ops0 _ main_part2_ops0_writes (by decide)).trans ((StableHlo.after_of_writes_sub main_part1_ops0 _ main_part1_ops0_writes (by decide)).trans ((StableHlo.after_of_writes_sub main_part0_ops1 _ main_part0_ops1_writes (by decide)).trans ((W5_of_ne m ρ c main_arg6 (by decide)).trans ((W4_of_ne m ρ c main_arg6 (by decide)).trans ((W3_of_ne m ρ c main_arg6 (by decide)).trans ((W2_of_ne m ρ c main_arg6 (by decide)).trans ((StableHlo.after_of_writes_sub main_part0_ops0 _ main_part0_ops0_writes (by decide)).trans (rfl : W0 m ρ c (Proc.devRef .tc main_arg6) = m ((c : Thread nD τ).loc main_arg6))))))))))))
theorem W12_arg6 (c : Dev nD) : W12 m ρ c (Proc.devRef .tc main_arg6) = m ((c : Thread nD τ).loc main_arg6) :=
  ((W12_of_ne m ρ c main_arg6 (by decide)).trans ((StableHlo.after_of_writes_sub main_part3_ops1 _ main_part3_ops1_writes (by decide)).trans ((W10_of_ne m ρ c main_arg6 (by decide)).trans ((StableHlo.after_of_writes_sub main_part3_ops0 _ main_part3_ops0_writes (by decide)).trans ((StableHlo.after_of_writes_sub main_part2_ops0 _ main_part2_ops0_writes (by decide)).trans ((StableHlo.after_of_writes_sub main_part1_ops0 _ main_part1_ops0_writes (by decide)).trans ((StableHlo.after_of_writes_sub main_part0_ops1 _ main_part0_ops1_writes (by decide)).trans ((W5_of_ne m ρ c main_arg6 (by decide)).trans ((W4_of_ne m ρ c main_arg6 (by decide)).trans ((W3_of_ne m ρ c main_arg6 (by decide)).trans ((W2_of_ne m ρ c main_arg6 (by decide)).trans ((StableHlo.after_of_writes_sub main_part0_ops0 _ main_part0_ops0_writes (by decide)).trans (rfl : W0 m ρ c (Proc.devRef .tc main_arg6) = m ((c : Thread nD τ).loc main_arg6))))))))))))))
theorem W14_arg6 (c : Dev nD) : W14 m ρ c (Proc.devRef .tc main_arg6) = m ((c : Thread nD τ).loc main_arg6) :=
  ((W14_of_ne m ρ c main_arg6 (by decide)).trans ((StableHlo.after_of_writes_sub main_part3_ops2 _ main_part3_ops2_writes (by decide)).trans ((W12_of_ne m ρ c main_arg6 (by decide)).trans ((StableHlo.after_of_writes_sub main_part3_ops1 _ main_part3_ops1_writes (by decide)).trans ((W10_of_ne m ρ c main_arg6 (by decide)).trans ((StableHlo.after_of_writes_sub main_part3_ops0 _ main_part3_ops0_writes (by decide)).trans ((StableHlo.after_of_writes_sub main_part2_ops0 _ main_part2_ops0_writes (by decide)).trans ((StableHlo.after_of_writes_sub main_part1_ops0 _ main_part1_ops0_writes (by decide)).trans ((StableHlo.after_of_writes_sub main_part0_ops1 _ main_part0_ops1_writes (by decide)).trans ((W5_of_ne m ρ c main_arg6 (by decide)).trans ((W4_of_ne m ρ c main_arg6 (by decide)).trans ((W3_of_ne m ρ c main_arg6 (by decide)).trans ((W2_of_ne m ρ c main_arg6 (by decide)).trans ((StableHlo.after_of_writes_sub main_part0_ops0 _ main_part0_ops0_writes (by decide)).trans (rfl : W0 m ρ c (Proc.devRef .tc main_arg6) = m ((c : Thread nD τ).loc main_arg6))))))))))))))))
theorem W5_arg7 (c : Dev nD) : W5 m ρ c (Proc.devRef .tc main_arg7) = m ((c : Thread nD τ).loc main_arg7) :=
  ((W5_of_ne m ρ c main_arg7 (by decide)).trans ((W4_of_ne m ρ c main_arg7 (by decide)).trans ((W3_of_ne m ρ c main_arg7 (by decide)).trans ((W2_of_ne m ρ c main_arg7 (by decide)).trans ((StableHlo.after_of_writes_sub main_part0_ops0 _ main_part0_ops0_writes (by decide)).trans (rfl : W0 m ρ c (Proc.devRef .tc main_arg7) = m ((c : Thread nD τ).loc main_arg7)))))))
theorem W5_arg8 (c : Dev nD) : W5 m ρ c (Proc.devRef .tc main_arg8) = m ((c : Thread nD τ).loc main_arg8) :=
  ((W5_of_ne m ρ c main_arg8 (by decide)).trans ((W4_of_ne m ρ c main_arg8 (by decide)).trans ((W3_of_ne m ρ c main_arg8 (by decide)).trans ((W2_of_ne m ρ c main_arg8 (by decide)).trans ((StableHlo.after_of_writes_sub main_part0_ops0 _ main_part0_ops0_writes (by decide)).trans (rfl : W0 m ρ c (Proc.devRef .tc main_arg8) = m ((c : Thread nD τ).loc main_arg8)))))))
theorem W5_arg9 (c : Dev nD) : W5 m ρ c (Proc.devRef .tc main_arg9) = m ((c : Thread nD τ).loc main_arg9) :=
  ((W5_of_ne m ρ c main_arg9 (by decide)).trans ((W4_of_ne m ρ c main_arg9 (by decide)).trans ((W3_of_ne m ρ c main_arg9 (by decide)).trans ((W2_of_ne m ρ c main_arg9 (by decide)).trans ((StableHlo.after_of_writes_sub main_part0_ops0 _ main_part0_ops0_writes (by decide)).trans (rfl : W0 m ρ c (Proc.devRef .tc main_arg9) = m ((c : Thread nD τ).loc main_arg9)))))))
theorem W5_arg10 (c : Dev nD) : W5 m ρ c (Proc.devRef .tc main_arg10) = m ((c : Thread nD τ).loc main_arg10) :=
  ((W5_of_ne m ρ c main_arg10 (by decide)).trans ((W4_of_ne m ρ c main_arg10 (by decide)).trans ((W3_of_ne m ρ c main_arg10 (by decide)).trans ((W2_of_ne m ρ c main_arg10 (by decide)).trans ((StableHlo.after_of_writes_sub main_part0_ops0 _ main_part0_ops0_writes (by decide)).trans (rfl : W0 m ρ c (Proc.devRef .tc main_arg10) = m ((c : Thread nD τ).loc main_arg10)))))))
theorem W5_arg11 (c : Dev nD) : W5 m ρ c (Proc.devRef .tc main_arg11) = m ((c : Thread nD τ).loc main_arg11) :=
  ((W5_of_ne m ρ c main_arg11 (by decide)).trans ((W4_of_ne m ρ c main_arg11 (by decide)).trans ((W3_of_ne m ρ c main_arg11 (by decide)).trans ((W2_of_ne m ρ c main_arg11 (by decide)).trans ((StableHlo.after_of_writes_sub main_part0_ops0 _ main_part0_ops0_writes (by decide)).trans (rfl : W0 m ρ c (Proc.devRef .tc main_arg11) = m ((c : Thread nD τ).loc main_arg11)))))))
theorem W5_arg12 (c : Dev nD) : W5 m ρ c (Proc.devRef .tc main_arg12) = m ((c : Thread nD τ).loc main_arg12) :=
  ((W5_of_ne m ρ c main_arg12 (by decide)).trans ((W4_of_ne m ρ c main_arg12 (by decide)).trans ((W3_of_ne m ρ c main_arg12 (by decide)).trans ((W2_of_ne m ρ c main_arg12 (by decide)).trans ((StableHlo.after_of_writes_sub main_part0_ops0 _ main_part0_ops0_writes (by decide)).trans (rfl : W0 m ρ c (Proc.devRef .tc main_arg12) = m ((c : Thread nD τ).loc main_arg12)))))))
theorem W5_arg13 (c : Dev nD) : W5 m ρ c (Proc.devRef .tc main_arg13) = m ((c : Thread nD τ).loc main_arg13) :=
  ((W5_of_ne m ρ c main_arg13 (by decide)).trans ((W4_of_ne m ρ c main_arg13 (by decide)).trans ((W3_of_ne m ρ c main_arg13 (by decide)).trans ((W2_of_ne m ρ c main_arg13 (by decide)).trans ((StableHlo.after_of_writes_sub main_part0_ops0 _ main_part0_ops0_writes (by decide)).trans (rfl : W0 m ρ c (Proc.devRef .tc main_arg13) = m ((c : Thread nD τ).loc main_arg13)))))))
theorem W5_arg14 (c : Dev nD) : W5 m ρ c (Proc.devRef .tc main_arg14) = m ((c : Thread nD τ).loc main_arg14) :=
  ((W5_of_ne m ρ c main_arg14 (by decide)).trans ((W4_of_ne m ρ c main_arg14 (by decide)).trans ((W3_of_ne m ρ c main_arg14 (by decide)).trans ((W2_of_ne m ρ c main_arg14 (by decide)).trans ((StableHlo.after_of_writes_sub main_part0_ops0 _ main_part0_ops0_writes (by decide)).trans (rfl : W0 m ρ c (Proc.devRef .tc main_arg14) = m ((c : Thread nD τ).loc main_arg14)))))))
theorem W5_arg15 (c : Dev nD) : W5 m ρ c (Proc.devRef .tc main_arg15) = m ((c : Thread nD τ).loc main_arg15) :=
  ((W5_of_ne m ρ c main_arg15 (by decide)).trans ((W4_of_ne m ρ c main_arg15 (by decide)).trans ((W3_of_ne m ρ c main_arg15 (by decide)).trans ((W2_of_ne m ρ c main_arg15 (by decide)).trans ((StableHlo.after_of_writes_sub main_part0_ops0 _ main_part0_ops0_writes (by decide)).trans (rfl : W0 m ρ c (Proc.devRef .tc main_arg15) = m ((c : Thread nD τ).loc main_arg15)))))))
theorem W5_arg16 (c : Dev nD) : W5 m ρ c (Proc.devRef .tc main_arg16) = m ((c : Thread nD τ).loc main_arg16) :=
  ((W5_of_ne m ρ c main_arg16 (by decide)).trans ((W4_of_ne m ρ c main_arg16 (by decide)).trans ((W3_of_ne m ρ c main_arg16 (by decide)).trans ((W2_of_ne m ρ c main_arg16 (by decide)).trans ((StableHlo.after_of_writes_sub main_part0_ops0 _ main_part0_ops0_writes (by decide)).trans (rfl : W0 m ρ c (Proc.devRef .tc main_arg16) = m ((c : Thread nD τ).loc main_arg16)))))))
theorem W5_arg17 (c : Dev nD) : W5 m ρ c (Proc.devRef .tc main_arg17) = m ((c : Thread nD τ).loc main_arg17) :=
  ((W5_of_ne m ρ c main_arg17 (by decide)).trans ((W4_of_ne m ρ c main_arg17 (by decide)).trans ((W3_of_ne m ρ c main_arg17 (by decide)).trans ((W2_of_ne m ρ c main_arg17 (by decide)).trans ((StableHlo.after_of_writes_sub main_part0_ops0 _ main_part0_ops0_writes (by decide)).trans (rfl : W0 m ρ c (Proc.devRef .tc main_arg17) = m ((c : Thread nD τ).loc main_arg17)))))))
theorem W5_arg18 (c : Dev nD) : W5 m ρ c (Proc.devRef .tc main_arg18) = m ((c : Thread nD τ).loc main_arg18) :=
  ((W5_of_ne m ρ c main_arg18 (by decide)).trans ((W4_of_ne m ρ c main_arg18 (by decide)).trans ((W3_of_ne m ρ c main_arg18 (by decide)).trans ((W2_of_ne m ρ c main_arg18 (by decide)).trans ((StableHlo.after_of_writes_sub main_part0_ops0 _ main_part0_ops0_writes (by decide)).trans (rfl : W0 m ρ c (Proc.devRef .tc main_arg18) = m ((c : Thread nD τ).loc main_arg18)))))))
theorem W5_arg19 (c : Dev nD) : W5 m ρ c (Proc.devRef .tc main_arg19) = m ((c : Thread nD τ).loc main_arg19) :=
  ((W5_of_ne m ρ c main_arg19 (by decide)).trans ((W4_of_ne m ρ c main_arg19 (by decide)).trans ((W3_of_ne m ρ c main_arg19 (by decide)).trans ((W2_of_ne m ρ c main_arg19 (by decide)).trans ((StableHlo.after_of_writes_sub main_part0_ops0 _ main_part0_ops0_writes (by decide)).trans (rfl : W0 m ρ c (Proc.devRef .tc main_arg19) = m ((c : Thread nD τ).loc main_arg19)))))))
theorem W5_arg20 (c : Dev nD) : W5 m ρ c (Proc.devRef .tc main_arg20) = m ((c : Thread nD τ).loc main_arg20) :=
  ((W5_of_ne m ρ c main_arg20 (by decide)).trans ((W4_of_ne m ρ c main_arg20 (by decide)).trans ((W3_of_ne m ρ c main_arg20 (by decide)).trans ((W2_of_ne m ρ c main_arg20 (by decide)).trans ((StableHlo.after_of_writes_sub main_part0_ops0 _ main_part0_ops0_writes (by decide)).trans (rfl : W0 m ρ c (Proc.devRef .tc main_arg20) = m ((c : Thread nD τ).loc main_arg20)))))))

/-! ## The long stretch as one line -/

theorem hostOps4_split : (hostOps4 (F := Ideal)) = main_part0_ops1 ++ (main_part1_ops0 ++ (main_part2_ops0 ++ main_part3_ops0)) := rfl

theorem W9_eq (c : Dev nD) : W9 m ρ c = StableHlo.after (hostOps4 (F := Ideal)) (W5 m ρ c) := by
  rw [hostOps4_split, after_append, after_append, after_append]

/-! ## The fused weight matrices -/
theorem W1_main_v4 (c : Dev nD) : W1 m ρ c (Proc.devRef .tc main_v4) = (concatenate S128x192 1 [⟨S128x64, (shapeCast _ (extractStridedSlice S1x128x64 ![0, 0, 0] (m ((c : Thread nD τ).loc main_arg4)) slices_S7x128x64_S1x128x64_0_0_0) shapeCasts_S1x128x64_S128x64)⟩, ⟨S128x64, (shapeCast _ (extractStridedSlice S1x128x64 ![5, 0, 0] (m ((c : Thread nD τ).loc main_arg4)) slices_S7x128x64_S1x128x64_5_0_0) shapeCasts_S1x128x64_S128x64)⟩, ⟨S128x64, (m ((c : Thread nD τ).loc main_arg5))⟩] concatenates_S128x64_S128x64_S128x64_S128x192_d1) := by
  show StableHlo.after main_part0_ops0 (W0 m ρ c) (Proc.devRef .tc main_v4) = _
  after_results
  rfl
theorem W1_main_v11 (c : Dev nD) : W1 m ρ c (Proc.devRef .tc main_v11) = (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1) := by
  show StableHlo.after main_part0_ops0 (W0 m ρ c) (Proc.devRef .tc main_v11) = _
  after_results
  rfl
theorem W1_main_v14 (c : Dev nD) : W1 m ρ c (Proc.devRef .tc main_v14) = (concatenate S128x128 1 [⟨S128x64, (shapeCast _ (extractStridedSlice S1x128x64 ![4, 0, 0] (m ((c : Thread nD τ).loc main_arg4)) slices_S7x128x64_S1x128x64_4_0_0) shapeCasts_S1x128x64_S128x64)⟩, ⟨S128x64, (m ((c : Thread nD τ).loc main_arg5))⟩] concatenates_S128x64_S128x64_S128x128_d1) := by
  show StableHlo.after main_part0_ops0 (W0 m ρ c) (Proc.devRef .tc main_v14) = _
  after_results
  rfl
theorem W1_main_v17 (c : Dev nD) : W1 m ρ c (Proc.devRef .tc main_v17) = (concatenate S128x128 1 [⟨S128x64, (shapeCast _ (extractStridedSlice S1x128x64 ![6, 0, 0] (m ((c : Thread nD τ).loc main_arg4)) slices_S7x128x64_S1x128x64_6_0_0) shapeCasts_S1x128x64_S128x64)⟩, ⟨S128x64, (m ((c : Thread nD τ).loc main_arg5))⟩] concatenates_S128x64_S128x64_S128x128_d1) := by
  show StableHlo.after main_part0_ops0 (W0 m ρ c) (Proc.devRef .tc main_v17) = _
  after_results
  rfl

/-! ## The fused products -/
theorem W5_main_v18 (c : Dev nD) : W5 m ρ c (Proc.devRef .tc main_v18) = (Val.projG0 (m ((c : Thread nD τ).loc main_arg0)) (concatenate S128x192 1 [⟨S128x64, (shapeCast _ (extractStridedSlice S1x128x64 ![0, 0, 0] (m ((c : Thread nD τ).loc main_arg4)) slices_S7x128x64_S1x128x64_0_0_0) shapeCasts_S1x128x64_S128x64)⟩, ⟨S128x64, (shapeCast _ (extractStridedSlice S1x128x64 ![5, 0, 0] (m ((c : Thread nD τ).loc main_arg4)) slices_S7x128x64_S1x128x64_5_0_0) shapeCasts_S1x128x64_S128x64)⟩, ⟨S128x64, (m ((c : Thread nD τ).loc main_arg5))⟩] concatenates_S128x64_S128x64_S128x64_S128x192_d1)) :=
  (((W5_of_ne m ρ c main_v18 (by decide)).trans ((W4_of_ne m ρ c main_v18 (by decide)).trans (W3_of_ne m ρ c main_v18 (by decide)))) : W5 m ρ c (Proc.devRef .tc main_v18) = W2 m ρ c (Proc.devRef .tc main_v18)).trans ((W2_arr m ρ c 2).trans ((Val.arrp0 (V1 m ρ) c).trans (by
    show Val.projG0 (W1 m ρ c (Proc.devRef .tc main_arg0)) (W1 m ρ c (Proc.devRef .tc main_v4)) = _
    rw [W1_arg0 m ρ c, (rfl : W1 m ρ c (Proc.devRef .tc main_v4) = W1 m ρ c (Proc.devRef .tc main_v4)), W1_main_v4 m ρ c])))
theorem W5_main_v19 (c : Dev nD) : W5 m ρ c (Proc.devRef .tc main_v19) = (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) :=
  (((W5_of_ne m ρ c main_v19 (by decide)).trans (W4_of_ne m ρ c main_v19 (by decide))) : W5 m ρ c (Proc.devRef .tc main_v19) = W3 m ρ c (Proc.devRef .tc main_v19)).trans ((W3_arr m ρ c 2).trans ((Val.arrp1 (V2 m ρ) c).trans (by
    show Val.projG1 (W2 m ρ c (Proc.devRef .tc main_arg3)) (W2 m ρ c (Proc.devRef .tc main_v11)) = _
    rw [W2_arg3 m ρ c, ((W2_of_ne m ρ c main_v11 (by decide)) : W2 m ρ c (Proc.devRef .tc main_v11) = W1 m ρ c (Proc.devRef .tc main_v11)), W1_main_v11 m ρ c])))
theorem W5_main_v20 (c : Dev nD) : W5 m ρ c (Proc.devRef .tc main_v20) = (Val.projG2 (m ((c : Thread nD τ).loc main_arg1)) (concatenate S128x128 1 [⟨S128x64, (shapeCast _ (extractStridedSlice S1x128x64 ![4, 0, 0] (m ((c : Thread nD τ).loc main_arg4)) slices_S7x128x64_S1x128x64_4_0_0) shapeCasts_S1x128x64_S128x64)⟩, ⟨S128x64, (m ((c : Thread nD τ).loc main_arg5))⟩] concatenates_S128x64_S128x64_S128x128_d1)) :=
  ((W5_of_ne m ρ c main_v20 (by decide)) : W5 m ρ c (Proc.devRef .tc main_v20) = W4 m ρ c (Proc.devRef .tc main_v20)).trans ((W4_arr m ρ c 2).trans ((Val.arrp2 (V3 m ρ) c).trans (by
    show Val.projG2 (W3 m ρ c (Proc.devRef .tc main_arg1)) (W3 m ρ c (Proc.devRef .tc main_v14)) = _
    rw [W3_arg1 m ρ c, (((W3_of_ne m ρ c main_v14 (by decide)).trans (W2_of_ne m ρ c main_v14 (by decide))) : W3 m ρ c (Proc.devRef .tc main_v14) = W1 m ρ c (Proc.devRef .tc main_v14)), W1_main_v14 m ρ c])))
theorem W5_main_v21 (c : Dev nD) : W5 m ρ c (Proc.devRef .tc main_v21) = (Val.projG3 (m ((c : Thread nD τ).loc main_arg2)) (concatenate S128x128 1 [⟨S128x64, (shapeCast _ (extractStridedSlice S1x128x64 ![6, 0, 0] (m ((c : Thread nD τ).loc main_arg4)) slices_S7x128x64_S1x128x64_6_0_0) shapeCasts_S1x128x64_S128x64)⟩, ⟨S128x64, (m ((c : Thread nD τ).loc main_arg5))⟩] concatenates_S128x64_S128x64_S128x128_d1)) :=
  (rfl : W5 m ρ c (Proc.devRef .tc main_v21) = W5 m ρ c (Proc.devRef .tc main_v21)).trans ((W5_arr m ρ c 2).trans ((Val.arrp3 (V4 m ρ) c).trans (by
    show Val.projG3 (W4 m ρ c (Proc.devRef .tc main_arg2)) (W4 m ρ c (Proc.devRef .tc main_v17)) = _
    rw [W4_arg2 m ρ c, (((W4_of_ne m ρ c main_v17 (by decide)).trans ((W3_of_ne m ρ c main_v17 (by decide)).trans (W2_of_ne m ρ c main_v17 (by decide)))) : W4 m ρ c (Proc.devRef .tc main_v17) = W1 m ρ c (Proc.devRef .tc main_v17)), W1_main_v17 m ρ c])))

/-! ## What the long stretch leaves, over the arguments -/
theorem W9_main_v130 (c : Dev nD) : W9 m ρ c (Proc.devRef .tc main_v130) = addf (rc0 (extractStridedSlice S200000x64 ![0, 0] (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) slices_S200000x256_S200000x64_0_0) (m ((c : Thread nD τ).loc main_arg10)) (m ((c : Thread nD τ).loc main_arg9))) (rc1 (extractStridedSlice S8000x64 ![0, 0] (Val.projG3 (m ((c : Thread nD τ).loc main_arg2)) (concatenate S128x128 1 [⟨S128x64, (shapeCast _ (extractStridedSlice S1x128x64 ![6, 0, 0] (m ((c : Thread nD τ).loc main_arg4)) slices_S7x128x64_S1x128x64_6_0_0) shapeCasts_S1x128x64_S128x64)⟩, ⟨S128x64, (m ((c : Thread nD τ).loc main_arg5))⟩] concatenates_S128x64_S128x64_S128x128_d1)) slices_S8000x128_S8000x64_0_0) (m ((c : Thread nD τ).loc main_arg20)) (m ((c : Thread nD τ).loc main_arg19))) :=
  (congrFun (W9_eq m ρ c) _).trans ((read_main_v130 (W5 m ρ c)).trans (by rw [W5_main_v19 m ρ c, W5_main_v21 m ρ c, W5_arg10 m ρ c, W5_arg9 m ρ c, W5_arg20 m ρ c, W5_arg19 m ρ c]))
theorem W9_main_v149 (c : Dev nD) : W9 m ρ c (Proc.devRef .tc main_v149) = rc2 (extractStridedSlice S200000x64 ![0, 128] (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) slices_S200000x256_S200000x64_0_128) (m ((c : Thread nD τ).loc main_arg14)) (m ((c : Thread nD τ).loc main_arg13)) :=
  (congrFun (W9_eq m ρ c) _).trans ((read_main_v149 (W5 m ρ c)).trans (by rw [W5_main_v19 m ρ c, W5_arg14 m ρ c, W5_arg13 m ρ c]))
theorem W9_main_v168 (c : Dev nD) : W9 m ρ c (Proc.devRef .tc main_v168) = rc3 (extractStridedSlice S100000x64 ![0, 64] (Val.projG0 (m ((c : Thread nD τ).loc main_arg0)) (concatenate S128x192 1 [⟨S128x64, (shapeCast _ (extractStridedSlice S1x128x64 ![0, 0, 0] (m ((c : Thread nD τ).loc main_arg4)) slices_S7x128x64_S1x128x64_0_0_0) shapeCasts_S1x128x64_S128x64)⟩, ⟨S128x64, (shapeCast _ (extractStridedSlice S1x128x64 ![5, 0, 0] (m ((c : Thread nD τ).loc main_arg4)) slices_S7x128x64_S1x128x64_5_0_0) shapeCasts_S1x128x64_S128x64)⟩, ⟨S128x64, (m ((c : Thread nD τ).loc main_arg5))⟩] concatenates_S128x64_S128x64_S128x64_S128x192_d1)) slices_S100000x192_S100000x64_0_64) (m ((c : Thread nD τ).loc main_arg18)) (m ((c : Thread nD τ).loc main_arg17)) :=
  (congrFun (W9_eq m ρ c) _).trans ((read_main_v168 (W5 m ρ c)).trans (by rw [W5_main_v18 m ρ c, W5_arg18 m ρ c, W5_arg17 m ρ c]))
theorem W9_main_v91 (c : Dev nD) : W9 m ρ c (Proc.devRef .tc main_v91) = addf (addf (rc4 (extractStridedSlice S100000x64 ![0, 0] (Val.projG0 (m ((c : Thread nD τ).loc main_arg0)) (concatenate S128x192 1 [⟨S128x64, (shapeCast _ (extractStridedSlice S1x128x64 ![0, 0, 0] (m ((c : Thread nD τ).loc main_arg4)) slices_S7x128x64_S1x128x64_0_0_0) shapeCasts_S1x128x64_S128x64)⟩, ⟨S128x64, (shapeCast _ (extractStridedSlice S1x128x64 ![5, 0, 0] (m ((c : Thread nD τ).loc main_arg4)) slices_S7x128x64_S1x128x64_5_0_0) shapeCasts_S1x128x64_S128x64)⟩, ⟨S128x64, (m ((c : Thread nD τ).loc main_arg5))⟩] concatenates_S128x64_S128x64_S128x64_S128x192_d1)) slices_S100000x192_S100000x64_0_0) (m ((c : Thread nD τ).loc main_arg8)) (m ((c : Thread nD τ).loc main_arg7))) (rc5 (extractStridedSlice S200000x64 ![0, 64] (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) slices_S200000x256_S200000x64_0_64) (m ((c : Thread nD τ).loc main_arg12)) (m ((c : Thread nD τ).loc main_arg11)))) (rc6 (extractStridedSlice S50000x64 ![0, 0] (Val.projG2 (m ((c : Thread nD τ).loc main_arg1)) (concatenate S128x128 1 [⟨S128x64, (shapeCast _ (extractStridedSlice S1x128x64 ![4, 0, 0] (m ((c : Thread nD τ).loc main_arg4)) slices_S7x128x64_S1x128x64_4_0_0) shapeCasts_S1x128x64_S128x64)⟩, ⟨S128x64, (m ((c : Thread nD τ).loc main_arg5))⟩] concatenates_S128x64_S128x64_S128x128_d1)) slices_S50000x128_S50000x64_0_0) (m ((c : Thread nD τ).loc main_arg16)) (m ((c : Thread nD τ).loc main_arg15))) :=
  (congrFun (W9_eq m ρ c) _).trans ((read_main_v91 (W5 m ρ c)).trans (by rw [W5_main_v18 m ρ c, W5_main_v19 m ρ c, W5_main_v20 m ρ c, W5_arg8 m ρ c, W5_arg7 m ρ c, W5_arg12 m ρ c, W5_arg11 m ρ c, W5_arg16 m ρ c, W5_arg15 m ρ c]))
theorem W9_main_v24 (c : Dev nD) : W9 m ρ c (Proc.devRef .tc main_v24) = (extractStridedSlice S100000x64 ![0, 128] (Val.projG0 (m ((c : Thread nD τ).loc main_arg0)) (concatenate S128x192 1 [⟨S128x64, (shapeCast _ (extractStridedSlice S1x128x64 ![0, 0, 0] (m ((c : Thread nD τ).loc main_arg4)) slices_S7x128x64_S1x128x64_0_0_0) shapeCasts_S1x128x64_S128x64)⟩, ⟨S128x64, (shapeCast _ (extractStridedSlice S1x128x64 ![5, 0, 0] (m ((c : Thread nD τ).loc main_arg4)) slices_S7x128x64_S1x128x64_5_0_0) shapeCasts_S1x128x64_S128x64)⟩, ⟨S128x64, (m ((c : Thread nD τ).loc main_arg5))⟩] concatenates_S128x64_S128x64_S128x64_S128x192_d1)) slices_S100000x192_S100000x64_0_128) :=
  (congrFun (W9_eq m ρ c) _).trans ((read_main_v24 (W5 m ρ c)).trans (by rw [W5_main_v18 m ρ c]))
theorem W9_main_v28 (c : Dev nD) : W9 m ρ c (Proc.devRef .tc main_v28) = (extractStridedSlice S200000x64 ![0, 192] (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) slices_S200000x256_S200000x64_0_192) :=
  (congrFun (W9_eq m ρ c) _).trans ((read_main_v28 (W5 m ρ c)).trans (by rw [W5_main_v19 m ρ c]))
theorem W9_main_v30 (c : Dev nD) : W9 m ρ c (Proc.devRef .tc main_v30) = (extractStridedSlice S50000x64 ![0, 64] (Val.projG2 (m ((c : Thread nD τ).loc main_arg1)) (concatenate S128x128 1 [⟨S128x64, (shapeCast _ (extractStridedSlice S1x128x64 ![4, 0, 0] (m ((c : Thread nD τ).loc main_arg4)) slices_S7x128x64_S1x128x64_4_0_0) shapeCasts_S1x128x64_S128x64)⟩, ⟨S128x64, (m ((c : Thread nD τ).loc main_arg5))⟩] concatenates_S128x64_S128x64_S128x128_d1)) slices_S50000x128_S50000x64_0_64) :=
  (congrFun (W9_eq m ρ c) _).trans ((read_main_v30 (W5 m ρ c)).trans (by rw [W5_main_v20 m ρ c]))
theorem W9_main_v32 (c : Dev nD) : W9 m ρ c (Proc.devRef .tc main_v32) = (extractStridedSlice S8000x64 ![0, 64] (Val.projG3 (m ((c : Thread nD τ).loc main_arg2)) (concatenate S128x128 1 [⟨S128x64, (shapeCast _ (extractStridedSlice S1x128x64 ![6, 0, 0] (m ((c : Thread nD τ).loc main_arg4)) slices_S7x128x64_S1x128x64_6_0_0) shapeCasts_S1x128x64_S128x64)⟩, ⟨S128x64, (m ((c : Thread nD τ).loc main_arg5))⟩] concatenates_S128x64_S128x64_S128x128_d1)) slices_S8000x128_S8000x64_0_64) :=
  (congrFun (W9_eq m ρ c) _).trans ((read_main_v32 (W5 m ρ c)).trans (by rw [W5_main_v21 m ρ c]))

/-! ## The bias row each finalize region finds -/
theorem W9_main_v169 (c : Dev nD) : W9 m ρ c (Proc.devRef .tc main_v169) = (shapeCast S1x64 (m ((c : Thread nD τ).loc main_arg6)) shapeCasts_S64_S1x64) :=
  (congrFun (W9_eq m ρ c) _).trans ((read_main_v169 (W5 m ρ c)).trans (by rw [W5_arg6 m ρ c]))
theorem W11_main_v171 (c : Dev nD) : W11 m ρ c (Proc.devRef .tc main_v171) = (shapeCast S1x64 (m ((c : Thread nD τ).loc main_arg6)) shapeCasts_S64_S1x64) := by
  show StableHlo.after main_part3_ops1 (W10 m ρ c) (Proc.devRef .tc main_v171) = _
  after_results
  rw [W10_arg6 m ρ c]
  rfl
theorem W13_main_v173 (c : Dev nD) : W13 m ρ c (Proc.devRef .tc main_v173) = (shapeCast S1x64 (m ((c : Thread nD τ).loc main_arg6)) shapeCasts_S64_S1x64) := by
  show StableHlo.after main_part3_ops2 (W12 m ρ c) (Proc.devRef .tc main_v173) = _
  after_results
  rw [W12_arg6 m ρ c]
  rfl
theorem W15_main_v175 (c : Dev nD) : W15 m ρ c (Proc.devRef .tc main_v175) = (shapeCast S1x64 (m ((c : Thread nD τ).loc main_arg6)) shapeCasts_S64_S1x64) := by
  show StableHlo.after main_part3_ops3 (W14 m ρ c) (Proc.devRef .tc main_v175) = _
  after_results
  rw [W14_arg6 m ρ c]
  rfl

/-! ## The four results -/
theorem ker_out4 (c : Dev nD) : W16 m ρ c (Proc.devRef .tc main_v170) = Val.finG4 (addf (rc0 (extractStridedSlice S200000x64 ![0, 0] (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) slices_S200000x256_S200000x64_0_0) (m ((c : Thread nD τ).loc main_arg10)) (m ((c : Thread nD τ).loc main_arg9))) (rc1 (extractStridedSlice S8000x64 ![0, 0] (Val.projG3 (m ((c : Thread nD τ).loc main_arg2)) (concatenate S128x128 1 [⟨S128x64, (shapeCast _ (extractStridedSlice S1x128x64 ![6, 0, 0] (m ((c : Thread nD τ).loc main_arg4)) slices_S7x128x64_S1x128x64_6_0_0) shapeCasts_S1x128x64_S128x64)⟩, ⟨S128x64, (m ((c : Thread nD τ).loc main_arg5))⟩] concatenates_S128x64_S128x64_S128x128_d1)) slices_S8000x128_S8000x64_0_0) (m ((c : Thread nD τ).loc main_arg20)) (m ((c : Thread nD τ).loc main_arg19)))) (extractStridedSlice S100000x64 ![0, 128] (Val.projG0 (m ((c : Thread nD τ).loc main_arg0)) (concatenate S128x192 1 [⟨S128x64, (shapeCast _ (extractStridedSlice S1x128x64 ![0, 0, 0] (m ((c : Thread nD τ).loc main_arg4)) slices_S7x128x64_S1x128x64_0_0_0) shapeCasts_S1x128x64_S128x64)⟩, ⟨S128x64, (shapeCast _ (extractStridedSlice S1x128x64 ![5, 0, 0] (m ((c : Thread nD τ).loc main_arg4)) slices_S7x128x64_S1x128x64_5_0_0) shapeCasts_S1x128x64_S128x64)⟩, ⟨S128x64, (m ((c : Thread nD τ).loc main_arg5))⟩] concatenates_S128x64_S128x64_S128x64_S128x192_d1)) slices_S100000x192_S100000x64_0_128) (shapeCast S1x64 (m ((c : Thread nD τ).loc main_arg6)) shapeCasts_S64_S1x64) :=
  (((W16_of_ne m ρ c main_v170 (by decide)).trans ((StableHlo.after_of_writes_sub main_part3_ops3 _ main_part3_ops3_writes (by decide)).trans ((W14_of_ne m ρ c main_v170 (by decide)).trans ((StableHlo.after_of_writes_sub main_part3_ops2 _ main_part3_ops2_writes (by decide)).trans ((W12_of_ne m ρ c main_v170 (by decide)).trans (StableHlo.after_of_writes_sub main_part3_ops1 _ main_part3_ops1_writes (by decide))))))) : W16 m ρ c (Proc.devRef .tc main_v170) = W10 m ρ c (Proc.devRef .tc main_v170)).trans ((W10_arr m ρ c 3).trans ((Val.arr4 (V9 m ρ) c).trans (by
    show Val.finG4 (W9 m ρ c (Proc.devRef .tc main_v130)) (W9 m ρ c (Proc.devRef .tc main_v24)) (W9 m ρ c (Proc.devRef .tc main_v169)) = _
    rw [W9_main_v169 m ρ c, W9_main_v130 m ρ c, W9_main_v24 m ρ c])))
theorem ker_out5 (c : Dev nD) : W16 m ρ c (Proc.devRef .tc main_v172) = Val.finG5 (rc2 (extractStridedSlice S200000x64 ![0, 128] (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) slices_S200000x256_S200000x64_0_128) (m ((c : Thread nD τ).loc main_arg14)) (m ((c : Thread nD τ).loc main_arg13))) (extractStridedSlice S50000x64 ![0, 64] (Val.projG2 (m ((c : Thread nD τ).loc main_arg1)) (concatenate S128x128 1 [⟨S128x64, (shapeCast _ (extractStridedSlice S1x128x64 ![4, 0, 0] (m ((c : Thread nD τ).loc main_arg4)) slices_S7x128x64_S1x128x64_4_0_0) shapeCasts_S1x128x64_S128x64)⟩, ⟨S128x64, (m ((c : Thread nD τ).loc main_arg5))⟩] concatenates_S128x64_S128x64_S128x128_d1)) slices_S50000x128_S50000x64_0_64) (shapeCast S1x64 (m ((c : Thread nD τ).loc main_arg6)) shapeCasts_S64_S1x64) :=
  (((W16_of_ne m ρ c main_v172 (by decide)).trans ((StableHlo.after_of_writes_sub main_part3_ops3 _ main_part3_ops3_writes (by decide)).trans ((W14_of_ne m ρ c main_v172 (by decide)).trans (StableHlo.after_of_writes_sub main_part3_ops2 _ main_part3_ops2_writes (by decide))))) : W16 m ρ c (Proc.devRef .tc main_v172) = W12 m ρ c (Proc.devRef .tc main_v172)).trans ((W12_arr m ρ c 3).trans ((Val.arr5 (V11 m ρ) c).trans (by
    show Val.finG5 (W11 m ρ c (Proc.devRef .tc main_v149)) (W11 m ρ c (Proc.devRef .tc main_v30)) (W11 m ρ c (Proc.devRef .tc main_v171)) = _
    have e1 : W11 m ρ c (Proc.devRef .tc main_v149) = W9 m ρ c (Proc.devRef .tc main_v149) := ((StableHlo.after_of_writes_sub main_part3_ops1 _ main_part3_ops1_writes (by decide)).trans (W10_of_ne m ρ c main_v149 (by decide)))
    have e2 : W11 m ρ c (Proc.devRef .tc main_v30) = W9 m ρ c (Proc.devRef .tc main_v30) := ((StableHlo.after_of_writes_sub main_part3_ops1 _ main_part3_ops1_writes (by decide)).trans (W10_of_ne m ρ c main_v30 (by decide)))
    rw [e1, e2, W11_main_v171 m ρ c, W9_main_v149 m ρ c, W9_main_v30 m ρ c])))
theorem ker_out6 (c : Dev nD) : W16 m ρ c (Proc.devRef .tc main_v174) = Val.finG6 (rc3 (extractStridedSlice S100000x64 ![0, 64] (Val.projG0 (m ((c : Thread nD τ).loc main_arg0)) (concatenate S128x192 1 [⟨S128x64, (shapeCast _ (extractStridedSlice S1x128x64 ![0, 0, 0] (m ((c : Thread nD τ).loc main_arg4)) slices_S7x128x64_S1x128x64_0_0_0) shapeCasts_S1x128x64_S128x64)⟩, ⟨S128x64, (shapeCast _ (extractStridedSlice S1x128x64 ![5, 0, 0] (m ((c : Thread nD τ).loc main_arg4)) slices_S7x128x64_S1x128x64_5_0_0) shapeCasts_S1x128x64_S128x64)⟩, ⟨S128x64, (m ((c : Thread nD τ).loc main_arg5))⟩] concatenates_S128x64_S128x64_S128x64_S128x192_d1)) slices_S100000x192_S100000x64_0_64) (m ((c : Thread nD τ).loc main_arg18)) (m ((c : Thread nD τ).loc main_arg17))) (extractStridedSlice S8000x64 ![0, 64] (Val.projG3 (m ((c : Thread nD τ).loc main_arg2)) (concatenate S128x128 1 [⟨S128x64, (shapeCast _ (extractStridedSlice S1x128x64 ![6, 0, 0] (m ((c : Thread nD τ).loc main_arg4)) slices_S7x128x64_S1x128x64_6_0_0) shapeCasts_S1x128x64_S128x64)⟩, ⟨S128x64, (m ((c : Thread nD τ).loc main_arg5))⟩] concatenates_S128x64_S128x64_S128x128_d1)) slices_S8000x128_S8000x64_0_64) (shapeCast S1x64 (m ((c : Thread nD τ).loc main_arg6)) shapeCasts_S64_S1x64) :=
  (((W16_of_ne m ρ c main_v174 (by decide)).trans (StableHlo.after_of_writes_sub main_part3_ops3 _ main_part3_ops3_writes (by decide))) : W16 m ρ c (Proc.devRef .tc main_v174) = W14 m ρ c (Proc.devRef .tc main_v174)).trans ((W14_arr m ρ c 3).trans ((Val.arr6 (V13 m ρ) c).trans (by
    show Val.finG6 (W13 m ρ c (Proc.devRef .tc main_v168)) (W13 m ρ c (Proc.devRef .tc main_v32)) (W13 m ρ c (Proc.devRef .tc main_v173)) = _
    have e1 : W13 m ρ c (Proc.devRef .tc main_v168) = W9 m ρ c (Proc.devRef .tc main_v168) := ((StableHlo.after_of_writes_sub main_part3_ops2 _ main_part3_ops2_writes (by decide)).trans ((W12_of_ne m ρ c main_v168 (by decide)).trans ((StableHlo.after_of_writes_sub main_part3_ops1 _ main_part3_ops1_writes (by decide)).trans (W10_of_ne m ρ c main_v168 (by decide)))))
    have e2 : W13 m ρ c (Proc.devRef .tc main_v32) = W9 m ρ c (Proc.devRef .tc main_v32) := ((StableHlo.after_of_writes_sub main_part3_ops2 _ main_part3_ops2_writes (by decide)).trans ((W12_of_ne m ρ c main_v32 (by decide)).trans ((StableHlo.after_of_writes_sub main_part3_ops1 _ main_part3_ops1_writes (by decide)).trans (W10_of_ne m ρ c main_v32 (by decide)))))
    rw [e1, e2, W13_main_v173 m ρ c, W9_main_v168 m ρ c, W9_main_v32 m ρ c])))
theorem ker_out7 (c : Dev nD) : W16 m ρ c (Proc.devRef .tc main_v176) = Val.finG7 (addf (addf (rc4 (extractStridedSlice S100000x64 ![0, 0] (Val.projG0 (m ((c : Thread nD τ).loc main_arg0)) (concatenate S128x192 1 [⟨S128x64, (shapeCast _ (extractStridedSlice S1x128x64 ![0, 0, 0] (m ((c : Thread nD τ).loc main_arg4)) slices_S7x128x64_S1x128x64_0_0_0) shapeCasts_S1x128x64_S128x64)⟩, ⟨S128x64, (shapeCast _ (extractStridedSlice S1x128x64 ![5, 0, 0] (m ((c : Thread nD τ).loc main_arg4)) slices_S7x128x64_S1x128x64_5_0_0) shapeCasts_S1x128x64_S128x64)⟩, ⟨S128x64, (m ((c : Thread nD τ).loc main_arg5))⟩] concatenates_S128x64_S128x64_S128x64_S128x192_d1)) slices_S100000x192_S100000x64_0_0) (m ((c : Thread nD τ).loc main_arg8)) (m ((c : Thread nD τ).loc main_arg7))) (rc5 (extractStridedSlice S200000x64 ![0, 64] (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) slices_S200000x256_S200000x64_0_64) (m ((c : Thread nD τ).loc main_arg12)) (m ((c : Thread nD τ).loc main_arg11)))) (rc6 (extractStridedSlice S50000x64 ![0, 0] (Val.projG2 (m ((c : Thread nD τ).loc main_arg1)) (concatenate S128x128 1 [⟨S128x64, (shapeCast _ (extractStridedSlice S1x128x64 ![4, 0, 0] (m ((c : Thread nD τ).loc main_arg4)) slices_S7x128x64_S1x128x64_4_0_0) shapeCasts_S1x128x64_S128x64)⟩, ⟨S128x64, (m ((c : Thread nD τ).loc main_arg5))⟩] concatenates_S128x64_S128x64_S128x128_d1)) slices_S50000x128_S50000x64_0_0) (m ((c : Thread nD τ).loc main_arg16)) (m ((c : Thread nD τ).loc main_arg15)))) (extractStridedSlice S200000x64 ![0, 192] (Val.projG1 (m ((c : Thread nD τ).loc main_arg3)) (concatenate S128x256 1 [⟨S128x64, (shapeCast _ (extractStridedSlice S1x128x64 ![1, 0, 0] (m ((c : Thread nD τ).loc main_arg4)) slices_S7x128x64_S1x128x64_1_0_0) shapeCasts_S1x128x64_S128x64)⟩, ⟨S128x64, (shapeCast _ (extractStridedSlice S1x128x64 ![2, 0, 0] (m ((c : Thread nD τ).loc main_arg4)) slices_S7x128x64_S1x128x64_2_0_0) shapeCasts_S1x128x64_S128x64)⟩, ⟨S128x64, (shapeCast _ (extractStridedSlice S1x128x64 ![3, 0, 0] (m ((c : Thread nD τ).loc main_arg4)) slices_S7x128x64_S1x128x64_3_0_0) shapeCasts_S1x128x64_S128x64)⟩, ⟨S128x64, (m ((c : Thread nD τ).loc main_arg5))⟩] concatenates_S128x64_S128x64_S128x64_S128x64_S128x256_d1)) slices_S200000x256_S200000x64_0_192) (shapeCast S1x64 (m ((c : Thread nD τ).loc main_arg6)) shapeCasts_S64_S1x64) :=
  (rfl : W16 m ρ c (Proc.devRef .tc main_v176) = W16 m ρ c (Proc.devRef .tc main_v176)).trans ((W16_arr m ρ c 3).trans ((Val.arr7 (V15 m ρ) c).trans (by
    show Val.finG7 (W15 m ρ c (Proc.devRef .tc main_v91)) (W15 m ρ c (Proc.devRef .tc main_v28)) (W15 m ρ c (Proc.devRef .tc main_v175)) = _
    have e1 : W15 m ρ c (Proc.devRef .tc main_v91) = W9 m ρ c (Proc.devRef .tc main_v91) := ((StableHlo.after_of_writes_sub main_part3_ops3 _ main_part3_ops3_writes (by decide)).trans ((W14_of_ne m ρ c main_v91 (by decide)).trans ((StableHlo.after_of_writes_sub main_part3_ops2 _ main_part3_ops2_writes (by decide)).trans ((W12_of_ne m ρ c main_v91 (by decide)).trans ((StableHlo.after_of_writes_sub main_part3_ops1 _ main_part3_ops1_writes (by decide)).trans (W10_of_ne m ρ c main_v91 (by decide)))))))
    have e2 : W15 m ρ c (Proc.devRef .tc main_v28) = W9 m ρ c (Proc.devRef .tc main_v28) := ((StableHlo.after_of_writes_sub main_part3_ops3 _ main_part3_ops3_writes (by decide)).trans ((W14_of_ne m ρ c main_v28 (by decide)).trans ((StableHlo.after_of_writes_sub main_part3_ops2 _ main_part3_ops2_writes (by decide)).trans ((W12_of_ne m ρ c main_v28 (by decide)).trans ((StableHlo.after_of_writes_sub main_part3_ops1 _ main_part3_ops1_writes (by decide)).trans (W10_of_ne m ρ c main_v28 (by decide)))))))
    rw [e1, e2, W15_main_v175 m ρ c, W9_main_v91 m ρ c, W9_main_v28 m ρ c])))

end Cert.KernelIdeal.Fr

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.KI.LeafA.lean ====
import proofs.«134990_j73504070304033_2_alg».proof.Proof.KI.ValProj0
import proofs.«134990_j73504070304033_2_alg».proof.ReferenceIdeal
import proofs.«134990_j73504070304033_2_alg».proof.Proof.Gen.ReferenceIdeal
import proofs.«134990_j73504070304033_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-
  Node type with 100000 rows: the fused product (features times the 3 weight matrices set side by side) cut back into
  64-column pieces. The piece at column offset 64·p is the product of the features with the p-th weight matrix alone —
  entry (r, q) of both is the sum over k of feature (r, k) times weight_p (k, q) — which is what the reference computes
  with a separate product per weight matrix.
-/

open Cert.LibPlainDot

/-- The reference's product at an entry: row r of the features against column q of the weight matrix. -/
theorem dotRA_apply (x : FVec Ideal S100000x128 .f32) (w : FVec Ideal S128x64 .f32) (i : S100000x64.Idx)
    (li : Fin 128 → S100000x128.Idx) (ri : Fin 128 → S128x64.Idx)
    (hli0 : ∀ k, (li k 0).val = (i 0).val) (hli1 : ∀ k, (li k 1).val = k.val)
    (hri0 : ∀ k, (ri k 0).val = k.val) (hri1 : ∀ k, (ri k 1).val = (i 1).val) :
    Host.dotGeneral (F := Ideal) Cert.ReferenceIdeal.dot_S100000x128_S128x64_S100000x64_1_0_0_1_n_n none x w i = ∑ k : Fin 128, x (li k) * w (ri k) := by
  simp only [Host.dotGeneral]
  refine Cert.LibPlainDot.dotGeneral_apply Cert.ReferenceIdeal.dot_S100000x128_S128x64_S100000x64_1_0_0_1_n_n none _ 128 rfl rfl x w i li ri (fun q => ?_) (fun q => ?_)
  · refine ext2 _ _ ?_ ?_
    · rw [hli0]
      unfold DotDims.lhsIdx
      rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
      rfl
    · rw [hli1]; exact Cert.ReferenceIdeal.dot_S100000x128_S128x64_S100000x64_1_0_0_1_n_n.lhsIdx_val_of_single rfl i q
  · refine ext2 _ _ ?_ ?_
    · rw [hri0]; exact Cert.ReferenceIdeal.dot_S100000x128_S128x64_S100000x64_1_0_0_1_n_n.rhsIdx_val_of_single rfl i q
    · rw [hri1]
      unfold DotDims.rhsIdx
      rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
      rfl

/-- The piece at column offset 0 of the fused product is the product with weight matrix 0 alone. -/
theorem leafA0 (x : FVec Ideal S100000x128 .f32) (w0 : FVec Ideal S128x64 .f32) (w1 : FVec Ideal S128x64 .f32) (w2 : FVec Ideal S128x64 .f32)
    (hc : Shape.Concatenates [S128x64, S128x64, S128x64] S128x192 1) (hs : S100000x192.Slices ![0, 0] S100000x64) :
    extractStridedSlice S100000x64 ![0, 0] (projG0 x (concatenate S128x192 1 [⟨S128x64, w0⟩, ⟨S128x64, w1⟩, ⟨S128x64, w2⟩] hc)) hs
      = Host.dotGeneral (F := Ideal) Cert.ReferenceIdeal.dot_S100000x128_S128x64_S100000x64_1_0_0_1_n_n none x w0 := by
  funext i
  have hi0 : (i 0).val < 100000 := (i 0).isLt
  have hi1 : (i 1).val < 64 := (i 1).isLt
  let i' : S100000x192.Idx := ValueIdx.ix2 (⟨(i 0).val, hi0⟩ : Fin 100000) (⟨(i 1).val + 0, by omega⟩ : Fin 192)
  rw [extractStridedSlice_apply ![0, 0] _ hs i i' (fun a => by
    match a with
    | ⟨0, _⟩ => show (i 0).val = 0 + (i 0).val; omega
    | ⟨1, _⟩ => show (i 1).val + 0 = 0 + (i 1).val; omega)]
  rw [dotRA_apply x w0 i (fun k => lixA0 i' k) (fun k => ValueIdx.ix2 k (⟨(i 1).val, hi1⟩ : Fin 64))
    (fun _ => rfl) (fun _ => rfl) (fun _ => rfl) (fun _ => rfl)]
  unfold projG0
  refine Finset.sum_congr rfl fun k _ => congrArg (fun z => x (lixA0 i' k) * z) ?_
  exact concatenate_apply_piece (t := S128x192) (1 : Fin 2) [⟨S128x64, w0⟩, ⟨S128x64, w1⟩, ⟨S128x64, w2⟩] hc (rixA0 i' k) 0 (by show (0 : ℕ) < 3; omega) S128x64 w0 rfl rfl 0 rfl
    (ValueIdx.ix2 k (⟨(i 1).val, hi1⟩ : Fin 64))
    (fun b hb => by
      match b with
      | ⟨0, _⟩ => rfl
      | ⟨1, _⟩ => exact absurd (Fin.ext rfl) hb)
    (by show 0 + (i 1).val = (i 1).val + 0; omega)

/-- The piece at column offset 64 of the fused product is the product with weight matrix 1 alone. -/
theorem leafA64 (x : FVec Ideal S100000x128 .f32) (w0 : FVec Ideal S128x64 .f32) (w1 : FVec Ideal S128x64 .f32) (w2 : FVec Ideal S128x64 .f32)
    (hc : Shape.Concatenates [S128x64, S128x64, S128x64] S128x192 1) (hs : S100000x192.Slices ![0, 64] S100000x64) :
    extractStridedSlice S100000x64 ![0, 64] (projG0 x (concatenate S128x192 1 [⟨S128x64, w0⟩, ⟨S128x64, w1⟩, ⟨S128x64, w2⟩] hc)) hs
      = Host.dotGeneral (F := Ideal) Cert.ReferenceIdeal.dot_S100000x128_S128x64_S100000x64_1_0_0_1_n_n none x w1 := by
  funext i
  have hi0 : (i 0).val < 100000 := (i 0).isLt
  have hi1 : (i 1).val < 64 := (i 1).isLt
  let i' : S100000x192.Idx := ValueIdx.ix2 (⟨(i 0).val, hi0⟩ : Fin 100000) (⟨(i 1).val + 64, by omega⟩ : Fin 192)
  rw [extractStridedSlice_apply ![0, 64] _ hs i i' (fun a => by
    match a with
    | ⟨0, _⟩ => show (i 0).val = 0 + (i 0).val; omega
    | ⟨1, _⟩ => show (i 1).val + 64 = 64 + (i 1).val; omega)]
  rw [dotRA_apply x w1 i (fun k => lixA0 i' k) (fun k => ValueIdx.ix2 k (⟨(i 1).val, hi1⟩ : Fin 64))
    (fun _ => rfl) (fun _ => rfl) (fun _ => rfl) (fun _ => rfl)]
  unfold projG0
  refine Finset.sum_congr rfl fun k _ => congrArg (fun z => x (lixA0 i' k) * z) ?_
  exact concatenate_apply_piece (t := S128x192) (1 : Fin 2) [⟨S128x64, w0⟩, ⟨S128x64, w1⟩, ⟨S128x64, w2⟩] hc (rixA0 i' k) 1 (by show (1 : ℕ) < 3; omega) S128x64 w1 rfl rfl 64 rfl
    (ValueIdx.ix2 k (⟨(i 1).val, hi1⟩ : Fin 64))
    (fun b hb => by
      match b with
      | ⟨0, _⟩ => rfl
      | ⟨1, _⟩ => exact absurd (Fin.ext rfl) hb)
    (by show 64 + (i 1).val = (i 1).val + 64; omega)

/-- The piece at column offset 128 of the fused product is the product with weight matrix 2 alone. -/
theorem leafA128 (x : FVec Ideal S100000x128 .f32) (w0 : FVec Ideal S128x64 .f32) (w1 : FVec Ideal S128x64 .f32) (w2 : FVec Ideal S128x64 .f32)
    (hc : Shape.Concatenates [S128x64, S128x64, S128x64] S128x192 1) (hs : S100000x192.Slices ![0, 128] S100000x64) :
    extractStridedSlice S100000x64 ![0, 128] (projG0 x (concatenate S128x192 1 [⟨S128x64, w0⟩, ⟨S128x64, w1⟩, ⟨S128x64, w2⟩] hc)) hs
      = Host.dotGeneral (F := Ideal) Cert.ReferenceIdeal.dot_S100000x128_S128x64_S100000x64_1_0_0_1_n_n none x w2 := by
  funext i
  have hi0 : (i 0).val < 100000 := (i 0).isLt
  have hi1 : (i 1).val < 64 := (i 1).isLt
  let i' : S100000x192.Idx := ValueIdx.ix2 (⟨(i 0).val, hi0⟩ : Fin 100000) (⟨(i 1).val + 128, by omega⟩ : Fin 192)
  rw [extractStridedSlice_apply ![0, 128] _ hs i i' (fun a => by
    match a with
    | ⟨0, _⟩ => show (i 0).val = 0 + (i 0).val; omega
    | ⟨1, _⟩ => show (i 1).val + 128 = 128 + (i 1).val; omega)]
  rw [dotRA_apply x w2 i (fun k => lixA0 i' k) (fun k => ValueIdx.ix2 k (⟨(i 1).val, hi1⟩ : Fin 64))
    (fun _ => rfl) (fun _ => rfl) (fun _ => rfl) (fun _ => rfl)]
  unfold projG0
  refine Finset.sum_congr rfl fun k _ => congrArg (fun z => x (lixA0 i' k) * z) ?_
  exact concatenate_apply_piece (t := S128x192) (1 : Fin 2) [⟨S128x64, w0⟩, ⟨S128x64, w1⟩, ⟨S128x64, w2⟩] hc (rixA0 i' k) 2 (by show (2 : ℕ) < 3; omega) S128x64 w2 rfl rfl 128 rfl
    (ValueIdx.ix2 k (⟨(i 1).val, hi1⟩ : Fin 64))
    (fun b hb => by
      match b with
      | ⟨0, _⟩ => rfl
      | ⟨1, _⟩ => exact absurd (Fin.ext rfl) hb)
    (by show 128 + (i 1).val = (i 1).val + 128; omega)

end Cert.KernelIdeal.Val

end
-- ==== Proof.KI.LeafP.lean ====
import proofs.«134990_j73504070304033_2_alg».proof.Proof.KI.ValProj1
import proofs.«134990_j73504070304033_2_alg».proof.ReferenceIdeal
import proofs.«134990_j73504070304033_2_alg».proof.Proof.Gen.ReferenceIdeal
import proofs.«134990_j73504070304033_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-
  Node type with 200000 rows: the fused product (features times the 4 weight matrices set side by side) cut back into
  64-column pieces. The piece at column offset 64·p is the product of the features with the p-th weight matrix alone —
  entry (r, q) of both is the sum over k of feature (r, k) times weight_p (k, q) — which is what the reference computes
  with a separate product per weight matrix.
-/

open Cert.LibPlainDot

/-- The reference's product at an entry: row r of the features against column q of the weight matrix. -/
theorem dotRP_apply (x : FVec Ideal S200000x128 .f32) (w : FVec Ideal S128x64 .f32) (i : S200000x64.Idx)
    (li : Fin 128 → S200000x128.Idx) (ri : Fin 128 → S128x64.Idx)
    (hli0 : ∀ k, (li k 0).val = (i 0).val) (hli1 : ∀ k, (li k 1).val = k.val)
    (hri0 : ∀ k, (ri k 0).val = k.val) (hri1 : ∀ k, (ri k 1).val = (i 1).val) :
    Host.dotGeneral (F := Ideal) Cert.ReferenceIdeal.dot_S200000x128_S128x64_S200000x64_1_0_0_1_n_n none x w i = ∑ k : Fin 128, x (li k) * w (ri k) := by
  simp only [Host.dotGeneral]
  refine Cert.LibPlainDot.dotGeneral_apply Cert.ReferenceIdeal.dot_S200000x128_S128x64_S200000x64_1_0_0_1_n_n none _ 128 rfl rfl x w i li ri (fun q => ?_) (fun q => ?_)
  · refine ext2 _ _ ?_ ?_
    · rw [hli0]
      unfold DotDims.lhsIdx
      rw [dif_neg (show ¬(0 : Fin S200000x128.rank) ∈ Cert.ReferenceIdeal.dot_S200000x128_S128x64_S200000x64_1_0_0_1_n_n.lhsBatch by decide), dif_pos (show (0 : Fin S200000x128.rank) ∈ Cert.ReferenceIdeal.dot_S200000x128_S128x64_S200000x64_1_0_0_1_n_n.lhsNonContracting by decide)]
      rfl
    · rw [hli1]; exact Cert.ReferenceIdeal.dot_S200000x128_S128x64_S200000x64_1_0_0_1_n_n.lhsIdx_val_of_single rfl i q
  · refine ext2 _ _ ?_ ?_
    · rw [hri0]; exact Cert.ReferenceIdeal.dot_S200000x128_S128x64_S200000x64_1_0_0_1_n_n.rhsIdx_val_of_single rfl i q
    · rw [hri1]
      unfold DotDims.rhsIdx
      rw [dif_neg (show ¬(1 : Fin S128x64.rank) ∈ Cert.ReferenceIdeal.dot_S200000x128_S128x64_S200000x64_1_0_0_1_n_n.rhsBatch by decide), dif_pos (show (1 : Fin S128x64.rank) ∈ Cert.ReferenceIdeal.dot_S200000x128_S128x64_S200000x64_1_0_0_1_n_n.rhsNonContracting by decide)]
      rfl

/-- The piece at column offset 0 of the fused product is the product with weight matrix 0 alone. -/
theorem leafP0 (x : FVec Ideal S200000x128 .f32) (w0 : FVec Ideal S128x64 .f32) (w1 : FVec Ideal S128x64 .f32) (w2 : FVec Ideal S128x64 .f32) (w3 : FVec Ideal S128x64 .f32)
    (hc : Shape.Concatenates [S128x64, S128x64, S128x64, S128x64] S128x256 1) (hs : S200000x256.Slices ![0, 0] S200000x64) :
    extractStridedSlice S200000x64 ![0, 0] (projG1 x (concatenate S128x256 1 [⟨S128x64, w0⟩, ⟨S128x64, w1⟩, ⟨S128x64, w2⟩, ⟨S128x64, w3⟩] hc)) hs
      = Host.dotGeneral (F := Ideal) Cert.ReferenceIdeal.dot_S200000x128_S128x64_S200000x64_1_0_0_1_n_n none x w0 := by
  funext i
  have hi0 : (i 0).val < 200000 := (i 0).isLt
  have hi1 : (i 1).val < 64 := (i 1).isLt
  let i' : S200000x256.Idx := ValueIdx.ix2 (⟨(i 0).val, hi0⟩ : Fin 200000) (⟨(i 1).val + 0, by omega⟩ : Fin 256)
  rw [extractStridedSlice_apply ![0, 0] _ hs i i' (fun a => by
    match a with
    | ⟨0, _⟩ => show (i 0).val = 0 + (i 0).val; omega
    | ⟨1, _⟩ => show (i 1).val + 0 = 0 + (i 1).val; omega)]
  rw [dotRP_apply x w0 i (fun k => lixA1 i' k) (fun k => ValueIdx.ix2 k (⟨(i 1).val, hi1⟩ : Fin 64))
    (fun _ => rfl) (fun _ => rfl) (fun _ => rfl) (fun _ => rfl)]
  unfold projG1
  refine Finset.sum_congr rfl fun k _ => congrArg (fun z => x (lixA1 i' k) * z) ?_
  exact concatenate_apply_piece (t := S128x256) (1 : Fin 2) [⟨S128x64, w0⟩, ⟨S128x64, w1⟩, ⟨S128x64, w2⟩, ⟨S128x64, w3⟩] hc (rixA1 i' k) 0 (by show (0 : ℕ) < 4; omega) S128x64 w0 rfl rfl 0 rfl
    (ValueIdx.ix2 k (⟨(i 1).val, hi1⟩ : Fin 64))
    (fun b hb => by
      match b with
      | ⟨0, _⟩ => rfl
      | ⟨1, _⟩ => exact absurd (Fin.ext rfl) hb)
    (by show 0 + (i 1).val = (i 1).val + 0; omega)

/-- The piece at column offset 64 of the fused product is the product with weight matrix 1 alone. -/
theorem leafP64 (x : FVec Ideal S200000x128 .f32) (w0 : FVec Ideal S128x64 .f32) (w1 : FVec Ideal S128x64 .f32) (w2 : FVec Ideal S128x64 .f32) (w3 : FVec Ideal S128x64 .f32)
    (hc : Shape.Concatenates [S128x64, S128x64, S128x64, S128x64] S128x256 1) (hs : S200000x256.Slices ![0, 64] S200000x64) :
    extractStridedSlice S200000x64 ![0, 64] (projG1 x (concatenate S128x256 1 [⟨S128x64, w0⟩, ⟨S128x64, w1⟩, ⟨S128x64, w2⟩, ⟨S128x64, w3⟩] hc)) hs
      = Host.dotGeneral (F := Ideal) Cert.ReferenceIdeal.dot_S200000x128_S128x64_S200000x64_1_0_0_1_n_n none x w1 := by
  funext i
  have hi0 : (i 0).val < 200000 := (i 0).isLt
  have hi1 : (i 1).val < 64 := (i 1).isLt
  let i' : S200000x256.Idx := ValueIdx.ix2 (⟨(i 0).val, hi0⟩ : Fin 200000) (⟨(i 1).val + 64, by omega⟩ : Fin 256)
  rw [extractStridedSlice_apply ![0, 64] _ hs i i' (fun a => by
    match a with
    | ⟨0, _⟩ => show (i 0).val = 0 + (i 0).val; omega
    | ⟨1, _⟩ => show (i 1).val + 64 = 64 + (i 1).val; omega)]
  rw [dotRP_apply x w1 i (fun k => lixA1 i' k) (fun k => ValueIdx.ix2 k (⟨(i 1).val, hi1⟩ : Fin 64))
    (fun _ => rfl) (fun _ => rfl) (fun _ => rfl) (fun _ => rfl)]
  unfold projG1
  refine Finset.sum_congr rfl fun k _ => congrArg (fun z => x (lixA1 i' k) * z) ?_
  exact concatenate_apply_piece (t := S128x256) (1 : Fin 2) [⟨S128x64, w0⟩, ⟨S128x64, w1⟩, ⟨S128x64, w2⟩, ⟨S128x64, w3⟩] hc (rixA1 i' k) 1 (by show (1 : ℕ) < 4; omega) S128x64 w1 rfl rfl 64 rfl
    (ValueIdx.ix2 k (⟨(i 1).val, hi1⟩ : Fin 64))
    (fun b hb => by
      match b with
      | ⟨0, _⟩ => rfl
      | ⟨1, _⟩ => exact absurd (Fin.ext rfl) hb)
    (by show 64 + (i 1).val = (i 1).val + 64; omega)

/-- The piece at column offset 128 of the fused product is the product with weight matrix 2 alone. -/
theorem leafP128 (x : FVec Ideal S200000x128 .f32) (w0 : FVec Ideal S128x64 .f32) (w1 : FVec Ideal S128x64 .f32) (w2 : FVec Ideal S128x64 .f32) (w3 : FVec Ideal S128x64 .f32)
    (hc : Shape.Concatenates [S128x64, S128x64, S128x64, S128x64] S128x256 1) (hs : S200000x256.Slices ![0, 128] S200000x64) :
    extractStridedSlice S200000x64 ![0, 128] (projG1 x (concatenate S128x256 1 [⟨S128x64, w0⟩, ⟨S128x64, w1⟩, ⟨S128x64, w2⟩, ⟨S128x64, w3⟩] hc)) hs
      = Host.dotGeneral (F := Ideal) Cert.ReferenceIdeal.dot_S200000x128_S128x64_S200000x64_1_0_0_1_n_n none x w2 := by
  funext i
  have hi0 : (i 0).val < 200000 := (i 0).isLt
  have hi1 : (i 1).val < 64 := (i 1).isLt
  let i' : S200000x256.Idx := ValueIdx.ix2 (⟨(i 0).val, hi0⟩ : Fin 200000) (⟨(i 1).val + 128, by omega⟩ : Fin 256)
  rw [extractStridedSlice_apply ![0, 128] _ hs i i' (fun a => by
    match a with
    | ⟨0, _⟩ => show (i 0).val = 0 + (i 0).val; omega
    | ⟨1, _⟩ => show (i 1).val + 128 = 128 + (i 1).val; omega)]
  rw [dotRP_apply x w2 i (fun k => lixA1 i' k) (fun k => ValueIdx.ix2 k (⟨(i 1).val, hi1⟩ : Fin 64))
    (fun _ => rfl) (fun _ => rfl) (fun _ => rfl) (fun _ => rfl)]
  unfold projG1
  refine Finset.sum_congr rfl fun k _ => congrArg (fun z => x (lixA1 i' k) * z) ?_
  exact concatenate_apply_piece (t := S128x256) (1 : Fin 2) [⟨S128x64, w0⟩, ⟨S128x64, w1⟩, ⟨S128x64, w2⟩, ⟨S128x64, w3⟩] hc (rixA1 i' k) 2 (by show (2 : ℕ) < 4; omega) S128x64 w2 rfl rfl 128 rfl
    (ValueIdx.ix2 k (⟨(i 1).val, hi1⟩ : Fin 64))
    (fun b hb => by
      match b with
      | ⟨0, _⟩ => rfl
      | ⟨1, _⟩ => exact absurd (Fin.ext rfl) hb)
    (by show 128 + (i 1).val = (i 1).val + 128; omega)

/-- The piece at column offset 192 of the fused product is the product with weight matrix 3 alone. -/
theorem leafP192 (x : FVec Ideal S200000x128 .f32) (w0 : FVec Ideal S128x64 .f32) (w1 : FVec Ideal S128x64 .f32) (w2 : FVec Ideal S128x64 .f32) (w3 : FVec Ideal S128x64 .f32)
    (hc : Shape.Concatenates [S128x64, S128x64, S128x64, S128x64] S128x256 1) (hs : S200000x256.Slices ![0, 192] S200000x64) :
    extractStridedSlice S200000x64 ![0, 192] (projG1 x (concatenate S128x256 1 [⟨S128x64, w0⟩, ⟨S128x64, w1⟩, ⟨S128x64, w2⟩, ⟨S128x64, w3⟩] hc)) hs
      = Host.dotGeneral (F := Ideal) Cert.ReferenceIdeal.dot_S200000x128_S128x64_S200000x64_1_0_0_1_n_n none x w3 := by
  funext i
  have hi0 : (i 0).val < 200000 := (i 0).isLt
  have hi1 : (i 1).val < 64 := (i 1).isLt
  let i' : S200000x256.Idx := ValueIdx.ix2 (⟨(i 0).val, hi0⟩ : Fin 200000) (⟨(i 1).val + 192, by omega⟩ : Fin 256)
  rw [extractStridedSlice_apply ![0, 192] _ hs i i' (fun a => by
    match a with
    | ⟨0, _⟩ => show (i 0).val = 0 + (i 0).val; omega
    | ⟨1, _⟩ => show (i 1).val + 192 = 192 + (i 1).val; omega)]
  rw [dotRP_apply x w3 i (fun k => lixA1 i' k) (fun k => ValueIdx.ix2 k (⟨(i 1).val, hi1⟩ : Fin 64))
    (fun _ => rfl) (fun _ => rfl) (fun _ => rfl) (fun _ => rfl)]
  unfold projG1
  refine Finset.sum_congr rfl fun k _ => congrArg (fun z => x (lixA1 i' k) * z) ?_
  exact concatenate_apply_piece (t := S128x256) (1 : Fin 2) [⟨S128x64, w0⟩, ⟨S128x64, w1⟩, ⟨S128x64, w2⟩, ⟨S128x64, w3⟩] hc (rixA1 i' k) 3 (by show (3 : ℕ) < 4; omega) S128x64 w3 rfl rfl 192 rfl
    (ValueIdx.ix2 k (⟨(i 1).val, hi1⟩ : Fin 64))
    (fun b hb => by
      match b with
      | ⟨0, _⟩ => rfl
      | ⟨1, _⟩ => exact absurd (Fin.ext rfl) hb)
    (by show 192 + (i 1).val = (i 1).val + 192; omega)

end Cert.KernelIdeal.Val

end
-- ==== Proof.KI.LeafF.lean ====
import proofs.«134990_j73504070304033_2_alg».proof.Proof.KI.ValProj2
import proofs.«134990_j73504070304033_2_alg».proof.ReferenceIdeal
import proofs.«134990_j73504070304033_2_alg».proof.Proof.Gen.ReferenceIdeal
import proofs.«134990_j73504070304033_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-
  Node type with 50000 rows: the fused product (features times the 2 weight matrices set side by side) cut back into
  64-column pieces. The piece at column offset 64·p is the product of the features with the p-th weight matrix alone —
  entry (r, q) of both is the sum over k of feature (r, k) times weight_p (k, q) — which is what the reference computes
  with a separate product per weight matrix.
-/

open Cert.LibPlainDot

/-- The reference's product at an entry: row r of the features against column q of the weight matrix. -/
theorem dotRF_apply (x : FVec Ideal S50000x128 .f32) (w : FVec Ideal S128x64 .f32) (i : S50000x64.Idx)
    (li : Fin 128 → S50000x128.Idx) (ri : Fin 128 → S128x64.Idx)
    (hli0 : ∀ k, (li k 0).val = (i 0).val) (hli1 : ∀ k, (li k 1).val = k.val)
    (hri0 : ∀ k, (ri k 0).val = k.val) (hri1 : ∀ k, (ri k 1).val = (i 1).val) :
    Host.dotGeneral (F := Ideal) Cert.ReferenceIdeal.dot_S50000x128_S128x64_S50000x64_1_0_0_1_n_n none x w i = ∑ k : Fin 128, x (li k) * w (ri k) := by
  simp only [Host.dotGeneral]
  refine Cert.LibPlainDot.dotGeneral_apply Cert.ReferenceIdeal.dot_S50000x128_S128x64_S50000x64_1_0_0_1_n_n none _ 128 rfl rfl x w i li ri (fun q => ?_) (fun q => ?_)
  · refine ext2 _ _ ?_ ?_
    · rw [hli0]
      unfold DotDims.lhsIdx
      rw [dif_neg (show ¬(0 : Fin S50000x128.rank) ∈ Cert.ReferenceIdeal.dot_S50000x128_S128x64_S50000x64_1_0_0_1_n_n.lhsBatch by decide), dif_pos (show (0 : Fin S50000x128.rank) ∈ Cert.ReferenceIdeal.dot_S50000x128_S128x64_S50000x64_1_0_0_1_n_n.lhsNonContracting by decide)]
      rfl
    · rw [hli1]; exact Cert.ReferenceIdeal.dot_S50000x128_S128x64_S50000x64_1_0_0_1_n_n.lhsIdx_val_of_single rfl i q
  · refine ext2 _ _ ?_ ?_
    · rw [hri0]; exact Cert.ReferenceIdeal.dot_S50000x128_S128x64_S50000x64_1_0_0_1_n_n.rhsIdx_val_of_single rfl i q
    · rw [hri1]
      unfold DotDims.rhsIdx
      rw [dif_neg (show ¬(1 : Fin S128x64.rank) ∈ Cert.ReferenceIdeal.dot_S50000x128_S128x64_S50000x64_1_0_0_1_n_n.rhsBatch by decide), dif_pos (show (1 : Fin S128x64.rank) ∈ Cert.ReferenceIdeal.dot_S50000x128_S128x64_S50000x64_1_0_0_1_n_n.rhsNonContracting by decide)]
      rfl

/-- The piece at column offset 0 of the fused product is the product with weight matrix 0 alone. -/
theorem leafF0 (x : FVec Ideal S50000x128 .f32) (w0 : FVec Ideal S128x64 .f32) (w1 : FVec Ideal S128x64 .f32)
    (hc : Shape.Concatenates [S128x64, S128x64] S128x128 1) (hs : S50000x128.Slices ![0, 0] S50000x64) :
    extractStridedSlice S50000x64 ![0, 0] (projG2 x (concatenate S128x128 1 [⟨S128x64, w0⟩, ⟨S128x64, w1⟩] hc)) hs
      = Host.dotGeneral (F := Ideal) Cert.ReferenceIdeal.dot_S50000x128_S128x64_S50000x64_1_0_0_1_n_n none x w0 := by
  funext i
  have hi0 : (i 0).val < 50000 := (i 0).isLt
  have hi1 : (i 1).val < 64 := (i 1).isLt
  let i' : S50000x128.Idx := ValueIdx.ix2 (⟨(i 0).val, hi0⟩ : Fin 50000) (⟨(i 1).val + 0, by omega⟩ : Fin 128)
  rw [extractStridedSlice_apply ![0, 0] _ hs i i' (fun a => by
    match a with
    | ⟨0, _⟩ => show (i 0).val = 0 + (i 0).val; omega
    | ⟨1, _⟩ => show (i 1).val + 0 = 0 + (i 1).val; omega)]
  rw [dotRF_apply x w0 i (fun k => lixA2 i' k) (fun k => ValueIdx.ix2 k (⟨(i 1).val, hi1⟩ : Fin 64))
    (fun _ => rfl) (fun _ => rfl) (fun _ => rfl) (fun _ => rfl)]
  unfold projG2
  refine Finset.sum_congr rfl fun k _ => congrArg (fun z => x (lixA2 i' k) * z) ?_
  exact concatenate_apply_piece (t := S128x128) (1 : Fin 2) [⟨S128x64, w0⟩, ⟨S128x64, w1⟩] hc (rixA2 i' k) 0 (by show (0 : ℕ) < 2; omega) S128x64 w0 rfl rfl 0 rfl
    (ValueIdx.ix2 k (⟨(i 1).val, hi1⟩ : Fin 64))
    (fun b hb => by
      match b with
      | ⟨0, _⟩ => rfl
      | ⟨1, _⟩ => exact absurd (Fin.ext rfl) hb)
    (by show 0 + (i 1).val = (i 1).val + 0; omega)

/-- The piece at column offset 64 of the fused product is the product with weight matrix 1 alone. -/
theorem leafF64 (x : FVec Ideal S50000x128 .f32) (w0 : FVec Ideal S128x64 .f32) (w1 : FVec Ideal S128x64 .f32)
    (hc : Shape.Concatenates [S128x64, S128x64] S128x128 1) (hs : S50000x128.Slices ![0, 64] S50000x64) :
    extractStridedSlice S50000x64 ![0, 64] (projG2 x (concatenate S128x128 1 [⟨S128x64, w0⟩, ⟨S128x64, w1⟩] hc)) hs
      = Host.dotGeneral (F := Ideal) Cert.ReferenceIdeal.dot_S50000x128_S128x64_S50000x64_1_0_0_1_n_n none x w1 := by
  funext i
  have hi0 : (i 0).val < 50000 := (i 0).isLt
  have hi1 : (i 1).val < 64 := (i 1).isLt
  let i' : S50000x128.Idx := ValueIdx.ix2 (⟨(i 0).val, hi0⟩ : Fin 50000) (⟨(i 1).val + 64, by omega⟩ : Fin 128)
  rw [extractStridedSlice_apply ![0, 64] _ hs i i' (fun a => by
    match a with
    | ⟨0, _⟩ => show (i 0).val = 0 + (i 0).val; omega
    | ⟨1, _⟩ => show (i 1).val + 64 = 64 + (i 1).val; omega)]
  rw [dotRF_apply x w1 i (fun k => lixA2 i' k) (fun k => ValueIdx.ix2 k (⟨(i 1).val, hi1⟩ : Fin 64))
    (fun _ => rfl) (fun _ => rfl) (fun _ => rfl) (fun _ => rfl)]
  unfold projG2
  refine Finset.sum_congr rfl fun k _ => congrArg (fun z => x (lixA2 i' k) * z) ?_
  exact concatenate_apply_piece (t := S128x128) (1 : Fin 2) [⟨S128x64, w0⟩, ⟨S128x64, w1⟩] hc (rixA2 i' k) 1 (by show (1 : ℕ) < 2; omega) S128x64 w1 rfl rfl 64 rfl
    (ValueIdx.ix2 k (⟨(i 1).val, hi1⟩ : Fin 64))
    (fun b hb => by
      match b with
      | ⟨0, _⟩ => rfl
      | ⟨1, _⟩ => exact absurd (Fin.ext rfl) hb)
    (by show 64 + (i 1).val = (i 1).val + 64; omega)

end Cert.KernelIdeal.Val

end
-- ==== Proof.KI.LeafI.lean ====
import proofs.«134990_j73504070304033_2_alg».proof.Proof.KI.ValProj3
import proofs.«134990_j73504070304033_2_alg».proof.ReferenceIdeal
import proofs.«134990_j73504070304033_2_alg».proof.Proof.Gen.ReferenceIdeal
import proofs.«134990_j73504070304033_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-
  Node type with 8000 rows: the fused product (features times the 2 weight matrices set side by side) cut back into
  64-column pieces. The piece at column offset 64·p is the product of the features with the p-th weight matrix alone —
  entry (r, q) of both is the sum over k of feature (r, k) times weight_p (k, q) — which is what the reference computes
  with a separate product per weight matrix.
-/

open Cert.LibPlainDot

/-- The reference's product at an entry: row r of the features against column q of the weight matrix. -/
theorem dotRI_apply (x : FVec Ideal S8000x128 .f32) (w : FVec Ideal S128x64 .f32) (i : S8000x64.Idx)
    (li : Fin 128 → S8000x128.Idx) (ri : Fin 128 → S128x64.Idx)
    (hli0 : ∀ k, (li k 0).val = (i 0).val) (hli1 : ∀ k, (li k 1).val = k.val)
    (hri0 : ∀ k, (ri k 0).val = k.val) (hri1 : ∀ k, (ri k 1).val = (i 1).val) :
    Host.dotGeneral (F := Ideal) Cert.ReferenceIdeal.dot_S8000x128_S128x64_S8000x64_1_0_0_1_n_n none x w i = ∑ k : Fin 128, x (li k) * w (ri k) := by
  simp only [Host.dotGeneral]
  refine Cert.LibPlainDot.dotGeneral_apply Cert.ReferenceIdeal.dot_S8000x128_S128x64_S8000x64_1_0_0_1_n_n none _ 128 rfl rfl x w i li ri (fun q => ?_) (fun q => ?_)
  · refine ext2 _ _ ?_ ?_
    · rw [hli0]
      unfold DotDims.lhsIdx
      rw [dif_neg (show ¬(0 : Fin S8000x128.rank) ∈ Cert.ReferenceIdeal.dot_S8000x128_S128x64_S8000x64_1_0_0_1_n_n.lhsBatch by decide), dif_pos (show (0 : Fin S8000x128.rank) ∈ Cert.ReferenceIdeal.dot_S8000x128_S128x64_S8000x64_1_0_0_1_n_n.lhsNonContracting by decide)]
      rfl
    · rw [hli1]; exact Cert.ReferenceIdeal.dot_S8000x128_S128x64_S8000x64_1_0_0_1_n_n.lhsIdx_val_of_single rfl i q
  · refine ext2 _ _ ?_ ?_
    · rw [hri0]; exact Cert.ReferenceIdeal.dot_S8000x128_S128x64_S8000x64_1_0_0_1_n_n.rhsIdx_val_of_single rfl i q
    · rw [hri1]
      unfold DotDims.rhsIdx
      rw [dif_neg (show ¬(1 : Fin S128x64.rank) ∈ Cert.ReferenceIdeal.dot_S8000x128_S128x64_S8000x64_1_0_0_1_n_n.rhsBatch by decide), dif_pos (show (1 : Fin S128x64.rank) ∈ Cert.ReferenceIdeal.dot_S8000x128_S128x64_S8000x64_1_0_0_1_n_n.rhsNonContracting by decide)]
      rfl

/-- The piece at column offset 0 of the fused product is the product with weight matrix 0 alone. -/
theorem leafI0 (x : FVec Ideal S8000x128 .f32) (w0 : FVec Ideal S128x64 .f32) (w1 : FVec Ideal S128x64 .f32)
    (hc : Shape.Concatenates [S128x64, S128x64] S128x128 1) (hs : S8000x128.Slices ![0, 0] S8000x64) :
    extractStridedSlice S8000x64 ![0, 0] (projG3 x (concatenate S128x128 1 [⟨S128x64, w0⟩, ⟨S128x64, w1⟩] hc)) hs
      = Host.dotGeneral (F := Ideal) Cert.ReferenceIdeal.dot_S8000x128_S128x64_S8000x64_1_0_0_1_n_n none x w0 := by
  funext i
  have hi0 : (i 0).val < 8000 := (i 0).isLt
  have hi1 : (i 1).val < 64 := (i 1).isLt
  let i' : S8000x128.Idx := ValueIdx.ix2 (⟨(i 0).val, hi0⟩ : Fin 8000) (⟨(i 1).val + 0, by omega⟩ : Fin 128)
  rw [extractStridedSlice_apply ![0, 0] _ hs i i' (fun a => by
    match a with
    | ⟨0, _⟩ => show (i 0).val = 0 + (i 0).val; omega
    | ⟨1, _⟩ => show (i 1).val + 0 = 0 + (i 1).val; omega)]
  rw [dotRI_apply x w0 i (fun k => lixA3 i' k) (fun k => ValueIdx.ix2 k (⟨(i 1).val, hi1⟩ : Fin 64))
    (fun _ => rfl) (fun _ => rfl) (fun _ => rfl) (fun _ => rfl)]
  unfold projG3
  refine Finset.sum_congr rfl fun k _ => congrArg (fun z => x (lixA3 i' k) * z) ?_
  exact concatenate_apply_piece (t := S128x128) (1 : Fin 2) [⟨S128x64, w0⟩, ⟨S128x64, w1⟩] hc (rixA3 i' k) 0 (by show (0 : ℕ) < 2; omega) S128x64 w0 rfl rfl 0 rfl
    (ValueIdx.ix2 k (⟨(i 1).val, hi1⟩ : Fin 64))
    (fun b hb => by
      match b with
      | ⟨0, _⟩ => rfl
      | ⟨1, _⟩ => exact absurd (Fin.ext rfl) hb)
    (by show 0 + (i 1).val = (i 1).val + 0; omega)

/-- The piece at column offset 64 of the fused product is the product with weight matrix 1 alone. -/
theorem leafI64 (x : FVec Ideal S8000x128 .f32) (w0 : FVec Ideal S128x64 .f32) (w1 : FVec Ideal S128x64 .f32)
    (hc : Shape.Concatenates [S128x64, S128x64] S128x128 1) (hs : S8000x128.Slices ![0, 64] S8000x64) :
    extractStridedSlice S8000x64 ![0, 64] (projG3 x (concatenate S128x128 1 [⟨S128x64, w0⟩, ⟨S128x64, w1⟩] hc)) hs
      = Host.dotGeneral (F := Ideal) Cert.ReferenceIdeal.dot_S8000x128_S128x64_S8000x64_1_0_0_1_n_n none x w1 := by
  funext i
  have hi0 : (i 0).val < 8000 := (i 0).isLt
  have hi1 : (i 1).val < 64 := (i 1).isLt
  let i' : S8000x128.Idx := ValueIdx.ix2 (⟨(i 0).val, hi0⟩ : Fin 8000) (⟨(i 1).val + 64, by omega⟩ : Fin 128)
  rw [extractStridedSlice_apply ![0, 64] _ hs i i' (fun a => by
    match a with
    | ⟨0, _⟩ => show (i 0).val = 0 + (i 0).val; omega
    | ⟨1, _⟩ => show (i 1).val + 64 = 64 + (i 1).val; omega)]
  rw [dotRI_apply x w1 i (fun k => lixA3 i' k) (fun k => ValueIdx.ix2 k (⟨(i 1).val, hi1⟩ : Fin 64))
    (fun _ => rfl) (fun _ => rfl) (fun _ => rfl) (fun _ => rfl)]
  unfold projG3
  refine Finset.sum_congr rfl fun k _ => congrArg (fun z => x (lixA3 i' k) * z) ?_
  exact concatenate_apply_piece (t := S128x128) (1 : Fin 2) [⟨S128x64, w0⟩, ⟨S128x64, w1⟩] hc (rixA3 i' k) 1 (by show (1 : ℕ) < 2; omega) S128x64 w1 rfl rfl 64 rfl
    (ValueIdx.ix2 k (⟨(i 1).val, hi1⟩ : Fin 64))
    (fun b hb => by
      match b with
      | ⟨0, _⟩ => rfl
      | ⟨1, _⟩ => exact absurd (Fin.ext rfl) hb)
    (by show 64 + (i 1).val = (i 1).val + 64; omega)

end Cert.KernelIdeal.Val

end
-- ==== Proof.KI.FinBridge4.lean ====
import proofs.«134990_j73504070304033_2_alg».proof.Proof.KI.ValFin4
import proofs.«134990_j73504070304033_2_alg».proof.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-
  The finalize step on 100000 rows in the reference's spelling: relu of (aggregate + self-loop + bias) with the bias
  vector broadcast to a row and then down the rows, and the zero broadcast from a scalar — entry by entry the same
  extended real as the kernel's, whose bias row is the vector reshaped and whose zero is a splat.
-/

/-- The bias vector reshaped to one row, read at an entry of the row: the vector's entry in that column. -/
theorem bias_row4 (b : S64.Idx → EReal) (hcast : S64.ShapeCasts S1x64) (k : S1x64.Idx) (k' : S64.Idx)
    (hk0 : (k 0).val = 0) (hk : (k' 0).val = (k 1).val) : shapeCast S1x64 b hcast k = b k' := by
  refine shapeCast_apply b hcast k k' ?_
  rw [Shape.rowMajor_val_one, Shape.rowMajor_val_two]
  show (k' 0).val = (k 0).val * 64 + (k 1).val
  omega

theorem fin_ref4 (h sl : S100000x64.Idx → EReal) (b : S64.Idx → EReal) (hcast : S64.ShapeCasts S1x64)
    (hb1 : Cert.ReferenceIdeal.S64.BroadcastsInDim Cert.ReferenceIdeal.S1x64 ![1])
    (hb2 : Cert.ReferenceIdeal.S1x64.BroadcastsInDim Cert.ReferenceIdeal.S100000x64 ![0, 1])
    (hz : Cert.ReferenceIdeal.S_.BroadcastsInDim Cert.ReferenceIdeal.S100000x64 ![]) :
    finG4 h sl (shapeCast S1x64 b hcast)
      = maximumf (F := Ideal) (addf (addf h sl) (broadcastInDim Cert.ReferenceIdeal.S100000x64 ![0, 1] hb2 (broadcastInDim Cert.ReferenceIdeal.S1x64 ![1] hb1 b)))
          (broadcastInDim Cert.ReferenceIdeal.S100000x64 ![] hz (constant Cert.ReferenceIdeal.S_ .f32 0x00000000#32)) := by
  funext i
  have hi1 : (i 1).val < 64 := (i 1).isLt
  let k : S1x64.Idx := ValueIdx.ix2 (0 : Fin 1) (⟨(i 1).val, hi1⟩ : Fin 64)
  let k' : S64.Idx := ValueIdx.ix1 (⟨(i 1).val, hi1⟩ : Fin 64)
  unfold finG4
  rw [bcast_arr4 _ brd4 i k rfl rfl, bias_row4 b hcast k k' rfl rfl]
  show _ = max ((h i + sl i) + broadcastInDim Cert.ReferenceIdeal.S100000x64 ![0, 1] hb2 (broadcastInDim Cert.ReferenceIdeal.S1x64 ![1] hb1 b) i)
      (broadcastInDim Cert.ReferenceIdeal.S100000x64 ![] hz (constant (F := Ideal) Cert.ReferenceIdeal.S_ .f32 0x00000000#32) i)
  rw [broadcastInDim_apply ![0, 1] hb2 _ i k (fun a => by
        match a with
        | ⟨0, h⟩ => show (k ⟨0, h⟩).val = if (1 : ℕ) = 1 then (0 : ℕ) else _; rw [if_pos rfl]; rfl
        | ⟨1, h⟩ => show (k ⟨1, h⟩).val = if (64 : ℕ) = 1 then (0 : ℕ) else _; rw [if_neg (by decide)]; rfl),
    broadcastInDim_apply ![1] hb1 b k k' (fun a => by
        match a with
        | ⟨0, h⟩ => show (k' ⟨0, h⟩).val = if (64 : ℕ) = 1 then (0 : ℕ) else _; rw [if_neg (by decide)]; rfl)]
  refine congrArg (max _) ?_
  show constant (F := Ideal) Cert.ReferenceIdeal.S_ .f32 0x00000000#32 ValueIdx.ix0 = _
  exact (broadcastInDim_apply ![] hz (constant (F := Ideal) Cert.ReferenceIdeal.S_ .f32 0x00000000#32) i ValueIdx.ix0 (fun a => a.elim0)).symm

end Cert.KernelIdeal.Val

end
-- ==== Proof.KI.FinBridge5.lean ====
import proofs.«134990_j73504070304033_2_alg».proof.Proof.KI.ValFin5
import proofs.«134990_j73504070304033_2_alg».proof.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-
  The finalize step on 50000 rows in the reference's spelling: relu of (aggregate + self-loop + bias) with the bias
  vector broadcast to a row and then down the rows, and the zero broadcast from a scalar — entry by entry the same
  extended real as the kernel's, whose bias row is the vector reshaped and whose zero is a splat.
-/

/-- The bias vector reshaped to one row, read at an entry of the row: the vector's entry in that column. -/
theorem bias_row5 (b : S64.Idx → EReal) (hcast : S64.ShapeCasts S1x64) (k : S1x64.Idx) (k' : S64.Idx)
    (hk0 : (k 0).val = 0) (hk : (k' 0).val = (k 1).val) : shapeCast S1x64 b hcast k = b k' := by
  refine shapeCast_apply b hcast k k' ?_
  rw [Shape.rowMajor_val_one, Shape.rowMajor_val_two]
  show (k' 0).val = (k 0).val * 64 + (k 1).val
  omega

theorem fin_ref5 (h sl : S50000x64.Idx → EReal) (b : S64.Idx → EReal) (hcast : S64.ShapeCasts S1x64)
    (hb1 : Cert.ReferenceIdeal.S64.BroadcastsInDim Cert.ReferenceIdeal.S1x64 ![1])
    (hb2 : Cert.ReferenceIdeal.S1x64.BroadcastsInDim Cert.ReferenceIdeal.S50000x64 ![0, 1])
    (hz : Cert.ReferenceIdeal.S_.BroadcastsInDim Cert.ReferenceIdeal.S50000x64 ![]) :
    finG5 h sl (shapeCast S1x64 b hcast)
      = maximumf (F := Ideal) (addf (addf h sl) (broadcastInDim Cert.ReferenceIdeal.S50000x64 ![0, 1] hb2 (broadcastInDim Cert.ReferenceIdeal.S1x64 ![1] hb1 b)))
          (broadcastInDim Cert.ReferenceIdeal.S50000x64 ![] hz (constant Cert.ReferenceIdeal.S_ .f32 0x00000000#32)) := by
  funext i
  have hi1 : (i 1).val < 64 := (i 1).isLt
  let k : S1x64.Idx := ValueIdx.ix2 (0 : Fin 1) (⟨(i 1).val, hi1⟩ : Fin 64)
  let k' : S64.Idx := ValueIdx.ix1 (⟨(i 1).val, hi1⟩ : Fin 64)
  unfold finG5
  rw [bcast_arr5 _ brd5 i k rfl rfl, bias_row5 b hcast k k' rfl rfl]
  show _ = max ((h i + sl i) + broadcastInDim Cert.ReferenceIdeal.S50000x64 ![0, 1] hb2 (broadcastInDim Cert.ReferenceIdeal.S1x64 ![1] hb1 b) i)
      (broadcastInDim Cert.ReferenceIdeal.S50000x64 ![] hz (constant (F := Ideal) Cert.ReferenceIdeal.S_ .f32 0x00000000#32) i)
  rw [broadcastInDim_apply ![0, 1] hb2 _ i k (fun a => by
        match a with
        | ⟨0, h⟩ => show (k ⟨0, h⟩).val = if (1 : ℕ) = 1 then (0 : ℕ) else _; rw [if_pos rfl]; rfl
        | ⟨1, h⟩ => show (k ⟨1, h⟩).val = if (64 : ℕ) = 1 then (0 : ℕ) else _; rw [if_neg (by decide)]; rfl),
    broadcastInDim_apply ![1] hb1 b k k' (fun a => by
        match a with
        | ⟨0, h⟩ => show (k' ⟨0, h⟩).val = if (64 : ℕ) = 1 then (0 : ℕ) else _; rw [if_neg (by decide)]; rfl)]
  refine congrArg (max _) ?_
  show constant (F := Ideal) Cert.ReferenceIdeal.S_ .f32 0x00000000#32 ValueIdx.ix0 = _
  exact (broadcastInDim_apply ![] hz (constant (F := Ideal) Cert.ReferenceIdeal.S_ .f32 0x00000000#32) i ValueIdx.ix0 (fun a => a.elim0)).symm

end Cert.KernelIdeal.Val

end
-- ==== Proof.KI.FinBridge6.lean ====
import proofs.«134990_j73504070304033_2_alg».proof.Proof.KI.ValFin6
import proofs.«134990_j73504070304033_2_alg».proof.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-
  The finalize step on 8000 rows in the reference's spelling: relu of (aggregate + self-loop + bias) with the bias
  vector broadcast to a row and then down the rows, and the zero broadcast from a scalar — entry by entry the same
  extended real as the kernel's, whose bias row is the vector reshaped and whose zero is a splat.
-/

/-- The bias vector reshaped to one row, read at an entry of the row: the vector's entry in that column. -/
theorem bias_row6 (b : S64.Idx → EReal) (hcast : S64.ShapeCasts S1x64) (k : S1x64.Idx) (k' : S64.Idx)
    (hk0 : (k 0).val = 0) (hk : (k' 0).val = (k 1).val) : shapeCast S1x64 b hcast k = b k' := by
  refine shapeCast_apply b hcast k k' ?_
  rw [Shape.rowMajor_val_one, Shape.rowMajor_val_two]
  show (k' 0).val = (k 0).val * 64 + (k 1).val
  omega

theorem fin_ref6 (h sl : S8000x64.Idx → EReal) (b : S64.Idx → EReal) (hcast : S64.ShapeCasts S1x64)
    (hb1 : Cert.ReferenceIdeal.S64.BroadcastsInDim Cert.ReferenceIdeal.S1x64 ![1])
    (hb2 : Cert.ReferenceIdeal.S1x64.BroadcastsInDim Cert.ReferenceIdeal.S8000x64 ![0, 1])
    (hz : Cert.ReferenceIdeal.S_.BroadcastsInDim Cert.ReferenceIdeal.S8000x64 ![]) :
    finG6 h sl (shapeCast S1x64 b hcast)
      = maximumf (F := Ideal) (addf (addf h sl) (broadcastInDim Cert.ReferenceIdeal.S8000x64 ![0, 1] hb2 (broadcastInDim Cert.ReferenceIdeal.S1x64 ![1] hb1 b)))
          (broadcastInDim Cert.ReferenceIdeal.S8000x64 ![] hz (constant Cert.ReferenceIdeal.S_ .f32 0x00000000#32)) := by
  funext i
  have hi1 : (i 1).val < 64 := (i 1).isLt
  let k : S1x64.Idx := ValueIdx.ix2 (0 : Fin 1) (⟨(i 1).val, hi1⟩ : Fin 64)
  let k' : S64.Idx := ValueIdx.ix1 (⟨(i 1).val, hi1⟩ : Fin 64)
  unfold finG6
  rw [bcast_arr6 _ brd6 i k rfl rfl, bias_row6 b hcast k k' rfl rfl]
  show _ = max ((h i + sl i) + broadcastInDim Cert.ReferenceIdeal.S8000x64 ![0, 1] hb2 (broadcastInDim Cert.ReferenceIdeal.S1x64 ![1] hb1 b) i)
      (broadcastInDim Cert.ReferenceIdeal.S8000x64 ![] hz (constant (F := Ideal) Cert.ReferenceIdeal.S_ .f32 0x00000000#32) i)
  rw [broadcastInDim_apply ![0, 1] hb2 _ i k (fun a => by
        match a with
        | ⟨0, h⟩ => show (k ⟨0, h⟩).val = if (1 : ℕ) = 1 then (0 : ℕ) else _; rw [if_pos rfl]; rfl
        | ⟨1, h⟩ => show (k ⟨1, h⟩).val = if (64 : ℕ) = 1 then (0 : ℕ) else _; rw [if_neg (by decide)]; rfl),
    broadcastInDim_apply ![1] hb1 b k k' (fun a => by
        match a with
        | ⟨0, h⟩ => show (k' ⟨0, h⟩).val = if (64 : ℕ) = 1 then (0 : ℕ) else _; rw [if_neg (by decide)]; rfl)]
  refine congrArg (max _) ?_
  show constant (F := Ideal) Cert.ReferenceIdeal.S_ .f32 0x00000000#32 ValueIdx.ix0 = _
  exact (broadcastInDim_apply ![] hz (constant (F := Ideal) Cert.ReferenceIdeal.S_ .f32 0x00000000#32) i ValueIdx.ix0 (fun a => a.elim0)).symm

end Cert.KernelIdeal.Val

end
-- ==== Proof.KI.FinBridge7.lean ====
import proofs.«134990_j73504070304033_2_alg».proof.Proof.KI.ValFin7
import proofs.«134990_j73504070304033_2_alg».proof.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-
  The finalize step on 200000 rows in the reference's spelling: relu of (aggregate + self-loop + bias) with the bias
  vector broadcast to a row and then down the rows, and the zero broadcast from a scalar — entry by entry the same
  extended real as the kernel's, whose bias row is the vector reshaped and whose zero is a splat.
-/

/-- The bias vector reshaped to one row, read at an entry of the row: the vector's entry in that column. -/
theorem bias_row7 (b : S64.Idx → EReal) (hcast : S64.ShapeCasts S1x64) (k : S1x64.Idx) (k' : S64.Idx)
    (hk0 : (k 0).val = 0) (hk : (k' 0).val = (k 1).val) : shapeCast S1x64 b hcast k = b k' := by
  refine shapeCast_apply b hcast k k' ?_
  rw [Shape.rowMajor_val_one, Shape.rowMajor_val_two]
  show (k' 0).val = (k 0).val * 64 + (k 1).val
  omega

theorem fin_ref7 (h sl : S200000x64.Idx → EReal) (b : S64.Idx → EReal) (hcast : S64.ShapeCasts S1x64)
    (hb1 : Cert.ReferenceIdeal.S64.BroadcastsInDim Cert.ReferenceIdeal.S1x64 ![1])
    (hb2 : Cert.ReferenceIdeal.S1x64.BroadcastsInDim Cert.ReferenceIdeal.S200000x64 ![0, 1])
    (hz : Cert.ReferenceIdeal.S_.BroadcastsInDim Cert.ReferenceIdeal.S200000x64 ![]) :
    finG7 h sl (shapeCast S1x64 b hcast)
      = maximumf (F := Ideal) (addf (addf h sl) (broadcastInDim Cert.ReferenceIdeal.S200000x64 ![0, 1] hb2 (broadcastInDim Cert.ReferenceIdeal.S1x64 ![1] hb1 b)))
          (broadcastInDim Cert.ReferenceIdeal.S200000x64 ![] hz (constant Cert.ReferenceIdeal.S_ .f32 0x00000000#32)) := by
  funext i
  have hi1 : (i 1).val < 64 := (i 1).isLt
  let k : S1x64.Idx := ValueIdx.ix2 (0 : Fin 1) (⟨(i 1).val, hi1⟩ : Fin 64)
  let k' : S64.Idx := ValueIdx.ix1 (⟨(i 1).val, hi1⟩ : Fin 64)
  unfold finG7
  rw [bcast_arr7 _ brd7 i k rfl rfl, bias_row7 b hcast k k' rfl rfl]
  show _ = max ((h i + sl i) + broadcastInDim Cert.ReferenceIdeal.S200000x64 ![0, 1] hb2 (broadcastInDim Cert.ReferenceIdeal.S1x64 ![1] hb1 b) i)
      (broadcastInDim Cert.ReferenceIdeal.S200000x64 ![] hz (constant (F := Ideal) Cert.ReferenceIdeal.S_ .f32 0x00000000#32) i)
  rw [broadcastInDim_apply ![0, 1] hb2 _ i k (fun a => by
        match a with
        | ⟨0, h⟩ => show (k ⟨0, h⟩).val = if (1 : ℕ) = 1 then (0 : ℕ) else _; rw [if_pos rfl]; rfl
        | ⟨1, h⟩ => show (k ⟨1, h⟩).val = if (64 : ℕ) = 1 then (0 : ℕ) else _; rw [if_neg (by decide)]; rfl),
    broadcastInDim_apply ![1] hb1 b k k' (fun a => by
        match a with
        | ⟨0, h⟩ => show (k' ⟨0, h⟩).val = if (64 : ℕ) = 1 then (0 : ℕ) else _; rw [if_neg (by decide)]; rfl)]
  refine congrArg (max _) ?_
  show constant (F := Ideal) Cert.ReferenceIdeal.S_ .f32 0x00000000#32 ValueIdx.ix0 = _
  exact (broadcastInDim_apply ![] hz (constant (F := Ideal) Cert.ReferenceIdeal.S_ .f32 0x00000000#32) i ValueIdx.ix0 (fun a => a.elim0)).symm

end Cert.KernelIdeal.Val

end
-- ==== Proof.Bridge.lean ====
/-
  The two programs' results are one function of the arguments. On the kernel's side each 64-column piece of a fused
  product is rewritten as the separate product the reference computes (a column of weights set side by side is a column
  of one of them), and the finalize step's relu of (aggregate + self-loop + bias) is rewritten in the reference's
  spelling; what is left on both sides is the same aggregation functions applied to the same arguments.
-/
import proofs.«134990_j73504070304033_2_alg».proof.Proof.KI.KerOut
import proofs.«134990_j73504070304033_2_alg».proof.Proof.KI.LeafA
import proofs.«134990_j73504070304033_2_alg».proof.Proof.KI.LeafP
import proofs.«134990_j73504070304033_2_alg».proof.Proof.KI.LeafF
import proofs.«134990_j73504070304033_2_alg».proof.Proof.KI.LeafI
import proofs.«134990_j73504070304033_2_alg».proof.Proof.KI.FinBridge4
import proofs.«134990_j73504070304033_2_alg».proof.Proof.KI.FinBridge5
import proofs.«134990_j73504070304033_2_alg».proof.Proof.KI.FinBridge6
import proofs.«134990_j73504070304033_2_alg».proof.Proof.KI.FinBridge7
import proofs.«134990_j73504070304033_2_alg».proof.Proof.Chain

set_option maxRecDepth 16384

noncomputable section

namespace Cert.Proof.Bridge

open Idealize.ShloMosaic Idealize.ShloMosaic.TcCoe Idealize.SL.Sem
open Cert.KernelIdeal.Val

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The two memories agree on the arguments, on core `c`. -/
def Agree (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

set_option maxHeartbeats 4000000 in
/-- Result 0: the kernel's array is the reference's term. -/
theorem bridge0 (c : Dev Cert.KernelIdeal.nD) (hag : Agree m m' c) :
    Cert.KernelIdeal.Fr.W16 m ρ c (Proc.devRef .tc Cert.KernelIdeal.main_v170) = Cert.ReferenceIdeal.Chain.refOut0 m' c := by
  rw [Cert.KernelIdeal.Fr.ker_out4 m ρ c]
  rw [leafP0, leafI0, leafA128]
  rw [fin_ref4 _ _ _ _ Cert.ReferenceIdeal.Gen.bcast_S64_S1x64_1 Cert.ReferenceIdeal.Gen.bcast_S1x64_S100000x64_0_1 Cert.ReferenceIdeal.Gen.bcast_S_S100000x64]
  unfold Cert.ReferenceIdeal.Chain.refOut0
  rw [hag.2.2.2.1, hag.2.2.1, hag.1, hag.2.2.2.2.1, hag.2.2.2.2.2.1, hag.2.2.2.2.2.2.1, hag.2.2.2.2.2.2.2.2.2.2.1, hag.2.2.2.2.2.2.2.2.2.1, hag.2.2.2.2.2.2.2.2.2.2.2.2.2.2.2.2.2.2.2.2, hag.2.2.2.2.2.2.2.2.2.2.2.2.2.2.2.2.2.2.2.1]

set_option maxHeartbeats 4000000 in
/-- Result 1: the kernel's array is the reference's term. -/
theorem bridge1 (c : Dev Cert.KernelIdeal.nD) (hag : Agree m m' c) :
    Cert.KernelIdeal.Fr.W16 m ρ c (Proc.devRef .tc Cert.KernelIdeal.main_v172) = Cert.ReferenceIdeal.Chain.refOut1 m' c := by
  rw [Cert.KernelIdeal.Fr.ker_out5 m ρ c]
  rw [leafP128, leafF64]
  rw [fin_ref5 _ _ _ _ Cert.ReferenceIdeal.Gen.bcast_S64_S1x64_1 Cert.ReferenceIdeal.Gen.bcast_S1x64_S50000x64_0_1 Cert.ReferenceIdeal.Gen.bcast_S_S50000x64]
  unfold Cert.ReferenceIdeal.Chain.refOut1
  rw [hag.2.2.2.1, hag.2.1, hag.2.2.2.2.1, hag.2.2.2.2.2.1, hag.2.2.2.2.2.2.1, hag.2.2.2.2.2.2.2.2.2.2.2.2.2.2.1, hag.2.2.2.2.2.2.2.2.2.2.2.2.2.1]

set_option maxHeartbeats 4000000 in
/-- Result 2: the kernel's array is the reference's term. -/
theorem bridge2 (c : Dev Cert.KernelIdeal.nD) (hag : Agree m m' c) :
    Cert.KernelIdeal.Fr.W16 m ρ c (Proc.devRef .tc Cert.KernelIdeal.main_v174) = Cert.ReferenceIdeal.Chain.refOut2 m' c := by
  rw [Cert.KernelIdeal.Fr.ker_out6 m ρ c]
  rw [leafA64, leafI64]
  rw [fin_ref6 _ _ _ _ Cert.ReferenceIdeal.Gen.bcast_S64_S1x64_1 Cert.ReferenceIdeal.Gen.bcast_S1x64_S8000x64_0_1 Cert.ReferenceIdeal.Gen.bcast_S_S8000x64]
  unfold Cert.ReferenceIdeal.Chain.refOut2
  rw [hag.1, hag.2.2.1, hag.2.2.2.2.1, hag.2.2.2.2.2.1, hag.2.2.2.2.2.2.1, hag.2.2.2.2.2.2.2.2.2.2.2.2.2.2.2.2.2.2.1, hag.2.2.2.2.2.2.2.2.2.2.2.2.2.2.2.2.2.1]

set_option maxHeartbeats 4000000 in
/-- Result 3: the kernel's array is the reference's term. -/
theorem bridge3 (c : Dev Cert.KernelIdeal.nD) (hag : Agree m m' c) :
    Cert.KernelIdeal.Fr.W16 m ρ c (Proc.devRef .tc Cert.KernelIdeal.main_v176) = Cert.ReferenceIdeal.Chain.refOut3 m' c := by
  rw [Cert.KernelIdeal.Fr.ker_out7 m ρ c]
  rw [leafA0, leafP64, leafF0, leafP192]
  rw [fin_ref7 _ _ _ _ Cert.ReferenceIdeal.Gen.bcast_S64_S1x64_1 Cert.ReferenceIdeal.Gen.bcast_S1x64_S200000x64_0_1 Cert.ReferenceIdeal.Gen.bcast_S_S200000x64]
  unfold Cert.ReferenceIdeal.Chain.refOut3
  rw [hag.1, hag.2.2.2.1, hag.2.1, hag.2.2.2.2.1, hag.2.2.2.2.2.1, hag.2.2.2.2.2.2.1, hag.2.2.2.2.2.2.2.2.1, hag.2.2.2.2.2.2.2.1, hag.2.2.2.2.2.2.2.2.2.2.2.2.1, hag.2.2.2.2.2.2.2.2.2.2.2.1, hag.2.2.2.2.2.2.2.2.2.2.2.2.2.2.2.2.1, hag.2.2.2.2.2.2.2.2.2.2.2.2.2.2.2.1]

end Cert.Proof.Bridge

end
-- ==== Proof.lean ====
/-
  The certificate of the relational graph convolution layer.

  The kernel program is eight kernel regions among stretches of host operations: four fused projections (each node
  type's features times its relations' weight matrices and the self-loop weights set side by side), the relations'
  aggregations on the host (gather along the edges, sum into the destinations, divide by the clamped in-degree), and four
  finalize regions (relu of aggregate + self-loop piece + bias). The reference computes a separate product per weight
  matrix and the same aggregations and the same finalize on the host.

  Frames: each kernel program runs segment by segment — a host stretch rewrites the buffers it writes, a region leaves
  its windows' arrays at what its grid's write-backs make of them — and no segment writes an argument
  (Proof/KB for the program as printed, Proof/KI for the idealized one); the reference's frame is its run.
  Preservation: the idealization rewrote nothing.
  Equality at the exact instance: a 64-column piece of a fused product is the product with the one weight matrix whose
  columns it holds, term by term the same sum, so no finiteness is needed; the aggregations and the finalize step are the
  same functions on both sides (Proof/Bridge).
-/
import proofs.«134990_j73504070304033_2_alg».proof.Defs
import proofs.«134990_j73504070304033_2_alg».proof.Proof.Gen.Kernel
import proofs.«134990_j73504070304033_2_alg».proof.Proof.Gen.KernelIdeal
import proofs.«134990_j73504070304033_2_alg».proof.Proof.Gen.ReferenceIdeal
import proofs.«134990_j73504070304033_2_alg».proof.Proof.Gen.Pre_finite_inputs
import proofs.«134990_j73504070304033_2_alg».proof.Proof.Gen.ReferenceIdeal.Run
import proofs.«134990_j73504070304033_2_alg».proof.Proof.KB.Run
import proofs.«134990_j73504070304033_2_alg».proof.Proof.KI.Run
import proofs.«134990_j73504070304033_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Fr.frame m ρ

theorem frame_kernel_ideal : Cert.frame_KernelIdeal := fun m ρ _ => Cert.KernelIdeal.Fr.frame m ρ

/-- The reference's frame is its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

set_option maxHeartbeats 4000000 in
/-- Run from memories that agree on the arguments, the two idealized programs end with equal results: the kernel's four
    arrays are the reference's four terms of the arguments. -/
theorem algebraic : Cert.algebraic_KernelIdeal_ReferenceIdeal := by
  intro m ρ m' ρ' _ hagree
  refine ⟨fun c => Cert.KernelIdeal.Fr.W16 m ρ c (Proc.devRef .tc Cert.KernelIdeal.main_v170),
    fun c => Cert.KernelIdeal.Fr.W16 m ρ c (Proc.devRef .tc Cert.KernelIdeal.main_v172),
    fun c => Cert.KernelIdeal.Fr.W16 m ρ c (Proc.devRef .tc Cert.KernelIdeal.main_v174),
    fun c => Cert.KernelIdeal.Fr.W16 m ρ c (Proc.devRef .tc Cert.KernelIdeal.main_v176), ?_, ?_⟩
  · exact (θ_run Cert.KernelIdeal.defs _ _).mono (fun r h c =>
      ⟨h c _ (Cert.KernelIdeal.Fr.mem_uc Cert.KernelIdeal.main_v170 (by decide)),
       h c _ (Cert.KernelIdeal.Fr.mem_uc Cert.KernelIdeal.main_v172 (by decide)),
       h c _ (Cert.KernelIdeal.Fr.mem_uc Cert.KernelIdeal.main_v174 (by decide)),
       h c _ (Cert.KernelIdeal.Fr.mem_uc Cert.KernelIdeal.main_v176 (by decide)),
       (h c _ (Cert.KernelIdeal.Fr.mem_uc Cert.KernelIdeal.main_arg0 (by decide))).trans (Cert.KernelIdeal.Fr.W16_main_arg0 m ρ c),
       (h c _ (Cert.KernelIdeal.Fr.mem_uc Cert.KernelIdeal.main_arg1 (by decide))).trans (Cert.KernelIdeal.Fr.W16_main_arg1 m ρ c),
       (h c _ (Cert.KernelIdeal.Fr.mem_uc Cert.KernelIdeal.main_arg2 (by decide))).trans (Cert.KernelIdeal.Fr.W16_main_arg2 m ρ c),
       (h c _ (Cert.KernelIdeal.Fr.mem_uc Cert.KernelIdeal.main_arg3 (by decide))).trans (Cert.KernelIdeal.Fr.W16_main_arg3 m ρ c),
       (h c _ (Cert.KernelIdeal.Fr.mem_uc Cert.KernelIdeal.main_arg4 (by decide))).trans (Cert.KernelIdeal.Fr.W16_main_arg4 m ρ c),
       (h c _ (Cert.KernelIdeal.Fr.mem_uc Cert.KernelIdeal.main_arg5 (by decide))).trans (Cert.KernelIdeal.Fr.W16_main_arg5 m ρ c),
       (h c _ (Cert.KernelIdeal.Fr.mem_uc Cert.KernelIdeal.main_arg6 (by decide))).trans (Cert.KernelIdeal.Fr.W16_main_arg6 m ρ c),
       (h c _ (Cert.KernelIdeal.Fr.mem_uc Cert.KernelIdeal.main_arg7 (by decide))).trans (Cert.KernelIdeal.Fr.W16_main_arg7 m ρ c),
       (h c _ (Cert.KernelIdeal.Fr.mem_uc Cert.KernelIdeal.main_arg8 (by decide))).trans (Cert.KernelIdeal.Fr.W16_main_arg8 m ρ c),
       (h c _ (Cert.KernelIdeal.Fr.mem_uc Cert.KernelIdeal.main_arg9 (by decide))).trans (Cert.KernelIdeal.Fr.W16_main_arg9 m ρ c),
       (h c _ (Cert.KernelIdeal.Fr.mem_uc Cert.KernelIdeal.main_arg10 (by decide))).trans (Cert.KernelIdeal.Fr.W16_main_arg10 m ρ c),
       (h c _ (Cert.KernelIdeal.Fr.mem_uc Cert.KernelIdeal.main_arg11 (by decide))).trans (Cert.KernelIdeal.Fr.W16_main_arg11 m ρ c),
       (h c _ (Cert.KernelIdeal.Fr.mem_uc Cert.KernelIdeal.main_arg12 (by decide))).trans (Cert.KernelIdeal.Fr.W16_main_arg12 m ρ c),
       (h c _ (Cert.KernelIdeal.Fr.mem_uc Cert.KernelIdeal.main_arg13 (by decide))).trans (Cert.KernelIdeal.Fr.W16_main_arg13 m ρ c),
       (h c _ (Cert.KernelIdeal.Fr.mem_uc Cert.KernelIdeal.main_arg14 (by decide))).trans (Cert.KernelIdeal.Fr.W16_main_arg14 m ρ c),
       (h c _ (Cert.KernelIdeal.Fr.mem_uc Cert.KernelIdeal.main_arg15 (by decide))).trans (Cert.KernelIdeal.Fr.W16_main_arg15 m ρ c),
       (h c _ (Cert.KernelIdeal.Fr.mem_uc Cert.KernelIdeal.main_arg16 (by decide))).trans (Cert.KernelIdeal.Fr.W16_main_arg16 m ρ c),
       (h c _ (Cert.KernelIdeal.Fr.mem_uc Cert.KernelIdeal.main_arg17 (by decide))).trans (Cert.KernelIdeal.Fr.W16_main_arg17 m ρ c),
       (h c _ (Cert.KernelIdeal.Fr.mem_uc Cert.KernelIdeal.main_arg18 (by decide))).trans (Cert.KernelIdeal.Fr.W16_main_arg18 m ρ c),
       (h c _ (Cert.KernelIdeal.Fr.mem_uc Cert.KernelIdeal.main_arg19 (by decide))).trans (Cert.KernelIdeal.Fr.W16_main_arg19 m ρ c),
       (h c _ (Cert.KernelIdeal.Fr.mem_uc Cert.KernelIdeal.main_arg20 (by decide))).trans (Cert.KernelIdeal.Fr.W16_main_arg20 m ρ c)⟩)
      (Cert.KernelIdeal.Fr.run m ρ)
  · exact (θ_run Cert.ReferenceIdeal.defs _ _).mono (fun _ h c =>
      ⟨(h c).1.trans (Cert.Proof.Bridge.bridge0 m ρ m' c (hagree c)).symm,
       (h c).2.1.trans (Cert.Proof.Bridge.bridge1 m ρ m' c (hagree c)).symm,
       (h c).2.2.1.trans (Cert.Proof.Bridge.bridge2 m ρ m' c (hagree c)).symm,
       (h c).2.2.2.1.trans ((Cert.ReferenceIdeal.Chain.res_out3_eq m' c).trans (Cert.Proof.Bridge.bridge3 m ρ m' c (hagree c)).symm),
       (h c).2.2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
